-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S512x2 : Shape := ⟨2, ![512, 2]⟩
abbrev S8x5632x2048 : Shape := ⟨3, ![8, 5632, 2048]⟩
abbrev S8x44x16 : Shape := ⟨3, ![8, 44, 16]⟩
abbrev S8x2048x2816 : Shape := ⟨3, ![8, 2048, 2816]⟩
abbrev S8x16x22 : Shape := ⟨3, ![8, 16, 22]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_
  bcast_S_S8x5632x2048 : S_.BroadcastsInDim S8x5632x2048 (![] : Fin 0 → Fin S8x5632x2048.rank)
  reducesTo_S8x5632x2048_S_d0_1_2 : S8x5632x2048.ReducesTo [0, 1, 2] S_
  bcast_S_S8x44x16 : S_.BroadcastsInDim S8x44x16 (![] : Fin 0 → Fin S8x44x16.rank)
  reducesTo_S8x44x16_S_d0_1_2 : S8x44x16.ReducesTo [0, 1, 2] S_
  bcast_S_S8x2048x2816 : S_.BroadcastsInDim S8x2048x2816 (![] : Fin 0 → Fin S8x2048x2816.rank)
  reducesTo_S8x2048x2816_S_d0_1_2 : S8x2048x2816.ReducesTo [0, 1, 2] S_
  bcast_S_S8x16x22 : S_.BroadcastsInDim S8x16x22 (![] : Fin 0 → Fin S8x16x22.rank)
  reducesTo_S8x16x22_S_d0_1_2 : S8x16x22.ReducesTo [0, 1, 2] S_

variable [Facts]

def fn_part1 {F : FTy → Type} [FloatOps F] (main_arg5 : FVec F S8x2048x2816 .f32) (main_arg6 : FVec F S8x16x22 .f32) (main_v13 : IVec S_ 1) (main_v16 : IVec S8x44x16 1) : IVec S_ 1 :=
  let main_c_5 : IVec S_ 1 := constantI S_ 1 1#1
  let main_v17 : IVec S_ 1 := (fun x v => Host.reduce IntOp.andi x v reducesTo_S8x44x16_S_d0_1_2 h_S_) main_v16 main_c_5
  let main_v18 : IVec S_ 1 := andi main_v13 main_v17
  let main_v19 : FVec F S8x2048x2816 .f32 := Host.absf main_arg5
  let main_cst_6 : FVec F S_ .f32 := constant S_ .f32 0x7F800000#32
  let main_v20 : FVec F S8x2048x2816 .f32 := broadcastInDim S8x2048x2816 ![] bcast_S_S8x2048x2816 main_cst_6
  let main_v21 : IVec S8x2048x2816 1 := cmpf .olt main_v19 main_v20
  let main_c_7 : IVec S_ 1 := constantI S_ 1 1#1
  let main_v22 : IVec S_ 1 := (fun x v => Host.reduce IntOp.andi x v reducesTo_S8x2048x2816_S_d0_1_2 h_S_) main_v21 main_c_7
  let main_v23 : IVec S_ 1 := andi main_v18 main_v22
  let main_v24 : FVec F S8x16x22 .f32 := Host.absf main_arg6
  let main_cst_8 : FVec F S_ .f32 := constant S_ .f32 0x7F800000#32
  let main_v25 : FVec F S8x16x22 .f32 := broadcastInDim S8x16x22 ![] bcast_S_S8x16x22 main_cst_8
  let main_v26 : IVec S8x16x22 1 := cmpf .olt main_v24 main_v25
  let main_c_9 : IVec S_ 1 := constantI S_ 1 1#1
  let main_v27 : IVec S_ 1 := (fun x v => Host.reduce IntOp.andi x v reducesTo_S8x16x22_S_d0_1_2 h_S_) main_v26 main_c_9
  let main_v28 : IVec S_ 1 := andi main_v23 main_v27
  main_v28

def fn {F : FTy → Type} [FloatOps F] (main_arg0 : FVec F S512x2048 .f32) (main_arg1 : IVec S512x2 32) (main_arg2 : FVec F S512x2 .f32) (main_arg3 : FVec F S8x5632x2048 .f32) (main_arg4 : FVec F S8x44x16 .f32) (main_arg5 : FVec F S8x2048x2816 .f32) (main_arg6 : FVec F S8x16x22 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S512x2 .f32 := Host.absf main_arg2
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  let main_v9 : FVec F S8x5632x2048 .f32 := Host.absf main_arg3
  let main_cst_2 : FVec F S_ .f32 := constant S_ .f32 0x7F800000#32
  let main_v10 : FVec F S8x5632x2048 .f32 := broadcastInDim S8x5632x2048 ![] bcast_S_S8x5632x2048 main_cst_2
  let main_v11 : IVec S8x5632x2048 1 := cmpf .olt main_v9 main_v10
  let main_c_3 : IVec S_ 1 := constantI S_ 1 1#1
  let main_v12 : IVec S_ 1 := (fun x v => Host.reduce IntOp.andi x v reducesTo_S8x5632x2048_S_d0_1_2 h_S_) main_v11 main_c_3
  let main_v13 : IVec S_ 1 := andi main_v8 main_v12
  let main_v14 : FVec F S8x44x16 .f32 := Host.absf main_arg4
  let main_cst_4 : FVec F S_ .f32 := constant S_ .f32 0x7F800000#32
  let main_v15 : FVec F S8x44x16 .f32 := broadcastInDim S8x44x16 ![] bcast_S_S8x44x16 main_cst_4
  let main_v16 : IVec S8x44x16 1 := cmpf .olt main_v14 main_v15
  fn_part1 (F := F) main_arg5 main_arg6 main_v13 main_v16
-- ==== Kernel.lean ====
abbrev S512x2048 : Shape := ⟨2, ![512, 2048]⟩
abbrev S512x2 : Shape := ⟨2, ![512, 2]⟩
abbrev S8x5632x2048 : Shape := ⟨3, ![8, 5632, 2048]⟩
abbrev S8x44x16 : Shape := ⟨3, ![8, 44, 16]⟩
abbrev S8x2048x2816 : Shape := ⟨3, ![8, 2048, 2816]⟩
abbrev S8x16x22 : Shape := ⟨3, ![8, 16, 22]⟩
abbrev S8 : Shape := ⟨1, ![8]⟩
abbrev S512x2x1 : Shape := ⟨3, ![512, 2, 1]⟩
abbrev S1x1x8 : Shape := ⟨3, ![1, 1, 8]⟩
abbrev S512x2x8 : Shape := ⟨3, ![512, 2, 8]⟩
abbrev S_ : Shape := ⟨0, ![]⟩
abbrev S512x8 : Shape := ⟨2, ![512, 8]⟩
abbrev S8x512 : Shape := ⟨2, ![8, 512]⟩
abbrev S8x512x1 : Shape := ⟨3, ![8, 512, 1]⟩
abbrev S8x22x16 : Shape := ⟨3, ![8, 22, 16]⟩
abbrev S8x11x2x16 : Shape := ⟨4, ![8, 11, 2, 16]⟩
abbrev S8x16x11x2 : Shape := ⟨4, ![8, 16, 11, 2]⟩
abbrev S8x11x16x2 : Shape := ⟨4, ![8, 11, 16, 2]⟩
abbrev S2x512x2048 : Shape := ⟨3, ![2, 512, 2048]⟩
abbrev S1x256x2048 : Shape := ⟨3, ![1, 256, 2048]⟩
abbrev S1x1x2x16 : Shape := ⟨4, ![1, 1, 2, 16]⟩
abbrev S1x2048x256 : Shape := ⟨3, ![1, 2048, 256]⟩
abbrev S1x1x16x2 : Shape := ⟨4, ![1, 1, 16, 2]⟩
abbrev S1x512x1 : Shape := ⟨3, ![1, 512, 1]⟩
abbrev S1x512x2048 : Shape := ⟨3, ![1, 512, 2048]⟩
abbrev S256x2048 : Shape := ⟨2, ![256, 2048]⟩
abbrev S2x128x16x128 : Shape := ⟨4, ![2, 128, 16, 128]⟩
abbrev S2x16 : Shape := ⟨2, ![2, 16]⟩
abbrev S2x1x16x1 : Shape := ⟨4, ![2, 1, 16, 1]⟩
abbrev S2048x256 : Shape := ⟨2, ![2048, 256]⟩
abbrev S16x128x2x128 : Shape := ⟨4, ![16, 128, 2, 128]⟩
abbrev S16x2 : Shape := ⟨2, ![16, 2]⟩
abbrev S16x1x2x1 : Shape := ⟨4, ![16, 1, 2, 1]⟩
abbrev S512x256 : Shape := ⟨2, ![512, 256]⟩
abbrev S512x1 : Shape := ⟨2, ![512, 1]⟩

abbrev nBuf : Space → Nat
  | .hbm => 33
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2, .i32⟩
  | .hbm, ⟨2, _⟩ => ⟨S512x2, .f32⟩
  | .hbm, ⟨3, _⟩ => ⟨S8x5632x2048, .f32⟩
  | .hbm, ⟨4, _⟩ => ⟨S8x44x16, .f32⟩
  | .hbm, ⟨5, _⟩ => ⟨S8x2048x2816, .f32⟩
  | .hbm, ⟨6, _⟩ => ⟨S8x16x22, .f32⟩
  | .hbm, ⟨7, _⟩ => ⟨S8, .i32⟩
  | .hbm, ⟨8, _⟩ => ⟨S512x2x1, .i32⟩
  | .hbm, ⟨9, _⟩ => ⟨S1x1x8, .i32⟩
  | .hbm, ⟨10, _⟩ => ⟨S512x2x8, .i32⟩
  | .hbm, ⟨11, _⟩ => ⟨S512x2x8, .i32⟩
  | .hbm, ⟨12, _⟩ => ⟨S512x2x8, .i1⟩
  | .hbm, ⟨13, _⟩ => ⟨S512x2x1, .f32⟩
  | .hbm, ⟨14, _⟩ => ⟨S_, .f32⟩
  | .hbm, ⟨15, _⟩ => ⟨S_, .f32⟩
  | .hbm, ⟨16, _⟩ => ⟨S512x2x8, .f32⟩
  | .hbm, ⟨17, _⟩ => ⟨S512x2x8, .f32⟩
  | .hbm, ⟨18, _⟩ => ⟨S512x2x8, .f32⟩
  | .hbm, ⟨19, _⟩ => ⟨S_, .f32⟩
  | .hbm, ⟨20, _⟩ => ⟨S512x8, .f32⟩
  | .hbm, ⟨21, _⟩ => ⟨S8x512, .f32⟩
  | .hbm, ⟨22, _⟩ => ⟨S8x512x1, .f32⟩
  | .hbm, ⟨23, _⟩ => ⟨S8x22x16, .f32⟩
  | .hbm, ⟨24, _⟩ => ⟨S8x11x2x16, .f32⟩
  | .hbm, ⟨25, _⟩ => ⟨S8x22x16, .f32⟩
  | .hbm, ⟨26, _⟩ => ⟨S8x11x2x16, .f32⟩
  | .hbm, ⟨27, _⟩ => ⟨S8x16x11x2, .f32⟩
  | .hbm, ⟨28, _⟩ => ⟨S8x11x16x2, .f32⟩
  | .hbm, ⟨29, _⟩ => ⟨S512x2048, .bf16⟩
  | .hbm, ⟨30, _⟩ => ⟨S2x512x2048, .f32⟩
  | .hbm, ⟨31, _⟩ => ⟨S_, .f32⟩
  | .hbm, ⟨32, _⟩ => ⟨S512x2048, .f32⟩
  | .local _ .vmem, ⟨0, _⟩ => ⟨S512x2048, .bf16⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x1x2x16, .f32⟩
  | .local _ .vmem, ⟨6, _⟩ => ⟨S1x1x2x16, .f32⟩
  | .local _ .vmem, ⟨7, _⟩ => ⟨S1x1x2x16, .f32⟩
  | .local _ .vmem, ⟨8, _⟩ => ⟨S1x1x2x16, .f32⟩
  | .local _ .vmem, ⟨9, _⟩ => ⟨S1x2048x256, .f32⟩
  | .local _ .vmem, ⟨10, _⟩ => ⟨S1x2048x256, .f32⟩
  | .local _ .vmem, ⟨11, _⟩ => ⟨S1x1x16x2, .f32⟩
  | .local _ .vmem, ⟨12, _⟩ => ⟨S1x1x16x2, .f32⟩
  | .local _ .vmem, ⟨13, _⟩ => ⟨S1x512x1, .f32⟩
  | .local _ .vmem, ⟨14, _⟩ => ⟨S1x512x1, .f32⟩
  | .local _ .vmem, ⟨15, _⟩ => ⟨S1x512x2048, .f32⟩
  | .local _ .vmem, ⟨16, _⟩ => ⟨S1x512x2048, .f32⟩
  | .local _ .vmem, ⟨17, _⟩ => ⟨S512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 4, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c11_i32 : BitVec 32 := 11#32
  let v2 : BitVec 32 := Scalar.addi c11_i32 arg2
  let c0_i32 : BitVec 32 := 0#32
  let c0_i32_0 : BitVec 32 := 0#32
  ![v1.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, arg2.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x16x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

class Facts₀ : Prop where
  bcast_S512x2_S512x2x1_0_1 : S512x2.BroadcastsInDim S512x2x1 (![0, 1] : Fin 2 → Fin S512x2x1.rank)
  bcast_S8_S1x1x8_2 : S8.BroadcastsInDim S1x1x8 (![2] : Fin 1 → Fin S1x1x8.rank)
  bcast_S512x2x1_S512x2x8_0_1_2 : S512x2x1.BroadcastsInDim S512x2x8 (![0, 1, 2] : Fin 3 → Fin S512x2x8.rank)
  bcast_S1x1x8_S512x2x8_0_1_2 : S1x1x8.BroadcastsInDim S512x2x8 (![0, 1, 2] : Fin 3 → Fin S512x2x8.rank)
  bcast_S_S512x2x8 : S_.BroadcastsInDim S512x2x8 (![] : Fin 0 → Fin S512x2x8.rank)
  reducesTo_S512x2x8_S512x8_d1 : S512x2x8.ReducesTo [1] S512x8
  h_S_ : 0 < S_.numel
  transposes_S512x8_S8x512_1_0 : S512x8.Transposes [1, 0] S8x512
  bcast_S8x512_S8x512x1_0_1 : S8x512.BroadcastsInDim S8x512x1 (![0, 1] : Fin 2 → Fin S8x512x1.rank)
  slices_S8x44x16_S8x22x16_0_0_0 : S8x44x16.Slices ![0, 0, 0] S8x22x16
  shapeCasts_S8x22x16_S8x11x2x16 : S8x22x16.ShapeCasts S8x11x2x16
  slices_S8x44x16_S8x22x16_0_22_0 : S8x44x16.Slices ![0, 22, 0] S8x22x16
  shapeCasts_S8x16x22_S8x16x11x2 : S8x16x22.ShapeCasts S8x16x11x2
  transposes_S8x16x11x2_S8x11x16x2_0_2_1_3 : S8x16x11x2.Transposes [0, 2, 1, 3] S8x11x16x2
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S2x128x16x128 : S256x2048.ShapeCasts S2x128x16x128
  inb_S1x1x2x16_S1x1x2x16_0_0_0_0 : ∀ a, (![0, 0, 0, 0] : Fin 4 → Nat) a + S1x1x2x16.size a ≤ S1x1x2x16.size a
  h_S1x1x2x16 : 0 < S1x1x2x16.numel
  shapeCasts_S1x1x2x16_S2x16 : S1x1x2x16.ShapeCasts S2x16
  shapeCasts_S2x16_S2x1x16x1 : S2x16.ShapeCasts S2x1x16x1
  broadcasts_S2x1x16x1_S2x128x16x128 : S2x1x16x1.Broadcasts S2x128x16x128
  shapeCasts_S2x128x16x128_S256x2048 : S2x128x16x128.ShapeCasts S256x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S16x128x2x128 : S2048x256.ShapeCasts S16x128x2x128
  inb_S1x1x16x2_S1x1x16x2_0_0_0_0 : ∀ a, (![0, 0, 0, 0] : Fin 4 → Nat) a + S1x1x16x2.size a ≤ S1x1x16x2.size a
  h_S1x1x16x2 : 0 < S1x1x16x2.numel
  shapeCasts_S1x1x16x2_S16x2 : S1x1x16x2.ShapeCasts S16x2
  shapeCasts_S16x2_S16x1x2x1 : S16x2.ShapeCasts S16x1x2x1
  broadcasts_S16x1x2x1_S16x128x2x128 : S16x1x2x1.Broadcasts S16x128x2x128
  shapeCasts_S16x128x2x128_S2048x256 : S16x128x2x128.ShapeCasts S2048x256
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  reducesTo_S2x512x2048_S512x2048_d0 : S2x512x2048.ReducesTo [0] S512x2048
  dot_S512x2048_S256x2048_S512x256_1_1_0_0_n_n_wf : DotDims.WF S512x2048 S256x2048 S512x256 [1] [1] [0] [0] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .bf16 = 32 ∨ (Rect.block (s := S512x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x5632x2048.size a
  hwx0_1 : ∀ i : grid0.Coords, EltTy.bits .f32 = 32 ∨ (Rect.block (s := S8x5632x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x5632x2048.size a
  hwx0_2 : ∀ i : grid0.Coords, EltTy.bits .f32 = 32 ∨ (Rect.block (s := S8x5632x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2x16.size a ≤ S8x11x2x16.size a
  hwx0_3 : ∀ i : grid0.Coords, EltTy.bits .f32 = 32 ∨ (Rect.block (s := S8x11x2x16) S1x1x2x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2x16.size a ≤ S8x11x2x16.size a
  hwx0_4 : ∀ i : grid0.Coords, EltTy.bits .f32 = 32 ∨ (Rect.block (s := S8x11x2x16) S1x1x2x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x256.size a ≤ S8x2048x2816.size a
  hwx0_5 : ∀ i : grid0.Coords, EltTy.bits .f32 = 32 ∨ (Rect.block (s := S8x2048x2816) S1x2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x16x2.size a ≤ S8x11x16x2.size a
  hwx0_6 : ∀ i : grid0.Coords, EltTy.bits .f32 = 32 ∨ (Rect.block (s := S8x11x16x2) S1x1x16x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1.size a ≤ S8x512x1.size a
  hwx0_7 : ∀ i : grid0.Coords, EltTy.bits .f32 = 32 ∨ (Rect.block (s := S8x512x1) S1x512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x2048.size a ≤ S2x512x2048.size a
  hwx0_8 : ∀ i : grid0.Coords, EltTy.bits .f32 = 32 ∨ (Rect.block (s := S2x512x2048) S1x512x2048.size (cc0_transform_8 i) (hinb0_8 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v17) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1x2x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1x2x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x1x16x2.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x512x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x512x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x2048 : Shape := ⟨2, ![512, 2048]⟩
abbrev S512x2 : Shape := ⟨2, ![512, 2]⟩
abbrev S8x5632x2048 : Shape := ⟨3, ![8, 5632, 2048]⟩
abbrev S8x44x16 : Shape := ⟨3, ![8, 44, 16]⟩
abbrev S8x2048x2816 : Shape := ⟨3, ![8, 2048, 2816]⟩
abbrev S8x16x22 : Shape := ⟨3, ![8, 16, 22]⟩
abbrev S_ : Shape := ⟨0, ![]⟩
abbrev S1x5632x2048 : Shape := ⟨3, ![1, 5632, 2048]⟩
abbrev S5632x2048 : Shape := ⟨2, ![5632, 2048]⟩
abbrev S1x44x16 : Shape := ⟨3, ![1, 44, 16]⟩
abbrev S44x16 : Shape := ⟨2, ![44, 16]⟩
abbrev S44x128x16 : Shape := ⟨3, ![44, 128, 16]⟩
abbrev S5632x16 : Shape := ⟨2, ![5632, 16]⟩
abbrev S5632x16x128 : Shape := ⟨3, ![5632, 16, 128]⟩
abbrev S1x2048x2816 : Shape := ⟨3, ![1, 2048, 2816]⟩
abbrev S2048x2816 : Shape := ⟨2, ![2048, 2816]⟩
abbrev S1x16x22 : Shape := ⟨3, ![1, 16, 22]⟩
abbrev S16x22 : Shape := ⟨2, ![16, 22]⟩
abbrev S16x128x22 : Shape := ⟨3, ![16, 128, 22]⟩
abbrev S2048x22 : Shape := ⟨2, ![2048, 22]⟩
abbrev S2048x22x128 : Shape := ⟨3, ![2048, 22, 128]⟩
abbrev S2048x5632 : Shape := ⟨2, ![2048, 5632]⟩
abbrev S512x5632 : Shape := ⟨2, ![512, 5632]⟩
abbrev S512x2816 : Shape := ⟨2, ![512, 2816]⟩
abbrev S2816x2048 : Shape := ⟨2, ![2816, 2048]⟩
abbrev S512 : Shape := ⟨1, ![512]⟩
abbrev S512x1 : Shape := ⟨2, ![512, 1]⟩

abbrev nBuf : Space → Nat
  | .hbm => 385
  | .vmem => 0
  | .smem => 0
  | _ => 0

abbrev hbmTy0_0 (i : Nat) : BufTy := match i % 128 with
  | 0 => ⟨S512x2048, .f32⟩
  | 1 => ⟨S512x2, .i32⟩
  | 2 => ⟨S512x2, .f32⟩
  | 3 => ⟨S8x5632x2048, .f32⟩
  | 4 => ⟨S8x44x16, .f32⟩
  | 5 => ⟨S8x2048x2816, .f32⟩
  | 6 => ⟨S8x16x22, .f32⟩
  | 7 => ⟨S_, .f32⟩
  | 8 => ⟨S512x2048, .f32⟩
  | 9 => ⟨S1x5632x2048, .f32⟩
  | 10 => ⟨S5632x2048, .f32⟩
  | 11 => ⟨S1x44x16, .f32⟩
  | 12 => ⟨S44x16, .f32⟩
  | 13 => ⟨S44x128x16, .f32⟩
  | 14 => ⟨S5632x16, .f32⟩
  | 15 => ⟨S5632x16x128, .f32⟩
  | 16 => ⟨S5632x2048, .f32⟩
  | 17 => ⟨S5632x2048, .f32⟩
  | 18 => ⟨S1x2048x2816, .f32⟩
  | 19 => ⟨S2048x2816, .f32⟩
  | 20 => ⟨S1x16x22, .f32⟩
  | 21 => ⟨S16x22, .f32⟩
  | 22 => ⟨S16x128x22, .f32⟩
  | 23 => ⟨S2048x22, .f32⟩
  | 24 => ⟨S2048x22x128, .f32⟩
  | 25 => ⟨S2048x2816, .f32⟩
  | 26 => ⟨S2048x2816, .f32⟩
  | 27 => ⟨S2048x5632, .f32⟩
  | 28 => ⟨S512x5632, .f32⟩
  | 29 => ⟨S512x2816, .f32⟩
  | 30 => ⟨S512x2816, .f32⟩
  | 31 => ⟨S512x2816, .f32⟩
  | 32 => ⟨S512x2816, .f32⟩
  | 33 => ⟨S_, .f32⟩
  | 34 => ⟨S512x2816, .f32⟩
  | 35 => ⟨S512x2816, .f32⟩
  | 36 => ⟨S_, .f32⟩
  | 37 => ⟨S512x2816, .f32⟩
  | 38 => ⟨S512x2816, .f32⟩
  | 39 => ⟨S512x2816, .f32⟩
  | 40 => ⟨S512x2816, .f32⟩
  | 41 => ⟨S2816x2048, .f32⟩
  | 42 => ⟨S512x2048, .f32⟩
  | 43 => ⟨S_, .i32⟩
  | 44 => ⟨S512x2, .i32⟩
  | 45 => ⟨S512x2, .i1⟩
  | 46 => ⟨S_, .f32⟩
  | 47 => ⟨S_, .f32⟩
  | 48 => ⟨S512x2, .f32⟩
  | 49 => ⟨S512x2, .f32⟩
  | 50 => ⟨S_, .f32⟩
  | 51 => ⟨S512, .f32⟩
  | 52 => ⟨S512x1, .f32⟩
  | 53 => ⟨S512x2048, .f32⟩
  | 54 => ⟨S512x2048, .f32⟩
  | 55 => ⟨S512x2048, .f32⟩
  | 56 => ⟨S1x5632x2048, .f32⟩
  | 57 => ⟨S5632x2048, .f32⟩
  | 58 => ⟨S1x44x16, .f32⟩
  | 59 => ⟨S44x16, .f32⟩
  | 60 => ⟨S44x128x16, .f32⟩
  | 61 => ⟨S5632x16, .f32⟩
  | 62 => ⟨S5632x16x128, .f32⟩
  | 63 => ⟨S5632x2048, .f32⟩
  | 64 => ⟨S5632x2048, .f32⟩
  | 65 => ⟨S1x2048x2816, .f32⟩
  | 66 => ⟨S2048x2816, .f32⟩
  | 67 => ⟨S1x16x22, .f32⟩
  | 68 => ⟨S16x22, .f32⟩
  | 69 => ⟨S16x128x22, .f32⟩
  | 70 => ⟨S2048x22, .f32⟩
  | 71 => ⟨S2048x22x128, .f32⟩
  | 72 => ⟨S2048x2816, .f32⟩
  | 73 => ⟨S2048x2816, .f32⟩
  | 74 => ⟨S2048x5632, .f32⟩
  | 75 => ⟨S512x5632, .f32⟩
  | 76 => ⟨S512x2816, .f32⟩
  | 77 => ⟨S512x2816, .f32⟩
  | 78 => ⟨S512x2816, .f32⟩
  | 79 => ⟨S512x2816, .f32⟩
  | 80 => ⟨S_, .f32⟩
  | 81 => ⟨S512x2816, .f32⟩
  | 82 => ⟨S512x2816, .f32⟩
  | 83 => ⟨S_, .f32⟩
  | 84 => ⟨S512x2816, .f32⟩
  | 85 => ⟨S512x2816, .f32⟩
  | 86 => ⟨S512x2816, .f32⟩
  | 87 => ⟨S512x2816, .f32⟩
  | 88 => ⟨S2816x2048, .f32⟩
  | 89 => ⟨S512x2048, .f32⟩
  | 90 => ⟨S_, .i32⟩
  | 91 => ⟨S512x2, .i32⟩
  | 92 => ⟨S512x2, .i1⟩
  | 93 => ⟨S_, .f32⟩
  | 94 => ⟨S_, .f32⟩
  | 95 => ⟨S512x2, .f32⟩
  | 96 => ⟨S512x2, .f32⟩
  | 97 => ⟨S_, .f32⟩
  | 98 => ⟨S512, .f32⟩
  | 99 => ⟨S512x1, .f32⟩
  | 100 => ⟨S512x2048, .f32⟩
  | 101 => ⟨S512x2048, .f32⟩
  | 102 => ⟨S512x2048, .f32⟩
  | 103 => ⟨S1x5632x2048, .f32⟩
  | 104 => ⟨S5632x2048, .f32⟩
  | 105 => ⟨S1x44x16, .f32⟩
  | 106 => ⟨S44x16, .f32⟩
  | 107 => ⟨S44x128x16, .f32⟩
  | 108 => ⟨S5632x16, .f32⟩
  | 109 => ⟨S5632x16x128, .f32⟩
  | 110 => ⟨S5632x2048, .f32⟩
  | 111 => ⟨S5632x2048, .f32⟩
  | 112 => ⟨S1x2048x2816, .f32⟩
  | 113 => ⟨S2048x2816, .f32⟩
  | 114 => ⟨S1x16x22, .f32⟩
  | 115 => ⟨S16x22, .f32⟩
  | 116 => ⟨S16x128x22, .f32⟩
  | 117 => ⟨S2048x22, .f32⟩
  | 118 => ⟨S2048x22x128, .f32⟩
  | 119 => ⟨S2048x2816, .f32⟩
  | 120 => ⟨S2048x2816, .f32⟩
  | 121 => ⟨S2048x5632, .f32⟩
  | 122 => ⟨S512x5632, .f32⟩
  | 123 => ⟨S512x2816, .f32⟩
  | 124 => ⟨S512x2816, .f32⟩
  | 125 => ⟨S512x2816, .f32⟩
  | 126 => ⟨S512x2816, .f32⟩
  | 127 => ⟨S_, .f32⟩
  | _ => ⟨S512x2048, .f32⟩

abbrev hbmTy0_1 (i : Nat) : BufTy := match i % 128 with
  | 0 => ⟨S512x2816, .f32⟩
  | 1 => ⟨S512x2816, .f32⟩
  | 2 => ⟨S_, .f32⟩
  | 3 => ⟨S512x2816, .f32⟩
  | 4 => ⟨S512x2816, .f32⟩
  | 5 => ⟨S512x2816, .f32⟩
  | 6 => ⟨S512x2816, .f32⟩
  | 7 => ⟨S2816x2048, .f32⟩
  | 8 => ⟨S512x2048, .f32⟩
  | 9 => ⟨S_, .i32⟩
  | 10 => ⟨S512x2, .i32⟩
  | 11 => ⟨S512x2, .i1⟩
  | 12 => ⟨S_, .f32⟩
  | 13 => ⟨S_, .f32⟩
  | 14 => ⟨S512x2, .f32⟩
  | 15 => ⟨S512x2, .f32⟩
  | 16 => ⟨S_, .f32⟩
  | 17 => ⟨S512, .f32⟩
  | 18 => ⟨S512x1, .f32⟩
  | 19 => ⟨S512x2048, .f32⟩
  | 20 => ⟨S512x2048, .f32⟩
  | 21 => ⟨S512x2048, .f32⟩
  | 22 => ⟨S1x5632x2048, .f32⟩
  | 23 => ⟨S5632x2048, .f32⟩
  | 24 => ⟨S1x44x16, .f32⟩
  | 25 => ⟨S44x16, .f32⟩
  | 26 => ⟨S44x128x16, .f32⟩
  | 27 => ⟨S5632x16, .f32⟩
  | 28 => ⟨S5632x16x128, .f32⟩
  | 29 => ⟨S5632x2048, .f32⟩
  | 30 => ⟨S5632x2048, .f32⟩
  | 31 => ⟨S1x2048x2816, .f32⟩
  | 32 => ⟨S2048x2816, .f32⟩
  | 33 => ⟨S1x16x22, .f32⟩
  | 34 => ⟨S16x22, .f32⟩
  | 35 => ⟨S16x128x22, .f32⟩
  | 36 => ⟨S2048x22, .f32⟩
  | 37 => ⟨S2048x22x128, .f32⟩
  | 38 => ⟨S2048x2816, .f32⟩
  | 39 => ⟨S2048x2816, .f32⟩
  | 40 => ⟨S2048x5632, .f32⟩
  | 41 => ⟨S512x5632, .f32⟩
  | 42 => ⟨S512x2816, .f32⟩
  | 43 => ⟨S512x2816, .f32⟩
  | 44 => ⟨S512x2816, .f32⟩
  | 45 => ⟨S512x2816, .f32⟩
  | 46 => ⟨S_, .f32⟩
  | 47 => ⟨S512x2816, .f32⟩
  | 48 => ⟨S512x2816, .f32⟩
  | 49 => ⟨S_, .f32⟩
  | 50 => ⟨S512x2816, .f32⟩
  | 51 => ⟨S512x2816, .f32⟩
  | 52 => ⟨S512x2816, .f32⟩
  | 53 => ⟨S512x2816, .f32⟩
  | 54 => ⟨S2816x2048, .f32⟩
  | 55 => ⟨S512x2048, .f32⟩
  | 56 => ⟨S_, .i32⟩
  | 57 => ⟨S512x2, .i32⟩
  | 58 => ⟨S512x2, .i1⟩
  | 59 => ⟨S_, .f32⟩
  | 60 => ⟨S_, .f32⟩
  | 61 => ⟨S512x2, .f32⟩
  | 62 => ⟨S512x2, .f32⟩
  | 63 => ⟨S_, .f32⟩
  | 64 => ⟨S512, .f32⟩
  | 65 => ⟨S512x1, .f32⟩
  | 66 => ⟨S512x2048, .f32⟩
  | 67 => ⟨S512x2048, .f32⟩
  | 68 => ⟨S512x2048, .f32⟩
  | 69 => ⟨S1x5632x2048, .f32⟩
  | 70 => ⟨S5632x2048, .f32⟩
  | 71 => ⟨S1x44x16, .f32⟩
  | 72 => ⟨S44x16, .f32⟩
  | 73 => ⟨S44x128x16, .f32⟩
  | 74 => ⟨S5632x16, .f32⟩
  | 75 => ⟨S5632x16x128, .f32⟩
  | 76 => ⟨S5632x2048, .f32⟩
  | 77 => ⟨S5632x2048, .f32⟩
  | 78 => ⟨S1x2048x2816, .f32⟩
  | 79 => ⟨S2048x2816, .f32⟩
  | 80 => ⟨S1x16x22, .f32⟩
  | 81 => ⟨S16x22, .f32⟩
  | 82 => ⟨S16x128x22, .f32⟩
  | 83 => ⟨S2048x22, .f32⟩
  | 84 => ⟨S2048x22x128, .f32⟩
  | 85 => ⟨S2048x2816, .f32⟩
  | 86 => ⟨S2048x2816, .f32⟩
  | 87 => ⟨S2048x5632, .f32⟩
  | 88 => ⟨S512x5632, .f32⟩
  | 89 => ⟨S512x2816, .f32⟩
  | 90 => ⟨S512x2816, .f32⟩
  | 91 => ⟨S512x2816, .f32⟩
  | 92 => ⟨S512x2816, .f32⟩
  | 93 => ⟨S_, .f32⟩
  | 94 => ⟨S512x2816, .f32⟩
  | 95 => ⟨S512x2816, .f32⟩
  | 96 => ⟨S_, .f32⟩
  | 97 => ⟨S512x2816, .f32⟩
  | 98 => ⟨S512x2816, .f32⟩
  | 99 => ⟨S512x2816, .f32⟩
  | 100 => ⟨S512x2816, .f32⟩
  | 101 => ⟨S2816x2048, .f32⟩
  | 102 => ⟨S512x2048, .f32⟩
  | 103 => ⟨S_, .i32⟩
  | 104 => ⟨S512x2, .i32⟩
  | 105 => ⟨S512x2, .i1⟩
  | 106 => ⟨S_, .f32⟩
  | 107 => ⟨S_, .f32⟩
  | 108 => ⟨S512x2, .f32⟩
  | 109 => ⟨S512x2, .f32⟩
  | 110 => ⟨S_, .f32⟩
  | 111 => ⟨S512, .f32⟩
  | 112 => ⟨S512x1, .f32⟩
  | 113 => ⟨S512x2048, .f32⟩
  | 114 => ⟨S512x2048, .f32⟩
  | 115 => ⟨S512x2048, .f32⟩
  | 116 => ⟨S1x5632x2048, .f32⟩
  | 117 => ⟨S5632x2048, .f32⟩
  | 118 => ⟨S1x44x16, .f32⟩
  | 119 => ⟨S44x16, .f32⟩
  | 120 => ⟨S44x128x16, .f32⟩
  | 121 => ⟨S5632x16, .f32⟩
  | 122 => ⟨S5632x16x128, .f32⟩
  | 123 => ⟨S5632x2048, .f32⟩
  | 124 => ⟨S5632x2048, .f32⟩
  | 125 => ⟨S1x2048x2816, .f32⟩
  | 126 => ⟨S2048x2816, .f32⟩
  | 127 => ⟨S1x16x22, .f32⟩
  | _ => ⟨S512x2048, .f32⟩

abbrev hbmTy0_2 (i : Nat) : BufTy := match i % 128 with
  | 0 => ⟨S16x22, .f32⟩
  | 1 => ⟨S16x128x22, .f32⟩
  | 2 => ⟨S2048x22, .f32⟩
  | 3 => ⟨S2048x22x128, .f32⟩
  | 4 => ⟨S2048x2816, .f32⟩
  | 5 => ⟨S2048x2816, .f32⟩
  | 6 => ⟨S2048x5632, .f32⟩
  | 7 => ⟨S512x5632, .f32⟩
  | 8 => ⟨S512x2816, .f32⟩
  | 9 => ⟨S512x2816, .f32⟩
  | 10 => ⟨S512x2816, .f32⟩
  | 11 => ⟨S512x2816, .f32⟩
  | 12 => ⟨S_, .f32⟩
  | 13 => ⟨S512x2816, .f32⟩
  | 14 => ⟨S512x2816, .f32⟩
  | 15 => ⟨S_, .f32⟩
  | 16 => ⟨S512x2816, .f32⟩
  | 17 => ⟨S512x2816, .f32⟩
  | 18 => ⟨S512x2816, .f32⟩
  | 19 => ⟨S512x2816, .f32⟩
  | 20 => ⟨S2816x2048, .f32⟩
  | 21 => ⟨S512x2048, .f32⟩
  | 22 => ⟨S_, .i32⟩
  | 23 => ⟨S512x2, .i32⟩
  | 24 => ⟨S512x2, .i1⟩
  | 25 => ⟨S_, .f32⟩
  | 26 => ⟨S_, .f32⟩
  | 27 => ⟨S512x2, .f32⟩
  | 28 => ⟨S512x2, .f32⟩
  | 29 => ⟨S_, .f32⟩
  | 30 => ⟨S512, .f32⟩
  | 31 => ⟨S512x1, .f32⟩
  | 32 => ⟨S512x2048, .f32⟩
  | 33 => ⟨S512x2048, .f32⟩
  | 34 => ⟨S512x2048, .f32⟩
  | 35 => ⟨S1x5632x2048, .f32⟩
  | 36 => ⟨S5632x2048, .f32⟩
  | 37 => ⟨S1x44x16, .f32⟩
  | 38 => ⟨S44x16, .f32⟩
  | 39 => ⟨S44x128x16, .f32⟩
  | 40 => ⟨S5632x16, .f32⟩
  | 41 => ⟨S5632x16x128, .f32⟩
  | 42 => ⟨S5632x2048, .f32⟩
  | 43 => ⟨S5632x2048, .f32⟩
  | 44 => ⟨S1x2048x2816, .f32⟩
  | 45 => ⟨S2048x2816, .f32⟩
  | 46 => ⟨S1x16x22, .f32⟩
  | 47 => ⟨S16x22, .f32⟩
  | 48 => ⟨S16x128x22, .f32⟩
  | 49 => ⟨S2048x22, .f32⟩
  | 50 => ⟨S2048x22x128, .f32⟩
  | 51 => ⟨S2048x2816, .f32⟩
  | 52 => ⟨S2048x2816, .f32⟩
  | 53 => ⟨S2048x5632, .f32⟩
  | 54 => ⟨S512x5632, .f32⟩
  | 55 => ⟨S512x2816, .f32⟩
  | 56 => ⟨S512x2816, .f32⟩
  | 57 => ⟨S512x2816, .f32⟩
  | 58 => ⟨S512x2816, .f32⟩
  | 59 => ⟨S_, .f32⟩
  | 60 => ⟨S512x2816, .f32⟩
  | 61 => ⟨S512x2816, .f32⟩
  | 62 => ⟨S_, .f32⟩
  | 63 => ⟨S512x2816, .f32⟩
  | 64 => ⟨S512x2816, .f32⟩
  | 65 => ⟨S512x2816, .f32⟩
  | 66 => ⟨S512x2816, .f32⟩
  | 67 => ⟨S2816x2048, .f32⟩
  | 68 => ⟨S512x2048, .f32⟩
  | 69 => ⟨S_, .i32⟩
  | 70 => ⟨S512x2, .i32⟩
  | 71 => ⟨S512x2, .i1⟩
  | 72 => ⟨S_, .f32⟩
  | 73 => ⟨S_, .f32⟩
  | 74 => ⟨S512x2, .f32⟩
  | 75 => ⟨S512x2, .f32⟩
  | 76 => ⟨S_, .f32⟩
  | 77 => ⟨S512, .f32⟩
  | 78 => ⟨S512x1, .f32⟩
  | 79 => ⟨S512x2048, .f32⟩
  | 80 => ⟨S512x2048, .f32⟩
  | 81 => ⟨S512x2048, .f32⟩
  | 82 => ⟨S1x5632x2048, .f32⟩
  | 83 => ⟨S5632x2048, .f32⟩
  | 84 => ⟨S1x44x16, .f32⟩
  | 85 => ⟨S44x16, .f32⟩
  | 86 => ⟨S44x128x16, .f32⟩
  | 87 => ⟨S5632x16, .f32⟩
  | 88 => ⟨S5632x16x128, .f32⟩
  | 89 => ⟨S5632x2048, .f32⟩
  | 90 => ⟨S5632x2048, .f32⟩
  | 91 => ⟨S1x2048x2816, .f32⟩
  | 92 => ⟨S2048x2816, .f32⟩
  | 93 => ⟨S1x16x22, .f32⟩
  | 94 => ⟨S16x22, .f32⟩
  | 95 => ⟨S16x128x22, .f32⟩
  | 96 => ⟨S2048x22, .f32⟩
  | 97 => ⟨S2048x22x128, .f32⟩
  | 98 => ⟨S2048x2816, .f32⟩
  | 99 => ⟨S2048x2816, .f32⟩
  | 100 => ⟨S2048x5632, .f32⟩
  | 101 => ⟨S512x5632, .f32⟩
  | 102 => ⟨S512x2816, .f32⟩
  | 103 => ⟨S512x2816, .f32⟩
  | 104 => ⟨S512x2816, .f32⟩
  | 105 => ⟨S512x2816, .f32⟩
  | 106 => ⟨S_, .f32⟩
  | 107 => ⟨S512x2816, .f32⟩
  | 108 => ⟨S512x2816, .f32⟩
  | 109 => ⟨S_, .f32⟩
  | 110 => ⟨S512x2816, .f32⟩
  | 111 => ⟨S512x2816, .f32⟩
  | 112 => ⟨S512x2816, .f32⟩
  | 113 => ⟨S512x2816, .f32⟩
  | 114 => ⟨S2816x2048, .f32⟩
  | 115 => ⟨S512x2048, .f32⟩
  | 116 => ⟨S_, .i32⟩
  | 117 => ⟨S512x2, .i32⟩
  | 118 => ⟨S512x2, .i1⟩
  | 119 => ⟨S_, .f32⟩
  | 120 => ⟨S_, .f32⟩
  | 121 => ⟨S512x2, .f32⟩
  | 122 => ⟨S512x2, .f32⟩
  | 123 => ⟨S_, .f32⟩
  | 124 => ⟨S512, .f32⟩
  | 125 => ⟨S512x1, .f32⟩
  | 126 => ⟨S512x2048, .f32⟩
  | 127 => ⟨S512x2048, .f32⟩
  | _ => ⟨S512x2048, .f32⟩

abbrev hbmTy0_3 (i : Nat) : BufTy := match i % 128 with
  | 0 => ⟨S512x2048, .f32⟩
  | _ => ⟨S512x2048, .f32⟩

abbrev hbmTy (i : Nat) : BufTy := match i / 128 with
  | 0 => hbmTy0_0 i
  | 1 => hbmTy0_1 i
  | 2 => hbmTy0_2 i
  | 3 => hbmTy0_3 i
  | _ => ⟨S512x2048, .f32⟩

abbrev bufTy : (tb : Table) → Fin (tcTables nBuf tb) → BufTy
  | .hbm, ⟨i, _⟩ => hbmTy i
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_v29 : Ref sig .tc := ⟨.hbm, 49, rfl⟩
abbrev main_cst_1 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_call2_v5 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_2 : Ref sig .tc := ⟨.hbm, 90, rfl⟩
abbrev main_v61 : Ref sig .tc := ⟨.hbm, 91, rfl⟩
abbrev main_v62 : Ref sig .tc := ⟨.hbm, 92, rfl⟩
abbrev main_cst_3 : Ref sig .tc := ⟨.hbm, 93, rfl⟩
abbrev main_call3_v0 : Ref sig .tc := ⟨.hbm, 94, rfl⟩
abbrev main_call3_v1 : Ref sig .tc := ⟨.hbm, 95, rfl⟩
abbrev main_v63 : Ref sig .tc := ⟨.hbm, 96, rfl⟩
abbrev main_cst_4 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call4_v0 : Ref sig .tc := ⟨.hbm, 125, rfl⟩
abbrev main_call4_v1 : Ref sig .tc := ⟨.hbm, 126, rfl⟩
abbrev main_call4_cst : Ref sig .tc := ⟨.hbm, 127, rfl⟩
abbrev main_call4_v2 : Ref sig .tc := ⟨.hbm, 128, rfl⟩
abbrev main_call4_v3 : Ref sig .tc := ⟨.hbm, 129, rfl⟩
abbrev main_call4_cst_0 : Ref sig .tc := ⟨.hbm, 130, rfl⟩
abbrev main_call4_v4 : Ref sig .tc := ⟨.hbm, 131, rfl⟩
abbrev main_call4_v5 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_5 : Ref sig .tc := ⟨.hbm, 137, rfl⟩
abbrev main_v95 : Ref sig .tc := ⟨.hbm, 138, rfl⟩
abbrev main_v96 : Ref sig .tc := ⟨.hbm, 139, rfl⟩
abbrev main_cst_6 : Ref sig .tc := ⟨.hbm, 140, rfl⟩
abbrev main_call5_v0 : Ref sig .tc := ⟨.hbm, 141, rfl⟩
abbrev main_call5_v1 : Ref sig .tc := ⟨.hbm, 142, rfl⟩
abbrev main_v97 : Ref sig .tc := ⟨.hbm, 143, rfl⟩
abbrev main_cst_7 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_call6_v0 : Ref sig .tc := ⟨.hbm, 172, rfl⟩
abbrev main_call6_v1 : Ref sig .tc := ⟨.hbm, 173, rfl⟩
abbrev main_call6_cst : Ref sig .tc := ⟨.hbm, 174, rfl⟩
abbrev main_call6_v2 : Ref sig .tc := ⟨.hbm, 175, rfl⟩
abbrev main_call6_v3 : Ref sig .tc := ⟨.hbm, 176, rfl⟩
abbrev main_call6_cst_0 : Ref sig .tc := ⟨.hbm, 177, rfl⟩
abbrev main_call6_v4 : Ref sig .tc := ⟨.hbm, 178, rfl⟩
abbrev main_call6_v5 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_c_8 : Ref sig .tc := ⟨.hbm, 184, rfl⟩
abbrev main_v129 : Ref sig .tc := ⟨.hbm, 185, rfl⟩
abbrev main_v130 : Ref sig .tc := ⟨.hbm, 186, rfl⟩
abbrev main_cst_9 : Ref sig .tc := ⟨.hbm, 187, rfl⟩
abbrev main_call7_v0 : Ref sig .tc := ⟨.hbm, 188, rfl⟩
abbrev main_call7_v1 : Ref sig .tc := ⟨.hbm, 189, rfl⟩
abbrev main_v131 : Ref sig .tc := ⟨.hbm, 190, rfl⟩
abbrev main_cst_10 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_call8_v0 : Ref sig .tc := ⟨.hbm, 219, rfl⟩
abbrev main_call8_v1 : Ref sig .tc := ⟨.hbm, 220, rfl⟩
abbrev main_call8_cst : Ref sig .tc := ⟨.hbm, 221, rfl⟩
abbrev main_call8_v2 : Ref sig .tc := ⟨.hbm, 222, rfl⟩
abbrev main_call8_v3 : Ref sig .tc := ⟨.hbm, 223, rfl⟩
abbrev main_call8_cst_0 : Ref sig .tc := ⟨.hbm, 224, rfl⟩
abbrev main_call8_v4 : Ref sig .tc := ⟨.hbm, 225, rfl⟩
abbrev main_call8_v5 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_c_11 : Ref sig .tc := ⟨.hbm, 231, rfl⟩
abbrev main_v163 : Ref sig .tc := ⟨.hbm, 232, rfl⟩
abbrev main_v164 : Ref sig .tc := ⟨.hbm, 233, rfl⟩
abbrev main_cst_12 : Ref sig .tc := ⟨.hbm, 234, rfl⟩
abbrev main_call9_v0 : Ref sig .tc := ⟨.hbm, 235, rfl⟩
abbrev main_call9_v1 : Ref sig .tc := ⟨.hbm, 236, rfl⟩
abbrev main_v165 : Ref sig .tc := ⟨.hbm, 237, rfl⟩
abbrev main_cst_13 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_call10_v0 : Ref sig .tc := ⟨.hbm, 266, rfl⟩
abbrev main_call10_v1 : Ref sig .tc := ⟨.hbm, 267, rfl⟩
abbrev main_call10_cst : Ref sig .tc := ⟨.hbm, 268, rfl⟩
abbrev main_call10_v2 : Ref sig .tc := ⟨.hbm, 269, rfl⟩
abbrev main_call10_v3 : Ref sig .tc := ⟨.hbm, 270, rfl⟩
abbrev main_call10_cst_0 : Ref sig .tc := ⟨.hbm, 271, rfl⟩
abbrev main_call10_v4 : Ref sig .tc := ⟨.hbm, 272, rfl⟩
abbrev main_call10_v5 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_c_14 : Ref sig .tc := ⟨.hbm, 278, rfl⟩
abbrev main_v197 : Ref sig .tc := ⟨.hbm, 279, rfl⟩
abbrev main_v198 : Ref sig .tc := ⟨.hbm, 280, rfl⟩
abbrev main_cst_15 : Ref sig .tc := ⟨.hbm, 281, rfl⟩
abbrev main_call11_v0 : Ref sig .tc := ⟨.hbm, 282, rfl⟩
abbrev main_call11_v1 : Ref sig .tc := ⟨.hbm, 283, rfl⟩
abbrev main_v199 : Ref sig .tc := ⟨.hbm, 284, rfl⟩
abbrev main_cst_16 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_call12_v0 : Ref sig .tc := ⟨.hbm, 313, rfl⟩
abbrev main_call12_v1 : Ref sig .tc := ⟨.hbm, 314, rfl⟩
abbrev main_call12_cst : Ref sig .tc := ⟨.hbm, 315, rfl⟩
abbrev main_call12_v2 : Ref sig .tc := ⟨.hbm, 316, rfl⟩
abbrev main_call12_v3 : Ref sig .tc := ⟨.hbm, 317, rfl⟩
abbrev main_call12_cst_0 : Ref sig .tc := ⟨.hbm, 318, rfl⟩
abbrev main_call12_v4 : Ref sig .tc := ⟨.hbm, 319, rfl⟩
abbrev main_call12_v5 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_c_17 : Ref sig .tc := ⟨.hbm, 325, rfl⟩
abbrev main_v231 : Ref sig .tc := ⟨.hbm, 326, rfl⟩
abbrev main_v232 : Ref sig .tc := ⟨.hbm, 327, rfl⟩
abbrev main_cst_18 : Ref sig .tc := ⟨.hbm, 328, rfl⟩
abbrev main_call13_v0 : Ref sig .tc := ⟨.hbm, 329, rfl⟩
abbrev main_call13_v1 : Ref sig .tc := ⟨.hbm, 330, rfl⟩
abbrev main_v233 : Ref sig .tc := ⟨.hbm, 331, rfl⟩
abbrev main_cst_19 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_v246 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_v250 : Ref sig .tc := ⟨.hbm, 349, rfl⟩
abbrev main_v251 : Ref sig .tc := ⟨.hbm, 350, rfl⟩
abbrev main_v252 : Ref sig .tc := ⟨.hbm, 351, rfl⟩
abbrev main_v253 : Ref sig .tc := ⟨.hbm, 352, rfl⟩
abbrev main_v254 : Ref sig .tc := ⟨.hbm, 353, rfl⟩
abbrev main_v255 : Ref sig .tc := ⟨.hbm, 354, rfl⟩
abbrev main_v256 : Ref sig .tc := ⟨.hbm, 355, rfl⟩
abbrev main_v257 : Ref sig .tc := ⟨.hbm, 356, rfl⟩
abbrev main_v258 : Ref sig .tc := ⟨.hbm, 357, rfl⟩
abbrev main_v259 : Ref sig .tc := ⟨.hbm, 358, rfl⟩
abbrev main_v260 : Ref sig .tc := ⟨.hbm, 359, rfl⟩
abbrev main_call14_v0 : Ref sig .tc := ⟨.hbm, 360, rfl⟩
abbrev main_call14_v1 : Ref sig .tc := ⟨.hbm, 361, rfl⟩
abbrev main_call14_cst : Ref sig .tc := ⟨.hbm, 362, rfl⟩
abbrev main_call14_v2 : Ref sig .tc := ⟨.hbm, 363, rfl⟩
abbrev main_call14_v3 : Ref sig .tc := ⟨.hbm, 364, rfl⟩
abbrev main_call14_cst_0 : Ref sig .tc := ⟨.hbm, 365, rfl⟩
abbrev main_call14_v4 : Ref sig .tc := ⟨.hbm, 366, rfl⟩
abbrev main_call14_v5 : Ref sig .tc := ⟨.hbm, 367, rfl⟩
abbrev main_v261 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_c_20 : Ref sig .tc := ⟨.hbm, 372, rfl⟩
abbrev main_v265 : Ref sig .tc := ⟨.hbm, 373, rfl⟩
abbrev main_v266 : Ref sig .tc := ⟨.hbm, 374, rfl⟩
abbrev main_cst_21 : Ref sig .tc := ⟨.hbm, 375, rfl⟩
abbrev main_call15_v0 : Ref sig .tc := ⟨.hbm, 376, rfl⟩
abbrev main_call15_v1 : Ref sig .tc := ⟨.hbm, 377, rfl⟩
abbrev main_v267 : Ref sig .tc := ⟨.hbm, 378, rfl⟩
abbrev main_cst_22 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_v272 : Ref sig .tc := ⟨.hbm, 384, rfl⟩

abbrev nD : Nat := 1
abbrev τ : Topo := Topo.v7x

variable {F : FTy → Type} [FloatOps F]

class Facts₀ : Prop where
  bcast_S_S512x2048 : S_.BroadcastsInDim S512x2048 (![] : Fin 0 → Fin S512x2048.rank)
  slices_S8x5632x2048_S1x5632x2048_0_0_0 : S8x5632x2048.Slices ![0, 0, 0] S1x5632x2048
  shapeCasts_S1x5632x2048_S5632x2048 : S1x5632x2048.ShapeCasts S5632x2048
  slices_S8x44x16_S1x44x16_0_0_0 : S8x44x16.Slices ![0, 0, 0] S1x44x16
  shapeCasts_S1x44x16_S44x16 : S1x44x16.ShapeCasts S44x16
  bcast_S44x16_S44x128x16_0_2 : S44x16.BroadcastsInDim S44x128x16 (![0, 2] : Fin 2 → Fin S44x128x16.rank)
  shapeCasts_S44x128x16_S5632x16 : S44x128x16.ShapeCasts S5632x16
  bcast_S5632x16_S5632x16x128_0_1 : S5632x16.BroadcastsInDim S5632x16x128 (![0, 1] : Fin 2 → Fin S5632x16x128.rank)
  shapeCasts_S5632x16x128_S5632x2048 : S5632x16x128.ShapeCasts S5632x2048
  slices_S8x2048x2816_S1x2048x2816_0_0_0 : S8x2048x2816.Slices ![0, 0, 0] S1x2048x2816
  shapeCasts_S1x2048x2816_S2048x2816 : S1x2048x2816.ShapeCasts S2048x2816
  slices_S8x16x22_S1x16x22_0_0_0 : S8x16x22.Slices ![0, 0, 0] S1x16x22
  shapeCasts_S1x16x22_S16x22 : S1x16x22.ShapeCasts S16x22
  bcast_S16x22_S16x128x22_0_2 : S16x22.BroadcastsInDim S16x128x22 (![0, 2] : Fin 2 → Fin S16x128x22.rank)
  shapeCasts_S16x128x22_S2048x22 : S16x128x22.ShapeCasts S2048x22
  bcast_S2048x22_S2048x22x128_0_1 : S2048x22.BroadcastsInDim S2048x22x128 (![0, 1] : Fin 2 → Fin S2048x22x128.rank)
  shapeCasts_S2048x22x128_S2048x2816 : S2048x22x128.ShapeCasts S2048x2816
  transposes_S5632x2048_S2048x5632_1_0 : S5632x2048.Transposes [1, 0] S2048x5632
  slices_S512x5632_S512x2816_0_0 : S512x5632.Slices ![0, 0] S512x2816
  slices_S512x5632_S512x2816_0_2816 : S512x5632.Slices ![0, 2816] S512x2816
  bcast_S_S512x2816 : S_.BroadcastsInDim S512x2816 (![] : Fin 0 → Fin S512x2816.rank)
  transposes_S2048x2816_S2816x2048_1_0 : S2048x2816.Transposes [1, 0] S2816x2048
  bcast_S_S512x2 : S_.BroadcastsInDim S512x2 (![] : Fin 0 → Fin S512x2.rank)
  reducesTo_S512x2_S512_d1 : S512x2.ReducesTo [1] S512
  h_S_ : 0 < S_.numel
  bcast_S512_S512x1_0 : S512.BroadcastsInDim S512x1 (![0] : Fin 1 → Fin S512x1.rank)
  bcast_S512x1_S512x2048_0_1 : S512x1.BroadcastsInDim S512x2048 (![0, 1] : Fin 2 → Fin S512x2048.rank)
  slices_S8x5632x2048_S1x5632x2048_1_0_0 : S8x5632x2048.Slices ![1, 0, 0] S1x5632x2048
  slices_S8x44x16_S1x44x16_1_0_0 : S8x44x16.Slices ![1, 0, 0] S1x44x16
  slices_S8x2048x2816_S1x2048x2816_1_0_0 : S8x2048x2816.Slices ![1, 0, 0] S1x2048x2816
  slices_S8x16x22_S1x16x22_1_0_0 : S8x16x22.Slices ![1, 0, 0] S1x16x22
  slices_S8x5632x2048_S1x5632x2048_2_0_0 : S8x5632x2048.Slices ![2, 0, 0] S1x5632x2048
  slices_S8x44x16_S1x44x16_2_0_0 : S8x44x16.Slices ![2, 0, 0] S1x44x16
  slices_S8x2048x2816_S1x2048x2816_2_0_0 : S8x2048x2816.Slices ![2, 0, 0] S1x2048x2816
  slices_S8x16x22_S1x16x22_2_0_0 : S8x16x22.Slices ![2, 0, 0] S1x16x22
  slices_S8x5632x2048_S1x5632x2048_3_0_0 : S8x5632x2048.Slices ![3, 0, 0] S1x5632x2048
  slices_S8x44x16_S1x44x16_3_0_0 : S8x44x16.Slices ![3, 0, 0] S1x44x16
  slices_S8x2048x2816_S1x2048x2816_3_0_0 : S8x2048x2816.Slices ![3, 0, 0] S1x2048x2816
  slices_S8x16x22_S1x16x22_3_0_0 : S8x16x22.Slices ![3, 0, 0] S1x16x22
  slices_S8x5632x2048_S1x5632x2048_4_0_0 : S8x5632x2048.Slices ![4, 0, 0] S1x5632x2048
  slices_S8x44x16_S1x44x16_4_0_0 : S8x44x16.Slices ![4, 0, 0] S1x44x16
  slices_S8x2048x2816_S1x2048x2816_4_0_0 : S8x2048x2816.Slices ![4, 0, 0] S1x2048x2816
  slices_S8x16x22_S1x16x22_4_0_0 : S8x16x22.Slices ![4, 0, 0] S1x16x22
  slices_S8x5632x2048_S1x5632x2048_5_0_0 : S8x5632x2048.Slices ![5, 0, 0] S1x5632x2048
  slices_S8x44x16_S1x44x16_5_0_0 : S8x44x16.Slices ![5, 0, 0] S1x44x16
  slices_S8x2048x2816_S1x2048x2816_5_0_0 : S8x2048x2816.Slices ![5, 0, 0] S1x2048x2816
  slices_S8x16x22_S1x16x22_5_0_0 : S8x16x22.Slices ![5, 0, 0] S1x16x22
  slices_S8x5632x2048_S1x5632x2048_6_0_0 : S8x5632x2048.Slices ![6, 0, 0] S1x5632x2048
  slices_S8x44x16_S1x44x16_6_0_0 : S8x44x16.Slices ![6, 0, 0] S1x44x16
  slices_S8x2048x2816_S1x2048x2816_6_0_0 : S8x2048x2816.Slices ![6, 0, 0] S1x2048x2816
  slices_S8x16x22_S1x16x22_6_0_0 : S8x16x22.Slices ![6, 0, 0] S1x16x22
  slices_S8x5632x2048_S1x5632x2048_7_0_0 : S8x5632x2048.Slices ![7, 0, 0] S1x5632x2048
  slices_S8x44x16_S1x44x16_7_0_0 : S8x44x16.Slices ![7, 0, 0] S1x44x16
  slices_S8x2048x2816_S1x2048x2816_7_0_0 : S8x2048x2816.Slices ![7, 0, 0] S1x2048x2816
  slices_S8x16x22_S1x16x22_7_0_0 : S8x16x22.Slices ![7, 0, 0] S1x16x22
  dot_S512x2048_S2048x5632_S512x5632_1_0_0_1_n_n_wf : DotDims.WF S512x2048 S2048x5632 S512x5632 [1] [0] [0] [1] [] []
  dot_S512x2816_S2816x2048_S512x2048_1_0_0_1_n_n_wf : DotDims.WF S512x2816 S2816x2048 S512x2048 [1] [0] [0] [1] [] []

variable [Facts₀]

def dot_S512x2048_S2048x5632_S512x5632_1_0_0_1_n_n : DotDims S512x2048 S2048x5632 S512x5632 where
  lhsContracting := [1]
  rhsContracting := [0]
  lhsNonContracting := [0]
  rhsNonContracting := [1]
  lhsBatch := []
  rhsBatch := []
  wf := dot_S512x2048_S2048x5632_S512x5632_1_0_0_1_n_n_wf
def dot_S512x2816_S2816x2048_S512x2048_1_0_0_1_n_n : DotDims S512x2816 S2816x2048 S512x2048 where
  lhsContracting := [1]
  rhsContracting := [0]
  lhsNonContracting := [0]
  rhsNonContracting := [1]
  lhsBatch := []
  rhsBatch := []
  wf := dot_S512x2816_S2816x2048_S512x2048_1_0_0_1_n_n_wf

class Facts : Prop extends Facts₀ where

variable [Facts]
-- ==== Proof.KRuns.lean ====
/-
  The program around its one kernel region: what each buffer holds when the region is entered (the host operations
  before it applied to the launch memory), each window's block of its array at a grid point, that an input window's
  staging buffer holds that block at every point whether or not the point fetches it, the condition under which the
  body clears its accumulator (first step of an expert group: t ≡ 0 mod 44), and the staging memrefs by name.
-/
import proofs.«131321_j61254823576011_2_alg».proof.Proof.Gen.Kernel.Launch
import proofs.«131321_j61254823576011_2_alg».proof.Proof.Gen.Kernel.Skeleton
import proofs.«131321_j61254823576011_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the host operations before it, from the launch memory. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is host lines, the region, host lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition under which the body clears its accumulator: both inner grid coordinates are zero. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the first of each group's 44 steps. -/
theorem hcond0_0 : ∀ t : Fin cfg0.N, cond0_0 (grid0.coords t) ↔ t.val % 44 = 0 :=
  (by decide +kernel : ∀ t : Fin grid0.N, cond0_0 (grid0.coords t) ↔ t.val % 44 = 0)

/-- No window is idle at any point. -/
theorem liveAt0 : ∀ (w : Fin 9) (t : Fin cfg0.N), cfg0.idle w (grid0.coords t) = false := by decide +kernel

/-! ## The staging memrefs -/

abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x16x2 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x2048 .f32 := win0_8.stage (cfg0.slots t 8)
abbrev hs0_8 (t : Fin cfg0.N) : (ms0_8 t).IsWhole := hstage0_8 ((cfg0.slots t 8).cast nbuf0_8)
/-- The accumulator: a whole scoped buffer of the kernel's own. -/
abbrev scM0_0 : Memref sig .tc .vmem S512x2048 .f32 := Memref.whole cc0_scratch0
/-- One staging buffer of the output window and the accumulator, as views through which contents are stated. -/
abbrev VO0_8 : View sig .tc .vmem S1x512x2048 .f32 := (Memref.whole cc0_stg8_0 : Memref sig .tc .vmem S1x512x2048 .f32).view
abbrev VS0_0 : View sig .tc .vmem S512x2048 .f32 := scM0_0.view

/-- What the region's invariant holds besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.KRunA.lean ====
/-
  The kernel body run once on any whole staging memrefs, at a step that first clears the accumulator:
  the eight input buffers are read and handed back as they were; the accumulator and the output buffer end with the body's
  stores written, kept as the list of stored pieces.
-/
import proofs.«131321_j61254823576011_2_alg».proof.Proof.KRuns

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : cond0_0 i)
    (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) :
    Σ' (L8 : List (View.Piece (Elt F) S1x512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.Kernel.Frame

end
-- ==== Proof.KRunB.lean ====
/-
  The kernel body run once on any whole staging memrefs, at a step that adds into the accumulator the step before left:
  the eight input buffers are read and handed back as they were; the accumulator and the output buffer end with the body's
  stores written, kept as the list of stored pieces.
-/
import proofs.«131321_j61254823576011_2_alg».proof.Proof.KRunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : ¬cond0_0 i)
    (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (xs0 : Vec F S512x2048 .f32) :
    Σ' (L8 : List (View.Piece (Elt F) S1x512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7; obtain rfl := harg12.eq_unread hfs0
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.Kernel.Frame

end
-- ==== Proof.KFrame.lean ====
/-
  What the accumulator and the output window's staging buffer hold after each grid point (a recursion on the point:
  the first step of each expert group starts from the cleared accumulator, every other step from what the step before
  left), the region's invariant that carries the accumulator between points, the proof data of the one pipeline, and the
  body obligation at every point.
-/
import proofs.«131321_j61254823576011_2_alg».proof.Proof.KRunB
import Idealize.ShloMosaic.Lib.Ring

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one run of the body leaves -/

theorem cover0_A_8 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (y : S1x512x2048.Idx) :
    ∃ pc ∈ (kernelRun0_A c i arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun0_A c i arg3 harg3 arg4 harg4 arg5 harg5 arg6 harg6 arg7 harg7 arg8 harg8 arg9 harg9 arg10 harg10 arg11 harg11 arg12 harg12 hc0 x0 x1 x2 x3 x4 x5 x6 x7).1 S1x512x2048.size (by sl_kernel_rfl) y

/-- The output buffer after a clearing step: its stored pieces read back. -/
def out0_A_8 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) : Vec F S1x512x2048 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 hc0 x0 x1 x2 x3 x4 x5 x6 x7).1)

theorem scover0_A_0 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (y : S512x2048.Idx) :
    ∃ pc ∈ (kernelRun0_A c i arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 x0 x1 x2 x3 x4 x5 x6 x7).2.1 S512x2048.size (by sl_kernel_rfl) y

/-- The accumulator after a clearing step. -/
def sout0_A_0 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) : Vec F S512x2048 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 x0 x1 x2 x3 x4 x5 x6 x7).2.1)

theorem cover0_B_8 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : ¬cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (xs0 : Vec F S512x2048 .f32) (y : S1x512x2048.Idx) :
    ∃ pc ∈ (kernelRun0_B c i arg3 harg3 arg4 harg4 arg5 harg5 arg6 harg6 arg7 harg7 arg8 harg8 arg9 harg9 arg10 harg10 arg11 harg11 arg12 harg12 hc0 x0 x1 x2 x3 x4 x5 x6 x7 xs0).1, y ∈ pc.1.set :=
  View.cover_of_tiledL (kernelRun0_B c i arg3 harg3 arg4 harg4 arg5 harg5 arg6 harg6 arg7 harg7 arg8 harg8 arg9 harg9 arg10 harg10 arg11 harg11 arg12 harg12 hc0 x0 x1 x2 x3 x4 x5 x6 x7 xs0).1 S1x512x2048.size (by sl_kernel_rfl) y

/-- The output buffer after an adding step. -/
def out0_B_8 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : ¬cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (xs0 : Vec F S512x2048 .f32) : Vec F S1x512x2048 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 hc0 x0 x1 x2 x3 x4 x5 x6 x7 xs0).1)

theorem scover0_B_0 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : ¬cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (xs0 : Vec F S512x2048 .f32) (y : S512x2048.Idx) :
    ∃ pc ∈ (kernelRun0_B c i arg3 harg3 arg4 harg4 arg5 harg5 arg6 harg6 arg7 harg7 arg8 harg8 arg9 harg9 arg10 harg10 arg11 harg11 arg12 harg12 hc0 x0 x1 x2 x3 x4 x5 x6 x7 xs0).2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 x0 x1 x2 x3 x4 x5 x6 x7 xs0).2.1 S512x2048.size (by sl_kernel_rfl) y

/-- The accumulator after an adding step. -/
def sout0_B_0 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : ¬cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (xs0 : Vec F S512x2048 .f32) : Vec F S512x2048 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 hc0 x0 x1 x2 x3 x4 x5 x6 x7 xs0).2.1)

/-! ## Point by point -/

/-- After the body at point n: (the output window's staging buffer, the accumulator). -/
def outsAt0 (c : Dev nD) : (n : ℕ) → n < cfg0.N → Vec F S1x512x2048 .f32 × Vec F S512x2048 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 44 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

theorem outsAt0_A (c : Dev nD) (t : Fin cfg0.N) (h0 : t.val % 44 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

theorem outsAt0_B (c : Dev nD) (t : Fin cfg0.N) (h0 : ¬t.val % 44 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position n: before the first point the accumulator at anything; afterwards at what the
    point before left; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at the
    recursion's first component; the two windows on the stacked gate/up weights hold that array at half a share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem leaves_eq (c : Dev nD) (w : Fin 9) (t : Fin cfg0.N) :
    (dats m 0 c).leavesExact w t = owns (c : Thread nD τ) ((cfg0.win w).stage (cfg0.slots t w)) fullShare ((dats m 0 c).after w t) := by
  unfold Dat.leavesExact; rw [liveAt0 w t]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 88 := lt_of_lt_of_eq t.isLt (show cfg0.N = 88 from N_0)
  rw [leaves_eq m c 0 t, leaves_eq m c 1 t, leaves_eq m c 2 t, leaves_eq m c 3 t, leaves_eq m c 4 t, leaves_eq m c 5 t, leaves_eq m c 6 t, leaves_eq m c 7 t, leaves_eq m c 8 t,
    after0_0, after0_1, after0_2, after0_3, after0_4, after0_5, after0_6, after0_7, after0_8]
  by_cases h0 : t.val % 44 = 0
  · rw [outsAt0_A m c t h0]
    unfold out0_A_8 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
  · rw [outsAt0_B m c t h0]
    unfold out0_B_8 sout0_B_0; (try dsimp only)
    have hz : t.val ≠ 0 := fun e => h0 (by rw [e])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    iintro ⟨H0, H1, H2, H3, H4, H5, H6, H7, ⟨%e8, H8⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 88 := N_0; omega)

end Cert.Kernel.Frame

end
-- ==== Proof.KHostArgs.lean ====
/-
  The seven argument buffers are written by no host operation, before the kernel or after it; nor is the kernel's
  result buffer by the operations after it. Each keeps the contents it had.
-/
import proofs.«131321_j61254823576011_2_alg».proof.Proof.Gen.Kernel.Launch
import Idealize.ShloMosaic.Lib.StableHlo.Run

noncomputable section

namespace Cert.Kernel.HostArgs

open Cert.Kernel Cert.Kernel.Gen Idealize.ShloMosaic Idealize.ShloMosaic.TcCoe Idealize.SL.Sem
open Idealize.ShloMosaic.StableHlo

variable {F : FTy → Type} [FloatOps F]

/-! ## Before the kernel -/

theorem pre_main_arg0 (W0 : Valuation τ sig (Elt F)) :
    StableHlo.after (List.flatten [hostOps0, hostOps0_1, hostOps0_2]) W0 (Proc.devRef .tc main_arg0) = W0 (Proc.devRef .tc main_arg0) := by
  simp only [hostOps0, hostOps0_1, hostOps0_2, List.flatten_cons, List.flatten_nil, List.append_nil, List.cons_append,
    List.nil_append]
  after_results

theorem pre_main_arg1 (W0 : Valuation τ sig (Elt F)) :
    StableHlo.after (List.flatten [hostOps0, hostOps0_1, hostOps0_2]) W0 (Proc.devRef .tc main_arg1) = W0 (Proc.devRef .tc main_arg1) := by
  simp only [hostOps0, hostOps0_1, hostOps0_2, List.flatten_cons, List.flatten_nil, List.append_nil, List.cons_append,
    List.nil_append]
  after_results

theorem pre_main_arg2 (W0 : Valuation τ sig (Elt F)) :
    StableHlo.after (List.flatten [hostOps0, hostOps0_1, hostOps0_2]) W0 (Proc.devRef .tc main_arg2) = W0 (Proc.devRef .tc main_arg2) := by
  simp only [hostOps0, hostOps0_1, hostOps0_2, List.flatten_cons, List.flatten_nil, List.append_nil, List.cons_append,
    List.nil_append]
  after_results

theorem pre_main_arg3 (W0 : Valuation τ sig (Elt F)) :
    StableHlo.after (List.flatten [hostOps0, hostOps0_1, hostOps0_2]) W0 (Proc.devRef .tc main_arg3) = W0 (Proc.devRef .tc main_arg3) := by
  simp only [hostOps0, hostOps0_1, hostOps0_2, List.flatten_cons, List.flatten_nil, List.append_nil, List.cons_append,
    List.nil_append]
  after_results

theorem pre_main_arg4 (W0 : Valuation τ sig (Elt F)) :
    StableHlo.after (List.flatten [hostOps0, hostOps0_1, hostOps0_2]) W0 (Proc.devRef .tc main_arg4) = W0 (Proc.devRef .tc main_arg4) := by
  simp only [hostOps0, hostOps0_1, hostOps0_2, List.flatten_cons, List.flatten_nil, List.append_nil, List.cons_append,
    List.nil_append]
  after_results

theorem pre_main_arg5 (W0 : Valuation τ sig (Elt F)) :
    StableHlo.after (List.flatten [hostOps0, hostOps0_1, hostOps0_2]) W0 (Proc.devRef .tc main_arg5) = W0 (Proc.devRef .tc main_arg5) := by
  simp only [hostOps0, hostOps0_1, hostOps0_2, List.flatten_cons, List.flatten_nil, List.append_nil, List.cons_append,
    List.nil_append]
  after_results

theorem pre_main_arg6 (W0 : Valuation τ sig (Elt F)) :
    StableHlo.after (List.flatten [hostOps0, hostOps0_1, hostOps0_2]) W0 (Proc.devRef .tc main_arg6) = W0 (Proc.devRef .tc main_arg6) := by
  simp only [hostOps0, hostOps0_1, hostOps0_2, List.flatten_cons, List.flatten_nil, List.append_nil, List.cons_append,
    List.nil_append]
  after_results

/-! ## After the kernel -/

theorem post_main_arg0 (W0 : Valuation τ sig (Elt F)) :
    StableHlo.after hostOps1 W0 (Proc.devRef .tc main_arg0) = W0 (Proc.devRef .tc main_arg0) := by
  simp only [hostOps1]
  after_results

theorem post_main_arg1 (W0 : Valuation τ sig (Elt F)) :
    StableHlo.after hostOps1 W0 (Proc.devRef .tc main_arg1) = W0 (Proc.devRef .tc main_arg1) := by
  simp only [hostOps1]
  after_results

theorem post_main_arg2 (W0 : Valuation τ sig (Elt F)) :
    StableHlo.after hostOps1 W0 (Proc.devRef .tc main_arg2) = W0 (Proc.devRef .tc main_arg2) := by
  simp only [hostOps1]
  after_results

theorem post_main_arg3 (W0 : Valuation τ sig (Elt F)) :
    StableHlo.after hostOps1 W0 (Proc.devRef .tc main_arg3) = W0 (Proc.devRef .tc main_arg3) := by
  simp only [hostOps1]
  after_results

theorem post_main_arg4 (W0 : Valuation τ sig (Elt F)) :
    StableHlo.after hostOps1 W0 (Proc.devRef .tc main_arg4) = W0 (Proc.devRef .tc main_arg4) := by
  simp only [hostOps1]
  after_results

theorem post_main_arg5 (W0 : Valuation τ sig (Elt F)) :
    StableHlo.after hostOps1 W0 (Proc.devRef .tc main_arg5) = W0 (Proc.devRef .tc main_arg5) := by
  simp only [hostOps1]
  after_results

theorem post_main_arg6 (W0 : Valuation τ sig (Elt F)) :
    StableHlo.after hostOps1 W0 (Proc.devRef .tc main_arg6) = W0 (Proc.devRef .tc main_arg6) := by
  simp only [hostOps1]
  after_results

theorem post_main_v18 (W0 : Valuation τ sig (Elt F)) :
    StableHlo.after hostOps1 W0 (Proc.devRef .tc main_v18) = W0 (Proc.devRef .tc main_v18) := by
  simp only [hostOps1]
  after_results

end Cert.Kernel.HostArgs

end
-- ==== Proof.KLaunch.lean ====
/-
  The launch of the one kernel region, for a kernel two of whose input windows stage blocks of ONE array (the gate rows
  and the up rows of the stacked expert weights): the array's full share is dealt to the two windows half and half, every
  other array is its window's outright; the host line after the region (the sum of the two expert groups' totals) reads
  the result array and writes buffers that bypass the region. The run ends with every window's array at what the
  write-backs left and every other unscoped buffer at what the last host line computed.
-/
import proofs.«131321_j61254823576011_2_alg».proof.Proof.KFrame
import proofs.«131321_j61254823576011_2_alg».proof.Proof.KHostArgs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (chain)

/-! ## The stacked-weights array, dealt to its two windows -/

/-- The distinct buffers behind the nine windows, each whole at the region-entry contents. -/
theorem arrBufs_eq (c : Dev nD) :
    (Pipeline.arrBufs (Ix := Unit) (Name := ℕ) (U := UR sig nD τ) (Lvl := ℕ) spec0 c (V m c) : sProp 𝕄)
      = iprop((((c : Thread nD τ).loc main_v17) ↦{fullShare} V m c main_v17) ∗ (((c : Thread nD τ).loc main_arg3) ↦{fullShare} V m c main_arg3)
          ∗ (((c : Thread nD τ).loc main_v12) ↦{fullShare} V m c main_v12) ∗ (((c : Thread nD τ).loc main_v14) ↦{fullShare} V m c main_v14)
          ∗ (((c : Thread nD τ).loc main_arg5) ↦{fullShare} V m c main_arg5) ∗ (((c : Thread nD τ).loc main_v16) ↦{fullShare} V m c main_v16)
          ∗ (((c : Thread nD τ).loc main_v10) ↦{fullShare} V m c main_v10) ∗ (((c : Thread nD τ).loc main_v18) ↦{fullShare} V m c main_v18)) :=
  bigSep_eq_bigSepL_of_eq [main_v17, main_arg3, main_v12, main_v14, main_arg5, main_v16, main_v10, main_v18] (by decide) (by decide) _

/-- The pipeline's arrays as points-tos of the buffers behind them, each at its window's share. -/
theorem arrays_eq' (c : Dev nD) (Fa : (w : Fin cfg0.W) → Buf (Elt F) ((cfg0.win w).arr.view.loc (c : Thread nD τ))) :
    (dats m 0 c).arrays Fa = bigSep Finset.univ fun w : Fin 9 => ((((c : Thread nD τ).loc (Pipeline.arrRef spec0 w)) ↦{(dats m 0 c).share w} Fa w) : sProp 𝕄) := by
  unfold Dat.arrays
  exact bigSep_congr fun w _ => by rw [(arr_whole0 w).set_eq_univ]

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq', bigSep_W0]
  iintro ⟨H0, H3, H12, H14, H5, H16, H10, H18⟩
  ihave H3' := (pointsTo_share (PosShare.mem_left_op_right fullShare)).1 $$ H3
  icases H3' with ⟨H3a, H3b⟩
  isplitl [H0]; · iexact H0
  isplitl [H3a]; · iexact H3a
  isplitl [H3b]; · iexact H3b
  isplitl [H12]; · iexact H12
  isplitl [H14]; · iexact H14
  isplitl [H5]; · iexact H5
  isplitl [H16]; · iexact H16
  isplitl [H10]; · iexact H10
  iexact H18

/-! ## The line after the region -/

/-- What the line after the region may touch: the result array and the buffers that bypass the region. -/
def tailS : Finset (DevRef τ sig) :=
  (insert main_v18 (Pipeline.restRefs sig spec0)).map ⟨Proc.devRef (sig := sig) .tc, Proc.devRef_injective _⟩

theorem v18_not_rest : main_v18 ∉ Pipeline.restRefs sig spec0 := by
  simp only [Finset.mem_sdiff, Finset.mem_image, Finset.mem_univ, true_and, not_and, not_not]
  intro _; exact ⟨8, rfl⟩

/-- The contents the line after the region starts from: the result array as the write-backs left it, everything else as
    the region found it. -/
def Wexit (c : Dev nD) : Valuation τ sig (Elt F) :=
  Function.update (V0 m c) (Proc.devRef .tc main_v18) ((dats m 0 c).arrAt 8 cfg0.N)

/-- Every unscoped buffer after the last host line. -/
def afterT (c : Dev nD) (b : Ref sig .tc) : Buf (Elt F) ((c : Thread nD τ).loc b) :=
  StableHlo.after hostOps1 (Wexit m c) (Proc.devRef .tc b)

theorem held_tail (c : Dev nD) (Wv : Valuation τ sig (Elt F)) :
    (StableHlo.held (Ix := Unit) (Name := ℕ) (U := UR sig nD τ) (Lvl := ℕ) (c : Thread nD τ) tailS Wv : sProp 𝕄)
      = iprop((((c : Thread nD τ).loc main_v18) ↦{fullShare} Wv (Proc.devRef .tc main_v18))
          ∗ bigSep (Pipeline.restRefs sig spec0) fun b => ((((c : Thread nD τ).loc b) ↦{fullShare} Wv (Proc.devRef .tc b)) : sProp 𝕄)) := by
  unfold StableHlo.held tailS
  rw [bigSep_map, bigSep_insert v18_not_rest]
  rfl

theorem mem_tailS_of (b : Ref sig .tc) (hb : b = main_v18 ∨ b ∈ Pipeline.restRefs sig spec0) : Proc.devRef .tc b ∈ (tailS : Finset (DevRef τ sig)) := by
  unfold tailS
  refine Finset.mem_map.mpr ⟨b, ?_, rfl⟩
  rcases hb with rfl | hb
  · exact Finset.mem_insert_self _ _
  · exact Finset.mem_insert_of_mem hb

theorem tail_sub : ∀ ops ∈ ([hostOps1] : List (List (HloOp τ sig (Elt F)))), ∀ op ∈ ops, op.bufs ⊆ (tailS : Finset (DevRef τ sig)) := by
  intro ops hops op hop
  simp only [List.mem_cons, List.mem_nil_iff, or_false] at hops
  subst hops
  simp only [hostOps1, List.mem_cons, List.mem_nil_iff, or_false] at hop
  rcases hop with rfl | rfl
  · intro b hb
    simp only [StableHlo.nullary_bufs, Finset.mem_singleton] at hb
    subst hb
    exact mem_tailS_of main_cst_1 (.inr (Pipeline.mem_restRefs_of _ rfl (by decide)))
  · intro b hb
    simp only [StableHlo.binary_bufs, Finset.mem_insert, Finset.mem_singleton] at hb
    rcases hb with rfl | rfl | rfl
    · exact mem_tailS_of main_v18 (.inl rfl)
    · exact mem_tailS_of main_cst_1 (.inr (Pipeline.mem_restRefs_of _ rfl (by decide)))
    · exact mem_tailS_of main_v19 (.inr (Pipeline.mem_restRefs_of _ rfl (by decide)))

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-! ## Around the line after the region -/

theorem devRef_ne_v18 (b : Ref sig .tc) (hb : b ∈ Pipeline.restRefs sig spec0) : (Proc.devRef .tc b : DevRef τ sig) ≠ Proc.devRef .tc main_v18 :=
  fun e => v18_not_rest (Proc.devRef_injective _ e ▸ hb)

theorem Wexit_v18 (c : Dev nD) : Wexit m c (Proc.devRef .tc main_v18) = (dats m 0 c).arrAt 8 cfg0.N := by
  unfold Wexit; exact Function.update_self ..

theorem Wexit_rest (c : Dev nD) (b : Ref sig .tc) (hb : b ∈ Pipeline.restRefs sig spec0) : Wexit m c (Proc.devRef .tc b) = V m c b := by
  unfold Wexit; exact Function.update_of_ne (devRef_ne_v18 b hb) ..

/-- The result array is not written by the last host line. -/
theorem afterT_v18 (c : Dev nD) : afterT m c main_v18 = (dats m 0 c).arrAt 8 cfg0.N := by
  unfold afterT
  rw [StableHlo.after_of_forall_not_mem hostOps1 (Wexit m c) (fun op hop => ?_), Wexit_v18]
  simp only [hostOps1, List.mem_cons, List.mem_nil_iff, or_false] at hop
  rcases hop with rfl | rfl
  · simp only [StableHlo.nullary_writes, Finset.mem_singleton]; exact StableHlo.devRef_ne_of_ne (by decide)
  · simp only [StableHlo.binary_writes, Finset.mem_singleton]; exact StableHlo.devRef_ne_of_ne (by decide)

theorem exit_held (c : Dev nD) :
    (iprop((((c : Thread nD τ).loc main_v18) ↦{fullShare} (dats m 0 c).arrAt 8 cfg0.N)
        ∗ bigSep (Pipeline.restRefs sig spec0) fun b => ((((c : Thread nD τ).loc b) ↦{fullShare} V m c b) : sProp 𝕄)) : sProp 𝕄)
      = StableHlo.held (Ix := Unit) (Name := ℕ) (U := UR sig nD τ) (Lvl := ℕ) (c : Thread nD τ) tailS (Wexit m c) := by
  have e : (bigSep (Pipeline.restRefs sig spec0) fun b => ((((c : Thread nD τ).loc b) ↦{fullShare} V m c b) : sProp 𝕄))
      = bigSep (Pipeline.restRefs sig spec0) fun b => ((((c : Thread nD τ).loc b) ↦{fullShare} Wexit m c (Proc.devRef .tc b)) : sProp 𝕄) :=
    bigSep_congr fun b hb => by rw [Wexit_rest m c b hb]
  rw [held_tail, Wexit_v18, e]

theorem after_held (c : Dev nD) :
    (StableHlo.held (Ix := Unit) (Name := ℕ) (U := UR sig nD τ) (Lvl := ℕ) (c : Thread nD τ) tailS (StableHlo.after ([hostOps1] : List (List (HloOp τ sig (Elt F)))).flatten (Wexit m c)) : sProp 𝕄)
      = iprop((((c : Thread nD τ).loc main_v18) ↦{fullShare} (dats m 0 c).arrAt 8 cfg0.N)
        ∗ bigSep (Pipeline.restRefs sig spec0) fun b => ((((c : Thread nD τ).loc b) ↦{fullShare} afterT m c b) : sProp 𝕄)) := by
  rw [show (([hostOps1] : List (List (HloOp τ sig (Elt F)))).flatten) = hostOps1 from by simp only [List.flatten_cons, List.flatten_nil, List.append_nil],
    held_tail, show StableHlo.after hostOps1 (Wexit m c) (Proc.devRef .tc main_v18) = afterT m c main_v18 from rfl, afterT_v18]
  rfl

set_option backward.isDefEq.respectTransparency.types false in
/-- From the region's exit the last host line runs within the result array and the bypassing buffers, and hands back the
    arrays as they were and the bypassing buffers at what it computed. -/
theorem htail (c : Dev nD) (Q' : PUnit → sProp 𝕄) :
    iprop((iprop((dats m 0 c).arrays ((dats m 0 c).arrAt · cfg0.N) ∗ Pipeline.unscopedRestP (Ix := Unit) (Name := ℕ) (U := UR sig nD τ) (Lvl := ℕ) Pipeline.Prefetch.none spec0 c (afterT m c)) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (chain [StableHlo.seq hostOps1]) Q' := by
  rw [Pipeline.unscopedRestP_none, Pipeline.unscopedRestP_none, arrays_eq', bigSep_W0]
  unfold Pipeline.unscopedRest
  rw [show chain [StableHlo.seq (hostOps1 (F := F))] = chain (([hostOps1] : List (List (HloOp τ sig (Elt F)))).map StableHlo.seq ++ []) from rfl]
  iintro ⟨Hk, Hb, ⟨H0, H1, H2, H3, H4, H5, H6, H7, H8⟩, HZ⟩
  ihave Hh := (Entails.of_eq (exit_held m c)) $$ [H8 HZ]
  · isplitl [H8]; · iexact H8
    iexact HZ
  iapply (Pipeline.wp_seqs_then (fun q => (cfgs q).toPCfg (Val := Elt F)) defs₀ Variants.none c tailS [] [hostOps1] tail_sub tail_fresh (Wexit m c)) $$ [Hb Hh]
  · isplitl [Hb]; · iexact Hb
    iexact Hh
  iintro ⟨Hb, Hh⟩
  rw [Pipeline.chain_nil, wp_pure]
  imodintro
  iapply Hk
  ihave Hh' := (Entails.of_eq (after_held m c)) $$ Hh
  icases Hh' with ⟨H8, HZ⟩
  isplitr [HZ]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HZ

/-! ## The run -/

/-- What the run ends with: every window's array at what the write-backs left, every bypassing buffer at what the last
    host line computed. -/
def Post : PUnit × MemSt nD τ sig (Elt F) → Prop := fun r =>
  ∀ c : Dev nD, (∀ w : Fin 9, r.2.mem ((spec0 w).arr.view.loc (c : Thread nD τ)) = (dats m 0 c).arrAt w cfg0.N)
    ∧ ∀ b ∈ Pipeline.restRefs sig spec0, r.2.mem ((c : Thread nD τ).loc b) = afterT m c b

set_option backward.isDefEq.respectTransparency.types false in
theorem run_main : θ_run defs (onTc (τ := τ) (main (F := F))) ⟨m, fun _ => 0, ρ⟩ (Post m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (afterT m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c : Thread nD τ).loc b) = afterT m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (afterT m c) s')
      isplitl [HU] <;> iassumption)
    (hQ := fun s h c => ⟨(h c).1, fun b hb => (h c).2.2 b (Finset.mem_sdiff.mpr ⟨hb, fun hk => by
      obtain ⟨k, _, _⟩ := Finset.mem_image.mp hk
      exact k.elim0⟩)⟩)

/-! ## The frame -/

theorem rest_arg (c : Dev nD) (b : Ref sig .tc) (hb : b ∈ Pipeline.restRefs sig spec0)
    (hpre : StableHlo.after (List.flatten [hostOps0, hostOps0_1, hostOps0_2]) (fun b => m (c, b)) (Proc.devRef .tc b) = m ((c : Thread nD τ).loc b))
    (hpost : StableHlo.after hostOps1 (Wexit m c) (Proc.devRef .tc b) = Wexit m c (Proc.devRef .tc b)) :
    afterT m c b = m ((c : Thread nD τ).loc b) := by
  unfold afterT; rw [hpost, Wexit_rest m c b hb]; exact hpre

/-- In a final state of the run the seven argument arrays are as they were: the two weight arrays are input windows'
    arrays, never written back; the other five bypass the region and no host line writes them. -/
theorem post_args (r : PUnit × MemSt nD τ sig (Elt F)) (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have h0 : main_arg0 ∈ Pipeline.restRefs sig spec0 := Pipeline.mem_restRefs_of _ rfl (by decide)
  have h1 : main_arg1 ∈ Pipeline.restRefs sig spec0 := Pipeline.mem_restRefs_of _ rfl (by decide)
  have h2 : main_arg2 ∈ Pipeline.restRefs sig spec0 := Pipeline.mem_restRefs_of _ rfl (by decide)
  have h4 : main_arg4 ∈ Pipeline.restRefs sig spec0 := Pipeline.mem_restRefs_of _ rfl (by decide)
  have h6 : main_arg6 ∈ Pipeline.restRefs sig spec0 := Pipeline.mem_restRefs_of _ rfl (by decide)
  ⟨((h c).2 main_arg0 h0).trans (rest_arg m c main_arg0 h0 (HostArgs.pre_main_arg0 _) (HostArgs.post_main_arg0 _)),
   ((h c).2 main_arg1 h1).trans (rest_arg m c main_arg1 h1 (HostArgs.pre_main_arg1 _) (HostArgs.post_main_arg1 _)),
   ((h c).2 main_arg2 h2).trans (rest_arg m c main_arg2 h2 (HostArgs.pre_main_arg2 _) (HostArgs.post_main_arg2 _)),
   ((h c).1 1).trans (((dats m 0 c).arrAt_in 1 rfl _).trans ((A_eq m c 1).trans (HostArgs.pre_main_arg3 _))),
   ((h c).2 main_arg4 h4).trans (rest_arg m c main_arg4 h4 (HostArgs.pre_main_arg4 _) (HostArgs.post_main_arg4 _)),
   ((h c).1 5).trans (((dats m 0 c).arrAt_in 5 rfl _).trans ((A_eq m c 5).trans (HostArgs.pre_main_arg5 _))),
   ((h c).2 main_arg6 h6).trans (rest_arg m c main_arg6 h6 (HostArgs.pre_main_arg6 _) (HostArgs.post_main_arg6 _))⟩

/-- The result buffer of the last host line is among the buffers that bypass the region. -/
theorem v19_rest : main_v19 ∈ Pipeline.restRefs sig spec0 := Pipeline.mem_restRefs_of _ rfl (by decide)

/-- The program runs to its end and its seven argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => post_args m r h c) (run_main m ρ)

end Cert.Kernel.Frame

end
-- ==== Proof.KIRuns.lean ====
/-
  The program around its one kernel region: what each buffer holds when the region is entered (the host operations
  before it applied to the launch memory), each window's block of its array at a grid point, that an input window's
  staging buffer holds that block at every point whether or not the point fetches it, the condition under which the
  body clears its accumulator (first step of an expert group: t ≡ 0 mod 44), and the staging memrefs by name.
-/
import proofs.«131321_j61254823576011_2_alg».proof.Proof.Gen.KernelIdeal.Launch
import proofs.«131321_j61254823576011_2_alg».proof.Proof.Gen.KernelIdeal.Skeleton
import proofs.«131321_j61254823576011_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the host operations before it, from the launch memory. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is host lines, the region, host lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition under which the body clears its accumulator: both inner grid coordinates are zero. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the first of each group's 44 steps. -/
theorem hcond0_0 : ∀ t : Fin cfg0.N, cond0_0 (grid0.coords t) ↔ t.val % 44 = 0 :=
  (by decide +kernel : ∀ t : Fin grid0.N, cond0_0 (grid0.coords t) ↔ t.val % 44 = 0)

/-- No window is idle at any point. -/
theorem liveAt0 : ∀ (w : Fin 9) (t : Fin cfg0.N), cfg0.idle w (grid0.coords t) = false := by decide +kernel

/-! ## The staging memrefs -/

abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x16x2 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x2048 .f32 := win0_8.stage (cfg0.slots t 8)
abbrev hs0_8 (t : Fin cfg0.N) : (ms0_8 t).IsWhole := hstage0_8 ((cfg0.slots t 8).cast nbuf0_8)
/-- The accumulator: a whole scoped buffer of the kernel's own. -/
abbrev scM0_0 : Memref sig .tc .vmem S512x2048 .f32 := Memref.whole cc0_scratch0
/-- One staging buffer of the output window and the accumulator, as views through which contents are stated. -/
abbrev VO0_8 : View sig .tc .vmem S1x512x2048 .f32 := (Memref.whole cc0_stg8_0 : Memref sig .tc .vmem S1x512x2048 .f32).view
abbrev VS0_0 : View sig .tc .vmem S512x2048 .f32 := scM0_0.view

/-- What the region's invariant holds besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.KIRunA.lean ====
/-
  The kernel body run once on any whole staging memrefs, at a step that first clears the accumulator:
  the eight input buffers are read and handed back as they were; the accumulator and the output buffer end with the body's
  stores written, kept as the list of stored pieces.
-/
import proofs.«131321_j61254823576011_2_alg».proof.Proof.KIRuns

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : cond0_0 i)
    (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) :
    Σ' (L8 : List (View.Piece (Elt F) S1x512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.KernelIdeal.Frame

end
-- ==== Proof.KIRunB.lean ====
/-
  The kernel body run once on any whole staging memrefs, at a step that adds into the accumulator the step before left:
  the eight input buffers are read and handed back as they were; the accumulator and the output buffer end with the body's
  stores written, kept as the list of stored pieces.
-/
import proofs.«131321_j61254823576011_2_alg».proof.Proof.KIRunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : ¬cond0_0 i)
    (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (xs0 : Vec F S512x2048 .f32) :
    Σ' (L8 : List (View.Piece (Elt F) S1x512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7; obtain rfl := harg12.eq_unread hfs0
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.KernelIdeal.Frame

end
-- ==== Proof.KIFrame.lean ====
/-
  What the accumulator and the output window's staging buffer hold after each grid point (a recursion on the point:
  the first step of each expert group starts from the cleared accumulator, every other step from what the step before
  left), the region's invariant that carries the accumulator between points, the proof data of the one pipeline, and the
  body obligation at every point.
-/
import proofs.«131321_j61254823576011_2_alg».proof.Proof.KIRunB
import Idealize.ShloMosaic.Lib.Ring

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one run of the body leaves -/

theorem cover0_A_8 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (y : S1x512x2048.Idx) :
    ∃ pc ∈ (kernelRun0_A c i arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun0_A c i arg3 harg3 arg4 harg4 arg5 harg5 arg6 harg6 arg7 harg7 arg8 harg8 arg9 harg9 arg10 harg10 arg11 harg11 arg12 harg12 hc0 x0 x1 x2 x3 x4 x5 x6 x7).1 S1x512x2048.size (by sl_kernel_rfl) y

/-- The output buffer after a clearing step: its stored pieces read back. -/
def out0_A_8 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) : Vec F S1x512x2048 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 hc0 x0 x1 x2 x3 x4 x5 x6 x7).1)

theorem scover0_A_0 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (y : S512x2048.Idx) :
    ∃ pc ∈ (kernelRun0_A c i arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 x0 x1 x2 x3 x4 x5 x6 x7).2.1 S512x2048.size (by sl_kernel_rfl) y

/-- The accumulator after a clearing step. -/
def sout0_A_0 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) : Vec F S512x2048 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 x0 x1 x2 x3 x4 x5 x6 x7).2.1)

theorem cover0_B_8 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : ¬cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (xs0 : Vec F S512x2048 .f32) (y : S1x512x2048.Idx) :
    ∃ pc ∈ (kernelRun0_B c i arg3 harg3 arg4 harg4 arg5 harg5 arg6 harg6 arg7 harg7 arg8 harg8 arg9 harg9 arg10 harg10 arg11 harg11 arg12 harg12 hc0 x0 x1 x2 x3 x4 x5 x6 x7 xs0).1, y ∈ pc.1.set :=
  View.cover_of_tiledL (kernelRun0_B c i arg3 harg3 arg4 harg4 arg5 harg5 arg6 harg6 arg7 harg7 arg8 harg8 arg9 harg9 arg10 harg10 arg11 harg11 arg12 harg12 hc0 x0 x1 x2 x3 x4 x5 x6 x7 xs0).1 S1x512x2048.size (by sl_kernel_rfl) y

/-- The output buffer after an adding step. -/
def out0_B_8 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : ¬cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (xs0 : Vec F S512x2048 .f32) : Vec F S1x512x2048 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 hc0 x0 x1 x2 x3 x4 x5 x6 x7 xs0).1)

theorem scover0_B_0 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : ¬cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (xs0 : Vec F S512x2048 .f32) (y : S512x2048.Idx) :
    ∃ pc ∈ (kernelRun0_B c i arg3 harg3 arg4 harg4 arg5 harg5 arg6 harg6 arg7 harg7 arg8 harg8 arg9 harg9 arg10 harg10 arg11 harg11 arg12 harg12 hc0 x0 x1 x2 x3 x4 x5 x6 x7 xs0).2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 x0 x1 x2 x3 x4 x5 x6 x7 xs0).2.1 S512x2048.size (by sl_kernel_rfl) y

/-- The accumulator after an adding step. -/
def sout0_B_0 (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : ¬cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (xs0 : Vec F S512x2048 .f32) : Vec F S512x2048 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 hc0 x0 x1 x2 x3 x4 x5 x6 x7 xs0).2.1)

/-! ## Point by point -/

/-- After the body at point n: (the output window's staging buffer, the accumulator). -/
def outsAt0 (c : Dev nD) : (n : ℕ) → n < cfg0.N → Vec F S1x512x2048 .f32 × Vec F S512x2048 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 44 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

theorem outsAt0_A (c : Dev nD) (t : Fin cfg0.N) (h0 : t.val % 44 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

theorem outsAt0_B (c : Dev nD) (t : Fin cfg0.N) (h0 : ¬t.val % 44 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position n: before the first point the accumulator at anything; afterwards at what the
    point before left; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at the
    recursion's first component; the two windows on the stacked gate/up weights hold that array at half a share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem leaves_eq (c : Dev nD) (w : Fin 9) (t : Fin cfg0.N) :
    (dats m 0 c).leavesExact w t = owns (c : Thread nD τ) ((cfg0.win w).stage (cfg0.slots t w)) fullShare ((dats m 0 c).after w t) := by
  unfold Dat.leavesExact; rw [liveAt0 w t]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 88 := lt_of_lt_of_eq t.isLt (show cfg0.N = 88 from N_0)
  rw [leaves_eq m c 0 t, leaves_eq m c 1 t, leaves_eq m c 2 t, leaves_eq m c 3 t, leaves_eq m c 4 t, leaves_eq m c 5 t, leaves_eq m c 6 t, leaves_eq m c 7 t, leaves_eq m c 8 t,
    after0_0, after0_1, after0_2, after0_3, after0_4, after0_5, after0_6, after0_7, after0_8]
  by_cases h0 : t.val % 44 = 0
  · rw [outsAt0_A m c t h0]
    unfold out0_A_8 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
  · rw [outsAt0_B m c t h0]
    unfold out0_B_8 sout0_B_0; (try dsimp only)
    have hz : t.val ≠ 0 := fun e => h0 (by rw [e])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    iintro ⟨H0, H1, H2, H3, H4, H5, H6, H7, ⟨%e8, H8⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 88 := N_0; omega)

end Cert.KernelIdeal.Frame

end
-- ==== Proof.KIValue.lean ====
/-
  What one run of the body leaves, as values: an adding step leaves in the accumulator the previous total plus the
  router coefficient times the tile's partial product, and copies it to the output buffer; a clearing step does the same
  from the zero array.
-/
import proofs.«131321_j61254823576011_2_alg».proof.Proof.KIFrame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One step of the accumulation as a function of the eight input blocks and the previous total. -/
def stepV (x0 : Vec F S512x2048 .bf16) (x1 x2 : Vec F S1x256x2048 .f32) (x3 x4 : Vec F S1x1x2x16 .f32) (x5 : Vec F S1x2048x256 .f32)
    (x6 : Vec F S1x1x16x2 .f32) (x7 : Vec F S1x512x1 .f32) (acc : Vec F S512x2048 .f32) : Vec F S512x2048 .f32 :=
  k0_pay1 (k0_pay4 x1 x3) (k0_pay5 x2 x4) (k0_pay6 x5) (k0_pay7 x6) x0 acc x7

set_option maxHeartbeats 2000000 in
theorem sout_B (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : ¬cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (xs0 : Vec F S512x2048 .f32) :
    sout0_B_0 c i arg3 harg3 arg4 harg4 arg5 harg5 arg6 harg6 arg7 harg7 arg8 harg8 arg9 harg9 arg10 harg10 arg11 harg11 arg12 harg12 hc0 x0 x1 x2 x3 x4 x5 x6 x7 xs0 = stepV x0 x1 x2 x3 x4 x5 x6 x7 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 x0 x1 x2 x3 x4 x5 x6 x7 xs0)]
  unfold kernelRun0_B
  dsimp only
  sl_unfold_words
  rw [View.canon_unit_zero hz2]
  unfold stepV
  simp only [View.readAt_eq_ld, harg3.read_unread, harg4.read_unread, harg5.read_unread, harg6.read_unread, harg7.read_unread, harg8.read_unread, harg9.read_unread, harg10.read_unread, harg12.read_unread,
    View.ld_unit_zero (S := S512x2048) hz2, View.ld_unit_zero (S := S1x256x2048) hz3, View.ld_unit_zero (S := S1x1x2x16) hz4, View.ld_unit_zero (S := S1x2048x256) hz3, View.ld_unit_zero (S := S1x1x16x2) hz4, View.ld_unit_zero (S := S1x512x1) hz3]

set_option maxHeartbeats 2000000 in
theorem out_B (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : ¬cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) (xs0 : Vec F S512x2048 .f32) :
    out0_B_8 c i arg3 harg3 arg4 harg4 arg5 harg5 arg6 harg6 arg7 harg7 arg8 harg8 arg9 harg9 arg10 harg10 arg11 harg11 arg12 harg12 hc0 x0 x1 x2 x3 x4 x5 x6 x7 xs0 = k0_pay2 (stepV x0 x1 x2 x3 x4 x5 x6 x7 xs0) := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc0 x0 x1 x2 x3 x4 x5 x6 x7 xs0)]
  unfold kernelRun0_B
  dsimp only
  sl_unfold_words
  rw [View.canon_unit_zero hz3, View.readCov_unit_zero (S := S512x2048) _ hz2]
  unfold stepV
  simp only [View.readAt_eq_ld, harg3.read_unread, harg4.read_unread, harg5.read_unread, harg6.read_unread, harg7.read_unread, harg8.read_unread, harg9.read_unread, harg10.read_unread, harg12.read_unread,
    View.ld_unit_zero (S := S512x2048) hz2, View.ld_unit_zero (S := S1x256x2048) hz3, View.ld_unit_zero (S := S1x1x2x16) hz4, View.ld_unit_zero (S := S1x2048x256) hz3, View.ld_unit_zero (S := S1x1x16x2) hz4, View.ld_unit_zero (S := S1x512x1) hz3]

set_option maxHeartbeats 2000000 in
theorem sout_A (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) :
    sout0_A_0 c i arg3 harg3 arg4 harg4 arg5 harg5 arg6 harg6 arg7 harg7 arg8 harg8 arg9 harg9 arg10 harg10 arg11 harg11 arg12 harg12 hc0 x0 x1 x2 x3 x4 x5 x6 x7 = stepV x0 x1 x2 x3 x4 x5 x6 x7 k0_pay3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S512x2048) hz2, View.readCov_unit_zero (S := S512x2048) _ hz2]
  unfold stepV
  simp only [View.readAt_eq_ld, harg3.read_unread, harg4.read_unread, harg5.read_unread, harg6.read_unread, harg7.read_unread, harg8.read_unread, harg9.read_unread, harg10.read_unread, harg12.read_unread,
    View.ld_unit_zero (S := S512x2048) hz2, View.ld_unit_zero (S := S1x256x2048) hz3, View.ld_unit_zero (S := S1x1x2x16) hz4, View.ld_unit_zero (S := S1x2048x256) hz3, View.ld_unit_zero (S := S1x1x16x2) hz4, View.ld_unit_zero (S := S1x512x1) hz3]

set_option maxHeartbeats 2000000 in
theorem out_A (c : Dev nD) (i : grid0.Coords) (arg3 : Memref sig .tc .vmem S512x2048 .bf16) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x1x2x16 .f32) (harg6 : arg6.IsWhole) (arg7 : Memref sig .tc .vmem S1x1x2x16 .f32) (harg7 : arg7.IsWhole) (arg8 : Memref sig .tc .vmem S1x2048x256 .f32) (harg8 : arg8.IsWhole) (arg9 : Memref sig .tc .vmem S1x1x16x2 .f32) (harg9 : arg9.IsWhole) (arg10 : Memref sig .tc .vmem S1x512x1 .f32) (harg10 : arg10.IsWhole) (arg11 : Memref sig .tc .vmem S1x512x2048 .f32) (harg11 : arg11.IsWhole) (arg12 : Memref sig .tc .vmem S512x2048 .f32) (harg12 : arg12.IsWhole) (hc0 : cond0_0 i) (x0 : Vec F S512x2048 .bf16) (x1 : Vec F S1x256x2048 .f32) (x2 : Vec F S1x256x2048 .f32) (x3 : Vec F S1x1x2x16 .f32) (x4 : Vec F S1x1x2x16 .f32) (x5 : Vec F S1x2048x256 .f32) (x6 : Vec F S1x1x16x2 .f32) (x7 : Vec F S1x512x1 .f32) :
    out0_A_8 c i arg3 harg3 arg4 harg4 arg5 harg5 arg6 harg6 arg7 harg7 arg8 harg8 arg9 harg9 arg10 harg10 arg11 harg11 arg12 harg12 hc0 x0 x1 x2 x3 x4 x5 x6 x7 = k0_pay2 (stepV x0 x1 x2 x3 x4 x5 x6 x7 k0_pay3) := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz3]
  erw [View.readCov_cons_toLoadRect]
  rw [View.readCov_unit_zero (S := S512x2048) _ hz2]
  unfold stepV
  simp only [View.readAt_eq_ld, harg3.read_unread, harg4.read_unread, harg5.read_unread, harg6.read_unread, harg7.read_unread, harg8.read_unread, harg9.read_unread, harg10.read_unread, harg12.read_unread,
    View.ld_unit_zero (S := S512x2048) hz2, View.ld_unit_zero (S := S1x256x2048) hz3, View.ld_unit_zero (S := S1x1x2x16) hz4, View.ld_unit_zero (S := S1x2048x256) hz3, View.ld_unit_zero (S := S1x1x16x2) hz4, View.ld_unit_zero (S := S1x512x1) hz3]

end Cert.KernelIdeal.Frame

end
-- ==== Proof.KIBlocks.lean ====
/-
  The windows' blocks read at coordinates.  The grid has 2 × 4 × 11 = 88 points; point t works on expert
  e = t / 11 (group t / 44) and on column tile i = t % 11.  Each window's index map is decided once over the grid
  in closed form; a block's coordinate on an axis is always (block index) × (block size) + (coordinate inside
  the block), so each input block read at a coordinate is its array read at the corresponding global coordinate,
  and the output block of point t is the slab of group t / 44, written back at the group's last step.
-/
import proofs.«131321_j61254823576011_2_alg».proof.Proof.KIRuns
import Idealize.ShloMosaic.Lib.ValueIdx
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-! ## The index maps in closed form over the grid -/

theorem idx0_0 : ∀ t : Fin cfg0.N, (cfg0.win 0).index t = ![0, 0] :=
  (by decide +kernel : ∀ t : Fin grid0.N, win0_0.index t = ![0, 0])
theorem idx0_1 : ∀ t : Fin cfg0.N, (cfg0.win 1).index t = ![t.val / 11, t.val % 11, 0] :=
  (by decide +kernel : ∀ t : Fin grid0.N, win0_1.index t = ![t.val / 11, t.val % 11, 0])
theorem idx0_2 : ∀ t : Fin cfg0.N, (cfg0.win 2).index t = ![t.val / 11, 11 + t.val % 11, 0] :=
  (by decide +kernel : ∀ t : Fin grid0.N, win0_2.index t = ![t.val / 11, 11 + t.val % 11, 0])
theorem idx0_3 : ∀ t : Fin cfg0.N, (cfg0.win 3).index t = ![t.val / 11, t.val % 11, 0, 0] :=
  (by decide +kernel : ∀ t : Fin grid0.N, win0_3.index t = ![t.val / 11, t.val % 11, 0, 0])
theorem idx0_4 : ∀ t : Fin cfg0.N, (cfg0.win 4).index t = ![t.val / 11, t.val % 11, 0, 0] :=
  (by decide +kernel : ∀ t : Fin grid0.N, win0_4.index t = ![t.val / 11, t.val % 11, 0, 0])
theorem idx0_5 : ∀ t : Fin cfg0.N, (cfg0.win 5).index t = ![t.val / 11, 0, t.val % 11] :=
  (by decide +kernel : ∀ t : Fin grid0.N, win0_5.index t = ![t.val / 11, 0, t.val % 11])
theorem idx0_6 : ∀ t : Fin cfg0.N, (cfg0.win 6).index t = ![t.val / 11, t.val % 11, 0, 0] :=
  (by decide +kernel : ∀ t : Fin grid0.N, win0_6.index t = ![t.val / 11, t.val % 11, 0, 0])
theorem idx0_7 : ∀ t : Fin cfg0.N, (cfg0.win 7).index t = ![t.val / 11, 0, 0] :=
  (by decide +kernel : ∀ t : Fin grid0.N, win0_7.index t = ![t.val / 11, 0, 0])
theorem idx0_8 : ∀ t : Fin cfg0.N, (cfg0.win 8).index t = ![t.val / 44, 0, 0] :=
  (by decide +kernel : ∀ t : Fin grid0.N, win0_8.index t = ![t.val / 44, 0, 0])

theorem N0 : cfg0.N = 88 := by decide
theorem lt88 (t : Fin cfg0.N) : t.val < 88 := lt_of_lt_of_eq t.isLt N0

/-! ## The input windows' blocks at a coordinate -/

theorem iblk0_apply (c : Dev nD) (t : Fin cfg0.N) (p : Fin 512) (k : Fin 2048) :
    (iblk m c 0 t : Vec F S512x2048 .bf16) (ix2 p k)
      = (V m c main_v17 : S512x2048.Idx → Elt F .bf16) (ix2 p k) := by
  have hi := idx0_0 t
  have ht := lt88 t
  unfold iblk
  rw [View.read_apply]
  show (V m c main_v17 : S512x2048.Idx → Elt F .bf16) _ = _
  congr 1
  funext a
  apply Fin.ext
  match a with
  | ⟨0, _⟩ => show win0_0.index t 0 * 512 + 1 * p.val = p.val; rw [show win0_0.index t 0 = 0 from congrFun hi 0]; omega
  | ⟨1, _⟩ => show win0_0.index t 1 * 2048 + 1 * k.val = k.val; rw [show win0_0.index t 1 = 0 from congrFun hi 1]; omega

theorem iblk1_apply (c : Dev nD) (t : Fin cfg0.N) (jj : Fin 256) (k : Fin 2048) :
    (iblk m c 1 t : Vec F S1x256x2048 .f32) (ix3 0 jj k)
      = (V m c main_arg3 : S8x5632x2048.Idx → Elt F .f32) (ix3 ⟨t.val / 11, by have := lt88 t; omega⟩ ⟨256 * (t.val % 11) + jj.val, by omega⟩ k) := by
  have hi := idx0_1 t
  have ht := lt88 t
  unfold iblk
  rw [View.read_apply]
  show (V m c main_arg3 : S8x5632x2048.Idx → Elt F .f32) _ = _
  congr 1
  funext a
  apply Fin.ext
  match a with
  | ⟨0, _⟩ => show win0_1.index t 0 * 1 + 1 * 0 = t.val / 11; rw [show win0_1.index t 0 = t.val / 11 from congrFun hi 0]; omega
  | ⟨1, _⟩ => show win0_1.index t 1 * 256 + 1 * jj.val = 256 * (t.val % 11) + jj.val; rw [show win0_1.index t 1 = t.val % 11 from congrFun hi 1]; omega
  | ⟨2, _⟩ => show win0_1.index t 2 * 2048 + 1 * k.val = k.val; rw [show win0_1.index t 2 = 0 from congrFun hi 2]; omega

theorem iblk2_apply (c : Dev nD) (t : Fin cfg0.N) (jj : Fin 256) (k : Fin 2048) :
    (iblk m c 2 t : Vec F S1x256x2048 .f32) (ix3 0 jj k)
      = (V m c main_arg3 : S8x5632x2048.Idx → Elt F .f32) (ix3 ⟨t.val / 11, by have := lt88 t; omega⟩ ⟨2816 + 256 * (t.val % 11) + jj.val, by omega⟩ k) := by
  have hi := idx0_2 t
  have ht := lt88 t
  unfold iblk
  rw [View.read_apply]
  show (V m c main_arg3 : S8x5632x2048.Idx → Elt F .f32) _ = _
  congr 1
  funext a
  apply Fin.ext
  match a with
  | ⟨0, _⟩ => show win0_2.index t 0 * 1 + 1 * 0 = t.val / 11; rw [show win0_2.index t 0 = t.val / 11 from congrFun hi 0]; omega
  | ⟨1, _⟩ => show win0_2.index t 1 * 256 + 1 * jj.val = 2816 + 256 * (t.val % 11) + jj.val; rw [show win0_2.index t 1 = 11 + t.val % 11 from congrFun hi 1]; omega
  | ⟨2, _⟩ => show win0_2.index t 2 * 2048 + 1 * k.val = k.val; rw [show win0_2.index t 2 = 0 from congrFun hi 2]; omega

theorem iblk3_apply (c : Dev nD) (t : Fin cfg0.N) (b : Fin 2) (kb : Fin 16) :
    (iblk m c 3 t : Vec F S1x1x2x16 .f32) (ix4 0 0 b kb)
      = (V m c main_v12 : S8x11x2x16.Idx → Elt F .f32) (ix4 ⟨t.val / 11, by have := lt88 t; omega⟩ ⟨t.val % 11, Nat.mod_lt _ (by decide)⟩ b kb) := by
  have hi := idx0_3 t
  have ht := lt88 t
  unfold iblk
  rw [View.read_apply]
  show (V m c main_v12 : S8x11x2x16.Idx → Elt F .f32) _ = _
  congr 1
  funext a
  apply Fin.ext
  match a with
  | ⟨0, _⟩ => show win0_3.index t 0 * 1 + 1 * 0 = t.val / 11; rw [show win0_3.index t 0 = t.val / 11 from congrFun hi 0]; omega
  | ⟨1, _⟩ => show win0_3.index t 1 * 1 + 1 * 0 = t.val % 11; rw [show win0_3.index t 1 = t.val % 11 from congrFun hi 1]; omega
  | ⟨2, _⟩ => show win0_3.index t 2 * 2 + 1 * b.val = b.val; rw [show win0_3.index t 2 = 0 from congrFun hi 2]; omega
  | ⟨3, _⟩ => show win0_3.index t 3 * 16 + 1 * kb.val = kb.val; rw [show win0_3.index t 3 = 0 from congrFun hi 3]; omega

theorem iblk4_apply (c : Dev nD) (t : Fin cfg0.N) (b : Fin 2) (kb : Fin 16) :
    (iblk m c 4 t : Vec F S1x1x2x16 .f32) (ix4 0 0 b kb)
      = (V m c main_v14 : S8x11x2x16.Idx → Elt F .f32) (ix4 ⟨t.val / 11, by have := lt88 t; omega⟩ ⟨t.val % 11, Nat.mod_lt _ (by decide)⟩ b kb) := by
  have hi := idx0_4 t
  have ht := lt88 t
  unfold iblk
  rw [View.read_apply]
  show (V m c main_v14 : S8x11x2x16.Idx → Elt F .f32) _ = _
  congr 1
  funext a
  apply Fin.ext
  match a with
  | ⟨0, _⟩ => show win0_4.index t 0 * 1 + 1 * 0 = t.val / 11; rw [show win0_4.index t 0 = t.val / 11 from congrFun hi 0]; omega
  | ⟨1, _⟩ => show win0_4.index t 1 * 1 + 1 * 0 = t.val % 11; rw [show win0_4.index t 1 = t.val % 11 from congrFun hi 1]; omega
  | ⟨2, _⟩ => show win0_4.index t 2 * 2 + 1 * b.val = b.val; rw [show win0_4.index t 2 = 0 from congrFun hi 2]; omega
  | ⟨3, _⟩ => show win0_4.index t 3 * 16 + 1 * kb.val = kb.val; rw [show win0_4.index t 3 = 0 from congrFun hi 3]; omega

theorem iblk5_apply (c : Dev nD) (t : Fin cfg0.N) (h : Fin 2048) (jj : Fin 256) :
    (iblk m c 5 t : Vec F S1x2048x256 .f32) (ix3 0 h jj)
      = (V m c main_arg5 : S8x2048x2816.Idx → Elt F .f32) (ix3 ⟨t.val / 11, by have := lt88 t; omega⟩ h ⟨256 * (t.val % 11) + jj.val, by omega⟩) := by
  have hi := idx0_5 t
  have ht := lt88 t
  unfold iblk
  rw [View.read_apply]
  show (V m c main_arg5 : S8x2048x2816.Idx → Elt F .f32) _ = _
  congr 1
  funext a
  apply Fin.ext
  match a with
  | ⟨0, _⟩ => show win0_5.index t 0 * 1 + 1 * 0 = t.val / 11; rw [show win0_5.index t 0 = t.val / 11 from congrFun hi 0]; omega
  | ⟨1, _⟩ => show win0_5.index t 1 * 2048 + 1 * h.val = h.val; rw [show win0_5.index t 1 = 0 from congrFun hi 1]; omega
  | ⟨2, _⟩ => show win0_5.index t 2 * 256 + 1 * jj.val = 256 * (t.val % 11) + jj.val; rw [show win0_5.index t 2 = t.val % 11 from congrFun hi 2]; omega

theorem iblk6_apply (c : Dev nD) (t : Fin cfg0.N) (hb : Fin 16) (b : Fin 2) :
    (iblk m c 6 t : Vec F S1x1x16x2 .f32) (ix4 0 0 hb b)
      = (V m c main_v16 : S8x11x16x2.Idx → Elt F .f32) (ix4 ⟨t.val / 11, by have := lt88 t; omega⟩ ⟨t.val % 11, Nat.mod_lt _ (by decide)⟩ hb b) := by
  have hi := idx0_6 t
  have ht := lt88 t
  unfold iblk
  rw [View.read_apply]
  show (V m c main_v16 : S8x11x16x2.Idx → Elt F .f32) _ = _
  congr 1
  funext a
  apply Fin.ext
  match a with
  | ⟨0, _⟩ => show win0_6.index t 0 * 1 + 1 * 0 = t.val / 11; rw [show win0_6.index t 0 = t.val / 11 from congrFun hi 0]; omega
  | ⟨1, _⟩ => show win0_6.index t 1 * 1 + 1 * 0 = t.val % 11; rw [show win0_6.index t 1 = t.val % 11 from congrFun hi 1]; omega
  | ⟨2, _⟩ => show win0_6.index t 2 * 16 + 1 * hb.val = hb.val; rw [show win0_6.index t 2 = 0 from congrFun hi 2]; omega
  | ⟨3, _⟩ => show win0_6.index t 3 * 2 + 1 * b.val = b.val; rw [show win0_6.index t 3 = 0 from congrFun hi 3]; omega

theorem iblk7_apply (c : Dev nD) (t : Fin cfg0.N) (p : Fin 512) :
    (iblk m c 7 t : Vec F S1x512x1 .f32) (ix3 0 p 0)
      = (V m c main_v10 : S8x512x1.Idx → Elt F .f32) (ix3 ⟨t.val / 11, by have := lt88 t; omega⟩ p 0) := by
  have hi := idx0_7 t
  have ht := lt88 t
  unfold iblk
  rw [View.read_apply]
  show (V m c main_v10 : S8x512x1.Idx → Elt F .f32) _ = _
  congr 1
  funext a
  apply Fin.ext
  match a with
  | ⟨0, _⟩ => show win0_7.index t 0 * 1 + 1 * 0 = t.val / 11; rw [show win0_7.index t 0 = t.val / 11 from congrFun hi 0]; omega
  | ⟨1, _⟩ => show win0_7.index t 1 * 512 + 1 * p.val = p.val; rw [show win0_7.index t 1 = 0 from congrFun hi 1]; omega
  | ⟨2, _⟩ => show win0_7.index t 2 * 1 + 1 * 0 = 0; rw [show win0_7.index t 2 = 0 from congrFun hi 2]

/-! ## The output window -/

/-- A whole-array function read through the output window's block at point t: the group t / 44. -/
theorem oblk8_apply (G : S2x512x2048.Idx → Elt F .f32) (t : Fin cfg0.N) (p : Fin 512) (q : Fin 2048) :
    (((cfg0.win 8).blk t).view.read (Elt F) G : Vec F S1x512x2048 .f32) (ix3 0 p q)
      = G (ix3 ⟨t.val / 44, by have := lt88 t; omega⟩ p q) := by
  have hi := idx0_8 t
  have ht := lt88 t
  rw [View.read_apply]
  show G _ = _
  congr 1
  funext a
  apply Fin.ext
  match a with
  | ⟨0, _⟩ => show win0_8.index t 0 * 1 + 1 * 0 = t.val / 44; rw [show win0_8.index t 0 = t.val / 44 from congrFun hi 0]; omega
  | ⟨1, _⟩ => show win0_8.index t 1 * 512 + 1 * p.val = p.val; rw [show win0_8.index t 1 = 0 from congrFun hi 1]; omega
  | ⟨2, _⟩ => show win0_8.index t 2 * 2048 + 1 * q.val = q.val; rw [show win0_8.index t 2 = 0 from congrFun hi 2]; omega

/-- An index of the output array is in point t's block iff each coordinate is in the block's range on its axis. -/
theorem mem_blk8 (t : Fin cfg0.N) (i : S2x512x2048.Idx) :
    i ∈ ((cfg0.win 8).blk t).view.set ↔ ∀ a : Fin 3, win0_8.index t a * S1x512x2048.size a ≤ (i a).val ∧ (i a).val < win0_8.index t a * S1x512x2048.size a + S1x512x2048.size a := by
  show i ∈ ((View.whole main_v18).slice (win0_8.rect t)).set ↔ _
  rw [View.set_slice_whole, Rect.mem_set_unit]
  exact Iff.rfl

/-- Every index (g, p, q) of the output array lies in the block written back at the last step of group g, t = 44 g + 43. -/
theorem cover8 (i : S2x512x2048.Idx) :
    ∃ t : Fin cfg0.N, (cfg0.win 8).flush t = true ∧ i ∈ ((cfg0.win 8).blk t).view.set := by
  have h0 : (i 0).val < 2 := (i 0).isLt
  have h1 : (i 1).val < 512 := (i 1).isLt
  have h2 : (i 2).val < 2048 := (i 2).isLt
  refine ⟨⟨44 * (i 0).val + 43, by rw [N0]; omega⟩, (flush0_8 _).2 (by show (44 * (i 0).val + 43) % 44 = 43; omega), ?_⟩
  rw [mem_blk8]
  have hi := idx0_8 ⟨44 * (i 0).val + 43, by rw [N0]; omega⟩
  intro a
  match a with
  | ⟨0, _⟩ =>
    show win0_8.index _ 0 * 1 ≤ (i 0).val ∧ (i 0).val < win0_8.index _ 0 * 1 + 1
    rw [show win0_8.index _ 0 = (44 * (i 0).val + 43) / 44 from congrFun hi 0]; omega
  | ⟨1, _⟩ =>
    show win0_8.index _ 1 * 512 ≤ (i 1).val ∧ (i 1).val < win0_8.index _ 1 * 512 + 512
    rw [show win0_8.index _ 1 = 0 from congrFun hi 1]; omega
  | ⟨2, _⟩ =>
    show win0_8.index _ 2 * 2048 ≤ (i 2).val ∧ (i 2).val < win0_8.index _ 2 * 2048 + 2048
    rw [show win0_8.index _ 2 = 0 from congrFun hi 2]; omega

end Cert.KernelIdeal.Frame

end
-- ==== Proof.BodyTiles.lean ====
/-
  The dequantised weight tiles of the kernel body, read index by index.

  A gate (or up) weight tile is stored as a 256 × 2048 array with one scale per 128 × 128 block, the scales
  as a 2 × 16 array. The body views the tile as [2,128,16,128] (row = 128·a + b, column = 128·c + d),
  multiplies by the scales spread over the axes b and d, and views the product as 256 × 2048 again. Both
  views are row-major, so element (jj, k) of the result is the stored weight at (jj, k) times the scale of
  block (jj / 128, k / 128). The down weight tile is 2048 × 256 with a 16 × 2 array of scales, the same way.
-/
import proofs.«131321_j61254823576011_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx

variable [Cert.KernelIdeal.Facts]

/-! ## The row-major views between [256,2048] and [2,128,16,128] -/

section Views
variable {α : Type}

/-- [2,128,16,128] viewed as [256,2048]: element (jj, k) is element (jj / 128, jj % 128, k / 128, k % 128). -/
theorem cast_4_to_2_gate (v : S2x128x16x128.Idx → α) (h : S2x128x16x128.ShapeCasts S256x2048) (jj : Fin 256) (k : Fin 2048) :
    shapeCast S256x2048 v h (ix2 jj k)
      = v (ix4 (⟨jj.val / 128, by omega⟩ : Fin 2) (⟨jj.val % 128, by omega⟩ : Fin 128)
            (⟨k.val / 128, by omega⟩ : Fin 16) (⟨k.val % 128, by omega⟩ : Fin 128)) :=
  shapeCast_apply v h _ _ (by
    rw [Shape.rowMajor_val_four, Shape.rowMajor_val_two]
    show ((jj.val / 128 * 128 + jj.val % 128) * 16 + k.val / 128) * 128 + k.val % 128 = jj.val * 2048 + k.val
    omega)

/-- [256,2048] viewed as [2,128,16,128], read at the four coordinates of (jj, k): element (jj, k). -/
theorem cast_2_to_4_gate (v : S256x2048.Idx → α) (h : S256x2048.ShapeCasts S2x128x16x128) (jj : Fin 256) (k : Fin 2048) :
    shapeCast S2x128x16x128 v h (ix4 (⟨jj.val / 128, by omega⟩ : Fin 2) (⟨jj.val % 128, by omega⟩ : Fin 128)
        (⟨k.val / 128, by omega⟩ : Fin 16) (⟨k.val % 128, by omega⟩ : Fin 128))
      = v (ix2 jj k) :=
  shapeCast_apply v h _ _ (by
    rw [Shape.rowMajor_val_four, Shape.rowMajor_val_two]
    show jj.val * 2048 + k.val = ((jj.val / 128 * 128 + jj.val % 128) * 16 + k.val / 128) * 128 + k.val % 128
    omega)

/-- The scales [2,1,16,1] spread to [2,128,16,128]: element (a, b, c, d) is scale (a, 0, c, 0). -/
theorem spread_gate (v : S2x1x16x1.Idx → α) (h : S2x1x16x1.Broadcasts S2x128x16x128)
    (a : Fin 2) (b : Fin 128) (c : Fin 16) (d : Fin 128) :
    broadcastTo S2x128x16x128 v h (ix4 a b c d) = v (ix4 a (0 : Fin 1) c (0 : Fin 1)) :=
  broadcastTo_apply v h _ _ (fun x => match x with
    | ⟨0, _⟩ => rfl
    | ⟨1, _⟩ => rfl
    | ⟨2, _⟩ => rfl
    | ⟨3, _⟩ => rfl)

/-- The scales [2,16] viewed as [2,1,16,1]. -/
theorem cast_scale_4_gate (v : S2x16.Idx → α) (h : S2x16.ShapeCasts S2x1x16x1) (a : Fin 2) (c : Fin 16) :
    shapeCast S2x1x16x1 v h (ix4 a (0 : Fin 1) c (0 : Fin 1)) = v (ix2 a c) :=
  shapeCast_apply v h _ _ (by
    rw [Shape.rowMajor_val_four, Shape.rowMajor_val_two]
    show a.val * 16 + c.val = ((a.val * 1 + 0) * 16 + c.val) * 1 + 0
    omega)

/-- The scale block [1,1,2,16] viewed as [2,16]. -/
theorem cast_scale_2_gate (v : S1x1x2x16.Idx → α) (h : S1x1x2x16.ShapeCasts S2x16) (a : Fin 2) (c : Fin 16) :
    shapeCast S2x16 v h (ix2 a c) = v (ix4 (0 : Fin 1) (0 : Fin 1) a c) :=
  shapeCast_apply v h _ _ (by
    rw [Shape.rowMajor_val_four, Shape.rowMajor_val_two]
    show ((0 * 1 + 0) * 2 + a.val) * 16 + c.val = a.val * 16 + c.val
    omega)

end Views

/-! ## The gate and up tiles -/

/-- The dequantised gate tile at (jj, k): the stored weight times the scale of its 128 × 128 block. -/
theorem pay4_apply (wg : Vec Ideal S1x256x2048 .f32) (gs : Vec Ideal S1x1x2x16 .f32) (jj : Fin 256) (k : Fin 2048) :
    k0_pay4 (F := Ideal) wg gs (ix2 jj k)
      = wg (ix3 (0 : Fin 1) jj k)
          * gs (ix4 (0 : Fin 1) (0 : Fin 1) (⟨jj.val / 128, by omega⟩ : Fin 2) (⟨k.val / 128, by omega⟩ : Fin 16)) := by
  unfold k0_pay4
  rw [truncf_apply, cast_4_to_2_gate, mulf_apply, cast_2_to_4_gate, shapeCast_1ab_ab_apply, spread_gate,
    cast_scale_4_gate, cast_scale_2_gate]

/-- The dequantised up tile at (jj, k), the same way. -/
theorem pay5_apply (wu : Vec Ideal S1x256x2048 .f32) (us : Vec Ideal S1x1x2x16 .f32) (jj : Fin 256) (k : Fin 2048) :
    k0_pay5 (F := Ideal) wu us (ix2 jj k)
      = wu (ix3 (0 : Fin 1) jj k)
          * us (ix4 (0 : Fin 1) (0 : Fin 1) (⟨jj.val / 128, by omega⟩ : Fin 2) (⟨k.val / 128, by omega⟩ : Fin 16)) := by
  unfold k0_pay5
  rw [truncf_apply, cast_4_to_2_gate, mulf_apply, cast_2_to_4_gate, shapeCast_1ab_ab_apply, spread_gate,
    cast_scale_4_gate, cast_scale_2_gate]

/-! ## The down tile: [2048,256] and [16,128,2,128] -/

section ViewsDown
variable {α : Type}

/-- [16,128,2,128] viewed as [2048,256]: element (q, jj) is element (q / 128, q % 128, jj / 128, jj % 128). -/
theorem cast_4_to_2_down (v : S16x128x2x128.Idx → α) (h : S16x128x2x128.ShapeCasts S2048x256) (q : Fin 2048) (jj : Fin 256) :
    shapeCast S2048x256 v h (ix2 q jj)
      = v (ix4 (⟨q.val / 128, by omega⟩ : Fin 16) (⟨q.val % 128, by omega⟩ : Fin 128)
            (⟨jj.val / 128, by omega⟩ : Fin 2) (⟨jj.val % 128, by omega⟩ : Fin 128)) :=
  shapeCast_apply v h _ _ (by
    rw [Shape.rowMajor_val_four, Shape.rowMajor_val_two]
    show ((q.val / 128 * 128 + q.val % 128) * 2 + jj.val / 128) * 128 + jj.val % 128 = q.val * 256 + jj.val
    omega)

/-- [2048,256] viewed as [16,128,2,128], read at the four coordinates of (q, jj): element (q, jj). -/
theorem cast_2_to_4_down (v : S2048x256.Idx → α) (h : S2048x256.ShapeCasts S16x128x2x128) (q : Fin 2048) (jj : Fin 256) :
    shapeCast S16x128x2x128 v h (ix4 (⟨q.val / 128, by omega⟩ : Fin 16) (⟨q.val % 128, by omega⟩ : Fin 128)
        (⟨jj.val / 128, by omega⟩ : Fin 2) (⟨jj.val % 128, by omega⟩ : Fin 128))
      = v (ix2 q jj) :=
  shapeCast_apply v h _ _ (by
    rw [Shape.rowMajor_val_four, Shape.rowMajor_val_two]
    show q.val * 256 + jj.val = ((q.val / 128 * 128 + q.val % 128) * 2 + jj.val / 128) * 128 + jj.val % 128
    omega)

/-- The scales [16,1,2,1] spread to [16,128,2,128]: element (a, b, c, d) is scale (a, 0, c, 0). -/
theorem spread_down (v : S16x1x2x1.Idx → α) (h : S16x1x2x1.Broadcasts S16x128x2x128)
    (a : Fin 16) (b : Fin 128) (c : Fin 2) (d : Fin 128) :
    broadcastTo S16x128x2x128 v h (ix4 a b c d) = v (ix4 a (0 : Fin 1) c (0 : Fin 1)) :=
  broadcastTo_apply v h _ _ (fun x => match x with
    | ⟨0, _⟩ => rfl
    | ⟨1, _⟩ => rfl
    | ⟨2, _⟩ => rfl
    | ⟨3, _⟩ => rfl)

/-- The scales [16,2] viewed as [16,1,2,1]. -/
theorem cast_scale_4_down (v : S16x2.Idx → α) (h : S16x2.ShapeCasts S16x1x2x1) (a : Fin 16) (c : Fin 2) :
    shapeCast S16x1x2x1 v h (ix4 a (0 : Fin 1) c (0 : Fin 1)) = v (ix2 a c) :=
  shapeCast_apply v h _ _ (by
    rw [Shape.rowMajor_val_four, Shape.rowMajor_val_two]
    show a.val * 2 + c.val = ((a.val * 1 + 0) * 2 + c.val) * 1 + 0
    omega)

/-- The scale block [1,1,16,2] viewed as [16,2]. -/
theorem cast_scale_2_down (v : S1x1x16x2.Idx → α) (h : S1x1x16x2.ShapeCasts S16x2) (a : Fin 16) (c : Fin 2) :
    shapeCast S16x2 v h (ix2 a c) = v (ix4 (0 : Fin 1) (0 : Fin 1) a c) :=
  shapeCast_apply v h _ _ (by
    rw [Shape.rowMajor_val_four, Shape.rowMajor_val_two]
    show ((0 * 1 + 0) * 16 + a.val) * 2 + c.val = a.val * 2 + c.val
    omega)

end ViewsDown

/-- The stored down tile in its four-axis view, read at the four coordinates of (q, jj). -/
theorem pay6_apply (w2 : Vec Ideal S1x2048x256 .f32) (q : Fin 2048) (jj : Fin 256) :
    k0_pay6 (F := Ideal) w2 (ix4 (⟨q.val / 128, by omega⟩ : Fin 16) (⟨q.val % 128, by omega⟩ : Fin 128)
        (⟨jj.val / 128, by omega⟩ : Fin 2) (⟨jj.val % 128, by omega⟩ : Fin 128))
      = w2 (ix3 (0 : Fin 1) q jj) := by
  unfold k0_pay6
  rw [cast_2_to_4_down, shapeCast_1ab_ab_apply]

/-- The down scales spread over the four-axis view: at (a, b, c, d) the scale of block (a, c). -/
theorem pay7_apply (w2s : Vec Ideal S1x1x16x2 .f32) (a : Fin 16) (b : Fin 128) (c : Fin 2) (d : Fin 128) :
    k0_pay7 (F := Ideal) w2s (ix4 a b c d) = w2s (ix4 (0 : Fin 1) (0 : Fin 1) a c) := by
  unfold k0_pay7
  rw [spread_down, cast_scale_4_down, cast_scale_2_down]

/-- The dequantised down tile at (q, jj): the stored weight times the scale of its 128 × 128 block. -/
theorem down_apply (w2 : Vec Ideal S1x2048x256 .f32) (w2s : Vec Ideal S1x1x16x2 .f32) (q : Fin 2048) (jj : Fin 256) :
    shapeCast S2048x256 (mulf (k0_pay6 (F := Ideal) w2) (k0_pay7 (F := Ideal) w2s)) shapeCasts_S16x128x2x128_S2048x256 (ix2 q jj)
      = w2 (ix3 (0 : Fin 1) q jj)
          * w2s (ix4 (0 : Fin 1) (0 : Fin 1) (⟨q.val / 128, by omega⟩ : Fin 16) (⟨jj.val / 128, by omega⟩ : Fin 2)) := by
  rw [cast_4_to_2_down, mulf_apply, pay6_apply, pay7_apply]

end Cert.KernelIdeal.BodyValue

end
-- ==== Proof.BodyValue.lean ====
/-
  The kernel body's arithmetic, read index by index.

  One step of the body takes a tile of 256 intermediate columns: with the dequantised gate, up and down tiles
  Wg, Wu (256 × 2048) and W2 (2048 × 256) it forms G = x·Wgᵀ, U = x·Wuᵀ, the activation G·σ(G)·U, contracts it
  with W2 and adds the router coefficient times that product to the running total. Each matrix product into a
  zero accumulator is a plain sum over the contracted coordinate.
-/
import proofs.«131321_j61254823576011_2_alg».proof.Proof.BodyTiles

noncomputable section

namespace Cert.KernelIdeal.BodyValue

open Cert.KernelIdeal Cert.KernelIdeal.Gen Idealize.ShloMosaic Idealize.ShloMosaic.ValueIdx

variable [Cert.KernelIdeal.Facts]

/-! ## The two matrix products, into a zero accumulator -/

theorem matmul_up_lhs0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem matmul_up_rhs0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl

/-- x (512 × 2048) against a 256 × 2048 tile, contracting the 2048 columns of both: Σ_k x[p,k]·w[jj,k]. -/
theorem matmul_up_apply (x : FVec Ideal S512x2048 .bf16) (w : FVec Ideal S256x2048 .bf16) (p : Fin 512) (jj : Fin 256) :
    matmul (F := Ideal) dot_S512x2048_S256x2048_S512x256_1_1_0_0_n_n none x w (constant (F := Ideal) S512x256 .f32 0x00000000#32) (ix2 p jj)
      = ∑ k : Fin 2048, x (ix2 p k) * w (ix2 jj k) := by
  simp only [matmul]
  rw [Ideal.matmul_constant_zero_apply, ← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p jj) ((contrEquiv1 dot_S512x2048_S256x2048_S512x256_1_1_0_0_n_n 2048 rfl rfl).symm k) = ix2 p k := funext fun a => Fin.ext (by
    match a with
    | ⟨0, _⟩ => exact matmul_up_lhs0 _ _
    | ⟨1, _⟩ => exact (dot_S512x2048_S256x2048_S512x256_1_1_0_0_n_n.lhsIdx_val_of_single rfl _ _).trans hk)
  have er : dot_S512x2048_S256x2048_S512x256_1_1_0_0_n_n.rhsIdx (ix2 p jj) ((contrEquiv1 dot_S512x2048_S256x2048_S512x256_1_1_0_0_n_n 2048 rfl rfl).symm k) = ix2 jj k := funext fun a => Fin.ext (by
    match a with
    | ⟨0, _⟩ => exact matmul_up_rhs0 _ _
    | ⟨1, _⟩ => exact (dot_S512x2048_S256x2048_S512x256_1_1_0_0_n_n.rhsIdx_val_of_single rfl _ _).trans hk)
  rw [el, er]

theorem matmul_down_lhs0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem matmul_down_rhs0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl

/-- The activation (512 × 256) against the 2048 × 256 down tile, contracting the 256 columns of both: Σ_j a[p,j]·w[q,j]. -/
theorem matmul_down_apply (x : FVec Ideal S512x256 .bf16) (w : FVec Ideal S2048x256 .bf16) (p : Fin 512) (jj : Fin 2048) :
    matmul (F := Ideal) dot_S512x256_S2048x256_S512x2048_1_1_0_0_n_n none x w (constant (F := Ideal) S512x2048 .f32 0x00000000#32) (ix2 p jj)
      = ∑ k : Fin 256, x (ix2 p k) * w (ix2 jj k) := by
  simp only [matmul]
  rw [Ideal.matmul_constant_zero_apply, ← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 p jj) ((contrEquiv1 dot_S512x256_S2048x256_S512x2048_1_1_0_0_n_n 256 rfl rfl).symm k) = ix2 p k := funext fun a => Fin.ext (by
    match a with
    | ⟨0, _⟩ => exact matmul_down_lhs0 _ _
    | ⟨1, _⟩ => exact (dot_S512x256_S2048x256_S512x2048_1_1_0_0_n_n.lhsIdx_val_of_single rfl _ _).trans hk)
  have er : dot_S512x256_S2048x256_S512x2048_1_1_0_0_n_n.rhsIdx (ix2 p jj) ((contrEquiv1 dot_S512x256_S2048x256_S512x2048_1_1_0_0_n_n 256 rfl rfl).symm k) = ix2 jj k := funext fun a => Fin.ext (by
    match a with
    | ⟨0, _⟩ => exact matmul_down_rhs0 _ _
    | ⟨1, _⟩ => exact (dot_S512x256_S2048x256_S512x2048_1_1_0_0_n_n.rhsIdx_val_of_single rfl _ _).trans hk)
  rw [el, er]

/-! ## The accumulation step -/

/-- A [512,1] column spread to [512,2048]: element (p, q) is element (p, 0). -/
theorem spread_coef {α : Type} (v : S512x1.Idx → α) (h : S512x1.Broadcasts S512x2048) (p : Fin 512) (q : Fin 2048) :
    broadcastTo S512x2048 v h (ix2 p q) = v (ix2 p (0 : Fin 1)) :=
  broadcastTo_apply v h _ _ (fun x => match x with
    | ⟨0, _⟩ => rfl
    | ⟨1, _⟩ => rfl)

/-- The logistic function at an index is the logistic function of the element. -/
theorem logistic_apply {s : Shape} {φ : FTy} (a : FVec Ideal s φ) (i : s.Idx) :
    logistic (F := Ideal) a i = Ideal.logistic (a i) := rfl

/-- One step of the body at (p, q): the running total plus the router coefficient times the tile's contraction of the
    activation G·σ(G)·U with the down tile, G and U the tokens against the gate and up tiles. -/
theorem pay1_apply (v14 v24 : FVec Ideal S256x2048 .bf16) (v27 v31 : FVec Ideal S16x128x2x128 .f32)
    (x : Vec Ideal S512x2048 .bf16) (acc : Vec Ideal S512x2048 .f32) (cf : Vec Ideal S1x512x1 .f32)
    (p : Fin 512) (q : Fin 2048) :
    k0_pay1 (F := Ideal) v14 v24 v27 v31 x acc cf (ix2 p q)
      = acc (ix2 p q) + cf (ix3 (0 : Fin 1) p (0 : Fin 1)) * ∑ jj : Fin 256,
          ((∑ k : Fin 2048, x (ix2 p k) * v14 (ix2 jj k))
              * Ideal.logistic (∑ k : Fin 2048, x (ix2 p k) * v14 (ix2 jj k))
              * (∑ k : Fin 2048, x (ix2 p k) * v24 (ix2 jj k)))
            * shapeCast S2048x256 (mulf v27 v31) shapeCasts_S16x128x2x128_S2048x256 (ix2 q jj) := by
  unfold k0_pay1
  rw [shapeCast_self, addf_apply, mulf_apply, spread_coef, shapeCast_1ab_ab_apply, matmul_down_apply]
  refine congrArg (fun s => acc (ix2 p q) + cf (ix3 (0 : Fin 1) p (0 : Fin 1)) * s) (Finset.sum_congr rfl fun jj _ => ?_)
  rw [truncf_apply, truncf_apply, mulf_apply, mulf_apply, shapeCast_self, logistic_apply, matmul_up_apply, matmul_up_apply]

/-! ## The zero fill and the copy-out -/

/-- The zero fill of the running total. -/
theorem pay3_apply (p : Fin 512) (q : Fin 2048) : k0_pay3 (F := Ideal) (ix2 p q) = 0 := by
  unfold k0_pay3
  rw [shapeCast_self, broadcast_apply]
  exact Ideal.ofBits_zero_f32

/-- The copy-out gives the running total a leading unit axis. -/
theorem pay2_apply (v : Vec Ideal S512x2048 .f32) (p : Fin 512) (q : Fin 2048) :
    k0_pay2 (F := Ideal) v (ix3 (0 : Fin 1) p q) = v (ix2 p q) := by
  unfold k0_pay2
  rw [shapeCast_ab_1ab_apply]

/-! ## The step over the stored blocks -/

/-- One step of the body at (p, q) in terms of the stored weight and scale blocks: the tiles are the stored weights
    times their 128 × 128 blocks' scales. -/
theorem body_apply (wg : Vec Ideal S1x256x2048 .f32) (gs : Vec Ideal S1x1x2x16 .f32)
    (wu : Vec Ideal S1x256x2048 .f32) (us : Vec Ideal S1x1x2x16 .f32)
    (w2 : Vec Ideal S1x2048x256 .f32) (w2s : Vec Ideal S1x1x16x2 .f32)
    (x : Vec Ideal S512x2048 .bf16) (acc : Vec Ideal S512x2048 .f32) (cf : Vec Ideal S1x512x1 .f32)
    (p : Fin 512) (q : Fin 2048) :
    k0_pay1 (F := Ideal) (k0_pay4 (F := Ideal) wg gs) (k0_pay5 (F := Ideal) wu us) (k0_pay6 (F := Ideal) w2)
        (k0_pay7 (F := Ideal) w2s) x acc cf (ix2 p q)
      = acc (ix2 p q) + cf (ix3 (0 : Fin 1) p (0 : Fin 1)) * ∑ jj : Fin 256,
          ((∑ k : Fin 2048, x (ix2 p k) * (wg (ix3 (0 : Fin 1) jj k)
                * gs (ix4 (0 : Fin 1) (0 : Fin 1) (⟨jj.val / 128, by omega⟩ : Fin 2) (⟨k.val / 128, by omega⟩ : Fin 16))))
              * Ideal.logistic (∑ k : Fin 2048, x (ix2 p k) * (wg (ix3 (0 : Fin 1) jj k)
                * gs (ix4 (0 : Fin 1) (0 : Fin 1) (⟨jj.val / 128, by omega⟩ : Fin 2) (⟨k.val / 128, by omega⟩ : Fin 16))))
              * (∑ k : Fin 2048, x (ix2 p k) * (wu (ix3 (0 : Fin 1) jj k)
                * us (ix4 (0 : Fin 1) (0 : Fin 1) (⟨jj.val / 128, by omega⟩ : Fin 2) (⟨k.val / 128, by omega⟩ : Fin 16)))))
            * (w2 (ix3 (0 : Fin 1) q jj)
                * w2s (ix4 (0 : Fin 1) (0 : Fin 1) (⟨q.val / 128, by omega⟩ : Fin 16) (⟨jj.val / 128, by omega⟩ : Fin 2))) := by
  rw [pay1_apply]
  simp only [pay4_apply, pay5_apply, down_apply]

end Cert.KernelIdeal.BodyValue

end
-- ==== Proof.MoeSpec.lean ====
/-
  The mathematics of the block-scaled mixture-of-experts layer, stated once over plain coordinates.

  Inputs: tokens x[t,k] (512 × 2048); two routed expert numbers ids[t,s] and weights wts[t,s] per token;
  per expert e the stacked gate/up weights w13[e,r,k] (5632 × 2048, rows 0..2815 gate, rows 2816..5631 up)
  with one scale s13[e,r/128,k/128] per 128 × 128 block, and the down weights w2[e,h,j] (2048 × 2816) with
  scales s2[e,h/128,j/128].

  Per expert: the dequantised weights are weight × block scale; gate = x·Wg^T, up = x·Wu^T,
  act = gate·σ(gate)·up with σ the logistic function, out_e = act·W2^T, and the layer's result is
  Σ_e coef_e[t] · out_e[t,h], where coef_e[t] is the sum of the routed weights of token t that name expert e.

  Two arrangements of that sum are stated: the one that adds the eight experts in order from zero (`refOut`), and the
  one that walks two groups of four experts, each expert in eleven column tiles of 256, adding coef·(tile's partial
  product) into a running total from zero, and then adds the two group totals (`kerOut`).
-/
import Idealize.ShloMosaic.PureOps.Ideal
import Mathlib.Data.EReal.Basic
import Mathlib.Algebra.BigOperators.Fin

noncomputable section

namespace Cert.Moe

open Idealize.ShloMosaic

/-- The seven argument arrays, over plain coordinates. -/
structure Args where
  x : Fin 512 → Fin 2048 → EReal
  ids : Fin 512 → Fin 2 → BitVec 32
  wts : Fin 512 → Fin 2 → EReal
  w13 : Fin 8 → Fin 5632 → Fin 2048 → EReal
  s13 : Fin 8 → Fin 44 → Fin 16 → EReal
  w2 : Fin 8 → Fin 2048 → Fin 2816 → EReal
  s2 : Fin 8 → Fin 16 → Fin 22 → EReal

variable (a : Args)

/-- Row r, column k of expert e's dequantised gate/up weights: the stored value times its 128 × 128 block's scale. -/
def wd13 (e : Fin 8) (r : Fin 5632) (k : Fin 2048) : EReal :=
  a.w13 e r k * a.s13 e ⟨r.val / 128, by omega⟩ ⟨k.val / 128, by omega⟩

/-- Row h, column j of expert e's dequantised down weights. -/
def wd2 (e : Fin 8) (h : Fin 2048) (j : Fin 2816) : EReal :=
  a.w2 e h j * a.s2 e ⟨h.val / 128, by omega⟩ ⟨j.val / 128, by omega⟩

/-- The gate pre-activation of token t, intermediate column j, expert e. -/
def gate (e : Fin 8) (t : Fin 512) (j : Fin 2816) : EReal :=
  ∑ k : Fin 2048, a.x t k * wd13 a e ⟨j.val, by omega⟩ k

/-- The up projection: rows 2816 + j of the stacked weights. -/
def up (e : Fin 8) (t : Fin 512) (j : Fin 2816) : EReal :=
  ∑ k : Fin 2048, a.x t k * wd13 a e ⟨2816 + j.val, by omega⟩ k

/-- SwiGLU: gate · σ(gate) · up. -/
def act (e : Fin 8) (t : Fin 512) (j : Fin 2816) : EReal :=
  gate a e t j * Ideal.logistic (gate a e t j) * up a e t j

/-- The router coefficient of expert e for token t: the routed weights whose expert number is e, added up. -/
def coef (e : Fin 8) (t : Fin 512) : EReal :=
  ∑ s : Fin 2, if a.ids t s = BitVec.ofNat 32 e.val then a.wts t s else 0

/-- Expert e's whole output: the contraction over all 2816 intermediate columns. -/
def outE (e : Fin 8) (t : Fin 512) (h : Fin 2048) : EReal :=
  ∑ j : Fin 2816, act a e t j * wd2 a e h j

/-- The experts added in order from zero: ((0 + c₀·o₀) + c₁·o₁) + … + c₇·o₇. -/
def refAcc (t : Fin 512) (h : Fin 2048) : (n : Nat) → n ≤ 8 → EReal
  | 0, _ => 0
  | n + 1, hn => refAcc t h n (by omega) + coef a ⟨n, by omega⟩ t * outE a ⟨n, by omega⟩ t h

def refOut (t : Fin 512) (h : Fin 2048) : EReal := refAcc a t h 8 (le_refl 8)

/-- Column tile i (256 columns) of expert e's contraction. -/
def tileOut (e : Fin 8) (i : Fin 11) (t : Fin 512) (h : Fin 2048) : EReal :=
  ∑ jj : Fin 256, act a e t ⟨256 * i.val + jj.val, by omega⟩ * wd2 a e h ⟨256 * i.val + jj.val, by omega⟩

/-- The running total of group g after n of its 44 steps (step n is expert 4g + n/11, tile n%11), from zero. -/
def grpAcc (g : Fin 2) (t : Fin 512) (h : Fin 2048) : (n : Nat) → n ≤ 44 → EReal
  | 0, _ => 0
  | n + 1, hn => grpAcc g t h n (by omega)
      + coef a ⟨4 * g.val + n / 11, by omega⟩ t * tileOut a ⟨4 * g.val + n / 11, by omega⟩ ⟨n % 11, Nat.mod_lt _ (by decide)⟩ t h

/-- The two group totals added from zero. -/
def kerOut (t : Fin 512) (h : Fin 2048) : EReal :=
  0 + ∑ g : Fin 2, grpAcc a g t h 44 (le_refl 44)

/-- Every float entry of every argument array is a real number. -/
structure Args.Real : Prop where
  x : ∀ t k, ∃ r : ℝ, a.x t k = r
  wts : ∀ t s, ∃ r : ℝ, a.wts t s = r
  w13 : ∀ e r k, ∃ v : ℝ, a.w13 e r k = v
  s13 : ∀ e r k, ∃ v : ℝ, a.s13 e r k = v
  w2 : ∀ e h j, ∃ v : ℝ, a.w2 e h j = v
  s2 : ∀ e h j, ∃ v : ℝ, a.s2 e h j = v

end Cert.Moe

end
-- ==== Proof.MoeArgs.lean ====
/-
  The argument arrays of the printed programs, as the plain-coordinate arguments of the specification.
-/
import proofs.«131321_j61254823576011_2_alg».proof.Proof.MoeSpec
import Idealize.ShloMosaic.Lib.ValueIdx

noncomputable section

namespace Cert.Moe

open Idealize.ShloMosaic Idealize.ShloMosaic.ValueIdx

/-- The seven arrays, indexed by their shapes' index types, read at coordinates. -/
def Args.ofArrays
    (x0 : (⟨2, ![512, 2048]⟩ : Shape).Idx → EReal) (x1 : (⟨2, ![512, 2]⟩ : Shape).Idx → BitVec 32)
    (x2 : (⟨2, ![512, 2]⟩ : Shape).Idx → EReal) (x3 : (⟨3, ![8, 5632, 2048]⟩ : Shape).Idx → EReal)
    (x4 : (⟨3, ![8, 44, 16]⟩ : Shape).Idx → EReal) (x5 : (⟨3, ![8, 2048, 2816]⟩ : Shape).Idx → EReal)
    (x6 : (⟨3, ![8, 16, 22]⟩ : Shape).Idx → EReal) : Args where
  x t k := x0 (ix2 t k)
  ids t s := x1 (ix2 t s)
  wts t s := x2 (ix2 t s)
  w13 e r k := x3 (ix3 e r k)
  s13 e r k := x4 (ix3 e r k)
  w2 e h j := x5 (ix3 e h j)
  s2 e h j := x6 (ix3 e h j)

end Cert.Moe

end
-- ==== Proof.HostPrefix.lean ====
/-
  The host operations that run before the kernel is launched, read index by index: what each buffer the
  kernel's windows stage holds, as a function of the seven argument arrays.
-/
import proofs.«131321_j61254823576011_2_alg».proof.Proof.Gen.KernelIdeal.Launch
import proofs.«131321_j61254823576011_2_alg».proof.Proof.MoeArgs
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## The operations' terms, as functions of the argument arrays -/

/-- The gate rows' block scales: rows 0 … 21 of the stacked scales, the row axis split as 11 × 2. -/
def gateScales (x4 : (⟨S8x44x16, .f32⟩ : BufTy).Contents (Elt F)) : (⟨S8x11x2x16, .f32⟩ : BufTy).Contents (Elt F) :=
  shapeCast S8x11x2x16 (extractStridedSlice S8x22x16 ![0, 0, 0] x4 slices_S8x44x16_S8x22x16_0_0_0) shapeCasts_S8x22x16_S8x11x2x16

/-- The up rows' block scales: rows 22 … 43 of the stacked scales, the row axis split as 11 × 2. -/
def upScales (x4 : (⟨S8x44x16, .f32⟩ : BufTy).Contents (Elt F)) : (⟨S8x11x2x16, .f32⟩ : BufTy).Contents (Elt F) :=
  shapeCast S8x11x2x16 (extractStridedSlice S8x22x16 ![0, 22, 0] x4 slices_S8x44x16_S8x22x16_0_22_0) shapeCasts_S8x22x16_S8x11x2x16

/-- The down weights' block scales: the column-block axis split as 11 × 2 and moved in front of the row-block axis. -/
def downScales (x6 : (⟨S8x16x22, .f32⟩ : BufTy).Contents (Elt F)) : (⟨S8x11x16x2, .f32⟩ : BufTy).Contents (Elt F) :=
  transpose S8x11x16x2 [0, 2, 1, 3] (shapeCast S8x16x11x2 x6 shapeCasts_S8x16x22_S8x16x11x2) transposes_S8x16x11x2_S8x11x16x2_0_2_1_3

/-- Where token t's routed slot s names expert e: the expert numbers against the experts' own numbers 0 … 7. -/
def routeMask (x1 : (⟨S512x2, .i32⟩ : BufTy).Contents (Elt F)) : (⟨S512x2x8, .i1⟩ : BufTy).Contents (Elt F) :=
  cmpi .eq
    (broadcastInDim S512x2x8 ![0, 1, 2] bcast_S512x2x1_S512x2x8_0_1_2 (broadcastInDim S512x2x1 ![0, 1] bcast_S512x2_S512x2x1_0_1 x1))
    (broadcastInDim S512x2x8 ![0, 1, 2] bcast_S1x1x8_S512x2x8_0_1_2 (broadcastInDim S1x1x8 ![2] bcast_S8_S1x1x8_2 (iotaInDim S8 32 0)))

/-- The routed weight of slot s of token t where it names expert e, zero elsewhere. -/
def routedWeights (x1 : (⟨S512x2, .i32⟩ : BufTy).Contents (Elt F)) (x2 : (⟨S512x2, .f32⟩ : BufTy).Contents (Elt F)) :
    (⟨S512x2x8, .f32⟩ : BufTy).Contents (Elt F) :=
  select (routeMask (F := F) x1)
    (broadcastInDim S512x2x8 ![0, 1, 2] bcast_S512x2x1_S512x2x8_0_1_2 (broadcastInDim S512x2x1 ![0, 1] bcast_S512x2_S512x2x1_0_1 x2))
    (broadcastInDim S512x2x8 ![] bcast_S_S512x2x8 (id (constant (F := F) S_ .f32 0x00000000#32)))

/-- The router coefficients: the routed weights added over the two slots, expert-major, with a trailing unit axis. -/
def coefArr (x1 : (⟨S512x2, .i32⟩ : BufTy).Contents (Elt F)) (x2 : (⟨S512x2, .f32⟩ : BufTy).Contents (Elt F)) :
    (⟨S8x512x1, .f32⟩ : BufTy).Contents (Elt F) :=
  broadcastInDim S8x512x1 ![0, 1] bcast_S8x512_S8x512x1_0_1
    (transpose S8x512 [1, 0]
      (Host.reduceAdd (routedWeights (F := F) x1 x2) (constant (F := F) S_ .f32 0x00000000#32) reducesTo_S512x2x8_S512x8_d1 h_S_)
      transposes_S512x8_S8x512_1_0)

/-! ## What the kernel finds in each buffer -/

section Terms

variable (m : (ℓ : Loc nD τ sig) → Buf (Elt F) ℓ)

/-- What core `c`'s TensorCore buffer `b` holds when the kernel is launched: the launch contents after the host
    operations that precede the launch. -/
abbrev Vpre (c : Dev nD) (b : Ref sig .tc) : Buf (Elt F) ((c : Thread nD τ).loc b) :=
  StableHlo.after (List.flatten [hostOps0, hostOps0_1, hostOps0_2]) (fun b => m (c, b)) (Proc.devRef .tc b)

/-- The tokens, converted to bf16. -/
theorem V_main_v17 (c : Dev nD) :
    (Vpre m c main_v17 : (⟨S512x2048, .bf16⟩ : BufTy).Contents (Elt F))
      = truncf .bf16 (m ((c : Thread nD τ).loc main_arg0) : (⟨S512x2048, .f32⟩ : BufTy).Contents (Elt F)) bitsLt_bf16_f32 := by
  dsimp only [Vpre]
  simp only [hostOps0, hostOps0_1, hostOps0_2, List.flatten_cons, List.flatten_nil, List.append_nil, List.cons_append,
    List.nil_append]
  after_results

theorem V_main_v12 (c : Dev nD) :
    (Vpre m c main_v12 : (⟨S8x11x2x16, .f32⟩ : BufTy).Contents (Elt F)) = gateScales (F := F) (m ((c : Thread nD τ).loc main_arg4)) := by
  dsimp only [Vpre]
  simp only [hostOps0, hostOps0_1, hostOps0_2, List.flatten_cons, List.flatten_nil, List.append_nil, List.cons_append,
    List.nil_append]
  after_results
  rfl

theorem V_main_v14 (c : Dev nD) :
    (Vpre m c main_v14 : (⟨S8x11x2x16, .f32⟩ : BufTy).Contents (Elt F)) = upScales (F := F) (m ((c : Thread nD τ).loc main_arg4)) := by
  dsimp only [Vpre]
  simp only [hostOps0, hostOps0_1, hostOps0_2, List.flatten_cons, List.flatten_nil, List.append_nil, List.cons_append,
    List.nil_append]
  after_results
  rfl

theorem V_main_v16 (c : Dev nD) :
    (Vpre m c main_v16 : (⟨S8x11x16x2, .f32⟩ : BufTy).Contents (Elt F)) = downScales (F := F) (m ((c : Thread nD τ).loc main_arg6)) := by
  dsimp only [Vpre]
  simp only [hostOps0, hostOps0_1, hostOps0_2, List.flatten_cons, List.flatten_nil, List.append_nil, List.cons_append,
    List.nil_append]
  after_results
  rfl

theorem V_main_v10 (c : Dev nD) :
    (Vpre m c main_v10 : (⟨S8x512x1, .f32⟩ : BufTy).Contents (Elt F))
      = coefArr (F := F) (m ((c : Thread nD τ).loc main_arg1)) (m ((c : Thread nD τ).loc main_arg2)) := by
  dsimp only [Vpre]
  simp only [hostOps0, hostOps0_1, hostOps0_2, List.flatten_cons, List.flatten_nil, List.append_nil, List.cons_append,
    List.nil_append]
  after_results
  rfl

/-- No host operation writes the stacked gate/up weights: the kernel finds them as launched. -/
theorem V_main_arg3 (c : Dev nD) : Vpre m c main_arg3 = m ((c : Thread nD τ).loc main_arg3) := by
  dsimp only [Vpre]
  simp only [hostOps0, hostOps0_1, hostOps0_2, List.flatten_cons, List.flatten_nil, List.append_nil, List.cons_append,
    List.nil_append]
  after_results

/-- No host operation writes the down weights: the kernel finds them as launched. -/
theorem V_main_arg5 (c : Dev nD) : Vpre m c main_arg5 = m ((c : Thread nD τ).loc main_arg5) := by
  dsimp only [Vpre]
  simp only [hostOps0, hostOps0_1, hostOps0_2, List.flatten_cons, List.flatten_nil, List.append_nil, List.cons_append,
    List.nil_append]
  after_results

end Terms

/-! ## The layout operations read at an index -/

/-- Gate scale (e, i, b, kb) is the stacked scale of row block 2i + b. -/
theorem gateScales_apply (x4 : (⟨S8x44x16, .f32⟩ : BufTy).Contents (Elt F)) (e : Fin 8) (i : Fin 11) (b : Fin 2) (kb : Fin 16) :
    gateScales (F := F) x4 (ix4 e i b kb) = x4 (ix3 e (⟨2 * i.val + b.val, by omega⟩ : Fin 44) kb) := by
  unfold gateScales
  refine (shapeCast_apply _ shapeCasts_S8x22x16_S8x11x2x16 (ix4 e i b kb) (ix3 e (⟨2 * i.val + b.val, by omega⟩ : Fin 22) kb) ?_).trans ?_
  · rewrite [Shape.rowMajor_val_three, Shape.rowMajor_val_four]
    show (e.val * 22 + (2 * i.val + b.val)) * 16 + kb.val = ((e.val * 11 + i.val) * 2 + b.val) * 16 + kb.val
    omega
  · exact extractStridedSlice_apply ![0, 0, 0] x4 slices_S8x44x16_S8x22x16_0_0_0 _ _ (fun a => match a with
      | ⟨0, _⟩ => by show e.val = 0 + e.val; omega
      | ⟨1, _⟩ => by show 2 * i.val + b.val = 0 + (2 * i.val + b.val); omega
      | ⟨2, _⟩ => by show kb.val = 0 + kb.val; omega)

/-- Up scale (e, i, b, kb) is the stacked scale of row block 22 + 2i + b. -/
theorem upScales_apply (x4 : (⟨S8x44x16, .f32⟩ : BufTy).Contents (Elt F)) (e : Fin 8) (i : Fin 11) (b : Fin 2) (kb : Fin 16) :
    upScales (F := F) x4 (ix4 e i b kb) = x4 (ix3 e (⟨22 + 2 * i.val + b.val, by omega⟩ : Fin 44) kb) := by
  unfold upScales
  refine (shapeCast_apply _ shapeCasts_S8x22x16_S8x11x2x16 (ix4 e i b kb) (ix3 e (⟨2 * i.val + b.val, by omega⟩ : Fin 22) kb) ?_).trans ?_
  · rewrite [Shape.rowMajor_val_three, Shape.rowMajor_val_four]
    show (e.val * 22 + (2 * i.val + b.val)) * 16 + kb.val = ((e.val * 11 + i.val) * 2 + b.val) * 16 + kb.val
    omega
  · exact extractStridedSlice_apply ![0, 22, 0] x4 slices_S8x44x16_S8x22x16_0_22_0 _ _ (fun a => match a with
      | ⟨0, _⟩ => by show e.val = 0 + e.val; omega
      | ⟨1, _⟩ => by show 22 + 2 * i.val + b.val = 22 + (2 * i.val + b.val); omega
      | ⟨2, _⟩ => by show kb.val = 0 + kb.val; omega)

/-- Down scale (e, i, hb, b) is the stored scale of row block hb, column block 2i + b. -/
theorem downScales_apply (x6 : (⟨S8x16x22, .f32⟩ : BufTy).Contents (Elt F)) (e : Fin 8) (i : Fin 11) (hb : Fin 16) (b : Fin 2) :
    downScales (F := F) x6 (ix4 e i hb b) = x6 (ix3 e hb (⟨2 * i.val + b.val, by omega⟩ : Fin 22)) := by
  unfold downScales
  refine (transpose_apply [0, 2, 1, 3] _ transposes_S8x16x11x2_S8x11x16x2_0_2_1_3 (ix4 e i hb b) (ix4 e hb i b) (fun a => match a with
      | ⟨0, _⟩ => rfl
      | ⟨1, _⟩ => rfl
      | ⟨2, _⟩ => rfl
      | ⟨3, _⟩ => rfl)).trans ?_
  refine shapeCast_apply x6 shapeCasts_S8x16x22_S8x16x11x2 (ix4 e hb i b) (ix3 e hb (⟨2 * i.val + b.val, by omega⟩ : Fin 22)) ?_
  rewrite [Shape.rowMajor_val_three, Shape.rowMajor_val_four]
  show (e.val * 16 + hb.val) * 22 + (2 * i.val + b.val) = ((e.val * 16 + hb.val) * 11 + i.val) * 2 + b.val
  omega

/-! ## The router coefficients read at an index -/

/-- A select on an equality test of two words is the `if` on their equality. -/
theorem select_cmpi_eq {α : Type} {w : Nat} (a b : BitVec w) (A B : α) :
    Scalar.select (IntOp.cmpi .eq a b) A B = if a = b then A else B :=
  if_congr IntOp.cmpi_eq rfl rfl

/-- A per-slot array [512, 2] broadcast along a new expert axis reads its own entry whatever the expert. -/
theorem slotBroadcast_apply {α : Type} (x : S512x2.Idx → α) (t : Fin 512) (s : Fin 2) (e : Fin 8) :
    broadcastInDim S512x2x8 ![0, 1, 2] bcast_S512x2x1_S512x2x8_0_1_2
        (broadcastInDim S512x2x1 ![0, 1] bcast_S512x2_S512x2x1_0_1 x) (ix3 t s e) = x (ix2 t s) := by
  refine (broadcastInDim_apply _ bcast_S512x2x1_S512x2x8_0_1_2 _ (ix3 t s e) (ix3 t s (0 : Fin 1)) (fun a => match a with
    | ⟨0, _⟩ => by show t.val = if (512 : Nat) = 1 then 0 else t.val; rw [if_neg (by decide)]
    | ⟨1, _⟩ => by show s.val = if (2 : Nat) = 1 then 0 else s.val; rw [if_neg (by decide)]
    | ⟨2, _⟩ => by show 0 = if (1 : Nat) = 1 then 0 else e.val; rw [if_pos rfl])).trans ?_
  exact broadcastInDim_apply _ bcast_S512x2_S512x2x1_0_1 x (ix3 t s (0 : Fin 1)) (ix2 t s) (fun a => match a with
    | ⟨0, _⟩ => by show t.val = if (512 : Nat) = 1 then 0 else t.val; rw [if_neg (by decide)]
    | ⟨1, _⟩ => by show s.val = if (2 : Nat) = 1 then 0 else s.val; rw [if_neg (by decide)])

/-- The experts' own numbers broadcast over tokens and slots: at (t, s, e) the word of e. -/
theorem expertBroadcast_apply (t : Fin 512) (s : Fin 2) (e : Fin 8) :
    broadcastInDim S512x2x8 ![0, 1, 2] bcast_S1x1x8_S512x2x8_0_1_2
        (broadcastInDim S1x1x8 ![2] bcast_S8_S1x1x8_2 (iotaInDim S8 32 0)) (ix3 t s e) = BitVec.ofNat 32 e.val := by
  refine (broadcastInDim_apply _ bcast_S1x1x8_S512x2x8_0_1_2 _ (ix3 t s e) (ix3 (0 : Fin 1) (0 : Fin 1) e) (fun a => match a with
    | ⟨0, _⟩ => by show 0 = if (1 : Nat) = 1 then 0 else t.val; rw [if_pos rfl]
    | ⟨1, _⟩ => by show 0 = if (1 : Nat) = 1 then 0 else s.val; rw [if_pos rfl]
    | ⟨2, _⟩ => by show e.val = if (8 : Nat) = 1 then 0 else e.val; rw [if_neg (by decide)])).trans ?_
  refine (broadcastInDim_apply _ bcast_S8_S1x1x8_2 _ (ix3 (0 : Fin 1) (0 : Fin 1) e) (ix1 e) (fun a => match a with
    | ⟨0, _⟩ => by show e.val = if (8 : Nat) = 1 then 0 else e.val; rw [if_neg (by decide)])).trans ?_
  rfl

/-- The mask at (t, s, e): slot s of token t names expert e. -/
theorem routeMask_apply (x1 : (⟨S512x2, .i32⟩ : BufTy).Contents (Elt F)) (t : Fin 512) (s : Fin 2) (e : Fin 8) :
    routeMask (F := F) x1 (ix3 t s e) = IntOp.cmpi .eq (x1 (ix2 t s)) (BitVec.ofNat 32 e.val) := by
  unfold routeMask
  show IntOp.cmpi .eq _ _ = _
  rw [slotBroadcast_apply, expertBroadcast_apply]

/-- The routed weights at (t, s, e): the weight of slot s where it names expert e, zero elsewhere. -/
theorem routedWeights_apply (x1 : (⟨S512x2, .i32⟩ : BufTy).Contents (Elt Ideal)) (x2 : (⟨S512x2, .f32⟩ : BufTy).Contents (Elt Ideal))
    (t : Fin 512) (s : Fin 2) (e : Fin 8) :
    routedWeights (F := Ideal) x1 x2 (ix3 t s e) = (if x1 (ix2 t s) = BitVec.ofNat 32 e.val then x2 (ix2 t s) else 0 : EReal) := by
  unfold routedWeights
  show Scalar.select _ _ _ = _
  rw [routeMask_apply, slotBroadcast_apply, select_cmpi_eq]
  refine if_congr Iff.rfl rfl ?_
  refine (broadcastInDim_apply _ bcast_S_S512x2x8 _ (ix3 t s e) ix0 (fun a => a.elim0)).trans ?_
  exact Ideal.ofBits_zero_f32

/-- The router coefficient array at (e, t, 0): the sum over the two slots of token t of the weights routed to expert e. -/
theorem coefArr_apply (x1 : (⟨S512x2, .i32⟩ : BufTy).Contents (Elt Ideal)) (x2 : (⟨S512x2, .f32⟩ : BufTy).Contents (Elt Ideal))
    (e : Fin 8) (t : Fin 512) :
    coefArr (F := Ideal) x1 x2 (ix3 e t (0 : Fin 1))
      = ∑ s : Fin 2, (if x1 (ix2 t s) = BitVec.ofNat 32 e.val then x2 (ix2 t s) else 0 : EReal) := by
  unfold coefArr
  refine (broadcastInDim_apply _ bcast_S8x512_S8x512x1_0_1 _ (ix3 e t (0 : Fin 1)) (ix2 e t) (fun a => match a with
    | ⟨0, _⟩ => by show e.val = if (8 : Nat) = 1 then 0 else e.val; rw [if_neg (by decide)]
    | ⟨1, _⟩ => by show t.val = if (512 : Nat) = 1 then 0 else t.val; rw [if_neg (by decide)])).trans ?_
  refine (transpose_apply [1, 0] _ transposes_S512x8_S8x512_1_0 (ix2 e t) (ix2 t e) (fun b => match b with
    | ⟨0, _⟩ => rfl
    | ⟨1, _⟩ => rfl)).trans ?_
  simp only [Host.reduceAdd, Ideal.hostReduceAdd_def]
  rw [Ideal.hostReduceAdd_single reducesTo_S512x2x8_S512x8_d1 (by decide)]
  rw [show (constant (F := Ideal) S_ .f32 0x00000000#32) (Shape.Idx.first h_S_) = (0 : EReal) from Ideal.ofBits_zero_f32, zero_add]
  refine Finset.sum_congr rfl fun k _ => ?_
  exact (congrArg (routedWeights (F := Ideal) x1 x2) (funext fun a => Fin.ext (by
    match a with | ⟨0, _⟩ => rfl | ⟨1, _⟩ => rfl | ⟨2, _⟩ => rfl))).trans (routedWeights_apply x1 x2 t k e)

/-! ## The kernel's buffers at an index, at the ideal values -/

section AtIdeal

variable (m : (ℓ : Loc nD τ sig) → Buf (Elt Ideal) ℓ) (c : Dev nD)

/-- The seven argument arrays as core `c` holds them at launch, as the specification's arguments. -/
abbrev argsAt : Cert.Moe.Args :=
  Cert.Moe.Args.ofArrays (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The staged tokens are the tokens: the change of format is the identity on extended reals. -/
theorem Vpre_v17_apply (t : Fin 512) (k : Fin 2048) :
    (Vpre m c main_v17 : (⟨S512x2048, .bf16⟩ : BufTy).Contents (Elt Ideal)) (ix2 t k)
      = (m ((c : Thread nD τ).loc main_arg0) : (⟨S512x2048, .f32⟩ : BufTy).Contents (Elt Ideal)) (ix2 t k) :=
  congrFun (V_main_v17 m c) (ix2 t k)

/-- The staged gate scales: entry (e, i, b, kb) is the stacked scale of expert e, row block 2i + b, column block kb. -/
theorem Vpre_v12_apply (e : Fin 8) (i : Fin 11) (b : Fin 2) (kb : Fin 16) :
    (Vpre m c main_v12 : (⟨S8x11x2x16, .f32⟩ : BufTy).Contents (Elt Ideal)) (ix4 e i b kb)
      = (m ((c : Thread nD τ).loc main_arg4) : (⟨S8x44x16, .f32⟩ : BufTy).Contents (Elt Ideal))
          (ix3 e (⟨2 * i.val + b.val, by omega⟩ : Fin 44) kb) :=
  (congrFun (V_main_v12 m c) (ix4 e i b kb)).trans (gateScales_apply _ e i b kb)

/-- The staged up scales: entry (e, i, b, kb) is the stacked scale of expert e, row block 22 + 2i + b, column block kb. -/
theorem Vpre_v14_apply (e : Fin 8) (i : Fin 11) (b : Fin 2) (kb : Fin 16) :
    (Vpre m c main_v14 : (⟨S8x11x2x16, .f32⟩ : BufTy).Contents (Elt Ideal)) (ix4 e i b kb)
      = (m ((c : Thread nD τ).loc main_arg4) : (⟨S8x44x16, .f32⟩ : BufTy).Contents (Elt Ideal))
          (ix3 e (⟨22 + 2 * i.val + b.val, by omega⟩ : Fin 44) kb) :=
  (congrFun (V_main_v14 m c) (ix4 e i b kb)).trans (upScales_apply _ e i b kb)

/-- The staged down scales: entry (e, i, hb, b) is the stored scale of expert e, row block hb, column block 2i + b. -/
theorem Vpre_v16_apply (e : Fin 8) (i : Fin 11) (hb : Fin 16) (b : Fin 2) :
    (Vpre m c main_v16 : (⟨S8x11x16x2, .f32⟩ : BufTy).Contents (Elt Ideal)) (ix4 e i hb b)
      = (m ((c : Thread nD τ).loc main_arg6) : (⟨S8x16x22, .f32⟩ : BufTy).Contents (Elt Ideal))
          (ix3 e hb (⟨2 * i.val + b.val, by omega⟩ : Fin 22)) :=
  (congrFun (V_main_v16 m c) (ix4 e i hb b)).trans (downScales_apply _ e i hb b)

/-- The staged router coefficients: entry (e, t, 0) is the specification's coefficient of expert e for token t. -/
theorem Vpre_v10_apply (e : Fin 8) (t : Fin 512) :
    (Vpre m c main_v10 : (⟨S8x512x1, .f32⟩ : BufTy).Contents (Elt Ideal)) (ix3 e t (0 : Fin 1))
      = Cert.Moe.coef (argsAt m c) e t :=
  (congrFun (V_main_v10 m c) (ix3 e t (0 : Fin 1))).trans (coefArr_apply _ _ e t)

/-- The same entries as the specification's arguments name them. -/
theorem Vpre_v17_args (t : Fin 512) (k : Fin 2048) :
    (Vpre m c main_v17 : (⟨S512x2048, .bf16⟩ : BufTy).Contents (Elt Ideal)) (ix2 t k) = (argsAt m c).x t k :=
  Vpre_v17_apply m c t k
theorem Vpre_v12_args (e : Fin 8) (i : Fin 11) (b : Fin 2) (kb : Fin 16) :
    (Vpre m c main_v12 : (⟨S8x11x2x16, .f32⟩ : BufTy).Contents (Elt Ideal)) (ix4 e i b kb)
      = (argsAt m c).s13 e (⟨2 * i.val + b.val, by omega⟩ : Fin 44) kb :=
  Vpre_v12_apply m c e i b kb
theorem Vpre_v14_args (e : Fin 8) (i : Fin 11) (b : Fin 2) (kb : Fin 16) :
    (Vpre m c main_v14 : (⟨S8x11x2x16, .f32⟩ : BufTy).Contents (Elt Ideal)) (ix4 e i b kb)
      = (argsAt m c).s13 e (⟨22 + 2 * i.val + b.val, by omega⟩ : Fin 44) kb :=
  Vpre_v14_apply m c e i b kb
theorem Vpre_v16_args (e : Fin 8) (i : Fin 11) (hb : Fin 16) (b : Fin 2) :
    (Vpre m c main_v16 : (⟨S8x11x16x2, .f32⟩ : BufTy).Contents (Elt Ideal)) (ix4 e i hb b)
      = (argsAt m c).s2 e hb (⟨2 * i.val + b.val, by omega⟩ : Fin 22) :=
  Vpre_v16_apply m c e i hb b
theorem Vpre_arg3_args (e : Fin 8) (r : Fin 5632) (k : Fin 2048) :
    (Vpre m c main_arg3 : (⟨S8x5632x2048, .f32⟩ : BufTy).Contents (Elt Ideal)) (ix3 e r k) = (argsAt m c).w13 e r k :=
  congrFun (V_main_arg3 m c) (ix3 e r k)
theorem Vpre_arg5_args (e : Fin 8) (h : Fin 2048) (j : Fin 2816) :
    (Vpre m c main_arg5 : (⟨S8x2048x2816, .f32⟩ : BufTy).Contents (Elt Ideal)) (ix3 e h j) = (argsAt m c).w2 e h j :=
  congrFun (V_main_arg5 m c) (ix3 e h j)

end AtIdeal

end Cert.KernelIdeal.HostPrefix

end
-- ==== Proof.KIStep.lean ====
/-
  One step of the accumulation at a coordinate, over the argument arrays: at point t the body adds to the running
  total the router coefficient of expert e = t / 11 times column tile i = t % 11 of that expert's contraction.

  The body's arithmetic at (p, q) is a sum over the tile's 256 columns of (gate · σ(gate) · up) times the dequantised
  down weight; each block the body reads is its array at the global coordinate (column 256 i + jj; gate row block
  2 i + jj / 128, up row block 22 + 2 i + jj / 128), and the arrays staged by the host are the argument arrays.
-/
import proofs.«131321_j61254823576011_2_alg».proof.Proof.KIValue
import proofs.«131321_j61254823576011_2_alg».proof.Proof.KIBlocks
import proofs.«131321_j61254823576011_2_alg».proof.Proof.BodyValue
import proofs.«131321_j61254823576011_2_alg».proof.Proof.HostPrefix

set_option maxRecDepth 16384

noncomputable section

namespace Cert.Moe

open Idealize.ShloMosaic

/-- A column tile's partial product written over the stored weights and their block scales: column 256 i + jj of
    the gate rows lies in row block 2 i + jj / 128, the same column of the up rows in row block 22 + 2 i + jj / 128. -/
theorem tileOut_eq (a : Args) (e : Fin 8) (i : Fin 11) (p : Fin 512) (q : Fin 2048) :
    tileOut a e i p q = ∑ jj : Fin 256,
      ((∑ k : Fin 2048, a.x p k * (a.w13 e ⟨256 * i.val + jj.val, by omega⟩ k
            * a.s13 e ⟨2 * i.val + jj.val / 128, by omega⟩ ⟨k.val / 128, by omega⟩))
        * Ideal.logistic (∑ k : Fin 2048, a.x p k * (a.w13 e ⟨256 * i.val + jj.val, by omega⟩ k
            * a.s13 e ⟨2 * i.val + jj.val / 128, by omega⟩ ⟨k.val / 128, by omega⟩))
        * (∑ k : Fin 2048, a.x p k * (a.w13 e ⟨2816 + 256 * i.val + jj.val, by omega⟩ k
            * a.s13 e ⟨22 + 2 * i.val + jj.val / 128, by omega⟩ ⟨k.val / 128, by omega⟩)))
      * (a.w2 e q ⟨256 * i.val + jj.val, by omega⟩ * a.s2 e ⟨q.val / 128, by omega⟩ ⟨2 * i.val + jj.val / 128, by omega⟩) := by
  unfold tileOut act gate up wd13 wd2
  refine Finset.sum_congr rfl fun jj _ => ?_
  have hj := jj.isLt
  have hi := i.isLt
  dsimp only
  have e1 : (256 * i.val + jj.val) / 128 = 2 * i.val + jj.val / 128 := by omega
  have e2 : (2816 + (256 * i.val + jj.val)) / 128 = 22 + 2 * i.val + jj.val / 128 := by omega
  have e3 : 2816 + (256 * i.val + jj.val) = 2816 + 256 * i.val + jj.val := by omega
  have e4 : (2816 + 256 * i.val + jj.val) / 128 = 22 + 2 * i.val + jj.val / 128 := by omega
  simp only [e1, e3, e4]

end Cert.Moe

namespace Cert.KernelIdeal.Frame

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- One step at (p, q): the previous total plus coefficient × tile product of expert t / 11, tile t % 11. -/
theorem step_apply (t : Fin cfg0.N) (acc : Vec Ideal S512x2048 .f32) (p : Fin 512) (q : Fin 2048) :
    stepV (iblk m c 0 t) (iblk m c 1 t) (iblk m c 2 t) (iblk m c 3 t) (iblk m c 4 t) (iblk m c 5 t) (iblk m c 6 t)
        (iblk m c 7 t) acc (ix2 p q)
      = acc (ix2 p q) + Cert.Moe.coef (HostPrefix.argsAt m c) ⟨t.val / 11, by have := lt88 t; omega⟩ p
          * Cert.Moe.tileOut (HostPrefix.argsAt m c) ⟨t.val / 11, by have := lt88 t; omega⟩
              ⟨t.val % 11, Nat.mod_lt _ (by decide)⟩ p q := by
  have h17 : ∀ (t : Fin 512) (k : Fin 2048), (V m c main_v17 : S512x2048.Idx → Elt Ideal .bf16) (ix2 t k)
      = (HostPrefix.argsAt m c).x t k := HostPrefix.Vpre_v17_args m c
  have h12 : ∀ (e : Fin 8) (i : Fin 11) (b : Fin 2) (kb : Fin 16), (V m c main_v12 : S8x11x2x16.Idx → Elt Ideal .f32) (ix4 e i b kb)
      = (HostPrefix.argsAt m c).s13 e (⟨2 * i.val + b.val, by omega⟩ : Fin 44) kb := HostPrefix.Vpre_v12_args m c
  have h14 : ∀ (e : Fin 8) (i : Fin 11) (b : Fin 2) (kb : Fin 16), (V m c main_v14 : S8x11x2x16.Idx → Elt Ideal .f32) (ix4 e i b kb)
      = (HostPrefix.argsAt m c).s13 e (⟨22 + 2 * i.val + b.val, by omega⟩ : Fin 44) kb := HostPrefix.Vpre_v14_args m c
  have h16 : ∀ (e : Fin 8) (i : Fin 11) (hb : Fin 16) (b : Fin 2), (V m c main_v16 : S8x11x16x2.Idx → Elt Ideal .f32) (ix4 e i hb b)
      = (HostPrefix.argsAt m c).s2 e hb (⟨2 * i.val + b.val, by omega⟩ : Fin 22) := HostPrefix.Vpre_v16_args m c
  have h3 : ∀ (e : Fin 8) (r : Fin 5632) (k : Fin 2048), (V m c main_arg3 : S8x5632x2048.Idx → Elt Ideal .f32) (ix3 e r k)
      = (HostPrefix.argsAt m c).w13 e r k := HostPrefix.Vpre_arg3_args m c
  have h5 : ∀ (e : Fin 8) (h : Fin 2048) (j : Fin 2816), (V m c main_arg5 : S8x2048x2816.Idx → Elt Ideal .f32) (ix3 e h j)
      = (HostPrefix.argsAt m c).w2 e h j := HostPrefix.Vpre_arg5_args m c
  have h10 : ∀ (e : Fin 8) (t : Fin 512), (V m c main_v10 : S8x512x1.Idx → Elt Ideal .f32) (ix3 e t (0 : Fin 1))
      = Cert.Moe.coef (HostPrefix.argsAt m c) e t := HostPrefix.Vpre_v10_apply m c
  unfold stepV
  rw [BodyValue.body_apply, Cert.Moe.tileOut_eq]
  simp only [iblk0_apply, iblk1_apply, iblk2_apply, iblk3_apply, iblk4_apply, iblk5_apply, iblk6_apply, iblk7_apply]
  simp only [h17, h12, h14, h16, h3, h5, h10]

end Cert.KernelIdeal.Frame

end
-- ==== Proof.TailValue.lean ====
/-
  The one host line after the kernel region: the two group totals [2,512,2048] are added over the group axis,
  from zero, into the [512,2048] result. Every other array keeps its contents.
-/
import proofs.«131321_j61254823576011_2_alg».proof.Proof.Gen.KernelIdeal.Launch
import Idealize.ShloMosaic.Lib.StableHlo.Run
import Idealize.ShloMosaic.Lib.ValueIdx
import Idealize.ShloMosaic.PureOps.Ideal.Laws

noncomputable section

namespace Cert.KernelIdeal.TailValue

open Cert.KernelIdeal Cert.KernelIdeal.Gen Idealize.ShloMosaic Idealize.ShloMosaic.ValueIdx

variable [Cert.KernelIdeal.Facts]

section AnyInstance
variable {F : FTy → Type} [FloatOps F]

/-- After the line, the result array is the sum over the group axis of the group totals, from the zero constant. -/
theorem after_v19 (W : Valuation τ sig (Elt F)) :
    StableHlo.after (hostOps1 (F := F)) W (Proc.devRef .tc main_v19)
      = Host.reduceAdd (W (Proc.devRef .tc main_v18) : (⟨S2x512x2048, .f32⟩ : BufTy).Contents (Elt F))
          (constant (F := F) S_ .f32 0x00000000#32) reducesTo_S2x512x2048_S512x2048_d0 h_S_ := by
  dsimp only [hostOps1]
  after_results

/-! The line writes the zero constant and the result only: the arguments and the group totals keep their contents. -/

theorem after_main_arg0 (W : Valuation τ sig (Elt F)) :
    StableHlo.after (hostOps1 (F := F)) W (Proc.devRef .tc main_arg0) = W (Proc.devRef .tc main_arg0) := by
  dsimp only [hostOps1]
  after_results
theorem after_main_arg1 (W : Valuation τ sig (Elt F)) :
    StableHlo.after (hostOps1 (F := F)) W (Proc.devRef .tc main_arg1) = W (Proc.devRef .tc main_arg1) := by
  dsimp only [hostOps1]
  after_results
theorem after_main_arg2 (W : Valuation τ sig (Elt F)) :
    StableHlo.after (hostOps1 (F := F)) W (Proc.devRef .tc main_arg2) = W (Proc.devRef .tc main_arg2) := by
  dsimp only [hostOps1]
  after_results
theorem after_main_arg3 (W : Valuation τ sig (Elt F)) :
    StableHlo.after (hostOps1 (F := F)) W (Proc.devRef .tc main_arg3) = W (Proc.devRef .tc main_arg3) := by
  dsimp only [hostOps1]
  after_results
theorem after_main_arg4 (W : Valuation τ sig (Elt F)) :
    StableHlo.after (hostOps1 (F := F)) W (Proc.devRef .tc main_arg4) = W (Proc.devRef .tc main_arg4) := by
  dsimp only [hostOps1]
  after_results
theorem after_main_arg5 (W : Valuation τ sig (Elt F)) :
    StableHlo.after (hostOps1 (F := F)) W (Proc.devRef .tc main_arg5) = W (Proc.devRef .tc main_arg5) := by
  dsimp only [hostOps1]
  after_results
theorem after_main_arg6 (W : Valuation τ sig (Elt F)) :
    StableHlo.after (hostOps1 (F := F)) W (Proc.devRef .tc main_arg6) = W (Proc.devRef .tc main_arg6) := by
  dsimp only [hostOps1]
  after_results
theorem after_main_v18 (W : Valuation τ sig (Elt F)) :
    StableHlo.after (hostOps1 (F := F)) W (Proc.devRef .tc main_v18) = W (Proc.devRef .tc main_v18) := by
  dsimp only [hostOps1]
  after_results

end AnyInstance

/-! ## The sum over the group axis, at an index -/

/-- At the ideal values the host's sum over the group axis, from the zero constant, at (p, q): zero plus the two
    group totals at (p, q). -/
theorem reduce_groups_apply (x : FVec Ideal S2x512x2048 .f32) (p : Fin 512) (q : Fin 2048) :
    Host.reduceAdd (F := Ideal) x (constant (F := Ideal) S_ .f32 0x00000000#32) reducesTo_S2x512x2048_S512x2048_d0 h_S_ (ix2 p q)
      = 0 + ∑ g : Fin 2, x (ix3 g p q) := by
  simp only [Host.reduceAdd, Ideal.hostReduceAdd_def]
  rw [Ideal.hostReduceAdd_single reducesTo_S2x512x2048_S512x2048_d0 (by decide)]
  refine congrArg₂ (· + ·) ?_ (Finset.sum_congr rfl fun g _ => ?_)
  · exact Ideal.ofBits_zero_f32
  · exact congrArg x (funext fun a => Fin.ext (by match a with | ⟨0, _⟩ => rfl | ⟨1, _⟩ => rfl | ⟨2, _⟩ => rfl))

/-- The result array after the line, at (p, q): zero plus the two group totals there. -/
theorem after_v19_apply (W : Valuation τ sig (Elt Ideal)) (y : FVec Ideal S2x512x2048 .f32)
    (hy : W (Proc.devRef .tc main_v18) = y) (p : Fin 512) (q : Fin 2048) :
    StableHlo.after (hostOps1 (F := Ideal)) W (Proc.devRef .tc main_v19) (ix2 p q) = 0 + ∑ g : Fin 2, y (ix3 g p q) := by
  rw [after_v19, hy]
  exact reduce_groups_apply y p q

end Cert.KernelIdeal.TailValue

end
-- ==== Proof.KIHostArgs.lean ====
/-
  The seven argument buffers are written by no host operation, before the kernel or after it; nor is the kernel's
  result buffer by the operations after it. Each keeps the contents it had.
-/
import proofs.«131321_j61254823576011_2_alg».proof.Proof.Gen.KernelIdeal.Launch
import Idealize.ShloMosaic.Lib.StableHlo.Run

noncomputable section

namespace Cert.KernelIdeal.HostArgs

open Cert.KernelIdeal Cert.KernelIdeal.Gen Idealize.ShloMosaic Idealize.ShloMosaic.TcCoe Idealize.SL.Sem
open Idealize.ShloMosaic.StableHlo

variable {F : FTy → Type} [FloatOps F]

/-! ## Before the kernel -/

theorem pre_main_arg0 (W0 : Valuation τ sig (Elt F)) :
    StableHlo.after (List.flatten [hostOps0, hostOps0_1, hostOps0_2]) W0 (Proc.devRef .tc main_arg0) = W0 (Proc.devRef .tc main_arg0) := by
  simp only [hostOps0, hostOps0_1, hostOps0_2, List.flatten_cons, List.flatten_nil, List.append_nil, List.cons_append,
    List.nil_append]
  after_results

theorem pre_main_arg1 (W0 : Valuation τ sig (Elt F)) :
    StableHlo.after (List.flatten [hostOps0, hostOps0_1, hostOps0_2]) W0 (Proc.devRef .tc main_arg1) = W0 (Proc.devRef .tc main_arg1) := by
  simp only [hostOps0, hostOps0_1, hostOps0_2, List.flatten_cons, List.flatten_nil, List.append_nil, List.cons_append,
    List.nil_append]
  after_results

theorem pre_main_arg2 (W0 : Valuation τ sig (Elt F)) :
    StableHlo.after (List.flatten [hostOps0, hostOps0_1, hostOps0_2]) W0 (Proc.devRef .tc main_arg2) = W0 (Proc.devRef .tc main_arg2) := by
  simp only [hostOps0, hostOps0_1, hostOps0_2, List.flatten_cons, List.flatten_nil, List.append_nil, List.cons_append,
    List.nil_append]
  after_results

theorem pre_main_arg3 (W0 : Valuation τ sig (Elt F)) :
    StableHlo.after (List.flatten [hostOps0, hostOps0_1, hostOps0_2]) W0 (Proc.devRef .tc main_arg3) = W0 (Proc.devRef .tc main_arg3) := by
  simp only [hostOps0, hostOps0_1, hostOps0_2, List.flatten_cons, List.flatten_nil, List.append_nil, List.cons_append,
    List.nil_append]
  after_results

theorem pre_main_arg4 (W0 : Valuation τ sig (Elt F)) :
    StableHlo.after (List.flatten [hostOps0, hostOps0_1, hostOps0_2]) W0 (Proc.devRef .tc main_arg4) = W0 (Proc.devRef .tc main_arg4) := by
  simp only [hostOps0, hostOps0_1, hostOps0_2, List.flatten_cons, List.flatten_nil, List.append_nil, List.cons_append,
    List.nil_append]
  after_results

theorem pre_main_arg5 (W0 : Valuation τ sig (Elt F)) :
    StableHlo.after (List.flatten [hostOps0, hostOps0_1, hostOps0_2]) W0 (Proc.devRef .tc main_arg5) = W0 (Proc.devRef .tc main_arg5) := by
  simp only [hostOps0, hostOps0_1, hostOps0_2, List.flatten_cons, List.flatten_nil, List.append_nil, List.cons_append,
    List.nil_append]
  after_results

theorem pre_main_arg6 (W0 : Valuation τ sig (Elt F)) :
    StableHlo.after (List.flatten [hostOps0, hostOps0_1, hostOps0_2]) W0 (Proc.devRef .tc main_arg6) = W0 (Proc.devRef .tc main_arg6) := by
  simp only [hostOps0, hostOps0_1, hostOps0_2, List.flatten_cons, List.flatten_nil, List.append_nil, List.cons_append,
    List.nil_append]
  after_results

/-! ## After the kernel -/

theorem post_main_arg0 (W0 : Valuation τ sig (Elt F)) :
    StableHlo.after hostOps1 W0 (Proc.devRef .tc main_arg0) = W0 (Proc.devRef .tc main_arg0) := by
  simp only [hostOps1]
  after_results

theorem post_main_arg1 (W0 : Valuation τ sig (Elt F)) :
    StableHlo.after hostOps1 W0 (Proc.devRef .tc main_arg1) = W0 (Proc.devRef .tc main_arg1) := by
  simp only [hostOps1]
  after_results

theorem post_main_arg2 (W0 : Valuation τ sig (Elt F)) :
    StableHlo.after hostOps1 W0 (Proc.devRef .tc main_arg2) = W0 (Proc.devRef .tc main_arg2) := by
  simp only [hostOps1]
  after_results

theorem post_main_arg3 (W0 : Valuation τ sig (Elt F)) :
    StableHlo.after hostOps1 W0 (Proc.devRef .tc main_arg3) = W0 (Proc.devRef .tc main_arg3) := by
  simp only [hostOps1]
  after_results

theorem post_main_arg4 (W0 : Valuation τ sig (Elt F)) :
    StableHlo.after hostOps1 W0 (Proc.devRef .tc main_arg4) = W0 (Proc.devRef .tc main_arg4) := by
  simp only [hostOps1]
  after_results

theorem post_main_arg5 (W0 : Valuation τ sig (Elt F)) :
    StableHlo.after hostOps1 W0 (Proc.devRef .tc main_arg5) = W0 (Proc.devRef .tc main_arg5) := by
  simp only [hostOps1]
  after_results

theorem post_main_arg6 (W0 : Valuation τ sig (Elt F)) :
    StableHlo.after hostOps1 W0 (Proc.devRef .tc main_arg6) = W0 (Proc.devRef .tc main_arg6) := by
  simp only [hostOps1]
  after_results

theorem post_main_v18 (W0 : Valuation τ sig (Elt F)) :
    StableHlo.after hostOps1 W0 (Proc.devRef .tc main_v18) = W0 (Proc.devRef .tc main_v18) := by
  simp only [hostOps1]
  after_results

end Cert.KernelIdeal.HostArgs

end
-- ==== Proof.KILaunch.lean ====
/-
  The launch of the one kernel region, for a kernel two of whose input windows stage blocks of ONE array (the gate rows
  and the up rows of the stacked expert weights): the array's full share is dealt to the two windows half and half, every
  other array is its window's outright; the host line after the region (the sum of the two expert groups' totals) reads
  the result array and writes buffers that bypass the region. The run ends with every window's array at what the
  write-backs left and every other unscoped buffer at what the last host line computed.
-/
import proofs.«131321_j61254823576011_2_alg».proof.Proof.KIFrame
import proofs.«131321_j61254823576011_2_alg».proof.Proof.KIHostArgs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (chain)

/-! ## The stacked-weights array, dealt to its two windows -/

/-- The distinct buffers behind the nine windows, each whole at the region-entry contents. -/
theorem arrBufs_eq (c : Dev nD) :
    (Pipeline.arrBufs (Ix := Unit) (Name := ℕ) (U := UR sig nD τ) (Lvl := ℕ) spec0 c (V m c) : sProp 𝕄)
      = iprop((((c : Thread nD τ).loc main_v17) ↦{fullShare} V m c main_v17) ∗ (((c : Thread nD τ).loc main_arg3) ↦{fullShare} V m c main_arg3)
          ∗ (((c : Thread nD τ).loc main_v12) ↦{fullShare} V m c main_v12) ∗ (((c : Thread nD τ).loc main_v14) ↦{fullShare} V m c main_v14)
          ∗ (((c : Thread nD τ).loc main_arg5) ↦{fullShare} V m c main_arg5) ∗ (((c : Thread nD τ).loc main_v16) ↦{fullShare} V m c main_v16)
          ∗ (((c : Thread nD τ).loc main_v10) ↦{fullShare} V m c main_v10) ∗ (((c : Thread nD τ).loc main_v18) ↦{fullShare} V m c main_v18)) :=
  bigSep_eq_bigSepL_of_eq [main_v17, main_arg3, main_v12, main_v14, main_arg5, main_v16, main_v10, main_v18] (by decide) (by decide) _

/-- The pipeline's arrays as points-tos of the buffers behind them, each at its window's share. -/
theorem arrays_eq' (c : Dev nD) (Fa : (w : Fin cfg0.W) → Buf (Elt F) ((cfg0.win w).arr.view.loc (c : Thread nD τ))) :
    (dats m 0 c).arrays Fa = bigSep Finset.univ fun w : Fin 9 => ((((c : Thread nD τ).loc (Pipeline.arrRef spec0 w)) ↦{(dats m 0 c).share w} Fa w) : sProp 𝕄) := by
  unfold Dat.arrays
  exact bigSep_congr fun w _ => by rw [(arr_whole0 w).set_eq_univ]

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq', bigSep_W0]
  iintro ⟨H0, H3, H12, H14, H5, H16, H10, H18⟩
  ihave H3' := (pointsTo_share (PosShare.mem_left_op_right fullShare)).1 $$ H3
  icases H3' with ⟨H3a, H3b⟩
  isplitl [H0]; · iexact H0
  isplitl [H3a]; · iexact H3a
  isplitl [H3b]; · iexact H3b
  isplitl [H12]; · iexact H12
  isplitl [H14]; · iexact H14
  isplitl [H5]; · iexact H5
  isplitl [H16]; · iexact H16
  isplitl [H10]; · iexact H10
  iexact H18

/-! ## The line after the region -/

/-- What the line after the region may touch: the result array and the buffers that bypass the region. -/
def tailS : Finset (DevRef τ sig) :=
  (insert main_v18 (Pipeline.restRefs sig spec0)).map ⟨Proc.devRef (sig := sig) .tc, Proc.devRef_injective _⟩

theorem v18_not_rest : main_v18 ∉ Pipeline.restRefs sig spec0 := by
  simp only [Finset.mem_sdiff, Finset.mem_image, Finset.mem_univ, true_and, not_and, not_not]
  intro _; exact ⟨8, rfl⟩

/-- The contents the line after the region starts from: the result array as the write-backs left it, everything else as
    the region found it. -/
def Wexit (c : Dev nD) : Valuation τ sig (Elt F) :=
  Function.update (V0 m c) (Proc.devRef .tc main_v18) ((dats m 0 c).arrAt 8 cfg0.N)

/-- Every unscoped buffer after the last host line. -/
def afterT (c : Dev nD) (b : Ref sig .tc) : Buf (Elt F) ((c : Thread nD τ).loc b) :=
  StableHlo.after hostOps1 (Wexit m c) (Proc.devRef .tc b)

theorem held_tail (c : Dev nD) (Wv : Valuation τ sig (Elt F)) :
    (StableHlo.held (Ix := Unit) (Name := ℕ) (U := UR sig nD τ) (Lvl := ℕ) (c : Thread nD τ) tailS Wv : sProp 𝕄)
      = iprop((((c : Thread nD τ).loc main_v18) ↦{fullShare} Wv (Proc.devRef .tc main_v18))
          ∗ bigSep (Pipeline.restRefs sig spec0) fun b => ((((c : Thread nD τ).loc b) ↦{fullShare} Wv (Proc.devRef .tc b)) : sProp 𝕄)) := by
  unfold StableHlo.held tailS
  rw [bigSep_map, bigSep_insert v18_not_rest]
  rfl

theorem mem_tailS_of (b : Ref sig .tc) (hb : b = main_v18 ∨ b ∈ Pipeline.restRefs sig spec0) : Proc.devRef .tc b ∈ (tailS : Finset (DevRef τ sig)) := by
  unfold tailS
  refine Finset.mem_map.mpr ⟨b, ?_, rfl⟩
  rcases hb with rfl | hb
  · exact Finset.mem_insert_self _ _
  · exact Finset.mem_insert_of_mem hb

theorem tail_sub : ∀ ops ∈ ([hostOps1] : List (List (HloOp τ sig (Elt F)))), ∀ op ∈ ops, op.bufs ⊆ (tailS : Finset (DevRef τ sig)) := by
  intro ops hops op hop
  simp only [List.mem_cons, List.mem_nil_iff, or_false] at hops
  subst hops
  simp only [hostOps1, List.mem_cons, List.mem_nil_iff, or_false] at hop
  rcases hop with rfl | rfl
  · intro b hb
    simp only [StableHlo.nullary_bufs, Finset.mem_singleton] at hb
    subst hb
    exact mem_tailS_of main_cst_1 (.inr (Pipeline.mem_restRefs_of _ rfl (by decide)))
  · intro b hb
    simp only [StableHlo.binary_bufs, Finset.mem_insert, Finset.mem_singleton] at hb
    rcases hb with rfl | rfl | rfl
    · exact mem_tailS_of main_v18 (.inl rfl)
    · exact mem_tailS_of main_cst_1 (.inr (Pipeline.mem_restRefs_of _ rfl (by decide)))
    · exact mem_tailS_of main_v19 (.inr (Pipeline.mem_restRefs_of _ rfl (by decide)))

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-! ## Around the line after the region -/

theorem devRef_ne_v18 (b : Ref sig .tc) (hb : b ∈ Pipeline.restRefs sig spec0) : (Proc.devRef .tc b : DevRef τ sig) ≠ Proc.devRef .tc main_v18 :=
  fun e => v18_not_rest (Proc.devRef_injective _ e ▸ hb)

theorem Wexit_v18 (c : Dev nD) : Wexit m c (Proc.devRef .tc main_v18) = (dats m 0 c).arrAt 8 cfg0.N := by
  unfold Wexit; exact Function.update_self ..

theorem Wexit_rest (c : Dev nD) (b : Ref sig .tc) (hb : b ∈ Pipeline.restRefs sig spec0) : Wexit m c (Proc.devRef .tc b) = V m c b := by
  unfold Wexit; exact Function.update_of_ne (devRef_ne_v18 b hb) ..

/-- The result array is not written by the last host line. -/
theorem afterT_v18 (c : Dev nD) : afterT m c main_v18 = (dats m 0 c).arrAt 8 cfg0.N := by
  unfold afterT
  rw [StableHlo.after_of_forall_not_mem hostOps1 (Wexit m c) (fun op hop => ?_), Wexit_v18]
  simp only [hostOps1, List.mem_cons, List.mem_nil_iff, or_false] at hop
  rcases hop with rfl | rfl
  · simp only [StableHlo.nullary_writes, Finset.mem_singleton]; exact StableHlo.devRef_ne_of_ne (by decide)
  · simp only [StableHlo.binary_writes, Finset.mem_singleton]; exact StableHlo.devRef_ne_of_ne (by decide)

theorem exit_held (c : Dev nD) :
    (iprop((((c : Thread nD τ).loc main_v18) ↦{fullShare} (dats m 0 c).arrAt 8 cfg0.N)
        ∗ bigSep (Pipeline.restRefs sig spec0) fun b => ((((c : Thread nD τ).loc b) ↦{fullShare} V m c b) : sProp 𝕄)) : sProp 𝕄)
      = StableHlo.held (Ix := Unit) (Name := ℕ) (U := UR sig nD τ) (Lvl := ℕ) (c : Thread nD τ) tailS (Wexit m c) := by
  have e : (bigSep (Pipeline.restRefs sig spec0) fun b => ((((c : Thread nD τ).loc b) ↦{fullShare} V m c b) : sProp 𝕄))
      = bigSep (Pipeline.restRefs sig spec0) fun b => ((((c : Thread nD τ).loc b) ↦{fullShare} Wexit m c (Proc.devRef .tc b)) : sProp 𝕄) :=
    bigSep_congr fun b hb => by rw [Wexit_rest m c b hb]
  rw [held_tail, Wexit_v18, e]

theorem after_held (c : Dev nD) :
    (StableHlo.held (Ix := Unit) (Name := ℕ) (U := UR sig nD τ) (Lvl := ℕ) (c : Thread nD τ) tailS (StableHlo.after ([hostOps1] : List (List (HloOp τ sig (Elt F)))).flatten (Wexit m c)) : sProp 𝕄)
      = iprop((((c : Thread nD τ).loc main_v18) ↦{fullShare} (dats m 0 c).arrAt 8 cfg0.N)
        ∗ bigSep (Pipeline.restRefs sig spec0) fun b => ((((c : Thread nD τ).loc b) ↦{fullShare} afterT m c b) : sProp 𝕄)) := by
  rw [show (([hostOps1] : List (List (HloOp τ sig (Elt F)))).flatten) = hostOps1 from by simp only [List.flatten_cons, List.flatten_nil, List.append_nil],
    held_tail, show StableHlo.after hostOps1 (Wexit m c) (Proc.devRef .tc main_v18) = afterT m c main_v18 from rfl, afterT_v18]
  rfl

set_option backward.isDefEq.respectTransparency.types false in
/-- From the region's exit the last host line runs within the result array and the bypassing buffers, and hands back the
    arrays as they were and the bypassing buffers at what it computed. -/
theorem htail (c : Dev nD) (Q' : PUnit → sProp 𝕄) :
    iprop((iprop((dats m 0 c).arrays ((dats m 0 c).arrAt · cfg0.N) ∗ Pipeline.unscopedRestP (Ix := Unit) (Name := ℕ) (U := UR sig nD τ) (Lvl := ℕ) Pipeline.Prefetch.none spec0 c (afterT m c)) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (chain [StableHlo.seq hostOps1]) Q' := by
  rw [Pipeline.unscopedRestP_none, Pipeline.unscopedRestP_none, arrays_eq', bigSep_W0]
  unfold Pipeline.unscopedRest
  rw [show chain [StableHlo.seq (hostOps1 (F := F))] = chain (([hostOps1] : List (List (HloOp τ sig (Elt F)))).map StableHlo.seq ++ []) from rfl]
  iintro ⟨Hk, Hb, ⟨H0, H1, H2, H3, H4, H5, H6, H7, H8⟩, HZ⟩
  ihave Hh := (Entails.of_eq (exit_held m c)) $$ [H8 HZ]
  · isplitl [H8]; · iexact H8
    iexact HZ
  iapply (Pipeline.wp_seqs_then (fun q => (cfgs q).toPCfg (Val := Elt F)) defs₀ Variants.none c tailS [] [hostOps1] tail_sub tail_fresh (Wexit m c)) $$ [Hb Hh]
  · isplitl [Hb]; · iexact Hb
    iexact Hh
  iintro ⟨Hb, Hh⟩
  rw [Pipeline.chain_nil, wp_pure]
  imodintro
  iapply Hk
  ihave Hh' := (Entails.of_eq (after_held m c)) $$ Hh
  icases Hh' with ⟨H8, HZ⟩
  isplitr [HZ]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HZ

/-! ## The run -/

/-- What the run ends with: every window's array at what the write-backs left, every bypassing buffer at what the last
    host line computed. -/
def Post : PUnit × MemSt nD τ sig (Elt F) → Prop := fun r =>
  ∀ c : Dev nD, (∀ w : Fin 9, r.2.mem ((spec0 w).arr.view.loc (c : Thread nD τ)) = (dats m 0 c).arrAt w cfg0.N)
    ∧ ∀ b ∈ Pipeline.restRefs sig spec0, r.2.mem ((c : Thread nD τ).loc b) = afterT m c b

set_option backward.isDefEq.respectTransparency.types false in
theorem run_main : θ_run defs (onTc (τ := τ) (main (F := F))) ⟨m, fun _ => 0, ρ⟩ (Post m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (afterT m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c : Thread nD τ).loc b) = afterT m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (afterT m c) s')
      isplitl [HU] <;> iassumption)
    (hQ := fun s h c => ⟨(h c).1, fun b hb => (h c).2.2 b (Finset.mem_sdiff.mpr ⟨hb, fun hk => by
      obtain ⟨k, _, _⟩ := Finset.mem_image.mp hk
      exact k.elim0⟩)⟩)

/-! ## The frame -/

theorem rest_arg (c : Dev nD) (b : Ref sig .tc) (hb : b ∈ Pipeline.restRefs sig spec0)
    (hpre : StableHlo.after (List.flatten [hostOps0, hostOps0_1, hostOps0_2]) (fun b => m (c, b)) (Proc.devRef .tc b) = m ((c : Thread nD τ).loc b))
    (hpost : StableHlo.after hostOps1 (Wexit m c) (Proc.devRef .tc b) = Wexit m c (Proc.devRef .tc b)) :
    afterT m c b = m ((c : Thread nD τ).loc b) := by
  unfold afterT; rw [hpost, Wexit_rest m c b hb]; exact hpre

/-- In a final state of the run the seven argument arrays are as they were: the two weight arrays are input windows'
    arrays, never written back; the other five bypass the region and no host line writes them. -/
theorem post_args (r : PUnit × MemSt nD τ sig (Elt F)) (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have h0 : main_arg0 ∈ Pipeline.restRefs sig spec0 := Pipeline.mem_restRefs_of _ rfl (by decide)
  have h1 : main_arg1 ∈ Pipeline.restRefs sig spec0 := Pipeline.mem_restRefs_of _ rfl (by decide)
  have h2 : main_arg2 ∈ Pipeline.restRefs sig spec0 := Pipeline.mem_restRefs_of _ rfl (by decide)
  have h4 : main_arg4 ∈ Pipeline.restRefs sig spec0 := Pipeline.mem_restRefs_of _ rfl (by decide)
  have h6 : main_arg6 ∈ Pipeline.restRefs sig spec0 := Pipeline.mem_restRefs_of _ rfl (by decide)
  ⟨((h c).2 main_arg0 h0).trans (rest_arg m c main_arg0 h0 (HostArgs.pre_main_arg0 _) (HostArgs.post_main_arg0 _)),
   ((h c).2 main_arg1 h1).trans (rest_arg m c main_arg1 h1 (HostArgs.pre_main_arg1 _) (HostArgs.post_main_arg1 _)),
   ((h c).2 main_arg2 h2).trans (rest_arg m c main_arg2 h2 (HostArgs.pre_main_arg2 _) (HostArgs.post_main_arg2 _)),
   ((h c).1 1).trans (((dats m 0 c).arrAt_in 1 rfl _).trans ((A_eq m c 1).trans (HostArgs.pre_main_arg3 _))),
   ((h c).2 main_arg4 h4).trans (rest_arg m c main_arg4 h4 (HostArgs.pre_main_arg4 _) (HostArgs.post_main_arg4 _)),
   ((h c).1 5).trans (((dats m 0 c).arrAt_in 5 rfl _).trans ((A_eq m c 5).trans (HostArgs.pre_main_arg5 _))),
   ((h c).2 main_arg6 h6).trans (rest_arg m c main_arg6 h6 (HostArgs.pre_main_arg6 _) (HostArgs.post_main_arg6 _))⟩

/-- The result buffer of the last host line is among the buffers that bypass the region. -/
theorem v19_rest : main_v19 ∈ Pipeline.restRefs sig spec0 := Pipeline.mem_restRefs_of _ rfl (by decide)

/-- The program runs to its end and its seven argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => post_args m r h c) (run_main m ρ)

end Cert.KernelIdeal.Frame

end
-- ==== Proof.KIAccum.lean ====
/-
  The accumulator point by point, the result array, and the program's result.

  The grid's 88 points are two groups of 44 steps.  The first step of a group clears the running total and adds
  its term; every other step adds its term to what the step before left.  So after point n the running total is
  the group's partial sum of n % 44 + 1 terms, the slab written back at a group's last step is the group's total,
  and the host line after the kernel adds the two slabs from zero.
-/
import proofs.«131321_j61254823576011_2_alg».proof.Proof.KIStep
import proofs.«131321_j61254823576011_2_alg».proof.Proof.TailValue
import proofs.«131321_j61254823576011_2_alg».proof.Proof.KILaunch

set_option maxRecDepth 16384

noncomputable section

namespace Cert.Moe

/-- The running total depends on the group and the step count only through their values. -/
theorem grpAcc_congr (a : Args) {g g' : Fin 2} (hg : g = g') (p : Fin 512) (q : Fin 2048) {n n' : Nat}
    (hn : n ≤ 44) (hn' : n' ≤ 44) (h : n = n') : grpAcc a g p q n hn = grpAcc a g' p q n' hn' := by
  subst hg; subst h; rfl

theorem grpAcc_zero (a : Args) (g : Fin 2) (p : Fin 512) (q : Fin 2048) (h : 0 ≤ 44) : grpAcc a g p q 0 h = 0 := by
  rw [grpAcc]

theorem term_congr' (a : Args) (p : Fin 512) (q : Fin 2048) {e e' : Fin 8} {i i' : Fin 11} (he : e = e') (hi : i = i') :
    coef a e p * tileOut a e i p q = coef a e' p * tileOut a e' i' p q := by
  subst he; subst hi; rfl

/-- Step t % 44 of group t / 44 adds the term of expert t / 11, tile t % 11. -/
theorem grpAcc_step (a : Args) (t : Nat) (ht : t < 88) (p : Fin 512) (q : Fin 2048) :
    grpAcc a ⟨t / 44, by omega⟩ p q (t % 44 + 1) (by omega)
      = grpAcc a ⟨t / 44, by omega⟩ p q (t % 44) (by omega)
        + coef a ⟨t / 11, by omega⟩ p * tileOut a ⟨t / 11, by omega⟩ ⟨t % 11, Nat.mod_lt _ (by decide)⟩ p q := by
  rw [grpAcc]
  congr 1
  exact term_congr' a p q (Fin.ext (by show 4 * (t / 44) + t % 44 / 11 = t / 11; omega))
    (Fin.ext (by show t % 44 % 11 = t % 11; omega))

end Cert.Moe

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-! ## The accumulator point by point -/

/-- After point n the running total is: zero at a group's first step, else what the step before left; plus the
    point's term. -/
theorem acc_step (n : Nat) (hn : n < cfg0.N) (p : Fin 512) (q : Fin 2048) :
    (outsAt0 m c n hn).2 (ix2 p q)
      = (if n % 44 = 0 then 0 else (outsAt0 m c (n - 1) (Nat.lt_of_le_of_lt (Nat.sub_le _ _) hn)).2 (ix2 p q))
        + Cert.Moe.coef (HostPrefix.argsAt m c) ⟨n / 11, by have := lt_of_lt_of_eq hn N0; omega⟩ p
          * Cert.Moe.tileOut (HostPrefix.argsAt m c) ⟨n / 11, by have := lt_of_lt_of_eq hn N0; omega⟩ ⟨n % 11, Nat.mod_lt _ (by decide)⟩ p q := by
  by_cases h0 : n % 44 = 0
  · rw [if_pos h0, outsAt0_A m c ⟨n, hn⟩ h0]
    dsimp only
    rw [sout_A, step_apply, BodyValue.pay3_apply]
  · rw [if_neg h0, outsAt0_B m c ⟨n, hn⟩ h0]
    dsimp only
    rw [sout_B, step_apply]

/-- The output window's staging buffer after point n is the running total with a leading unit axis. -/
theorem out_step (n : Nat) (hn : n < cfg0.N) (p : Fin 512) (q : Fin 2048) :
    (outsAt0 m c n hn).1 (ix3 (0 : Fin 1) p q) = (outsAt0 m c n hn).2 (ix2 p q) := by
  by_cases h0 : n % 44 = 0
  · rw [outsAt0_A m c ⟨n, hn⟩ h0]
    dsimp only
    rw [out_A, sout_A, BodyValue.pay2_apply]
  · rw [outsAt0_B m c ⟨n, hn⟩ h0]
    dsimp only
    rw [out_B, sout_B, BodyValue.pay2_apply]

/-- After point n the running total is the partial sum of n % 44 + 1 terms of group n / 44. -/
theorem acc_eq : ∀ (n : Nat) (hn : n < cfg0.N) (p : Fin 512) (q : Fin 2048),
    (outsAt0 m c n hn).2 (ix2 p q)
      = Cert.Moe.grpAcc (HostPrefix.argsAt m c) ⟨n / 44, by have := lt_of_lt_of_eq hn N0; omega⟩ p q (n % 44 + 1) (by omega) := by
  intro n
  induction n using Nat.strong_induction_on with
  | _ n ih =>
    intro hn p q
    have h88 : n < 88 := lt_of_lt_of_eq hn N0
    rw [acc_step m c n hn p q, Cert.Moe.grpAcc_step _ n h88 p q]
    congr 1
    by_cases h0 : n % 44 = 0
    · rw [if_pos h0]
      exact (Cert.Moe.grpAcc_zero _ _ p q (Nat.zero_le _)).symm.trans (Cert.Moe.grpAcc_congr _ rfl p q _ _ h0.symm)
    · rw [if_neg h0, ih (n - 1) (by omega) _ p q]
      exact Cert.Moe.grpAcc_congr _ (Fin.ext (by show (n - 1) / 44 = n / 44; omega)) p q _ _ (by omega)

/-- So is the output window's staging buffer. -/
theorem out_eq (n : Nat) (hn : n < cfg0.N) (p : Fin 512) (q : Fin 2048) :
    (outsAt0 m c n hn).1 (ix3 (0 : Fin 1) p q)
      = Cert.Moe.grpAcc (HostPrefix.argsAt m c) ⟨n / 44, by have := lt_of_lt_of_eq hn N0; omega⟩ p q (n % 44 + 1) (by omega) :=
  (out_step m c n hn p q).trans (acc_eq m c n hn p q)

/-! ## The result array -/

/-- The two group totals, as contents of the result array. -/
def G8 : S2x512x2048.Idx → Elt Ideal .f32 :=
  fun i => Cert.Moe.grpAcc (HostPrefix.argsAt m c) (i 0) (i 1) (i 2) 44 (le_refl 44)

/-- What a group's last step writes back is the group's slab of the totals. -/
theorem flushed8_eq (t : Fin cfg0.N) (hf : (cfg0.win 8).flush t = true) :
    (dats m 0 c).flushed 8 t = ((cfg0.win 8).blk t).view.read (Elt Ideal) (G8 m c) := by
  have h43 : t.val % 44 = 43 := (flush0_8 t).mp hf
  have h88 := lt88 t
  show (cfg0.win 8).cut (grid0.coords t) ((dats m 0 c).after 8 t) = _
  rw [after0_8]
  funext y
  obtain ⟨y0, p, q, rfl⟩ : ∃ (y0 : Fin 1) (p : Fin 512) (q : Fin 2048), y = ix3 y0 p q := ⟨y 0, y 1, y 2, eq_ix3 y⟩
  obtain rfl : y0 = 0 := Subsingleton.elim _ _
  show (outsAt0 m c t.val t.isLt).1 (ix3 (0 : Fin 1) p q) = _
  rw [out_eq, oblk8_apply]
  exact Cert.Moe.grpAcc_congr _ rfl p q _ _ (by omega)

/-- The result array ends holding the two group totals. -/
theorem final8 : (dats m 0 c).arrAt 8 cfg0.N = G8 m c :=
  (dats m 0 c).arrAt_eq_of_cover 8 (G8 m c) (flushed8_eq m c) cover8

/-! ## The program's result -/

/-- After the host line that follows the kernel, the result at (p, q) is the two group totals added from zero. -/
theorem kernel_result (p : Fin 512) (q : Fin 2048) :
    afterT m c main_v19 (ix2 p q) = Cert.Moe.kerOut (HostPrefix.argsAt m c) p q := by
  unfold afterT
  rw [TailValue.after_v19_apply (Wexit m c) (G8 m c) ((Wexit_v18 m c).trans (final8 m c)) p q]
  rfl

end Cert.KernelIdeal.Frame

end
-- ==== Proof.RefRunOps.lean ====
/-
  The reference program's operations as a list, cut into nine consecutive stretches: the zero result (two operations)
  and one stretch of 47 operations per expert, the last of them adding that expert's contribution to the running total.
  The program is the sequence of the concatenated list; no buffer or semaphore is scoped; every operation touches only
  the TensorCore's buffers and allocates nothing.
-/
import proofs.«131321_j61254823576011_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The zero the total starts from, broadcast to the result's shape. -/
abbrev seg0 : List (HloOp τ sig (Elt F)) :=
  [ nullary main_cst (constant S_ .f32 0x00000000#32),
    unary main_cst main_v0 (broadcastInDim S512x2048 ![] bcast_S_S512x2048 : (⟨S_, .f32⟩ : BufTy).Contents (Elt F) → (⟨S512x2048, .f32⟩ : BufTy).Contents (Elt F)) ]

/-- Expert 0: its 47 operations, in order. -/
abbrev seg1 : List (HloOp τ sig (Elt F)) :=
  [ unary main_arg3 main_v1 ((extractStridedSlice S1x5632x2048 ![0, 0, 0] · slices_S8x5632x2048_S1x5632x2048_0_0_0) : (⟨S8x5632x2048, .f32⟩ : BufTy).Contents (Elt F) → (⟨S1x5632x2048, .f32⟩ : BufTy).Contents (Elt F)),
    reshape main_v1 main_v2 rfl shapeCasts_S1x5632x2048_S5632x2048,
    unary main_arg4 main_v3 ((extractStridedSlice S1x44x16 ![0, 0, 0] · slices_S8x44x16_S1x44x16_0_0_0) : (⟨S8x44x16, .f32⟩ : BufTy).Contents (Elt F) → (⟨S1x44x16, .f32⟩ : BufTy).Contents (Elt F)),
    reshape main_v3 main_v4 rfl shapeCasts_S1x44x16_S44x16,
    unary main_v4 main_v5 (broadcastInDim S44x128x16 ![0, 2] bcast_S44x16_S44x128x16_0_2 : (⟨S44x16, .f32⟩ : BufTy).Contents (Elt F) → (⟨S44x128x16, .f32⟩ : BufTy).Contents (Elt F)),
    reshape main_v5 main_v6 rfl shapeCasts_S44x128x16_S5632x16,
    unary main_v6 main_v7 (broadcastInDim S5632x16x128 ![0, 1] bcast_S5632x16_S5632x16x128_0_1 : (⟨S5632x16, .f32⟩ : BufTy).Contents (Elt F) → (⟨S5632x16x128, .f32⟩ : BufTy).Contents (Elt F)),
    reshape main_v7 main_v8 rfl shapeCasts_S5632x16x128_S5632x2048,
    binary main_v2 main_v8 main_v9 (mulf : (⟨S5632x2048, .f32⟩ : BufTy).Contents (Elt F) → (⟨S5632x2048, .f32⟩ : BufTy).Contents (Elt F) → (⟨S5632x2048, .f32⟩ : BufTy).Contents (Elt F)),
    unary main_arg5 main_v10 ((extractStridedSlice S1x2048x2816 ![0, 0, 0] · slices_S8x2048x2816_S1x2048x2816_0_0_0) : (⟨S8x2048x2816, .f32⟩ : BufTy).Contents (Elt F) → (⟨S1x2048x2816, .f32⟩ : BufTy).Contents (Elt F)),
    reshape main_v10 main_v11 rfl shapeCasts_S1x2048x2816_S2048x2816,
    unary main_arg6 main_v12 ((extractStridedSlice S1x16x22 ![0, 0, 0] · slices_S8x16x22_S1x16x22_0_0_0) : (⟨S8x16x22, .f32⟩ : BufTy).Contents (Elt F) → (⟨S1x16x22, .f32⟩ : BufTy).Contents (Elt F)),
    reshape main_v12 main_v13 rfl shapeCasts_S1x16x22_S16x22,
    unary main_v13 main_v14 (broadcastInDim S16x128x22 ![0, 2] bcast_S16x22_S16x128x22_0_2 : (⟨S16x22, .f32⟩ : BufTy).Contents (Elt F) → (⟨S16x128x22, .f32⟩ : BufTy).Contents (Elt F)),
    reshape main_v14 main_v15 rfl shapeCasts_S16x128x22_S2048x22,
    unary main_v15 main_v16 (broadcastInDim S2048x22x128 ![0, 1] bcast_S2048x22_S2048x22x128_0_1 : (⟨S2048x22, .f32⟩ : BufTy).Contents (Elt F) → (⟨S2048x22x128, .f32⟩ : BufTy).Contents (Elt F)),
    reshape main_v16 main_v17 rfl shapeCasts_S2048x22x128_S2048x2816,
    binary main_v11 main_v17 main_v18 (mulf : (⟨S2048x2816, .f32⟩ : BufTy).Contents (Elt F) → (⟨S2048x2816, .f32⟩ : BufTy).Contents (Elt F) → (⟨S2048x2816, .f32⟩ : BufTy).Contents (Elt F)),
    unary main_v9 main_v19 ((transpose S2048x5632 [1, 0] · transposes_S5632x2048_S2048x5632_1_0) : (⟨S5632x2048, .f32⟩ : BufTy).Contents (Elt F) → (⟨S2048x5632, .f32⟩ : BufTy).Contents (Elt F)),
    binary main_arg0 main_v19 main_v20 ((fun l r => Host.dotGeneral dot_S512x2048_S2048x5632_S512x5632_1_0_0_1_n_n none l r) : (⟨S512x2048, .f32⟩ : BufTy).Contents (Elt F) → (⟨S2048x5632, .f32⟩ : BufTy).Contents (Elt F) → (⟨S512x5632, .f32⟩ : BufTy).Contents (Elt F)),
    unary main_v20 main_v21 ((extractStridedSlice S512x2816 ![0, 0] · slices_S512x5632_S512x2816_0_0) : (⟨S512x5632, .f32⟩ : BufTy).Contents (Elt F) → (⟨S512x2816, .f32⟩ : BufTy).Contents (Elt F)),
    unary main_v20 main_v22 ((extractStridedSlice S512x2816 ![0, 2816] · slices_S512x5632_S512x2816_0_2816) : (⟨S512x5632, .f32⟩ : BufTy).Contents (Elt F) → (⟨S512x2816, .f32⟩ : BufTy).Contents (Elt F)),
    TRef.unary (TRef.of (T := ⟨S512x2816, .f32⟩) main_v21) (TRef.of (T := ⟨S512x2816, .f32⟩) main_call0_v0) Host.negf,
    TRef.unary (TRef.of (T := ⟨S512x2816, .f32⟩) main_call0_v0) (TRef.of (T := ⟨S512x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S512x2816, .f32⟩) main_call0_v2) (broadcastInDim S512x2816 ![] bcast_S_S512x2816),
    TRef.binary (TRef.of (T := ⟨S512x2816, .f32⟩) main_call0_v2) (TRef.of (T := ⟨S512x2816, .f32⟩) main_call0_v1) (TRef.of (T := ⟨S512x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S512x2816, .f32⟩) main_call0_v4) (broadcastInDim S512x2816 ![] bcast_S_S512x2816),
    TRef.binary (TRef.of (T := ⟨S512x2816, .f32⟩) main_call0_v4) (TRef.of (T := ⟨S512x2816, .f32⟩) main_call0_v3) (TRef.of (T := ⟨S512x2816, .f32⟩) main_call0_v5) Host.divf,
    TRef.binary (TRef.of (T := ⟨S512x2816, .f32⟩) main_v21) (TRef.of (T := ⟨S512x2816, .f32⟩) main_call0_v5) (TRef.of (T := ⟨S512x2816, .f32⟩) main_v23) mulf,
    binary main_v23 main_v22 main_v24 (mulf : (⟨S512x2816, .f32⟩ : BufTy).Contents (Elt F) → (⟨S512x2816, .f32⟩ : BufTy).Contents (Elt F) → (⟨S512x2816, .f32⟩ : BufTy).Contents (Elt F)),
    unary main_v18 main_v25 ((transpose S2816x2048 [1, 0] · transposes_S2048x2816_S2816x2048_1_0) : (⟨S2048x2816, .f32⟩ : BufTy).Contents (Elt F) → (⟨S2816x2048, .f32⟩ : BufTy).Contents (Elt F)),
    binary main_v24 main_v25 main_v26 ((fun l r => Host.dotGeneral dot_S512x2816_S2816x2048_S512x2048_1_0_0_1_n_n none l r) : (⟨S512x2816, .f32⟩ : BufTy).Contents (Elt F) → (⟨S2816x2048, .f32⟩ : BufTy).Contents (Elt F) → (⟨S512x2048, .f32⟩ : BufTy).Contents (Elt F)),
    nullary main_c (constantI S_ 32 0#32),
    unary main_c main_v27 (broadcastInDim S512x2 ![] bcast_S_S512x2 : (⟨S_, .i32⟩ : BufTy).Contents (Elt F) → (⟨S512x2, .i32⟩ : BufTy).Contents (Elt F)),
    binary main_arg1 main_v27 main_v28 (cmpi .eq : (⟨S512x2, .i32⟩ : BufTy).Contents (Elt F) → (⟨S512x2, .i32⟩ : BufTy).Contents (Elt F) → (⟨S512x2, .i1⟩ : BufTy).Contents (Elt F)),
    nullary main_cst_0 (constant S_ .f32 0x00000000#32),
    TRef.unary (TRef.of (T := ⟨S_, .f32⟩) main_cst_0) (TRef.of (T := ⟨S_, .f32⟩) main_call1_v0) id,
    TRef.unary (TRef.of (T := ⟨S_, .f32⟩) main_call1_v0) (TRef.of (T := ⟨S512x2, .f32⟩) main_call1_v1) (broadcastInDim S512x2 ![] bcast_S_S512x2),
    TRef.ternary (TRef.of (T := ⟨S512x2, .i1⟩) main_v28) (TRef.of (T := ⟨S512x2, .f32⟩) main_arg2) (TRef.of (T := ⟨S512x2, .f32⟩) main_call1_v1) (TRef.of (T := ⟨S512x2, .f32⟩) main_v29) select,
    nullary main_cst_1 (constant S_ .f32 0x00000000#32),
    binary main_v29 main_cst_1 main_v30 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    unary main_v30 main_v31 (broadcastInDim S512x1 ![0] bcast_S512_S512x1_0 : (⟨S512, .f32⟩ : BufTy).Contents (Elt F) → (⟨S512x1, .f32⟩ : BufTy).Contents (Elt F)),
    unary main_v31 main_v32 (broadcastInDim S512x2048 ![0, 1] bcast_S512x1_S512x2048_0_1 : (⟨S512x1, .f32⟩ : BufTy).Contents (Elt F) → (⟨S512x2048, .f32⟩ : BufTy).Contents (Elt F)),
    binary main_v32 main_v26 main_v33 (mulf : (⟨S512x2048, .f32⟩ : BufTy).Contents (Elt F) → (⟨S512x2048, .f32⟩ : BufTy).Contents (Elt F) → (⟨S512x2048, .f32⟩ : BufTy).Contents (Elt F)),
    binary main_v0 main_v33 main_v34 (addf : (⟨S512x2048, .f32⟩ : BufTy).Contents (Elt F) → (⟨S512x2048, .f32⟩ : BufTy).Contents (Elt F) → (⟨S512x2048, .f32⟩ : BufTy).Contents (Elt F)) ]

/-- Expert 1: its 47 operations, in order. -/
abbrev seg2 : List (HloOp τ sig (Elt F)) :=
  [ unary main_arg3 main_v35 ((extractStridedSlice S1x5632x2048 ![1, 0, 0] · slices_S8x5632x2048_S1x5632x2048_1_0_0) : (⟨S8x5632x2048, .f32⟩ : BufTy).Contents (Elt F) → (⟨S1x5632x2048, .f32⟩ : BufTy).Contents (Elt F)),
    reshape main_v35 main_v36 rfl shapeCasts_S1x5632x2048_S5632x2048,
    unary main_arg4 main_v37 ((extractStridedSlice S1x44x16 ![1, 0, 0] · slices_S8x44x16_S1x44x16_1_0_0) : (⟨S8x44x16, .f32⟩ : BufTy).Contents (Elt F) → (⟨S1x44x16, .f32⟩ : BufTy).Contents (Elt F)),
    reshape main_v37 main_v38 rfl shapeCasts_S1x44x16_S44x16,
    unary main_v38 main_v39 (broadcastInDim S44x128x16 ![0, 2] bcast_S44x16_S44x128x16_0_2 : (⟨S44x16, .f32⟩ : BufTy).Contents (Elt F) → (⟨S44x128x16, .f32⟩ : BufTy).Contents (Elt F)),
    reshape main_v39 main_v40 rfl shapeCasts_S44x128x16_S5632x16,
    unary main_v40 main_v41 (broadcastInDim S5632x16x128 ![0, 1] bcast_S5632x16_S5632x16x128_0_1 : (⟨S5632x16, .f32⟩ : BufTy).Contents (Elt F) → (⟨S5632x16x128, .f32⟩ : BufTy).Contents (Elt F)),
    reshape main_v41 main_v42 rfl shapeCasts_S5632x16x128_S5632x2048,
    binary main_v36 main_v42 main_v43 (mulf : (⟨S5632x2048, .f32⟩ : BufTy).Contents (Elt F) → (⟨S5632x2048, .f32⟩ : BufTy).Contents (Elt F) → (⟨S5632x2048, .f32⟩ : BufTy).Contents (Elt F)),
    unary main_arg5 main_v44 ((extractStridedSlice S1x2048x2816 ![1, 0, 0] · slices_S8x2048x2816_S1x2048x2816_1_0_0) : (⟨S8x2048x2816, .f32⟩ : BufTy).Contents (Elt F) → (⟨S1x2048x2816, .f32⟩ : BufTy).Contents (Elt F)),
    reshape main_v44 main_v45 rfl shapeCasts_S1x2048x2816_S2048x2816,
    unary main_arg6 main_v46 ((extractStridedSlice S1x16x22 ![1, 0, 0] · slices_S8x16x22_S1x16x22_1_0_0) : (⟨S8x16x22, .f32⟩ : BufTy).Contents (Elt F) → (⟨S1x16x22, .f32⟩ : BufTy).Contents (Elt F)),
    reshape main_v46 main_v47 rfl shapeCasts_S1x16x22_S16x22,
    unary main_v47 main_v48 (broadcastInDim S16x128x22 ![0, 2] bcast_S16x22_S16x128x22_0_2 : (⟨S16x22, .f32⟩ : BufTy).Contents (Elt F) → (⟨S16x128x22, .f32⟩ : BufTy).Contents (Elt F)),
    reshape main_v48 main_v49 rfl shapeCasts_S16x128x22_S2048x22,
    unary main_v49 main_v50 (broadcastInDim S2048x22x128 ![0, 1] bcast_S2048x22_S2048x22x128_0_1 : (⟨S2048x22, .f32⟩ : BufTy).Contents (Elt F) → (⟨S2048x22x128, .f32⟩ : BufTy).Contents (Elt F)),
    reshape main_v50 main_v51 rfl shapeCasts_S2048x22x128_S2048x2816,
    binary main_v45 main_v51 main_v52 (mulf : (⟨S2048x2816, .f32⟩ : BufTy).Contents (Elt F) → (⟨S2048x2816, .f32⟩ : BufTy).Contents (Elt F) → (⟨S2048x2816, .f32⟩ : BufTy).Contents (Elt F)),
    unary main_v43 main_v53 ((transpose S2048x5632 [1, 0] · transposes_S5632x2048_S2048x5632_1_0) : (⟨S5632x2048, .f32⟩ : BufTy).Contents (Elt F) → (⟨S2048x5632, .f32⟩ : BufTy).Contents (Elt F)),
    binary main_arg0 main_v53 main_v54 ((fun l r => Host.dotGeneral dot_S512x2048_S2048x5632_S512x5632_1_0_0_1_n_n none l r) : (⟨S512x2048, .f32⟩ : BufTy).Contents (Elt F) → (⟨S2048x5632, .f32⟩ : BufTy).Contents (Elt F) → (⟨S512x5632, .f32⟩ : BufTy).Contents (Elt F)),
    unary main_v54 main_v55 ((extractStridedSlice S512x2816 ![0, 0] · slices_S512x5632_S512x2816_0_0) : (⟨S512x5632, .f32⟩ : BufTy).Contents (Elt F) → (⟨S512x2816, .f32⟩ : BufTy).Contents (Elt F)),
    unary main_v54 main_v56 ((extractStridedSlice S512x2816 ![0, 2816] · slices_S512x5632_S512x2816_0_2816) : (⟨S512x5632, .f32⟩ : BufTy).Contents (Elt F) → (⟨S512x2816, .f32⟩ : BufTy).Contents (Elt F)),
    TRef.unary (TRef.of (T := ⟨S512x2816, .f32⟩) main_v55) (TRef.of (T := ⟨S512x2816, .f32⟩) main_call2_v0) Host.negf,
    TRef.unary (TRef.of (T := ⟨S512x2816, .f32⟩) main_call2_v0) (TRef.of (T := ⟨S512x2816, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S512x2816, .f32⟩) main_call2_v2) (broadcastInDim S512x2816 ![] bcast_S_S512x2816),
    TRef.binary (TRef.of (T := ⟨S512x2816, .f32⟩) main_call2_v2) (TRef.of (T := ⟨S512x2816, .f32⟩) main_call2_v1) (TRef.of (T := ⟨S512x2816, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S512x2816, .f32⟩) main_call2_v4) (broadcastInDim S512x2816 ![] bcast_S_S512x2816),
    TRef.binary (TRef.of (T := ⟨S512x2816, .f32⟩) main_call2_v4) (TRef.of (T := ⟨S512x2816, .f32⟩) main_call2_v3) (TRef.of (T := ⟨S512x2816, .f32⟩) main_call2_v5) Host.divf,
    TRef.binary (TRef.of (T := ⟨S512x2816, .f32⟩) main_v55) (TRef.of (T := ⟨S512x2816, .f32⟩) main_call2_v5) (TRef.of (T := ⟨S512x2816, .f32⟩) main_v57) mulf,
    binary main_v57 main_v56 main_v58 (mulf : (⟨S512x2816, .f32⟩ : BufTy).Contents (Elt F) → (⟨S512x2816, .f32⟩ : BufTy).Contents (Elt F) → (⟨S512x2816, .f32⟩ : BufTy).Contents (Elt F)),
    unary main_v52 main_v59 ((transpose S2816x2048 [1, 0] · transposes_S2048x2816_S2816x2048_1_0) : (⟨S2048x2816, .f32⟩ : BufTy).Contents (Elt F) → (⟨S2816x2048, .f32⟩ : BufTy).Contents (Elt F)),
    binary main_v58 main_v59 main_v60 ((fun l r => Host.dotGeneral dot_S512x2816_S2816x2048_S512x2048_1_0_0_1_n_n none l r) : (⟨S512x2816, .f32⟩ : BufTy).Contents (Elt F) → (⟨S2816x2048, .f32⟩ : BufTy).Contents (Elt F) → (⟨S512x2048, .f32⟩ : BufTy).Contents (Elt F)),
    nullary main_c_2 (constantI S_ 32 1#32),
    unary main_c_2 main_v61 (broadcastInDim S512x2 ![] bcast_S_S512x2 : (⟨S_, .i32⟩ : BufTy).Contents (Elt F) → (⟨S512x2, .i32⟩ : BufTy).Contents (Elt F)),
    binary main_arg1 main_v61 main_v62 (cmpi .eq : (⟨S512x2, .i32⟩ : BufTy).Contents (Elt F) → (⟨S512x2, .i32⟩ : BufTy).Contents (Elt F) → (⟨S512x2, .i1⟩ : BufTy).Contents (Elt F)),
    nullary main_cst_3 (constant S_ .f32 0x00000000#32),
    TRef.unary (TRef.of (T := ⟨S_, .f32⟩) main_cst_3) (TRef.of (T := ⟨S_, .f32⟩) main_call3_v0) id,
    TRef.unary (TRef.of (T := ⟨S_, .f32⟩) main_call3_v0) (TRef.of (T := ⟨S512x2, .f32⟩) main_call3_v1) (broadcastInDim S512x2 ![] bcast_S_S512x2),
    TRef.ternary (TRef.of (T := ⟨S512x2, .i1⟩) main_v62) (TRef.of (T := ⟨S512x2, .f32⟩) main_arg2) (TRef.of (T := ⟨S512x2, .f32⟩) main_call3_v1) (TRef.of (T := ⟨S512x2, .f32⟩) main_v63) select,
    nullary main_cst_4 (constant S_ .f32 0x00000000#32),
    binary main_v63 main_cst_4 main_v64 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    unary main_v64 main_v65 (broadcastInDim S512x1 ![0] bcast_S512_S512x1_0 : (⟨S512, .f32⟩ : BufTy).Contents (Elt F) → (⟨S512x1, .f32⟩ : BufTy).Contents (Elt F)),
    unary main_v65 main_v66 (broadcastInDim S512x2048 ![0, 1] bcast_S512x1_S512x2048_0_1 : (⟨S512x1, .f32⟩ : BufTy).Contents (Elt F) → (⟨S512x2048, .f32⟩ : BufTy).Contents (Elt F)),
    binary main_v66 main_v60 main_v67 (mulf : (⟨S512x2048, .f32⟩ : BufTy).Contents (Elt F) → (⟨S512x2048, .f32⟩ : BufTy).Contents (Elt F) → (⟨S512x2048, .f32⟩ : BufTy).Contents (Elt F)),
    binary main_v34 main_v67 main_v68 (addf : (⟨S512x2048, .f32⟩ : BufTy).Contents (Elt F) → (⟨S512x2048, .f32⟩ : BufTy).Contents (Elt F) → (⟨S512x2048, .f32⟩ : BufTy).Contents (Elt F)) ]

/-- Expert 2: its 47 operations, in order. -/
abbrev seg3 : List (HloOp τ sig (Elt F)) :=
  [ unary main_arg3 main_v69 ((extractStridedSlice S1x5632x2048 ![2, 0, 0] · slices_S8x5632x2048_S1x5632x2048_2_0_0) : (⟨S8x5632x2048, .f32⟩ : BufTy).Contents (Elt F) → (⟨S1x5632x2048, .f32⟩ : BufTy).Contents (Elt F)),
    reshape main_v69 main_v70 rfl shapeCasts_S1x5632x2048_S5632x2048,
    unary main_arg4 main_v71 ((extractStridedSlice S1x44x16 ![2, 0, 0] · slices_S8x44x16_S1x44x16_2_0_0) : (⟨S8x44x16, .f32⟩ : BufTy).Contents (Elt F) → (⟨S1x44x16, .f32⟩ : BufTy).Contents (Elt F)),
    reshape main_v71 main_v72 rfl shapeCasts_S1x44x16_S44x16,
    unary main_v72 main_v73 (broadcastInDim S44x128x16 ![0, 2] bcast_S44x16_S44x128x16_0_2 : (⟨S44x16, .f32⟩ : BufTy).Contents (Elt F) → (⟨S44x128x16, .f32⟩ : BufTy).Contents (Elt F)),
    reshape main_v73 main_v74 rfl shapeCasts_S44x128x16_S5632x16,
    unary main_v74 main_v75 (broadcastInDim S5632x16x128 ![0, 1] bcast_S5632x16_S5632x16x128_0_1 : (⟨S5632x16, .f32⟩ : BufTy).Contents (Elt F) → (⟨S5632x16x128, .f32⟩ : BufTy).Contents (Elt F)),
    reshape main_v75 main_v76 rfl shapeCasts_S5632x16x128_S5632x2048,
    binary main_v70 main_v76 main_v77 (mulf : (⟨S5632x2048, .f32⟩ : BufTy).Contents (Elt F) → (⟨S5632x2048, .f32⟩ : BufTy).Contents (Elt F) → (⟨S5632x2048, .f32⟩ : BufTy).Contents (Elt F)),
    unary main_arg5 main_v78 ((extractStridedSlice S1x2048x2816 ![2, 0, 0] · slices_S8x2048x2816_S1x2048x2816_2_0_0) : (⟨S8x2048x2816, .f32⟩ : BufTy).Contents (Elt F) → (⟨S1x2048x2816, .f32⟩ : BufTy).Contents (Elt F)),
    reshape main_v78 main_v79 rfl shapeCasts_S1x2048x2816_S2048x2816,
    unary main_arg6 main_v80 ((extractStridedSlice S1x16x22 ![2, 0, 0] · slices_S8x16x22_S1x16x22_2_0_0) : (⟨S8x16x22, .f32⟩ : BufTy).Contents (Elt F) → (⟨S1x16x22, .f32⟩ : BufTy).Contents (Elt F)),
    reshape main_v80 main_v81 rfl shapeCasts_S1x16x22_S16x22,
    unary main_v81 main_v82 (broadcastInDim S16x128x22 ![0, 2] bcast_S16x22_S16x128x22_0_2 : (⟨S16x22, .f32⟩ : BufTy).Contents (Elt F) → (⟨S16x128x22, .f32⟩ : BufTy).Contents (Elt F)),
    reshape main_v82 main_v83 rfl shapeCasts_S16x128x22_S2048x22,
    unary main_v83 main_v84 (broadcastInDim S2048x22x128 ![0, 1] bcast_S2048x22_S2048x22x128_0_1 : (⟨S2048x22, .f32⟩ : BufTy).Contents (Elt F) → (⟨S2048x22x128, .f32⟩ : BufTy).Contents (Elt F)),
    reshape main_v84 main_v85 rfl shapeCasts_S2048x22x128_S2048x2816,
    binary main_v79 main_v85 main_v86 (mulf : (⟨S2048x2816, .f32⟩ : BufTy).Contents (Elt F) → (⟨S2048x2816, .f32⟩ : BufTy).Contents (Elt F) → (⟨S2048x2816, .f32⟩ : BufTy).Contents (Elt F)),
    unary main_v77 main_v87 ((transpose S2048x5632 [1, 0] · transposes_S5632x2048_S2048x5632_1_0) : (⟨S5632x2048, .f32⟩ : BufTy).Contents (Elt F) → (⟨S2048x5632, .f32⟩ : BufTy).Contents (Elt F)),
    binary main_arg0 main_v87 main_v88 ((fun l r => Host.dotGeneral dot_S512x2048_S2048x5632_S512x5632_1_0_0_1_n_n none l r) : (⟨S512x2048, .f32⟩ : BufTy).Contents (Elt F) → (⟨S2048x5632, .f32⟩ : BufTy).Contents (Elt F) → (⟨S512x5632, .f32⟩ : BufTy).Contents (Elt F)),
    unary main_v88 main_v89 ((extractStridedSlice S512x2816 ![0, 0] · slices_S512x5632_S512x2816_0_0) : (⟨S512x5632, .f32⟩ : BufTy).Contents (Elt F) → (⟨S512x2816, .f32⟩ : BufTy).Contents (Elt F)),
    unary main_v88 main_v90 ((extractStridedSlice S512x2816 ![0, 2816] · slices_S512x5632_S512x2816_0_2816) : (⟨S512x5632, .f32⟩ : BufTy).Contents (Elt F) → (⟨S512x2816, .f32⟩ : BufTy).Contents (Elt F)),
    TRef.unary (TRef.of (T := ⟨S512x2816, .f32⟩) main_v89) (TRef.of (T := ⟨S512x2816, .f32⟩) main_call4_v0) Host.negf,
    TRef.unary (TRef.of (T := ⟨S512x2816, .f32⟩) main_call4_v0) (TRef.of (T := ⟨S512x2816, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S512x2816, .f32⟩) main_call4_v2) (broadcastInDim S512x2816 ![] bcast_S_S512x2816),
    TRef.binary (TRef.of (T := ⟨S512x2816, .f32⟩) main_call4_v2) (TRef.of (T := ⟨S512x2816, .f32⟩) main_call4_v1) (TRef.of (T := ⟨S512x2816, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S512x2816, .f32⟩) main_call4_v4) (broadcastInDim S512x2816 ![] bcast_S_S512x2816),
    TRef.binary (TRef.of (T := ⟨S512x2816, .f32⟩) main_call4_v4) (TRef.of (T := ⟨S512x2816, .f32⟩) main_call4_v3) (TRef.of (T := ⟨S512x2816, .f32⟩) main_call4_v5) Host.divf,
    TRef.binary (TRef.of (T := ⟨S512x2816, .f32⟩) main_v89) (TRef.of (T := ⟨S512x2816, .f32⟩) main_call4_v5) (TRef.of (T := ⟨S512x2816, .f32⟩) main_v91) mulf,
    binary main_v91 main_v90 main_v92 (mulf : (⟨S512x2816, .f32⟩ : BufTy).Contents (Elt F) → (⟨S512x2816, .f32⟩ : BufTy).Contents (Elt F) → (⟨S512x2816, .f32⟩ : BufTy).Contents (Elt F)),
    unary main_v86 main_v93 ((transpose S2816x2048 [1, 0] · transposes_S2048x2816_S2816x2048_1_0) : (⟨S2048x2816, .f32⟩ : BufTy).Contents (Elt F) → (⟨S2816x2048, .f32⟩ : BufTy).Contents (Elt F)),
    binary main_v92 main_v93 main_v94 ((fun l r => Host.dotGeneral dot_S512x2816_S2816x2048_S512x2048_1_0_0_1_n_n none l r) : (⟨S512x2816, .f32⟩ : BufTy).Contents (Elt F) → (⟨S2816x2048, .f32⟩ : BufTy).Contents (Elt F) → (⟨S512x2048, .f32⟩ : BufTy).Contents (Elt F)),
    nullary main_c_5 (constantI S_ 32 2#32),
    unary main_c_5 main_v95 (broadcastInDim S512x2 ![] bcast_S_S512x2 : (⟨S_, .i32⟩ : BufTy).Contents (Elt F) → (⟨S512x2, .i32⟩ : BufTy).Contents (Elt F)),
    binary main_arg1 main_v95 main_v96 (cmpi .eq : (⟨S512x2, .i32⟩ : BufTy).Contents (Elt F) → (⟨S512x2, .i32⟩ : BufTy).Contents (Elt F) → (⟨S512x2, .i1⟩ : BufTy).Contents (Elt F)),
    nullary main_cst_6 (constant S_ .f32 0x00000000#32),
    TRef.unary (TRef.of (T := ⟨S_, .f32⟩) main_cst_6) (TRef.of (T := ⟨S_, .f32⟩) main_call5_v0) id,
    TRef.unary (TRef.of (T := ⟨S_, .f32⟩) main_call5_v0) (TRef.of (T := ⟨S512x2, .f32⟩) main_call5_v1) (broadcastInDim S512x2 ![] bcast_S_S512x2),
    TRef.ternary (TRef.of (T := ⟨S512x2, .i1⟩) main_v96) (TRef.of (T := ⟨S512x2, .f32⟩) main_arg2) (TRef.of (T := ⟨S512x2, .f32⟩) main_call5_v1) (TRef.of (T := ⟨S512x2, .f32⟩) main_v97) select,
    nullary main_cst_7 (constant S_ .f32 0x00000000#32),
    binary main_v97 main_cst_7 main_v98 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    unary main_v98 main_v99 (broadcastInDim S512x1 ![0] bcast_S512_S512x1_0 : (⟨S512, .f32⟩ : BufTy).Contents (Elt F) → (⟨S512x1, .f32⟩ : BufTy).Contents (Elt F)),
    unary main_v99 main_v100 (broadcastInDim S512x2048 ![0, 1] bcast_S512x1_S512x2048_0_1 : (⟨S512x1, .f32⟩ : BufTy).Contents (Elt F) → (⟨S512x2048, .f32⟩ : BufTy).Contents (Elt F)),
    binary main_v100 main_v94 main_v101 (mulf : (⟨S512x2048, .f32⟩ : BufTy).Contents (Elt F) → (⟨S512x2048, .f32⟩ : BufTy).Contents (Elt F) → (⟨S512x2048, .f32⟩ : BufTy).Contents (Elt F)),
    binary main_v68 main_v101 main_v102 (addf : (⟨S512x2048, .f32⟩ : BufTy).Contents (Elt F) → (⟨S512x2048, .f32⟩ : BufTy).Contents (Elt F) → (⟨S512x2048, .f32⟩ : BufTy).Contents (Elt F)) ]

/-- Expert 3: its 47 operations, in order. -/
abbrev seg4 : List (HloOp τ sig (Elt F)) :=
  [ unary main_arg3 main_v103 ((extractStridedSlice S1x5632x2048 ![3, 0, 0] · slices_S8x5632x2048_S1x5632x2048_3_0_0) : (⟨S8x5632x2048, .f32⟩ : BufTy).Contents (Elt F) → (⟨S1x5632x2048, .f32⟩ : BufTy).Contents (Elt F)),
    reshape main_v103 main_v104 rfl shapeCasts_S1x5632x2048_S5632x2048,
    unary main_arg4 main_v105 ((extractStridedSlice S1x44x16 ![3, 0, 0] · slices_S8x44x16_S1x44x16_3_0_0) : (⟨S8x44x16, .f32⟩ : BufTy).Contents (Elt F) → (⟨S1x44x16, .f32⟩ : BufTy).Contents (Elt F)),
    reshape main_v105 main_v106 rfl shapeCasts_S1x44x16_S44x16,
    unary main_v106 main_v107 (broadcastInDim S44x128x16 ![0, 2] bcast_S44x16_S44x128x16_0_2 : (⟨S44x16, .f32⟩ : BufTy).Contents (Elt F) → (⟨S44x128x16, .f32⟩ : BufTy).Contents (Elt F)),
    reshape main_v107 main_v108 rfl shapeCasts_S44x128x16_S5632x16,
    unary main_v108 main_v109 (broadcastInDim S5632x16x128 ![0, 1] bcast_S5632x16_S5632x16x128_0_1 : (⟨S5632x16, .f32⟩ : BufTy).Contents (Elt F) → (⟨S5632x16x128, .f32⟩ : BufTy).Contents (Elt F)),
    reshape main_v109 main_v110 rfl shapeCasts_S5632x16x128_S5632x2048,
    binary main_v104 main_v110 main_v111 (mulf : (⟨S5632x2048, .f32⟩ : BufTy).Contents (Elt F) → (⟨S5632x2048, .f32⟩ : BufTy).Contents (Elt F) → (⟨S5632x2048, .f32⟩ : BufTy).Contents (Elt F)),
    unary main_arg5 main_v112 ((extractStridedSlice S1x2048x2816 ![3, 0, 0] · slices_S8x2048x2816_S1x2048x2816_3_0_0) : (⟨S8x2048x2816, .f32⟩ : BufTy).Contents (Elt F) → (⟨S1x2048x2816, .f32⟩ : BufTy).Contents (Elt F)),
    reshape main_v112 main_v113 rfl shapeCasts_S1x2048x2816_S2048x2816,
    unary main_arg6 main_v114 ((extractStridedSlice S1x16x22 ![3, 0, 0] · slices_S8x16x22_S1x16x22_3_0_0) : (⟨S8x16x22, .f32⟩ : BufTy).Contents (Elt F) → (⟨S1x16x22, .f32⟩ : BufTy).Contents (Elt F)),
    reshape main_v114 main_v115 rfl shapeCasts_S1x16x22_S16x22,
    unary main_v115 main_v116 (broadcastInDim S16x128x22 ![0, 2] bcast_S16x22_S16x128x22_0_2 : (⟨S16x22, .f32⟩ : BufTy).Contents (Elt F) → (⟨S16x128x22, .f32⟩ : BufTy).Contents (Elt F)),
    reshape main_v116 main_v117 rfl shapeCasts_S16x128x22_S2048x22,
    unary main_v117 main_v118 (broadcastInDim S2048x22x128 ![0, 1] bcast_S2048x22_S2048x22x128_0_1 : (⟨S2048x22, .f32⟩ : BufTy).Contents (Elt F) → (⟨S2048x22x128, .f32⟩ : BufTy).Contents (Elt F)),
    reshape main_v118 main_v119 rfl shapeCasts_S2048x22x128_S2048x2816,
    binary main_v113 main_v119 main_v120 (mulf : (⟨S2048x2816, .f32⟩ : BufTy).Contents (Elt F) → (⟨S2048x2816, .f32⟩ : BufTy).Contents (Elt F) → (⟨S2048x2816, .f32⟩ : BufTy).Contents (Elt F)),
    unary main_v111 main_v121 ((transpose S2048x5632 [1, 0] · transposes_S5632x2048_S2048x5632_1_0) : (⟨S5632x2048, .f32⟩ : BufTy).Contents (Elt F) → (⟨S2048x5632, .f32⟩ : BufTy).Contents (Elt F)),
    binary main_arg0 main_v121 main_v122 ((fun l r => Host.dotGeneral dot_S512x2048_S2048x5632_S512x5632_1_0_0_1_n_n none l r) : (⟨S512x2048, .f32⟩ : BufTy).Contents (Elt F) → (⟨S2048x5632, .f32⟩ : BufTy).Contents (Elt F) → (⟨S512x5632, .f32⟩ : BufTy).Contents (Elt F)),
    unary main_v122 main_v123 ((extractStridedSlice S512x2816 ![0, 0] · slices_S512x5632_S512x2816_0_0) : (⟨S512x5632, .f32⟩ : BufTy).Contents (Elt F) → (⟨S512x2816, .f32⟩ : BufTy).Contents (Elt F)),
    unary main_v122 main_v124 ((extractStridedSlice S512x2816 ![0, 2816] · slices_S512x5632_S512x2816_0_2816) : (⟨S512x5632, .f32⟩ : BufTy).Contents (Elt F) → (⟨S512x2816, .f32⟩ : BufTy).Contents (Elt F)),
    TRef.unary (TRef.of (T := ⟨S512x2816, .f32⟩) main_v123) (TRef.of (T := ⟨S512x2816, .f32⟩) main_call6_v0) Host.negf,
    TRef.unary (TRef.of (T := ⟨S512x2816, .f32⟩) main_call6_v0) (TRef.of (T := ⟨S512x2816, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S512x2816, .f32⟩) main_call6_v2) (broadcastInDim S512x2816 ![] bcast_S_S512x2816),
    TRef.binary (TRef.of (T := ⟨S512x2816, .f32⟩) main_call6_v2) (TRef.of (T := ⟨S512x2816, .f32⟩) main_call6_v1) (TRef.of (T := ⟨S512x2816, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S512x2816, .f32⟩) main_call6_v4) (broadcastInDim S512x2816 ![] bcast_S_S512x2816),
    TRef.binary (TRef.of (T := ⟨S512x2816, .f32⟩) main_call6_v4) (TRef.of (T := ⟨S512x2816, .f32⟩) main_call6_v3) (TRef.of (T := ⟨S512x2816, .f32⟩) main_call6_v5) Host.divf,
    TRef.binary (TRef.of (T := ⟨S512x2816, .f32⟩) main_v123) (TRef.of (T := ⟨S512x2816, .f32⟩) main_call6_v5) (TRef.of (T := ⟨S512x2816, .f32⟩) main_v125) mulf,
    binary main_v125 main_v124 main_v126 (mulf : (⟨S512x2816, .f32⟩ : BufTy).Contents (Elt F) → (⟨S512x2816, .f32⟩ : BufTy).Contents (Elt F) → (⟨S512x2816, .f32⟩ : BufTy).Contents (Elt F)),
    unary main_v120 main_v127 ((transpose S2816x2048 [1, 0] · transposes_S2048x2816_S2816x2048_1_0) : (⟨S2048x2816, .f32⟩ : BufTy).Contents (Elt F) → (⟨S2816x2048, .f32⟩ : BufTy).Contents (Elt F)),
    binary main_v126 main_v127 main_v128 ((fun l r => Host.dotGeneral dot_S512x2816_S2816x2048_S512x2048_1_0_0_1_n_n none l r) : (⟨S512x2816, .f32⟩ : BufTy).Contents (Elt F) → (⟨S2816x2048, .f32⟩ : BufTy).Contents (Elt F) → (⟨S512x2048, .f32⟩ : BufTy).Contents (Elt F)),
    nullary main_c_8 (constantI S_ 32 3#32),
    unary main_c_8 main_v129 (broadcastInDim S512x2 ![] bcast_S_S512x2 : (⟨S_, .i32⟩ : BufTy).Contents (Elt F) → (⟨S512x2, .i32⟩ : BufTy).Contents (Elt F)),
    binary main_arg1 main_v129 main_v130 (cmpi .eq : (⟨S512x2, .i32⟩ : BufTy).Contents (Elt F) → (⟨S512x2, .i32⟩ : BufTy).Contents (Elt F) → (⟨S512x2, .i1⟩ : BufTy).Contents (Elt F)),
    nullary main_cst_9 (constant S_ .f32 0x00000000#32),
    TRef.unary (TRef.of (T := ⟨S_, .f32⟩) main_cst_9) (TRef.of (T := ⟨S_, .f32⟩) main_call7_v0) id,
    TRef.unary (TRef.of (T := ⟨S_, .f32⟩) main_call7_v0) (TRef.of (T := ⟨S512x2, .f32⟩) main_call7_v1) (broadcastInDim S512x2 ![] bcast_S_S512x2),
    TRef.ternary (TRef.of (T := ⟨S512x2, .i1⟩) main_v130) (TRef.of (T := ⟨S512x2, .f32⟩) main_arg2) (TRef.of (T := ⟨S512x2, .f32⟩) main_call7_v1) (TRef.of (T := ⟨S512x2, .f32⟩) main_v131) select,
    nullary main_cst_10 (constant S_ .f32 0x00000000#32),
    binary main_v131 main_cst_10 main_v132 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    unary main_v132 main_v133 (broadcastInDim S512x1 ![0] bcast_S512_S512x1_0 : (⟨S512, .f32⟩ : BufTy).Contents (Elt F) → (⟨S512x1, .f32⟩ : BufTy).Contents (Elt F)),
    unary main_v133 main_v134 (broadcastInDim S512x2048 ![0, 1] bcast_S512x1_S512x2048_0_1 : (⟨S512x1, .f32⟩ : BufTy).Contents (Elt F) → (⟨S512x2048, .f32⟩ : BufTy).Contents (Elt F)),
    binary main_v134 main_v128 main_v135 (mulf : (⟨S512x2048, .f32⟩ : BufTy).Contents (Elt F) → (⟨S512x2048, .f32⟩ : BufTy).Contents (Elt F) → (⟨S512x2048, .f32⟩ : BufTy).Contents (Elt F)),
    binary main_v102 main_v135 main_v136 (addf : (⟨S512x2048, .f32⟩ : BufTy).Contents (Elt F) → (⟨S512x2048, .f32⟩ : BufTy).Contents (Elt F) → (⟨S512x2048, .f32⟩ : BufTy).Contents (Elt F)) ]

/-- Expert 4: its 47 operations, in order. -/
abbrev seg5 : List (HloOp τ sig (Elt F)) :=
  [ unary main_arg3 main_v137 ((extractStridedSlice S1x5632x2048 ![4, 0, 0] · slices_S8x5632x2048_S1x5632x2048_4_0_0) : (⟨S8x5632x2048, .f32⟩ : BufTy).Contents (Elt F) → (⟨S1x5632x2048, .f32⟩ : BufTy).Contents (Elt F)),
    reshape main_v137 main_v138 rfl shapeCasts_S1x5632x2048_S5632x2048,
    unary main_arg4 main_v139 ((extractStridedSlice S1x44x16 ![4, 0, 0] · slices_S8x44x16_S1x44x16_4_0_0) : (⟨S8x44x16, .f32⟩ : BufTy).Contents (Elt F) → (⟨S1x44x16, .f32⟩ : BufTy).Contents (Elt F)),
    reshape main_v139 main_v140 rfl shapeCasts_S1x44x16_S44x16,
    unary main_v140 main_v141 (broadcastInDim S44x128x16 ![0, 2] bcast_S44x16_S44x128x16_0_2 : (⟨S44x16, .f32⟩ : BufTy).Contents (Elt F) → (⟨S44x128x16, .f32⟩ : BufTy).Contents (Elt F)),
    reshape main_v141 main_v142 rfl shapeCasts_S44x128x16_S5632x16,
    unary main_v142 main_v143 (broadcastInDim S5632x16x128 ![0, 1] bcast_S5632x16_S5632x16x128_0_1 : (⟨S5632x16, .f32⟩ : BufTy).Contents (Elt F) → (⟨S5632x16x128, .f32⟩ : BufTy).Contents (Elt F)),
    reshape main_v143 main_v144 rfl shapeCasts_S5632x16x128_S5632x2048,
    binary main_v138 main_v144 main_v145 (mulf : (⟨S5632x2048, .f32⟩ : BufTy).Contents (Elt F) → (⟨S5632x2048, .f32⟩ : BufTy).Contents (Elt F) → (⟨S5632x2048, .f32⟩ : BufTy).Contents (Elt F)),
    unary main_arg5 main_v146 ((extractStridedSlice S1x2048x2816 ![4, 0, 0] · slices_S8x2048x2816_S1x2048x2816_4_0_0) : (⟨S8x2048x2816, .f32⟩ : BufTy).Contents (Elt F) → (⟨S1x2048x2816, .f32⟩ : BufTy).Contents (Elt F)),
    reshape main_v146 main_v147 rfl shapeCasts_S1x2048x2816_S2048x2816,
    unary main_arg6 main_v148 ((extractStridedSlice S1x16x22 ![4, 0, 0] · slices_S8x16x22_S1x16x22_4_0_0) : (⟨S8x16x22, .f32⟩ : BufTy).Contents (Elt F) → (⟨S1x16x22, .f32⟩ : BufTy).Contents (Elt F)),
    reshape main_v148 main_v149 rfl shapeCasts_S1x16x22_S16x22,
    unary main_v149 main_v150 (broadcastInDim S16x128x22 ![0, 2] bcast_S16x22_S16x128x22_0_2 : (⟨S16x22, .f32⟩ : BufTy).Contents (Elt F) → (⟨S16x128x22, .f32⟩ : BufTy).Contents (Elt F)),
    reshape main_v150 main_v151 rfl shapeCasts_S16x128x22_S2048x22,
    unary main_v151 main_v152 (broadcastInDim S2048x22x128 ![0, 1] bcast_S2048x22_S2048x22x128_0_1 : (⟨S2048x22, .f32⟩ : BufTy).Contents (Elt F) → (⟨S2048x22x128, .f32⟩ : BufTy).Contents (Elt F)),
    reshape main_v152 main_v153 rfl shapeCasts_S2048x22x128_S2048x2816,
    binary main_v147 main_v153 main_v154 (mulf : (⟨S2048x2816, .f32⟩ : BufTy).Contents (Elt F) → (⟨S2048x2816, .f32⟩ : BufTy).Contents (Elt F) → (⟨S2048x2816, .f32⟩ : BufTy).Contents (Elt F)),
    unary main_v145 main_v155 ((transpose S2048x5632 [1, 0] · transposes_S5632x2048_S2048x5632_1_0) : (⟨S5632x2048, .f32⟩ : BufTy).Contents (Elt F) → (⟨S2048x5632, .f32⟩ : BufTy).Contents (Elt F)),
    binary main_arg0 main_v155 main_v156 ((fun l r => Host.dotGeneral dot_S512x2048_S2048x5632_S512x5632_1_0_0_1_n_n none l r) : (⟨S512x2048, .f32⟩ : BufTy).Contents (Elt F) → (⟨S2048x5632, .f32⟩ : BufTy).Contents (Elt F) → (⟨S512x5632, .f32⟩ : BufTy).Contents (Elt F)),
    unary main_v156 main_v157 ((extractStridedSlice S512x2816 ![0, 0] · slices_S512x5632_S512x2816_0_0) : (⟨S512x5632, .f32⟩ : BufTy).Contents (Elt F) → (⟨S512x2816, .f32⟩ : BufTy).Contents (Elt F)),
    unary main_v156 main_v158 ((extractStridedSlice S512x2816 ![0, 2816] · slices_S512x5632_S512x2816_0_2816) : (⟨S512x5632, .f32⟩ : BufTy).Contents (Elt F) → (⟨S512x2816, .f32⟩ : BufTy).Contents (Elt F)),
    TRef.unary (TRef.of (T := ⟨S512x2816, .f32⟩) main_v157) (TRef.of (T := ⟨S512x2816, .f32⟩) main_call8_v0) Host.negf,
    TRef.unary (TRef.of (T := ⟨S512x2816, .f32⟩) main_call8_v0) (TRef.of (T := ⟨S512x2816, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S512x2816, .f32⟩) main_call8_v2) (broadcastInDim S512x2816 ![] bcast_S_S512x2816),
    TRef.binary (TRef.of (T := ⟨S512x2816, .f32⟩) main_call8_v2) (TRef.of (T := ⟨S512x2816, .f32⟩) main_call8_v1) (TRef.of (T := ⟨S512x2816, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S512x2816, .f32⟩) main_call8_v4) (broadcastInDim S512x2816 ![] bcast_S_S512x2816),
    TRef.binary (TRef.of (T := ⟨S512x2816, .f32⟩) main_call8_v4) (TRef.of (T := ⟨S512x2816, .f32⟩) main_call8_v3) (TRef.of (T := ⟨S512x2816, .f32⟩) main_call8_v5) Host.divf,
    TRef.binary (TRef.of (T := ⟨S512x2816, .f32⟩) main_v157) (TRef.of (T := ⟨S512x2816, .f32⟩) main_call8_v5) (TRef.of (T := ⟨S512x2816, .f32⟩) main_v159) mulf,
    binary main_v159 main_v158 main_v160 (mulf : (⟨S512x2816, .f32⟩ : BufTy).Contents (Elt F) → (⟨S512x2816, .f32⟩ : BufTy).Contents (Elt F) → (⟨S512x2816, .f32⟩ : BufTy).Contents (Elt F)),
    unary main_v154 main_v161 ((transpose S2816x2048 [1, 0] · transposes_S2048x2816_S2816x2048_1_0) : (⟨S2048x2816, .f32⟩ : BufTy).Contents (Elt F) → (⟨S2816x2048, .f32⟩ : BufTy).Contents (Elt F)),
    binary main_v160 main_v161 main_v162 ((fun l r => Host.dotGeneral dot_S512x2816_S2816x2048_S512x2048_1_0_0_1_n_n none l r) : (⟨S512x2816, .f32⟩ : BufTy).Contents (Elt F) → (⟨S2816x2048, .f32⟩ : BufTy).Contents (Elt F) → (⟨S512x2048, .f32⟩ : BufTy).Contents (Elt F)),
    nullary main_c_11 (constantI S_ 32 4#32),
    unary main_c_11 main_v163 (broadcastInDim S512x2 ![] bcast_S_S512x2 : (⟨S_, .i32⟩ : BufTy).Contents (Elt F) → (⟨S512x2, .i32⟩ : BufTy).Contents (Elt F)),
    binary main_arg1 main_v163 main_v164 (cmpi .eq : (⟨S512x2, .i32⟩ : BufTy).Contents (Elt F) → (⟨S512x2, .i32⟩ : BufTy).Contents (Elt F) → (⟨S512x2, .i1⟩ : BufTy).Contents (Elt F)),
    nullary main_cst_12 (constant S_ .f32 0x00000000#32),
    TRef.unary (TRef.of (T := ⟨S_, .f32⟩) main_cst_12) (TRef.of (T := ⟨S_, .f32⟩) main_call9_v0) id,
    TRef.unary (TRef.of (T := ⟨S_, .f32⟩) main_call9_v0) (TRef.of (T := ⟨S512x2, .f32⟩) main_call9_v1) (broadcastInDim S512x2 ![] bcast_S_S512x2),
    TRef.ternary (TRef.of (T := ⟨S512x2, .i1⟩) main_v164) (TRef.of (T := ⟨S512x2, .f32⟩) main_arg2) (TRef.of (T := ⟨S512x2, .f32⟩) main_call9_v1) (TRef.of (T := ⟨S512x2, .f32⟩) main_v165) select,
    nullary main_cst_13 (constant S_ .f32 0x00000000#32),
    binary main_v165 main_cst_13 main_v166 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    unary main_v166 main_v167 (broadcastInDim S512x1 ![0] bcast_S512_S512x1_0 : (⟨S512, .f32⟩ : BufTy).Contents (Elt F) → (⟨S512x1, .f32⟩ : BufTy).Contents (Elt F)),
    unary main_v167 main_v168 (broadcastInDim S512x2048 ![0, 1] bcast_S512x1_S512x2048_0_1 : (⟨S512x1, .f32⟩ : BufTy).Contents (Elt F) → (⟨S512x2048, .f32⟩ : BufTy).Contents (Elt F)),
    binary main_v168 main_v162 main_v169 (mulf : (⟨S512x2048, .f32⟩ : BufTy).Contents (Elt F) → (⟨S512x2048, .f32⟩ : BufTy).Contents (Elt F) → (⟨S512x2048, .f32⟩ : BufTy).Contents (Elt F)),
    binary main_v136 main_v169 main_v170 (addf : (⟨S512x2048, .f32⟩ : BufTy).Contents (Elt F) → (⟨S512x2048, .f32⟩ : BufTy).Contents (Elt F) → (⟨S512x2048, .f32⟩ : BufTy).Contents (Elt F)) ]

/-- Expert 5: its 47 operations, in order. -/
abbrev seg6 : List (HloOp τ sig (Elt F)) :=
  [ unary main_arg3 main_v171 ((extractStridedSlice S1x5632x2048 ![5, 0, 0] · slices_S8x5632x2048_S1x5632x2048_5_0_0) : (⟨S8x5632x2048, .f32⟩ : BufTy).Contents (Elt F) → (⟨S1x5632x2048, .f32⟩ : BufTy).Contents (Elt F)),
    reshape main_v171 main_v172 rfl shapeCasts_S1x5632x2048_S5632x2048,
    unary main_arg4 main_v173 ((extractStridedSlice S1x44x16 ![5, 0, 0] · slices_S8x44x16_S1x44x16_5_0_0) : (⟨S8x44x16, .f32⟩ : BufTy).Contents (Elt F) → (⟨S1x44x16, .f32⟩ : BufTy).Contents (Elt F)),
    reshape main_v173 main_v174 rfl shapeCasts_S1x44x16_S44x16,
    unary main_v174 main_v175 (broadcastInDim S44x128x16 ![0, 2] bcast_S44x16_S44x128x16_0_2 : (⟨S44x16, .f32⟩ : BufTy).Contents (Elt F) → (⟨S44x128x16, .f32⟩ : BufTy).Contents (Elt F)),
    reshape main_v175 main_v176 rfl shapeCasts_S44x128x16_S5632x16,
    unary main_v176 main_v177 (broadcastInDim S5632x16x128 ![0, 1] bcast_S5632x16_S5632x16x128_0_1 : (⟨S5632x16, .f32⟩ : BufTy).Contents (Elt F) → (⟨S5632x16x128, .f32⟩ : BufTy).Contents (Elt F)),
    reshape main_v177 main_v178 rfl shapeCasts_S5632x16x128_S5632x2048,
    binary main_v172 main_v178 main_v179 (mulf : (⟨S5632x2048, .f32⟩ : BufTy).Contents (Elt F) → (⟨S5632x2048, .f32⟩ : BufTy).Contents (Elt F) → (⟨S5632x2048, .f32⟩ : BufTy).Contents (Elt F)),
    unary main_arg5 main_v180 ((extractStridedSlice S1x2048x2816 ![5, 0, 0] · slices_S8x2048x2816_S1x2048x2816_5_0_0) : (⟨S8x2048x2816, .f32⟩ : BufTy).Contents (Elt F) → (⟨S1x2048x2816, .f32⟩ : BufTy).Contents (Elt F)),
    reshape main_v180 main_v181 rfl shapeCasts_S1x2048x2816_S2048x2816,
    unary main_arg6 main_v182 ((extractStridedSlice S1x16x22 ![5, 0, 0] · slices_S8x16x22_S1x16x22_5_0_0) : (⟨S8x16x22, .f32⟩ : BufTy).Contents (Elt F) → (⟨S1x16x22, .f32⟩ : BufTy).Contents (Elt F)),
    reshape main_v182 main_v183 rfl shapeCasts_S1x16x22_S16x22,
    unary main_v183 main_v184 (broadcastInDim S16x128x22 ![0, 2] bcast_S16x22_S16x128x22_0_2 : (⟨S16x22, .f32⟩ : BufTy).Contents (Elt F) → (⟨S16x128x22, .f32⟩ : BufTy).Contents (Elt F)),
    reshape main_v184 main_v185 rfl shapeCasts_S16x128x22_S2048x22,
    unary main_v185 main_v186 (broadcastInDim S2048x22x128 ![0, 1] bcast_S2048x22_S2048x22x128_0_1 : (⟨S2048x22, .f32⟩ : BufTy).Contents (Elt F) → (⟨S2048x22x128, .f32⟩ : BufTy).Contents (Elt F)),
    reshape main_v186 main_v187 rfl shapeCasts_S2048x22x128_S2048x2816,
    binary main_v181 main_v187 main_v188 (mulf : (⟨S2048x2816, .f32⟩ : BufTy).Contents (Elt F) → (⟨S2048x2816, .f32⟩ : BufTy).Contents (Elt F) → (⟨S2048x2816, .f32⟩ : BufTy).Contents (Elt F)),
    unary main_v179 main_v189 ((transpose S2048x5632 [1, 0] · transposes_S5632x2048_S2048x5632_1_0) : (⟨S5632x2048, .f32⟩ : BufTy).Contents (Elt F) → (⟨S2048x5632, .f32⟩ : BufTy).Contents (Elt F)),
    binary main_arg0 main_v189 main_v190 ((fun l r => Host.dotGeneral dot_S512x2048_S2048x5632_S512x5632_1_0_0_1_n_n none l r) : (⟨S512x2048, .f32⟩ : BufTy).Contents (Elt F) → (⟨S2048x5632, .f32⟩ : BufTy).Contents (Elt F) → (⟨S512x5632, .f32⟩ : BufTy).Contents (Elt F)),
    unary main_v190 main_v191 ((extractStridedSlice S512x2816 ![0, 0] · slices_S512x5632_S512x2816_0_0) : (⟨S512x5632, .f32⟩ : BufTy).Contents (Elt F) → (⟨S512x2816, .f32⟩ : BufTy).Contents (Elt F)),
    unary main_v190 main_v192 ((extractStridedSlice S512x2816 ![0, 2816] · slices_S512x5632_S512x2816_0_2816) : (⟨S512x5632, .f32⟩ : BufTy).Contents (Elt F) → (⟨S512x2816, .f32⟩ : BufTy).Contents (Elt F)),
    TRef.unary (TRef.of (T := ⟨S512x2816, .f32⟩) main_v191) (TRef.of (T := ⟨S512x2816, .f32⟩) main_call10_v0) Host.negf,
    TRef.unary (TRef.of (T := ⟨S512x2816, .f32⟩) main_call10_v0) (TRef.of (T := ⟨S512x2816, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S512x2816, .f32⟩) main_call10_v2) (broadcastInDim S512x2816 ![] bcast_S_S512x2816),
    TRef.binary (TRef.of (T := ⟨S512x2816, .f32⟩) main_call10_v2) (TRef.of (T := ⟨S512x2816, .f32⟩) main_call10_v1) (TRef.of (T := ⟨S512x2816, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S512x2816, .f32⟩) main_call10_v4) (broadcastInDim S512x2816 ![] bcast_S_S512x2816),
    TRef.binary (TRef.of (T := ⟨S512x2816, .f32⟩) main_call10_v4) (TRef.of (T := ⟨S512x2816, .f32⟩) main_call10_v3) (TRef.of (T := ⟨S512x2816, .f32⟩) main_call10_v5) Host.divf,
    TRef.binary (TRef.of (T := ⟨S512x2816, .f32⟩) main_v191) (TRef.of (T := ⟨S512x2816, .f32⟩) main_call10_v5) (TRef.of (T := ⟨S512x2816, .f32⟩) main_v193) mulf,
    binary main_v193 main_v192 main_v194 (mulf : (⟨S512x2816, .f32⟩ : BufTy).Contents (Elt F) → (⟨S512x2816, .f32⟩ : BufTy).Contents (Elt F) → (⟨S512x2816, .f32⟩ : BufTy).Contents (Elt F)),
    unary main_v188 main_v195 ((transpose S2816x2048 [1, 0] · transposes_S2048x2816_S2816x2048_1_0) : (⟨S2048x2816, .f32⟩ : BufTy).Contents (Elt F) → (⟨S2816x2048, .f32⟩ : BufTy).Contents (Elt F)),
    binary main_v194 main_v195 main_v196 ((fun l r => Host.dotGeneral dot_S512x2816_S2816x2048_S512x2048_1_0_0_1_n_n none l r) : (⟨S512x2816, .f32⟩ : BufTy).Contents (Elt F) → (⟨S2816x2048, .f32⟩ : BufTy).Contents (Elt F) → (⟨S512x2048, .f32⟩ : BufTy).Contents (Elt F)),
    nullary main_c_14 (constantI S_ 32 5#32),
    unary main_c_14 main_v197 (broadcastInDim S512x2 ![] bcast_S_S512x2 : (⟨S_, .i32⟩ : BufTy).Contents (Elt F) → (⟨S512x2, .i32⟩ : BufTy).Contents (Elt F)),
    binary main_arg1 main_v197 main_v198 (cmpi .eq : (⟨S512x2, .i32⟩ : BufTy).Contents (Elt F) → (⟨S512x2, .i32⟩ : BufTy).Contents (Elt F) → (⟨S512x2, .i1⟩ : BufTy).Contents (Elt F)),
    nullary main_cst_15 (constant S_ .f32 0x00000000#32),
    TRef.unary (TRef.of (T := ⟨S_, .f32⟩) main_cst_15) (TRef.of (T := ⟨S_, .f32⟩) main_call11_v0) id,
    TRef.unary (TRef.of (T := ⟨S_, .f32⟩) main_call11_v0) (TRef.of (T := ⟨S512x2, .f32⟩) main_call11_v1) (broadcastInDim S512x2 ![] bcast_S_S512x2),
    TRef.ternary (TRef.of (T := ⟨S512x2, .i1⟩) main_v198) (TRef.of (T := ⟨S512x2, .f32⟩) main_arg2) (TRef.of (T := ⟨S512x2, .f32⟩) main_call11_v1) (TRef.of (T := ⟨S512x2, .f32⟩) main_v199) select,
    nullary main_cst_16 (constant S_ .f32 0x00000000#32),
    binary main_v199 main_cst_16 main_v200 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    unary main_v200 main_v201 (broadcastInDim S512x1 ![0] bcast_S512_S512x1_0 : (⟨S512, .f32⟩ : BufTy).Contents (Elt F) → (⟨S512x1, .f32⟩ : BufTy).Contents (Elt F)),
    unary main_v201 main_v202 (broadcastInDim S512x2048 ![0, 1] bcast_S512x1_S512x2048_0_1 : (⟨S512x1, .f32⟩ : BufTy).Contents (Elt F) → (⟨S512x2048, .f32⟩ : BufTy).Contents (Elt F)),
    binary main_v202 main_v196 main_v203 (mulf : (⟨S512x2048, .f32⟩ : BufTy).Contents (Elt F) → (⟨S512x2048, .f32⟩ : BufTy).Contents (Elt F) → (⟨S512x2048, .f32⟩ : BufTy).Contents (Elt F)),
    binary main_v170 main_v203 main_v204 (addf : (⟨S512x2048, .f32⟩ : BufTy).Contents (Elt F) → (⟨S512x2048, .f32⟩ : BufTy).Contents (Elt F) → (⟨S512x2048, .f32⟩ : BufTy).Contents (Elt F)) ]

/-- Expert 6: its 47 operations, in order. -/
abbrev seg7 : List (HloOp τ sig (Elt F)) :=
  [ unary main_arg3 main_v205 ((extractStridedSlice S1x5632x2048 ![6, 0, 0] · slices_S8x5632x2048_S1x5632x2048_6_0_0) : (⟨S8x5632x2048, .f32⟩ : BufTy).Contents (Elt F) → (⟨S1x5632x2048, .f32⟩ : BufTy).Contents (Elt F)),
    reshape main_v205 main_v206 rfl shapeCasts_S1x5632x2048_S5632x2048,
    unary main_arg4 main_v207 ((extractStridedSlice S1x44x16 ![6, 0, 0] · slices_S8x44x16_S1x44x16_6_0_0) : (⟨S8x44x16, .f32⟩ : BufTy).Contents (Elt F) → (⟨S1x44x16, .f32⟩ : BufTy).Contents (Elt F)),
    reshape main_v207 main_v208 rfl shapeCasts_S1x44x16_S44x16,
    unary main_v208 main_v209 (broadcastInDim S44x128x16 ![0, 2] bcast_S44x16_S44x128x16_0_2 : (⟨S44x16, .f32⟩ : BufTy).Contents (Elt F) → (⟨S44x128x16, .f32⟩ : BufTy).Contents (Elt F)),
    reshape main_v209 main_v210 rfl shapeCasts_S44x128x16_S5632x16,
    unary main_v210 main_v211 (broadcastInDim S5632x16x128 ![0, 1] bcast_S5632x16_S5632x16x128_0_1 : (⟨S5632x16, .f32⟩ : BufTy).Contents (Elt F) → (⟨S5632x16x128, .f32⟩ : BufTy).Contents (Elt F)),
    reshape main_v211 main_v212 rfl shapeCasts_S5632x16x128_S5632x2048,
    binary main_v206 main_v212 main_v213 (mulf : (⟨S5632x2048, .f32⟩ : BufTy).Contents (Elt F) → (⟨S5632x2048, .f32⟩ : BufTy).Contents (Elt F) → (⟨S5632x2048, .f32⟩ : BufTy).Contents (Elt F)),
    unary main_arg5 main_v214 ((extractStridedSlice S1x2048x2816 ![6, 0, 0] · slices_S8x2048x2816_S1x2048x2816_6_0_0) : (⟨S8x2048x2816, .f32⟩ : BufTy).Contents (Elt F) → (⟨S1x2048x2816, .f32⟩ : BufTy).Contents (Elt F)),
    reshape main_v214 main_v215 rfl shapeCasts_S1x2048x2816_S2048x2816,
    unary main_arg6 main_v216 ((extractStridedSlice S1x16x22 ![6, 0, 0] · slices_S8x16x22_S1x16x22_6_0_0) : (⟨S8x16x22, .f32⟩ : BufTy).Contents (Elt F) → (⟨S1x16x22, .f32⟩ : BufTy).Contents (Elt F)),
    reshape main_v216 main_v217 rfl shapeCasts_S1x16x22_S16x22,
    unary main_v217 main_v218 (broadcastInDim S16x128x22 ![0, 2] bcast_S16x22_S16x128x22_0_2 : (⟨S16x22, .f32⟩ : BufTy).Contents (Elt F) → (⟨S16x128x22, .f32⟩ : BufTy).Contents (Elt F)),
    reshape main_v218 main_v219 rfl shapeCasts_S16x128x22_S2048x22,
    unary main_v219 main_v220 (broadcastInDim S2048x22x128 ![0, 1] bcast_S2048x22_S2048x22x128_0_1 : (⟨S2048x22, .f32⟩ : BufTy).Contents (Elt F) → (⟨S2048x22x128, .f32⟩ : BufTy).Contents (Elt F)),
    reshape main_v220 main_v221 rfl shapeCasts_S2048x22x128_S2048x2816,
    binary main_v215 main_v221 main_v222 (mulf : (⟨S2048x2816, .f32⟩ : BufTy).Contents (Elt F) → (⟨S2048x2816, .f32⟩ : BufTy).Contents (Elt F) → (⟨S2048x2816, .f32⟩ : BufTy).Contents (Elt F)),
    unary main_v213 main_v223 ((transpose S2048x5632 [1, 0] · transposes_S5632x2048_S2048x5632_1_0) : (⟨S5632x2048, .f32⟩ : BufTy).Contents (Elt F) → (⟨S2048x5632, .f32⟩ : BufTy).Contents (Elt F)),
    binary main_arg0 main_v223 main_v224 ((fun l r => Host.dotGeneral dot_S512x2048_S2048x5632_S512x5632_1_0_0_1_n_n none l r) : (⟨S512x2048, .f32⟩ : BufTy).Contents (Elt F) → (⟨S2048x5632, .f32⟩ : BufTy).Contents (Elt F) → (⟨S512x5632, .f32⟩ : BufTy).Contents (Elt F)),
    unary main_v224 main_v225 ((extractStridedSlice S512x2816 ![0, 0] · slices_S512x5632_S512x2816_0_0) : (⟨S512x5632, .f32⟩ : BufTy).Contents (Elt F) → (⟨S512x2816, .f32⟩ : BufTy).Contents (Elt F)),
    unary main_v224 main_v226 ((extractStridedSlice S512x2816 ![0, 2816] · slices_S512x5632_S512x2816_0_2816) : (⟨S512x5632, .f32⟩ : BufTy).Contents (Elt F) → (⟨S512x2816, .f32⟩ : BufTy).Contents (Elt F)),
    TRef.unary (TRef.of (T := ⟨S512x2816, .f32⟩) main_v225) (TRef.of (T := ⟨S512x2816, .f32⟩) main_call12_v0) Host.negf,
    TRef.unary (TRef.of (T := ⟨S512x2816, .f32⟩) main_call12_v0) (TRef.of (T := ⟨S512x2816, .f32⟩) main_call12_v1) Host.exp,
    TRef.nullary (TRef.of (T := ⟨S_, .f32⟩) main_call12_cst) (constant S_ .f32 0x3F800000#32),
    TRef.unary (TRef.of (T := ⟨S_, .f32⟩) main_call12_cst) (TRef.of (T := ⟨S512x2816, .f32⟩) main_call12_v2) (broadcastInDim S512x2816 ![] bcast_S_S512x2816),
    TRef.binary (TRef.of (T := ⟨S512x2816, .f32⟩) main_call12_v2) (TRef.of (T := ⟨S512x2816, .f32⟩) main_call12_v1) (TRef.of (T := ⟨S512x2816, .f32⟩) main_call12_v3) addf,
    TRef.nullary (TRef.of (T := ⟨S_, .f32⟩) main_call12_cst_0) (constant S_ .f32 0x3F800000#32),
    TRef.unary (TRef.of (T := ⟨S_, .f32⟩) main_call12_cst_0) (TRef.of (T := ⟨S512x2816, .f32⟩) main_call12_v4) (broadcastInDim S512x2816 ![] bcast_S_S512x2816),
    TRef.binary (TRef.of (T := ⟨S512x2816, .f32⟩) main_call12_v4) (TRef.of (T := ⟨S512x2816, .f32⟩) main_call12_v3) (TRef.of (T := ⟨S512x2816, .f32⟩) main_call12_v5) Host.divf,
    TRef.binary (TRef.of (T := ⟨S512x2816, .f32⟩) main_v225) (TRef.of (T := ⟨S512x2816, .f32⟩) main_call12_v5) (TRef.of (T := ⟨S512x2816, .f32⟩) main_v227) mulf,
    binary main_v227 main_v226 main_v228 (mulf : (⟨S512x2816, .f32⟩ : BufTy).Contents (Elt F) → (⟨S512x2816, .f32⟩ : BufTy).Contents (Elt F) → (⟨S512x2816, .f32⟩ : BufTy).Contents (Elt F)),
    unary main_v222 main_v229 ((transpose S2816x2048 [1, 0] · transposes_S2048x2816_S2816x2048_1_0) : (⟨S2048x2816, .f32⟩ : BufTy).Contents (Elt F) → (⟨S2816x2048, .f32⟩ : BufTy).Contents (Elt F)),
    binary main_v228 main_v229 main_v230 ((fun l r => Host.dotGeneral dot_S512x2816_S2816x2048_S512x2048_1_0_0_1_n_n none l r) : (⟨S512x2816, .f32⟩ : BufTy).Contents (Elt F) → (⟨S2816x2048, .f32⟩ : BufTy).Contents (Elt F) → (⟨S512x2048, .f32⟩ : BufTy).Contents (Elt F)),
    nullary main_c_17 (constantI S_ 32 6#32),
    unary main_c_17 main_v231 (broadcastInDim S512x2 ![] bcast_S_S512x2 : (⟨S_, .i32⟩ : BufTy).Contents (Elt F) → (⟨S512x2, .i32⟩ : BufTy).Contents (Elt F)),
    binary main_arg1 main_v231 main_v232 (cmpi .eq : (⟨S512x2, .i32⟩ : BufTy).Contents (Elt F) → (⟨S512x2, .i32⟩ : BufTy).Contents (Elt F) → (⟨S512x2, .i1⟩ : BufTy).Contents (Elt F)),
    nullary main_cst_18 (constant S_ .f32 0x00000000#32),
    TRef.unary (TRef.of (T := ⟨S_, .f32⟩) main_cst_18) (TRef.of (T := ⟨S_, .f32⟩) main_call13_v0) id,
    TRef.unary (TRef.of (T := ⟨S_, .f32⟩) main_call13_v0) (TRef.of (T := ⟨S512x2, .f32⟩) main_call13_v1) (broadcastInDim S512x2 ![] bcast_S_S512x2),
    TRef.ternary (TRef.of (T := ⟨S512x2, .i1⟩) main_v232) (TRef.of (T := ⟨S512x2, .f32⟩) main_arg2) (TRef.of (T := ⟨S512x2, .f32⟩) main_call13_v1) (TRef.of (T := ⟨S512x2, .f32⟩) main_v233) select,
    nullary main_cst_19 (constant S_ .f32 0x00000000#32),
    binary main_v233 main_cst_19 main_v234 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    unary main_v234 main_v235 (broadcastInDim S512x1 ![0] bcast_S512_S512x1_0 : (⟨S512, .f32⟩ : BufTy).Contents (Elt F) → (⟨S512x1, .f32⟩ : BufTy).Contents (Elt F)),
    unary main_v235 main_v236 (broadcastInDim S512x2048 ![0, 1] bcast_S512x1_S512x2048_0_1 : (⟨S512x1, .f32⟩ : BufTy).Contents (Elt F) → (⟨S512x2048, .f32⟩ : BufTy).Contents (Elt F)),
    binary main_v236 main_v230 main_v237 (mulf : (⟨S512x2048, .f32⟩ : BufTy).Contents (Elt F) → (⟨S512x2048, .f32⟩ : BufTy).Contents (Elt F) → (⟨S512x2048, .f32⟩ : BufTy).Contents (Elt F)),
    binary main_v204 main_v237 main_v238 (addf : (⟨S512x2048, .f32⟩ : BufTy).Contents (Elt F) → (⟨S512x2048, .f32⟩ : BufTy).Contents (Elt F) → (⟨S512x2048, .f32⟩ : BufTy).Contents (Elt F)) ]

/-- Expert 7: its 47 operations, in order. -/
abbrev seg8 : List (HloOp τ sig (Elt F)) :=
  [ unary main_arg3 main_v239 ((extractStridedSlice S1x5632x2048 ![7, 0, 0] · slices_S8x5632x2048_S1x5632x2048_7_0_0) : (⟨S8x5632x2048, .f32⟩ : BufTy).Contents (Elt F) → (⟨S1x5632x2048, .f32⟩ : BufTy).Contents (Elt F)),
    reshape main_v239 main_v240 rfl shapeCasts_S1x5632x2048_S5632x2048,
    unary main_arg4 main_v241 ((extractStridedSlice S1x44x16 ![7, 0, 0] · slices_S8x44x16_S1x44x16_7_0_0) : (⟨S8x44x16, .f32⟩ : BufTy).Contents (Elt F) → (⟨S1x44x16, .f32⟩ : BufTy).Contents (Elt F)),
    reshape main_v241 main_v242 rfl shapeCasts_S1x44x16_S44x16,
    unary main_v242 main_v243 (broadcastInDim S44x128x16 ![0, 2] bcast_S44x16_S44x128x16_0_2 : (⟨S44x16, .f32⟩ : BufTy).Contents (Elt F) → (⟨S44x128x16, .f32⟩ : BufTy).Contents (Elt F)),
    reshape main_v243 main_v244 rfl shapeCasts_S44x128x16_S5632x16,
    unary main_v244 main_v245 (broadcastInDim S5632x16x128 ![0, 1] bcast_S5632x16_S5632x16x128_0_1 : (⟨S5632x16, .f32⟩ : BufTy).Contents (Elt F) → (⟨S5632x16x128, .f32⟩ : BufTy).Contents (Elt F)),
    reshape main_v245 main_v246 rfl shapeCasts_S5632x16x128_S5632x2048,
    binary main_v240 main_v246 main_v247 (mulf : (⟨S5632x2048, .f32⟩ : BufTy).Contents (Elt F) → (⟨S5632x2048, .f32⟩ : BufTy).Contents (Elt F) → (⟨S5632x2048, .f32⟩ : BufTy).Contents (Elt F)),
    unary main_arg5 main_v248 ((extractStridedSlice S1x2048x2816 ![7, 0, 0] · slices_S8x2048x2816_S1x2048x2816_7_0_0) : (⟨S8x2048x2816, .f32⟩ : BufTy).Contents (Elt F) → (⟨S1x2048x2816, .f32⟩ : BufTy).Contents (Elt F)),
    reshape main_v248 main_v249 rfl shapeCasts_S1x2048x2816_S2048x2816,
    unary main_arg6 main_v250 ((extractStridedSlice S1x16x22 ![7, 0, 0] · slices_S8x16x22_S1x16x22_7_0_0) : (⟨S8x16x22, .f32⟩ : BufTy).Contents (Elt F) → (⟨S1x16x22, .f32⟩ : BufTy).Contents (Elt F)),
    reshape main_v250 main_v251 rfl shapeCasts_S1x16x22_S16x22,
    unary main_v251 main_v252 (broadcastInDim S16x128x22 ![0, 2] bcast_S16x22_S16x128x22_0_2 : (⟨S16x22, .f32⟩ : BufTy).Contents (Elt F) → (⟨S16x128x22, .f32⟩ : BufTy).Contents (Elt F)),
    reshape main_v252 main_v253 rfl shapeCasts_S16x128x22_S2048x22,
    unary main_v253 main_v254 (broadcastInDim S2048x22x128 ![0, 1] bcast_S2048x22_S2048x22x128_0_1 : (⟨S2048x22, .f32⟩ : BufTy).Contents (Elt F) → (⟨S2048x22x128, .f32⟩ : BufTy).Contents (Elt F)),
    reshape main_v254 main_v255 rfl shapeCasts_S2048x22x128_S2048x2816,
    binary main_v249 main_v255 main_v256 (mulf : (⟨S2048x2816, .f32⟩ : BufTy).Contents (Elt F) → (⟨S2048x2816, .f32⟩ : BufTy).Contents (Elt F) → (⟨S2048x2816, .f32⟩ : BufTy).Contents (Elt F)),
    unary main_v247 main_v257 ((transpose S2048x5632 [1, 0] · transposes_S5632x2048_S2048x5632_1_0) : (⟨S5632x2048, .f32⟩ : BufTy).Contents (Elt F) → (⟨S2048x5632, .f32⟩ : BufTy).Contents (Elt F)),
    binary main_arg0 main_v257 main_v258 ((fun l r => Host.dotGeneral dot_S512x2048_S2048x5632_S512x5632_1_0_0_1_n_n none l r) : (⟨S512x2048, .f32⟩ : BufTy).Contents (Elt F) → (⟨S2048x5632, .f32⟩ : BufTy).Contents (Elt F) → (⟨S512x5632, .f32⟩ : BufTy).Contents (Elt F)),
    unary main_v258 main_v259 ((extractStridedSlice S512x2816 ![0, 0] · slices_S512x5632_S512x2816_0_0) : (⟨S512x5632, .f32⟩ : BufTy).Contents (Elt F) → (⟨S512x2816, .f32⟩ : BufTy).Contents (Elt F)),
    unary main_v258 main_v260 ((extractStridedSlice S512x2816 ![0, 2816] · slices_S512x5632_S512x2816_0_2816) : (⟨S512x5632, .f32⟩ : BufTy).Contents (Elt F) → (⟨S512x2816, .f32⟩ : BufTy).Contents (Elt F)),
    TRef.unary (TRef.of (T := ⟨S512x2816, .f32⟩) main_v259) (TRef.of (T := ⟨S512x2816, .f32⟩) main_call14_v0) Host.negf,
    TRef.unary (TRef.of (T := ⟨S512x2816, .f32⟩) main_call14_v0) (TRef.of (T := ⟨S512x2816, .f32⟩) main_call14_v1) Host.exp,
    TRef.nullary (TRef.of (T := ⟨S_, .f32⟩) main_call14_cst) (constant S_ .f32 0x3F800000#32),
    TRef.unary (TRef.of (T := ⟨S_, .f32⟩) main_call14_cst) (TRef.of (T := ⟨S512x2816, .f32⟩) main_call14_v2) (broadcastInDim S512x2816 ![] bcast_S_S512x2816),
    TRef.binary (TRef.of (T := ⟨S512x2816, .f32⟩) main_call14_v2) (TRef.of (T := ⟨S512x2816, .f32⟩) main_call14_v1) (TRef.of (T := ⟨S512x2816, .f32⟩) main_call14_v3) addf,
    TRef.nullary (TRef.of (T := ⟨S_, .f32⟩) main_call14_cst_0) (constant S_ .f32 0x3F800000#32),
    TRef.unary (TRef.of (T := ⟨S_, .f32⟩) main_call14_cst_0) (TRef.of (T := ⟨S512x2816, .f32⟩) main_call14_v4) (broadcastInDim S512x2816 ![] bcast_S_S512x2816),
    TRef.binary (TRef.of (T := ⟨S512x2816, .f32⟩) main_call14_v4) (TRef.of (T := ⟨S512x2816, .f32⟩) main_call14_v3) (TRef.of (T := ⟨S512x2816, .f32⟩) main_call14_v5) Host.divf,
    TRef.binary (TRef.of (T := ⟨S512x2816, .f32⟩) main_v259) (TRef.of (T := ⟨S512x2816, .f32⟩) main_call14_v5) (TRef.of (T := ⟨S512x2816, .f32⟩) main_v261) mulf,
    binary main_v261 main_v260 main_v262 (mulf : (⟨S512x2816, .f32⟩ : BufTy).Contents (Elt F) → (⟨S512x2816, .f32⟩ : BufTy).Contents (Elt F) → (⟨S512x2816, .f32⟩ : BufTy).Contents (Elt F)),
    unary main_v256 main_v263 ((transpose S2816x2048 [1, 0] · transposes_S2048x2816_S2816x2048_1_0) : (⟨S2048x2816, .f32⟩ : BufTy).Contents (Elt F) → (⟨S2816x2048, .f32⟩ : BufTy).Contents (Elt F)),
    binary main_v262 main_v263 main_v264 ((fun l r => Host.dotGeneral dot_S512x2816_S2816x2048_S512x2048_1_0_0_1_n_n none l r) : (⟨S512x2816, .f32⟩ : BufTy).Contents (Elt F) → (⟨S2816x2048, .f32⟩ : BufTy).Contents (Elt F) → (⟨S512x2048, .f32⟩ : BufTy).Contents (Elt F)),
    nullary main_c_20 (constantI S_ 32 7#32),
    unary main_c_20 main_v265 (broadcastInDim S512x2 ![] bcast_S_S512x2 : (⟨S_, .i32⟩ : BufTy).Contents (Elt F) → (⟨S512x2, .i32⟩ : BufTy).Contents (Elt F)),
    binary main_arg1 main_v265 main_v266 (cmpi .eq : (⟨S512x2, .i32⟩ : BufTy).Contents (Elt F) → (⟨S512x2, .i32⟩ : BufTy).Contents (Elt F) → (⟨S512x2, .i1⟩ : BufTy).Contents (Elt F)),
    nullary main_cst_21 (constant S_ .f32 0x00000000#32),
    TRef.unary (TRef.of (T := ⟨S_, .f32⟩) main_cst_21) (TRef.of (T := ⟨S_, .f32⟩) main_call15_v0) id,
    TRef.unary (TRef.of (T := ⟨S_, .f32⟩) main_call15_v0) (TRef.of (T := ⟨S512x2, .f32⟩) main_call15_v1) (broadcastInDim S512x2 ![] bcast_S_S512x2),
    TRef.ternary (TRef.of (T := ⟨S512x2, .i1⟩) main_v266) (TRef.of (T := ⟨S512x2, .f32⟩) main_arg2) (TRef.of (T := ⟨S512x2, .f32⟩) main_call15_v1) (TRef.of (T := ⟨S512x2, .f32⟩) main_v267) select,
    nullary main_cst_22 (constant S_ .f32 0x00000000#32),
    binary main_v267 main_cst_22 main_v268 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    unary main_v268 main_v269 (broadcastInDim S512x1 ![0] bcast_S512_S512x1_0 : (⟨S512, .f32⟩ : BufTy).Contents (Elt F) → (⟨S512x1, .f32⟩ : BufTy).Contents (Elt F)),
    unary main_v269 main_v270 (broadcastInDim S512x2048 ![0, 1] bcast_S512x1_S512x2048_0_1 : (⟨S512x1, .f32⟩ : BufTy).Contents (Elt F) → (⟨S512x2048, .f32⟩ : BufTy).Contents (Elt F)),
    binary main_v270 main_v264 main_v271 (mulf : (⟨S512x2048, .f32⟩ : BufTy).Contents (Elt F) → (⟨S512x2048, .f32⟩ : BufTy).Contents (Elt F) → (⟨S512x2048, .f32⟩ : BufTy).Contents (Elt F)),
    binary main_v238 main_v271 main_v272 (addf : (⟨S512x2048, .f32⟩ : BufTy).Contents (Elt F) → (⟨S512x2048, .f32⟩ : BufTy).Contents (Elt F) → (⟨S512x2048, .f32⟩ : BufTy).Contents (Elt F)) ]

/-- @main's 378 operations, in order. -/
abbrev ops : List (HloOp τ sig (Elt F)) :=
  seg0 ++ seg1 ++ seg2 ++ seg3 ++ seg4 ++ seg5 ++ seg6 ++ seg7 ++ seg8

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem seg0_sub : (seg0 : List (HloOp τ sig (Elt F))).Forall fun op => op.bufs ⊆ tcRefs τ sig :=
  ⟨nullary_bufs_sub .., unary_bufs_sub ..⟩
set_option maxRecDepth 8192 in
theorem seg0_fresh : ∀ op ∈ (seg0 : List (HloOp τ sig (Elt F))), op.fresh = ∅ := by
  intro _ h; (repeat (cases h with | head => rfl | tail _ h => ?_)); exact nomatch h

set_option maxRecDepth 8192 in
theorem seg1_sub : (seg1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub ..⟩
set_option maxRecDepth 8192 in
theorem seg1_fresh : ∀ op ∈ (seg1 : List (HloOp τ sig (Elt F))), op.fresh = ∅ := by
  intro _ h; (repeat (cases h with | head => rfl | tail _ h => ?_)); exact nomatch h

set_option maxRecDepth 8192 in
theorem seg2_sub : (seg2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub ..⟩
set_option maxRecDepth 8192 in
theorem seg2_fresh : ∀ op ∈ (seg2 : List (HloOp τ sig (Elt F))), op.fresh = ∅ := by
  intro _ h; (repeat (cases h with | head => rfl | tail _ h => ?_)); exact nomatch h

set_option maxRecDepth 8192 in
theorem seg3_sub : (seg3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub ..⟩
set_option maxRecDepth 8192 in
theorem seg3_fresh : ∀ op ∈ (seg3 : List (HloOp τ sig (Elt F))), op.fresh = ∅ := by
  intro _ h; (repeat (cases h with | head => rfl | tail _ h => ?_)); exact nomatch h

set_option maxRecDepth 8192 in
theorem seg4_sub : (seg4 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub ..⟩
set_option maxRecDepth 8192 in
theorem seg4_fresh : ∀ op ∈ (seg4 : List (HloOp τ sig (Elt F))), op.fresh = ∅ := by
  intro _ h; (repeat (cases h with | head => rfl | tail _ h => ?_)); exact nomatch h

set_option maxRecDepth 8192 in
theorem seg5_sub : (seg5 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub ..⟩
set_option maxRecDepth 8192 in
theorem seg5_fresh : ∀ op ∈ (seg5 : List (HloOp τ sig (Elt F))), op.fresh = ∅ := by
  intro _ h; (repeat (cases h with | head => rfl | tail _ h => ?_)); exact nomatch h

set_option maxRecDepth 8192 in
theorem seg6_sub : (seg6 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub ..⟩
set_option maxRecDepth 8192 in
theorem seg6_fresh : ∀ op ∈ (seg6 : List (HloOp τ sig (Elt F))), op.fresh = ∅ := by
  intro _ h; (repeat (cases h with | head => rfl | tail _ h => ?_)); exact nomatch h

set_option maxRecDepth 8192 in
theorem seg7_sub : (seg7 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub ..⟩
set_option maxRecDepth 8192 in
theorem seg7_fresh : ∀ op ∈ (seg7 : List (HloOp τ sig (Elt F))), op.fresh = ∅ := by
  intro _ h; (repeat (cases h with | head => rfl | tail _ h => ?_)); exact nomatch h

set_option maxRecDepth 8192 in
theorem seg8_sub : (seg8 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub ..⟩
set_option maxRecDepth 8192 in
theorem seg8_fresh : ∀ op ∈ (seg8 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig := by
  rw [List.forall_iff_forall_mem]
  intro op h
  simp only [ops, List.mem_append, or_assoc] at h
  rcases h with h | h | h | h | h | h | h | h | h
  · exact List.forall_iff_forall_mem.mp seg0_sub op h
  · exact List.forall_iff_forall_mem.mp seg1_sub op h
  · exact List.forall_iff_forall_mem.mp seg2_sub op h
  · exact List.forall_iff_forall_mem.mp seg3_sub op h
  · exact List.forall_iff_forall_mem.mp seg4_sub op h
  · exact List.forall_iff_forall_mem.mp seg5_sub op h
  · exact List.forall_iff_forall_mem.mp seg6_sub op h
  · exact List.forall_iff_forall_mem.mp seg7_sub op h
  · exact List.forall_iff_forall_mem.mp seg8_sub op h

theorem ops_fresh : ∀ op ∈ (ops : List (HloOp τ sig (Elt F))), op.fresh = ∅ := by
  intro op h
  simp only [ops, List.mem_append, or_assoc] at h
  rcases h with h | h | h | h | h | h | h | h | h
  · exact seg0_fresh op h
  · exact seg1_fresh op h
  · exact seg2_fresh op h
  · exact seg3_fresh op h
  · exact seg4_fresh op h
  · exact seg5_fresh op h
  · exact seg6_fresh op h
  · exact seg7_fresh op h
  · exact seg8_fresh op h

end Cert.ReferenceIdeal.RefRun

end
-- ==== Proof.RefTerm.lean ====
/-
  The reference program's result as one term of the seven argument arrays: the zero array plus the eight experts'
  contributions, added in the program's order.
-/
import proofs.«131321_j61254823576011_2_alg».proof.Proof.Gen.ReferenceIdeal
import proofs.«131321_j61254823576011_2_alg».proof.Proof.RefRead0
import proofs.«131321_j61254823576011_2_alg».proof.Proof.RefRead1
import proofs.«131321_j61254823576011_2_alg».proof.Proof.RefRead2
import proofs.«131321_j61254823576011_2_alg».proof.Proof.RefRead3
import proofs.«131321_j61254823576011_2_alg».proof.Proof.RefRead4
import proofs.«131321_j61254823576011_2_alg».proof.Proof.RefRead5
import proofs.«131321_j61254823576011_2_alg».proof.Proof.RefRead6
import proofs.«131321_j61254823576011_2_alg».proof.Proof.RefRead7

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The running total after all eight experts, from the zero array, as a function of the seven argument arrays. -/
def total (x0 : (⟨S512x2048, .f32⟩ : BufTy).Contents (Elt F)) (x1 : (⟨S512x2, .i32⟩ : BufTy).Contents (Elt F))
    (x2 : (⟨S512x2, .f32⟩ : BufTy).Contents (Elt F)) (x3 : (⟨S8x5632x2048, .f32⟩ : BufTy).Contents (Elt F))
    (x4 : (⟨S8x44x16, .f32⟩ : BufTy).Contents (Elt F)) (x5 : (⟨S8x2048x2816, .f32⟩ : BufTy).Contents (Elt F))
    (x6 : (⟨S8x16x22, .f32⟩ : BufTy).Contents (Elt F)) : (⟨S512x2048, .f32⟩ : BufTy).Contents (Elt F) :=
  (addf (addf (addf (addf (addf (addf (addf (addf (broadcastInDim S512x2048 ![] bcast_S_S512x2048 (constant S_ .f32 0x00000000#32))
      (RefRead.val_main_v33 (F := F) x0 x1 x2 x3 x4 x5 x6))
      (RefRead.val_main_v67 (F := F) x0 x1 x2 x3 x4 x5 x6))
      (RefRead.val_main_v101 (F := F) x0 x1 x2 x3 x4 x5 x6))
      (RefRead.val_main_v135 (F := F) x0 x1 x2 x3 x4 x5 x6))
      (RefRead.val_main_v169 (F := F) x0 x1 x2 x3 x4 x5 x6))
      (RefRead.val_main_v203 (F := F) x0 x1 x2 x3 x4 x5 x6))
      (RefRead.val_main_v237 (F := F) x0 x1 x2 x3 x4 x5 x6))
      (RefRead.val_main_v271 (F := F) x0 x1 x2 x3 x4 x5 x6))

/-- The same over a memory's contents of the argument buffers on core c: the term the run leaves in the result buffer. -/
def resTerm (m : (ℓ : Loc nD τ sig) → Buf (Elt F) ℓ) (c : Dev nD) : Buf (Elt F) ((c.tc : Thread nD τ).loc main_v272) :=
  total (F := F) (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))

end Cert.ReferenceIdeal.RefRun

end
-- ==== Proof.RefSegs03.lean ====
/-
  Each expert's stretch of the reference program read as one step on the running total: from any buffer contents, the
  total after the stretch is the total before it plus that expert's contribution (its coefficient times its output, as
  the composed term of the seven argument arrays), and the argument arrays are unchanged.
-/
import proofs.«131321_j61254823576011_2_alg».proof.Proof.RefRunOps
import proofs.«131321_j61254823576011_2_alg».proof.Proof.RefRead0
import proofs.«131321_j61254823576011_2_alg».proof.Proof.RefRead1
import proofs.«131321_j61254823576011_2_alg».proof.Proof.RefRead2
import proofs.«131321_j61254823576011_2_alg».proof.Proof.RefRead3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first stretch writes the zero array the total starts from. -/
theorem seg0_total (W : Valuation τ sig (Elt F)) :
    after (seg0 (F := F)) W (Proc.devRef .tc main_v0)
      = (broadcastInDim S512x2048 ![] bcast_S_S512x2048 (constant S_ .f32 0x00000000#32) : (⟨S512x2048, .f32⟩ : BufTy).Contents (Elt F)) := by
  after_results_simp <;> rfl
theorem seg0_arg0 (W : Valuation τ sig (Elt F)) :
    after (seg0 (F := F)) W (Proc.devRef .tc main_arg0) = W (Proc.devRef .tc main_arg0) := by
  after_results_simp <;> rfl
theorem seg0_arg1 (W : Valuation τ sig (Elt F)) :
    after (seg0 (F := F)) W (Proc.devRef .tc main_arg1) = W (Proc.devRef .tc main_arg1) := by
  after_results_simp <;> rfl
theorem seg0_arg2 (W : Valuation τ sig (Elt F)) :
    after (seg0 (F := F)) W (Proc.devRef .tc main_arg2) = W (Proc.devRef .tc main_arg2) := by
  after_results_simp <;> rfl
theorem seg0_arg3 (W : Valuation τ sig (Elt F)) :
    after (seg0 (F := F)) W (Proc.devRef .tc main_arg3) = W (Proc.devRef .tc main_arg3) := by
  after_results_simp <;> rfl
theorem seg0_arg4 (W : Valuation τ sig (Elt F)) :
    after (seg0 (F := F)) W (Proc.devRef .tc main_arg4) = W (Proc.devRef .tc main_arg4) := by
  after_results_simp <;> rfl
theorem seg0_arg5 (W : Valuation τ sig (Elt F)) :
    after (seg0 (F := F)) W (Proc.devRef .tc main_arg5) = W (Proc.devRef .tc main_arg5) := by
  after_results_simp <;> rfl
theorem seg0_arg6 (W : Valuation τ sig (Elt F)) :
    after (seg0 (F := F)) W (Proc.devRef .tc main_arg6) = W (Proc.devRef .tc main_arg6) := by
  after_results_simp <;> rfl

/-- Expert 0's stretch, from any contents W: the running total becomes the total it found plus the expert's contribution. -/
theorem seg1_total (W : Valuation τ sig (Elt F)) :
    after (seg1 (F := F)) W (Proc.devRef .tc main_v34)
      = addf (W (Proc.devRef .tc main_v0) : (⟨S512x2048, .f32⟩ : BufTy).Contents (Elt F))
          (RefRead.val_main_v33 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))) := by
  after_results_simp <;> rfl
theorem seg1_arg0 (W : Valuation τ sig (Elt F)) :
    after (seg1 (F := F)) W (Proc.devRef .tc main_arg0) = W (Proc.devRef .tc main_arg0) := by
  after_results_simp <;> rfl
theorem seg1_arg1 (W : Valuation τ sig (Elt F)) :
    after (seg1 (F := F)) W (Proc.devRef .tc main_arg1) = W (Proc.devRef .tc main_arg1) := by
  after_results_simp <;> rfl
theorem seg1_arg2 (W : Valuation τ sig (Elt F)) :
    after (seg1 (F := F)) W (Proc.devRef .tc main_arg2) = W (Proc.devRef .tc main_arg2) := by
  after_results_simp <;> rfl
theorem seg1_arg3 (W : Valuation τ sig (Elt F)) :
    after (seg1 (F := F)) W (Proc.devRef .tc main_arg3) = W (Proc.devRef .tc main_arg3) := by
  after_results_simp <;> rfl
theorem seg1_arg4 (W : Valuation τ sig (Elt F)) :
    after (seg1 (F := F)) W (Proc.devRef .tc main_arg4) = W (Proc.devRef .tc main_arg4) := by
  after_results_simp <;> rfl
theorem seg1_arg5 (W : Valuation τ sig (Elt F)) :
    after (seg1 (F := F)) W (Proc.devRef .tc main_arg5) = W (Proc.devRef .tc main_arg5) := by
  after_results_simp <;> rfl
theorem seg1_arg6 (W : Valuation τ sig (Elt F)) :
    after (seg1 (F := F)) W (Proc.devRef .tc main_arg6) = W (Proc.devRef .tc main_arg6) := by
  after_results_simp <;> rfl

/-- Expert 1's stretch, from any contents W: the running total becomes the total it found plus the expert's contribution. -/
theorem seg2_total (W : Valuation τ sig (Elt F)) :
    after (seg2 (F := F)) W (Proc.devRef .tc main_v68)
      = addf (W (Proc.devRef .tc main_v34) : (⟨S512x2048, .f32⟩ : BufTy).Contents (Elt F))
          (RefRead.val_main_v67 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))) := by
  after_results_simp <;> rfl
theorem seg2_arg0 (W : Valuation τ sig (Elt F)) :
    after (seg2 (F := F)) W (Proc.devRef .tc main_arg0) = W (Proc.devRef .tc main_arg0) := by
  after_results_simp <;> rfl
theorem seg2_arg1 (W : Valuation τ sig (Elt F)) :
    after (seg2 (F := F)) W (Proc.devRef .tc main_arg1) = W (Proc.devRef .tc main_arg1) := by
  after_results_simp <;> rfl
theorem seg2_arg2 (W : Valuation τ sig (Elt F)) :
    after (seg2 (F := F)) W (Proc.devRef .tc main_arg2) = W (Proc.devRef .tc main_arg2) := by
  after_results_simp <;> rfl
theorem seg2_arg3 (W : Valuation τ sig (Elt F)) :
    after (seg2 (F := F)) W (Proc.devRef .tc main_arg3) = W (Proc.devRef .tc main_arg3) := by
  after_results_simp <;> rfl
theorem seg2_arg4 (W : Valuation τ sig (Elt F)) :
    after (seg2 (F := F)) W (Proc.devRef .tc main_arg4) = W (Proc.devRef .tc main_arg4) := by
  after_results_simp <;> rfl
theorem seg2_arg5 (W : Valuation τ sig (Elt F)) :
    after (seg2 (F := F)) W (Proc.devRef .tc main_arg5) = W (Proc.devRef .tc main_arg5) := by
  after_results_simp <;> rfl
theorem seg2_arg6 (W : Valuation τ sig (Elt F)) :
    after (seg2 (F := F)) W (Proc.devRef .tc main_arg6) = W (Proc.devRef .tc main_arg6) := by
  after_results_simp <;> rfl

/-- Expert 2's stretch, from any contents W: the running total becomes the total it found plus the expert's contribution. -/
theorem seg3_total (W : Valuation τ sig (Elt F)) :
    after (seg3 (F := F)) W (Proc.devRef .tc main_v102)
      = addf (W (Proc.devRef .tc main_v68) : (⟨S512x2048, .f32⟩ : BufTy).Contents (Elt F))
          (RefRead.val_main_v101 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))) := by
  after_results_simp <;> rfl
theorem seg3_arg0 (W : Valuation τ sig (Elt F)) :
    after (seg3 (F := F)) W (Proc.devRef .tc main_arg0) = W (Proc.devRef .tc main_arg0) := by
  after_results_simp <;> rfl
theorem seg3_arg1 (W : Valuation τ sig (Elt F)) :
    after (seg3 (F := F)) W (Proc.devRef .tc main_arg1) = W (Proc.devRef .tc main_arg1) := by
  after_results_simp <;> rfl
theorem seg3_arg2 (W : Valuation τ sig (Elt F)) :
    after (seg3 (F := F)) W (Proc.devRef .tc main_arg2) = W (Proc.devRef .tc main_arg2) := by
  after_results_simp <;> rfl
theorem seg3_arg3 (W : Valuation τ sig (Elt F)) :
    after (seg3 (F := F)) W (Proc.devRef .tc main_arg3) = W (Proc.devRef .tc main_arg3) := by
  after_results_simp <;> rfl
theorem seg3_arg4 (W : Valuation τ sig (Elt F)) :
    after (seg3 (F := F)) W (Proc.devRef .tc main_arg4) = W (Proc.devRef .tc main_arg4) := by
  after_results_simp <;> rfl
theorem seg3_arg5 (W : Valuation τ sig (Elt F)) :
    after (seg3 (F := F)) W (Proc.devRef .tc main_arg5) = W (Proc.devRef .tc main_arg5) := by
  after_results_simp <;> rfl
theorem seg3_arg6 (W : Valuation τ sig (Elt F)) :
    after (seg3 (F := F)) W (Proc.devRef .tc main_arg6) = W (Proc.devRef .tc main_arg6) := by
  after_results_simp <;> rfl

/-- Expert 3's stretch, from any contents W: the running total becomes the total it found plus the expert's contribution. -/
theorem seg4_total (W : Valuation τ sig (Elt F)) :
    after (seg4 (F := F)) W (Proc.devRef .tc main_v136)
      = addf (W (Proc.devRef .tc main_v102) : (⟨S512x2048, .f32⟩ : BufTy).Contents (Elt F))
          (RefRead.val_main_v135 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))) := by
  after_results_simp <;> rfl
theorem seg4_arg0 (W : Valuation τ sig (Elt F)) :
    after (seg4 (F := F)) W (Proc.devRef .tc main_arg0) = W (Proc.devRef .tc main_arg0) := by
  after_results_simp <;> rfl
theorem seg4_arg1 (W : Valuation τ sig (Elt F)) :
    after (seg4 (F := F)) W (Proc.devRef .tc main_arg1) = W (Proc.devRef .tc main_arg1) := by
  after_results_simp <;> rfl
theorem seg4_arg2 (W : Valuation τ sig (Elt F)) :
    after (seg4 (F := F)) W (Proc.devRef .tc main_arg2) = W (Proc.devRef .tc main_arg2) := by
  after_results_simp <;> rfl
theorem seg4_arg3 (W : Valuation τ sig (Elt F)) :
    after (seg4 (F := F)) W (Proc.devRef .tc main_arg3) = W (Proc.devRef .tc main_arg3) := by
  after_results_simp <;> rfl
theorem seg4_arg4 (W : Valuation τ sig (Elt F)) :
    after (seg4 (F := F)) W (Proc.devRef .tc main_arg4) = W (Proc.devRef .tc main_arg4) := by
  after_results_simp <;> rfl
theorem seg4_arg5 (W : Valuation τ sig (Elt F)) :
    after (seg4 (F := F)) W (Proc.devRef .tc main_arg5) = W (Proc.devRef .tc main_arg5) := by
  after_results_simp <;> rfl
theorem seg4_arg6 (W : Valuation τ sig (Elt F)) :
    after (seg4 (F := F)) W (Proc.devRef .tc main_arg6) = W (Proc.devRef .tc main_arg6) := by
  after_results_simp <;> rfl

end Cert.ReferenceIdeal.RefRun

end
-- ==== Proof.RefSegs47.lean ====
/-
  The reference's experts 4 … 7, each as one stretch of host operations run from an arbitrary valuation of the
  buffers: the running total the stretch leaves is the total it found plus the expert's contribution (the router
  coefficient, broadcast, times the expert's output), computed from the argument arrays as the stretch found them;
  and no stretch writes an argument array.
-/
import proofs.«131321_j61254823576011_2_alg».proof.Proof.RefRunOps
import proofs.«131321_j61254823576011_2_alg».proof.Proof.RefRead4
import proofs.«131321_j61254823576011_2_alg».proof.Proof.RefRead5
import proofs.«131321_j61254823576011_2_alg».proof.Proof.RefRead6
import proofs.«131321_j61254823576011_2_alg».proof.Proof.RefRead7

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-! ## Expert 4 -/

set_option maxRecDepth 8192 in
/-- The running total after expert 4: the total before it plus the expert's contribution. -/
theorem seg5_total (W : Valuation τ sig (Elt F)) :
    after (seg5 (F := F)) W (Proc.devRef .tc main_v170)
      = addf (W (Proc.devRef .tc main_v136) : (⟨S512x2048, .f32⟩ : BufTy).Contents (Elt F))
          (RefRead.val_main_v169 (F := F) (W (Proc.devRef .tc main_arg0)) (W (Proc.devRef .tc main_arg1)) (W (Proc.devRef .tc main_arg2))
            (W (Proc.devRef .tc main_arg3)) (W (Proc.devRef .tc main_arg4)) (W (Proc.devRef .tc main_arg5)) (W (Proc.devRef .tc main_arg6))) := by
  after_results_simp <;> rfl

set_option maxRecDepth 8192 in
theorem seg5_arg0 (W : Valuation τ sig (Elt F)) :
    after (seg5 (F := F)) W (Proc.devRef .tc main_arg0) = W (Proc.devRef .tc main_arg0) := by
  after_results_simp <;> rfl

set_option maxRecDepth 8192 in
theorem seg5_arg1 (W : Valuation τ sig (Elt F)) :
    after (seg5 (F := F)) W (Proc.devRef .tc main_arg1) = W (Proc.devRef .tc main_arg1) := by
  after_results_simp <;> rfl

set_option maxRecDepth 8192 in
theorem seg5_arg2 (W : Valuation τ sig (Elt F)) :
    after (seg5 (F := F)) W (Proc.devRef .tc main_arg2) = W (Proc.devRef .tc main_arg2) := by
  after_results_simp <;> rfl

set_option maxRecDepth 8192 in
theorem seg5_arg3 (W : Valuation τ sig (Elt F)) :
    after (seg5 (F := F)) W (Proc.devRef .tc main_arg3) = W (Proc.devRef .tc main_arg3) := by
  after_results_simp <;> rfl

set_option maxRecDepth 8192 in
theorem seg5_arg4 (W : Valuation τ sig (Elt F)) :
    after (seg5 (F := F)) W (Proc.devRef .tc main_arg4) = W (Proc.devRef .tc main_arg4) := by
  after_results_simp <;> rfl

set_option maxRecDepth 8192 in
theorem seg5_arg5 (W : Valuation τ sig (Elt F)) :
    after (seg5 (F := F)) W (Proc.devRef .tc main_arg5) = W (Proc.devRef .tc main_arg5) := by
  after_results_simp <;> rfl

set_option maxRecDepth 8192 in
theorem seg5_arg6 (W : Valuation τ sig (Elt F)) :
    after (seg5 (F := F)) W (Proc.devRef .tc main_arg6) = W (Proc.devRef .tc main_arg6) := by
  after_results_simp <;> rfl

/-! ## Expert 5 -/

set_option maxRecDepth 8192 in
/-- The running total after expert 5: the total before it plus the expert's contribution. -/
theorem seg6_total (W : Valuation τ sig (Elt F)) :
    after (seg6 (F := F)) W (Proc.devRef .tc main_v204)
      = addf (W (Proc.devRef .tc main_v170) : (⟨S512x2048, .f32⟩ : BufTy).Contents (Elt F))
          (RefRead.val_main_v203 (F := F) (W (Proc.devRef .tc main_arg0)) (W (Proc.devRef .tc main_arg1)) (W (Proc.devRef .tc main_arg2))
            (W (Proc.devRef .tc main_arg3)) (W (Proc.devRef .tc main_arg4)) (W (Proc.devRef .tc main_arg5)) (W (Proc.devRef .tc main_arg6))) := by
  after_results_simp <;> rfl

set_option maxRecDepth 8192 in
theorem seg6_arg0 (W : Valuation τ sig (Elt F)) :
    after (seg6 (F := F)) W (Proc.devRef .tc main_arg0) = W (Proc.devRef .tc main_arg0) := by
  after_results_simp <;> rfl

set_option maxRecDepth 8192 in
theorem seg6_arg1 (W : Valuation τ sig (Elt F)) :
    after (seg6 (F := F)) W (Proc.devRef .tc main_arg1) = W (Proc.devRef .tc main_arg1) := by
  after_results_simp <;> rfl

set_option maxRecDepth 8192 in
theorem seg6_arg2 (W : Valuation τ sig (Elt F)) :
    after (seg6 (F := F)) W (Proc.devRef .tc main_arg2) = W (Proc.devRef .tc main_arg2) := by
  after_results_simp <;> rfl

set_option maxRecDepth 8192 in
theorem seg6_arg3 (W : Valuation τ sig (Elt F)) :
    after (seg6 (F := F)) W (Proc.devRef .tc main_arg3) = W (Proc.devRef .tc main_arg3) := by
  after_results_simp <;> rfl

set_option maxRecDepth 8192 in
theorem seg6_arg4 (W : Valuation τ sig (Elt F)) :
    after (seg6 (F := F)) W (Proc.devRef .tc main_arg4) = W (Proc.devRef .tc main_arg4) := by
  after_results_simp <;> rfl

set_option maxRecDepth 8192 in
theorem seg6_arg5 (W : Valuation τ sig (Elt F)) :
    after (seg6 (F := F)) W (Proc.devRef .tc main_arg5) = W (Proc.devRef .tc main_arg5) := by
  after_results_simp <;> rfl

set_option maxRecDepth 8192 in
theorem seg6_arg6 (W : Valuation τ sig (Elt F)) :
    after (seg6 (F := F)) W (Proc.devRef .tc main_arg6) = W (Proc.devRef .tc main_arg6) := by
  after_results_simp <;> rfl

/-! ## Expert 6 -/

set_option maxRecDepth 8192 in
/-- The running total after expert 6: the total before it plus the expert's contribution. -/
theorem seg7_total (W : Valuation τ sig (Elt F)) :
    after (seg7 (F := F)) W (Proc.devRef .tc main_v238)
      = addf (W (Proc.devRef .tc main_v204) : (⟨S512x2048, .f32⟩ : BufTy).Contents (Elt F))
          (RefRead.val_main_v237 (F := F) (W (Proc.devRef .tc main_arg0)) (W (Proc.devRef .tc main_arg1)) (W (Proc.devRef .tc main_arg2))
            (W (Proc.devRef .tc main_arg3)) (W (Proc.devRef .tc main_arg4)) (W (Proc.devRef .tc main_arg5)) (W (Proc.devRef .tc main_arg6))) := by
  after_results_simp <;> rfl

set_option maxRecDepth 8192 in
theorem seg7_arg0 (W : Valuation τ sig (Elt F)) :
    after (seg7 (F := F)) W (Proc.devRef .tc main_arg0) = W (Proc.devRef .tc main_arg0) := by
  after_results_simp <;> rfl

set_option maxRecDepth 8192 in
theorem seg7_arg1 (W : Valuation τ sig (Elt F)) :
    after (seg7 (F := F)) W (Proc.devRef .tc main_arg1) = W (Proc.devRef .tc main_arg1) := by
  after_results_simp <;> rfl

set_option maxRecDepth 8192 in
theorem seg7_arg2 (W : Valuation τ sig (Elt F)) :
    after (seg7 (F := F)) W (Proc.devRef .tc main_arg2) = W (Proc.devRef .tc main_arg2) := by
  after_results_simp <;> rfl

set_option maxRecDepth 8192 in
theorem seg7_arg3 (W : Valuation τ sig (Elt F)) :
    after (seg7 (F := F)) W (Proc.devRef .tc main_arg3) = W (Proc.devRef .tc main_arg3) := by
  after_results_simp <;> rfl

set_option maxRecDepth 8192 in
theorem seg7_arg4 (W : Valuation τ sig (Elt F)) :
    after (seg7 (F := F)) W (Proc.devRef .tc main_arg4) = W (Proc.devRef .tc main_arg4) := by
  after_results_simp <;> rfl

set_option maxRecDepth 8192 in
theorem seg7_arg5 (W : Valuation τ sig (Elt F)) :
    after (seg7 (F := F)) W (Proc.devRef .tc main_arg5) = W (Proc.devRef .tc main_arg5) := by
  after_results_simp <;> rfl

set_option maxRecDepth 8192 in
theorem seg7_arg6 (W : Valuation τ sig (Elt F)) :
    after (seg7 (F := F)) W (Proc.devRef .tc main_arg6) = W (Proc.devRef .tc main_arg6) := by
  after_results_simp <;> rfl

/-! ## Expert 7 -/

set_option maxRecDepth 8192 in
/-- The running total after expert 7: the total before it plus the expert's contribution. -/
theorem seg8_total (W : Valuation τ sig (Elt F)) :
    after (seg8 (F := F)) W (Proc.devRef .tc main_v272)
      = addf (W (Proc.devRef .tc main_v238) : (⟨S512x2048, .f32⟩ : BufTy).Contents (Elt F))
          (RefRead.val_main_v271 (F := F) (W (Proc.devRef .tc main_arg0)) (W (Proc.devRef .tc main_arg1)) (W (Proc.devRef .tc main_arg2))
            (W (Proc.devRef .tc main_arg3)) (W (Proc.devRef .tc main_arg4)) (W (Proc.devRef .tc main_arg5)) (W (Proc.devRef .tc main_arg6))) := by
  after_results_simp <;> rfl

set_option maxRecDepth 8192 in
theorem seg8_arg0 (W : Valuation τ sig (Elt F)) :
    after (seg8 (F := F)) W (Proc.devRef .tc main_arg0) = W (Proc.devRef .tc main_arg0) := by
  after_results_simp <;> rfl

set_option maxRecDepth 8192 in
theorem seg8_arg1 (W : Valuation τ sig (Elt F)) :
    after (seg8 (F := F)) W (Proc.devRef .tc main_arg1) = W (Proc.devRef .tc main_arg1) := by
  after_results_simp <;> rfl

set_option maxRecDepth 8192 in
theorem seg8_arg2 (W : Valuation τ sig (Elt F)) :
    after (seg8 (F := F)) W (Proc.devRef .tc main_arg2) = W (Proc.devRef .tc main_arg2) := by
  after_results_simp <;> rfl

set_option maxRecDepth 8192 in
theorem seg8_arg3 (W : Valuation τ sig (Elt F)) :
    after (seg8 (F := F)) W (Proc.devRef .tc main_arg3) = W (Proc.devRef .tc main_arg3) := by
  after_results_simp <;> rfl

set_option maxRecDepth 8192 in
theorem seg8_arg4 (W : Valuation τ sig (Elt F)) :
    after (seg8 (F := F)) W (Proc.devRef .tc main_arg4) = W (Proc.devRef .tc main_arg4) := by
  after_results_simp <;> rfl

set_option maxRecDepth 8192 in
theorem seg8_arg5 (W : Valuation τ sig (Elt F)) :
    after (seg8 (F := F)) W (Proc.devRef .tc main_arg5) = W (Proc.devRef .tc main_arg5) := by
  after_results_simp <;> rfl

set_option maxRecDepth 8192 in
theorem seg8_arg6 (W : Valuation τ sig (Elt F)) :
    after (seg8 (F := F)) W (Proc.devRef .tc main_arg6) = W (Proc.devRef .tc main_arg6) := by
  after_results_simp <;> rfl

end Cert.ReferenceIdeal.RefRun

end
-- ==== Proof.RefRun.lean ====
/-
  The reference program's run, from its nine stretches.

  The program is one line of host operations: a first stretch that leaves the zero array, then one stretch per expert that
  adds the expert's contribution to the running total and writes no argument. The contents after the whole line are
  the contents after the stretches one after the other, so the result array ends at the chain
  ((0 + c₀) + c₁) + … + c₇ of the eight contributions over the arguments' launch contents, and the arguments keep theirs.
-/
import proofs.«131321_j61254823576011_2_alg».proof.Proof.RefRunOps
import proofs.«131321_j61254823576011_2_alg».proof.Proof.RefTerm
import proofs.«131321_j61254823576011_2_alg».proof.Proof.RefSegs03
import proofs.«131321_j61254823576011_2_alg».proof.Proof.RefSegs47
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line is its nine stretches in a row -/

/-- The contents after the whole line are the contents after the nine stretches one after the other. -/
theorem after_ops (V : Valuation τ sig (Elt F)) :
    after (ops (F := F)) V
      = after seg8 (after seg7 (after seg6 (after seg5 (after seg4 (after seg3 (after seg2 (after seg1 (after seg0 V)))))))) := by
  show after (seg0 ++ seg1 ++ seg2 ++ seg3 ++ seg4 ++ seg5 ++ seg6 ++ seg7 ++ seg8) V = _
  rw [StableHlo.after_append, StableHlo.after_append, StableHlo.after_append, StableHlo.after_append,
    StableHlo.after_append, StableHlo.after_append, StableHlo.after_append, StableHlo.after_append]

/-- After the whole line the result array is the chain of the eight contributions over the arguments' contents before it:
    the first stretch leaves zero, each later stretch adds its expert's contribution to the total the stretch before left,
    and every stretch leaves the arguments alone. -/
theorem after_ops_total (V : Valuation τ sig (Elt F)) :
    after (ops (F := F)) V (Proc.devRef .tc main_v272) = total (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops]
  have t0 := seg0_total V
  have a00 := seg0_arg0 V
  have a01 := seg0_arg1 V
  have a02 := seg0_arg2 V
  have a03 := seg0_arg3 V
  have a04 := seg0_arg4 V
  have a05 := seg0_arg5 V
  have a06 := seg0_arg6 V
  generalize after (seg0 (F := F)) V = V1 at t0 a00 a01 a02 a03 a04 a05 a06 ⊢
  have t1 := seg1_total V1
  rw [t0, a00, a01, a02, a03, a04, a05, a06] at t1
  have a10 := (seg1_arg0 V1).trans a00
  have a11 := (seg1_arg1 V1).trans a01
  have a12 := (seg1_arg2 V1).trans a02
  have a13 := (seg1_arg3 V1).trans a03
  have a14 := (seg1_arg4 V1).trans a04
  have a15 := (seg1_arg5 V1).trans a05
  have a16 := (seg1_arg6 V1).trans a06
  generalize after (seg1 (F := F)) V1 = V2 at t1 a10 a11 a12 a13 a14 a15 a16 ⊢
  have t2 := seg2_total V2
  rw [t1, a10, a11, a12, a13, a14, a15, a16] at t2
  have a20 := (seg2_arg0 V2).trans a10
  have a21 := (seg2_arg1 V2).trans a11
  have a22 := (seg2_arg2 V2).trans a12
  have a23 := (seg2_arg3 V2).trans a13
  have a24 := (seg2_arg4 V2).trans a14
  have a25 := (seg2_arg5 V2).trans a15
  have a26 := (seg2_arg6 V2).trans a16
  generalize after (seg2 (F := F)) V2 = V3 at t2 a20 a21 a22 a23 a24 a25 a26 ⊢
  have t3 := seg3_total V3
  rw [t2, a20, a21, a22, a23, a24, a25, a26] at t3
  have a30 := (seg3_arg0 V3).trans a20
  have a31 := (seg3_arg1 V3).trans a21
  have a32 := (seg3_arg2 V3).trans a22
  have a33 := (seg3_arg3 V3).trans a23
  have a34 := (seg3_arg4 V3).trans a24
  have a35 := (seg3_arg5 V3).trans a25
  have a36 := (seg3_arg6 V3).trans a26
  generalize after (seg3 (F := F)) V3 = V4 at t3 a30 a31 a32 a33 a34 a35 a36 ⊢
  have t4 := seg4_total V4
  rw [t3, a30, a31, a32, a33, a34, a35, a36] at t4
  have a40 := (seg4_arg0 V4).trans a30
  have a41 := (seg4_arg1 V4).trans a31
  have a42 := (seg4_arg2 V4).trans a32
  have a43 := (seg4_arg3 V4).trans a33
  have a44 := (seg4_arg4 V4).trans a34
  have a45 := (seg4_arg5 V4).trans a35
  have a46 := (seg4_arg6 V4).trans a36
  generalize after (seg4 (F := F)) V4 = V5 at t4 a40 a41 a42 a43 a44 a45 a46 ⊢
  have t5 := seg5_total V5
  rw [t4, a40, a41, a42, a43, a44, a45, a46] at t5
  have a50 := (seg5_arg0 V5).trans a40
  have a51 := (seg5_arg1 V5).trans a41
  have a52 := (seg5_arg2 V5).trans a42
  have a53 := (seg5_arg3 V5).trans a43
  have a54 := (seg5_arg4 V5).trans a44
  have a55 := (seg5_arg5 V5).trans a45
  have a56 := (seg5_arg6 V5).trans a46
  generalize after (seg5 (F := F)) V5 = V6 at t5 a50 a51 a52 a53 a54 a55 a56 ⊢
  have t6 := seg6_total V6
  rw [t5, a50, a51, a52, a53, a54, a55, a56] at t6
  have a60 := (seg6_arg0 V6).trans a50
  have a61 := (seg6_arg1 V6).trans a51
  have a62 := (seg6_arg2 V6).trans a52
  have a63 := (seg6_arg3 V6).trans a53
  have a64 := (seg6_arg4 V6).trans a54
  have a65 := (seg6_arg5 V6).trans a55
  have a66 := (seg6_arg6 V6).trans a56
  generalize after (seg6 (F := F)) V6 = V7 at t6 a60 a61 a62 a63 a64 a65 a66 ⊢
  have t7 := seg7_total V7
  rw [t6, a60, a61, a62, a63, a64, a65, a66] at t7
  have a70 := (seg7_arg0 V7).trans a60
  have a71 := (seg7_arg1 V7).trans a61
  have a72 := (seg7_arg2 V7).trans a62
  have a73 := (seg7_arg3 V7).trans a63
  have a74 := (seg7_arg4 V7).trans a64
  have a75 := (seg7_arg5 V7).trans a65
  have a76 := (seg7_arg6 V7).trans a66
  generalize after (seg7 (F := F)) V7 = V8 at t7 a70 a71 a72 a73 a74 a75 a76 ⊢
  have t8 := seg8_total V8
  rw [t7, a70, a71, a72, a73, a74, a75, a76] at t8
  exact t8

/-- No stretch writes an argument. -/
theorem after_ops_arg0 (V : Valuation τ sig (Elt F)) : after (ops (F := F)) V (Proc.devRef .tc main_arg0) = V (Proc.devRef .tc main_arg0) := by
  rw [after_ops, seg8_arg0, seg7_arg0, seg6_arg0, seg5_arg0, seg4_arg0, seg3_arg0, seg2_arg0, seg1_arg0, seg0_arg0]
theorem after_ops_arg1 (V : Valuation τ sig (Elt F)) : after (ops (F := F)) V (Proc.devRef .tc main_arg1) = V (Proc.devRef .tc main_arg1) := by
  rw [after_ops, seg8_arg1, seg7_arg1, seg6_arg1, seg5_arg1, seg4_arg1, seg3_arg1, seg2_arg1, seg1_arg1, seg0_arg1]
theorem after_ops_arg2 (V : Valuation τ sig (Elt F)) : after (ops (F := F)) V (Proc.devRef .tc main_arg2) = V (Proc.devRef .tc main_arg2) := by
  rw [after_ops, seg8_arg2, seg7_arg2, seg6_arg2, seg5_arg2, seg4_arg2, seg3_arg2, seg2_arg2, seg1_arg2, seg0_arg2]
theorem after_ops_arg3 (V : Valuation τ sig (Elt F)) : after (ops (F := F)) V (Proc.devRef .tc main_arg3) = V (Proc.devRef .tc main_arg3) := by
  rw [after_ops, seg8_arg3, seg7_arg3, seg6_arg3, seg5_arg3, seg4_arg3, seg3_arg3, seg2_arg3, seg1_arg3, seg0_arg3]
theorem after_ops_arg4 (V : Valuation τ sig (Elt F)) : after (ops (F := F)) V (Proc.devRef .tc main_arg4) = V (Proc.devRef .tc main_arg4) := by
  rw [after_ops, seg8_arg4, seg7_arg4, seg6_arg4, seg5_arg4, seg4_arg4, seg3_arg4, seg2_arg4, seg1_arg4, seg0_arg4]
theorem after_ops_arg5 (V : Valuation τ sig (Elt F)) : after (ops (F := F)) V (Proc.devRef .tc main_arg5) = V (Proc.devRef .tc main_arg5) := by
  rw [after_ops, seg8_arg5, seg7_arg5, seg6_arg5, seg5_arg5, seg4_arg5, seg3_arg5, seg2_arg5, seg1_arg5, seg0_arg5]
theorem after_ops_arg6 (V : Valuation τ sig (Elt F)) : after (ops (F := F)) V (Proc.devRef .tc main_arg6) = V (Proc.devRef .tc main_arg6) := by
  rw [after_ops, seg8_arg6, seg7_arg6, seg6_arg6, seg5_arg6, seg4_arg6, seg3_arg6, seg2_arg6, seg1_arg6, seg0_arg6]

/-! ## The run -/

/-- On every device, for any float values, from any memory with zero counters: every weakly fair execution of the
    reference terminates with the result array at the chain of the eight contributions of the arguments' launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v272) = resTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v272).trans (after_ops_total _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _)⟩)
    (run_seq scopedRefs_eq scopedSems_eq defs main (fun _ => ops) main_eq (fun _ => ops_sub) m ρ (fun _ => ops_fresh))

end Cert.ReferenceIdeal.RefRun

end
-- ==== Proof.LibLogisticTanh.lean ====
/-
  The logistic function through the hyperbolic tangent, on the extended reals:

      1/2 · (tanh (1/2 · x) + 1) = 1 / (1 + e^(-x))        for EVERY extended real x.

  On a real x, with y = x/2: (tanh y + 1)/2 = e^y / (e^y + e^(-y)) = 1 / (1 + e^(-2y)). At +∞ both sides are 1
  (tanh ⊤ = 1; e^(-⊤) = 0), at -∞ both are 0 (tanh ⊥ = -1; 1 / (1 + ⊤) = 0). So a program that spells the logistic
  function with one tanh and a program that spells it with an exponential and a quotient agree with no finiteness
  assumption on the argument. Stated over the reals, over the extended reals, and over the f32 patterns of 0.5 and 1.0.
-/
import Idealize.ShloMosaic.PureOps.Ideal

noncomputable section

namespace Cert.LibLogisticTanh

open Idealize.ShloMosaic

/-- The f32 pattern of 0.5 denotes 1/2. -/
theorem ofBits_half : Ideal.ofBits .f32 0x3F000000#32 = ((1 / 2 : ℝ) : EReal) := by
  simp [Ideal.ofBits, Ideal.ieee, -EReal.coe_mul]; norm_num

/-- The f32 pattern of 1.0 denotes 1. -/
theorem ofBits_one : Ideal.ofBits .f32 0x3F800000#32 = (1 : EReal) := by
  rw [← EReal.coe_one]; simp [Ideal.ofBits, Ideal.ieee, -EReal.coe_mul, -EReal.coe_one]; norm_num

/-- (tanh y + 1) / 2 = 1 / (1 + e^(-2y)) on the reals: multiply numerator and denominator of e^y / (e^y + e^(-y)) by e^(-y). -/
theorem half_tanh_add_one (y : ℝ) : 1 / 2 * (Real.tanh y + 1) = (1 + Real.exp (-(2 * y)))⁻¹ := by
  have hpos : 0 < Real.exp y := Real.exp_pos y
  have hneg : Real.exp (-y) = (Real.exp y)⁻¹ := Real.exp_neg y
  have h2 : Real.exp (-(2 * y)) = (Real.exp y)⁻¹ * (Real.exp y)⁻¹ := by
    rw [← hneg, ← Real.exp_add]; congr 1; ring
  rw [Real.tanh_eq_sinh_div_cosh, Real.sinh_eq, Real.cosh_eq, hneg, h2]
  have hne : Real.exp y ≠ 0 := hpos.ne'
  have hsum : Real.exp y * Real.exp y + 1 ≠ 0 := by positivity
  field_simp
  ring

/-- 1/2 · (tanh (1/2 · x) + 1) is the logistic function of x, at every extended real. -/
theorem half_tanh_half_eq_logistic (x : EReal) :
    ((1 / 2 : ℝ) : EReal) * (Ideal.tanh (((1 / 2 : ℝ) : EReal) * x) + 1) = Ideal.logistic x := by
  induction x using EReal.rec with
  | bot =>
    rw [EReal.coe_mul_bot_of_pos (by norm_num), Ideal.tanh_bot, Ideal.logistic_bot]
    rw [show ((-1 : EReal)) = ((-1 : ℝ) : EReal) from by rw [EReal.coe_neg, EReal.coe_one], ← EReal.coe_one,
      ← EReal.coe_add, ← EReal.coe_mul]
    norm_num
  | top =>
    rw [EReal.coe_mul_top_of_pos (by norm_num), Ideal.tanh_top, Ideal.logistic_top]
    rw [← EReal.coe_one, ← EReal.coe_add, ← EReal.coe_mul]
    norm_num
  | coe r =>
    rw [← EReal.coe_mul, Ideal.tanh_coe, ← EReal.coe_one, ← EReal.coe_add, ← EReal.coe_mul, Ideal.logistic_coe,
      half_tanh_add_one]
    congr 4; ring

/-- The same with 0.5 and 1.0 as f32 patterns: the tanh spelling of a float program. -/
theorem tanh_spelling_f32 (x : EReal) :
    Ideal.ofBits .f32 0x3F000000#32 * (Ideal.tanh (Ideal.ofBits .f32 0x3F000000#32 * x) + Ideal.ofBits .f32 0x3F800000#32)
      = Ideal.logistic x := by
  rw [ofBits_half, ofBits_one, half_tanh_half_eq_logistic]

/-- The exponential spelling of a float program, 1.0 / (1.0 + e^(-x)) with 1.0 as its f32 pattern, is the logistic
    function by definition. -/
theorem exp_spelling_f32 (x : EReal) :
    Ideal.div (Ideal.ofBits .f32 0x3F800000#32) (Ideal.ofBits .f32 0x3F800000#32 + Ideal.exp (-x)) = Ideal.logistic x := by
  rw [ofBits_one]; rfl

end Cert.LibLogisticTanh

end
-- ==== Proof.RefLayout.lean ====
/-
  Scalar facts used when the reference program is read index by index: the router's compare-and-select is an `if` on
  the equality of the two expert numbers, and the activation spelt with negate, exponential, add and divide,
  g · (1 / (1 + e^(−g))) · u, is g · σ(g) · u with σ the logistic function.
-/
import proofs.«131321_j61254823576011_2_alg».proof.Proof.MoeArgs
import proofs.«131321_j61254823576011_2_alg».proof.Proof.LibLogisticTanh
import Idealize.ShloMosaic.PureOps.Ideal.Laws

noncomputable section

namespace Cert.ReferenceIdeal.RefLayout

open Idealize.ShloMosaic

/-- Selecting on an integer equality test is an `if` on the equality. -/
theorem select_cmpi_eq {α : Type} (x y : BitVec 32) (a b : α) :
    Scalar.select (IntOp.cmpi .eq x y) a b = if x = y then a else b := by
  show (if BitVec.ofBool (x == y) = 1#1 then a else b) = _
  by_cases h : x = y
  · subst h
    simp
  · have hb : (x == y) = false := beq_eq_false_iff_ne.mpr h
    rw [if_neg h, hb]
    exact if_neg (by decide)

/-- The activation as the program spells it, with 1.0 as its f32 pattern, is gate · σ(gate) · up. -/
theorem swiglu_spelling (g u : Ideal .f32) :
    FloatOps.mulf (FloatOps.mulf g (FloatOps.hostDivf (FloatOps.ofBits .f32 0x3F800000#32)
        (FloatOps.addf (FloatOps.ofBits .f32 0x3F800000#32) (FloatOps.hostUnary .exp (FloatOps.hostNegf g))))) u
      = g * Ideal.logistic g * u := by
  show (g * Ideal.div (Ideal.ofBits .f32 0x3F800000#32) (Ideal.ofBits .f32 0x3F800000#32 + Ideal.exp (-g))) * u = _
  rw [Cert.LibLogisticTanh.exp_spelling_f32]

end Cert.ReferenceIdeal.RefLayout

end
-- ==== Proof.RefExpert0.lean ====
/-
  Expert 0 of the reference program, read index by index: its dequantised weights (stored value times the scale of
  its 128 × 128 block — the two repeats of the scale array are a broadcast and a reshape each, which is where r / 128 and
  k / 128 come from), the gate and up projections as sums over the 2048 hidden columns, the activation, the contraction
  over the 2816 intermediate columns, the router coefficient, and their product.
-/
import proofs.«131321_j61254823576011_2_alg».proof.Proof.RefRead0
import proofs.«131321_j61254823576011_2_alg».proof.Proof.MoeArgs
import proofs.«131321_j61254823576011_2_alg».proof.Proof.RefLayout

noncomputable section

namespace Cert.ReferenceIdeal.RefValue

open Cert.ReferenceIdeal Cert.ReferenceIdeal.RefRead Idealize.ShloMosaic Idealize.ShloMosaic.ValueIdx Cert.Moe

variable (x0 : (⟨S512x2048, .f32⟩ : BufTy).Contents (Elt Ideal)) (x1 : (⟨S512x2, .i32⟩ : BufTy).Contents (Elt Ideal))
  (x2 : (⟨S512x2, .f32⟩ : BufTy).Contents (Elt Ideal)) (x3 : (⟨S8x5632x2048, .f32⟩ : BufTy).Contents (Elt Ideal))
  (x4 : (⟨S8x44x16, .f32⟩ : BufTy).Contents (Elt Ideal)) (x5 : (⟨S8x2048x2816, .f32⟩ : BufTy).Contents (Elt Ideal))
  (x6 : (⟨S8x16x22, .f32⟩ : BufTy).Contents (Elt Ideal))

/-- The dequantised gate/up weights of expert 0: row r, column k is the stored value times the scale of block (r / 128, k / 128). -/
theorem e0_w13 (r : Fin 5632) (k : Fin 2048) :
    val_main_v9 (F := Ideal) x3 x4 (ix2 r k) = wd13 (Cert.Moe.Args.ofArrays x0 x1 x2 x3 x4 x5 x6) (⟨0, by decide⟩ : Fin 8) r k := by
  have hr := r.isLt
  have hk := k.isLt
  have e1 : idx_main_v1 (idx_main_v2 (ix2 r k)) = ix3 (⟨0, by decide⟩ : Fin 8) r k :=
    funext fun a => Fin.ext (by
      match a with
      | ⟨0, _⟩ => rfl
      | ⟨1, _⟩ => show (r.val * 2048 + k.val) / 2048 % 5632 = r.val; omega
      | ⟨2, _⟩ => show (r.val * 2048 + k.val) % 2048 = k.val; omega)
  have e2 : idx_main_v3 (idx_main_v4 (idx_main_v5 (idx_main_v6 (idx_main_v7 (idx_main_v8 (ix2 r k))))))
      = ix3 (⟨0, by decide⟩ : Fin 8) (⟨r.val / 128, by omega⟩ : Fin 44) (⟨k.val / 128, by omega⟩ : Fin 16) :=
    funext fun a => Fin.ext (by
      match a with
      | ⟨0, _⟩ => rfl
      | ⟨1, _⟩ => show (((r.val * 2048 + k.val) / 2048 * 16 + (r.val * 2048 + k.val) / 128 % 16) / 2048 * 16 + ((r.val * 2048 + k.val) / 2048 * 16 + (r.val * 2048 + k.val) / 128 % 16) % 16) / 16 % 44 = r.val / 128; omega
      | ⟨2, _⟩ => show (((r.val * 2048 + k.val) / 2048 * 16 + (r.val * 2048 + k.val) / 128 % 16) / 2048 * 16 + ((r.val * 2048 + k.val) / 2048 * 16 + (r.val * 2048 + k.val) / 128 % 16) % 16) % 16 = k.val / 128; omega)
  rw [val_main_v9_apply, val_main_v2_apply, val_main_v1_apply, val_main_v8_apply, val_main_v7_apply, val_main_v6_apply,
    val_main_v5_apply, val_main_v4_apply, val_main_v3_apply, e1, e2]
  rfl

/-- The dequantised down weights of expert 0. -/
theorem e0_w2 (h : Fin 2048) (j : Fin 2816) :
    val_main_v18 (F := Ideal) x5 x6 (ix2 h j) = wd2 (Cert.Moe.Args.ofArrays x0 x1 x2 x3 x4 x5 x6) (⟨0, by decide⟩ : Fin 8) h j := by
  have hh := h.isLt
  have hj := j.isLt
  have e1 : idx_main_v10 (idx_main_v11 (ix2 h j)) = ix3 (⟨0, by decide⟩ : Fin 8) h j :=
    funext fun a => Fin.ext (by
      match a with
      | ⟨0, _⟩ => rfl
      | ⟨1, _⟩ => show (h.val * 2816 + j.val) / 2816 % 2048 = h.val; omega
      | ⟨2, _⟩ => show (h.val * 2816 + j.val) % 2816 = j.val; omega)
  have e2 : idx_main_v12 (idx_main_v13 (idx_main_v14 (idx_main_v15 (idx_main_v16 (idx_main_v17 (ix2 h j))))))
      = ix3 (⟨0, by decide⟩ : Fin 8) (⟨h.val / 128, by omega⟩ : Fin 16) (⟨j.val / 128, by omega⟩ : Fin 22) :=
    funext fun a => Fin.ext (by
      match a with
      | ⟨0, _⟩ => rfl
      | ⟨1, _⟩ => show (((h.val * 2816 + j.val) / 2816 * 22 + (h.val * 2816 + j.val) / 128 % 22) / 2816 * 22 + ((h.val * 2816 + j.val) / 2816 * 22 + (h.val * 2816 + j.val) / 128 % 22) % 22) / 22 % 16 = h.val / 128; omega
      | ⟨2, _⟩ => show (((h.val * 2816 + j.val) / 2816 * 22 + (h.val * 2816 + j.val) / 128 % 22) / 2816 * 22 + ((h.val * 2816 + j.val) / 2816 * 22 + (h.val * 2816 + j.val) / 128 % 22) % 22) % 22 = j.val / 128; omega)
  rw [val_main_v18_apply, val_main_v11_apply, val_main_v10_apply, val_main_v17_apply, val_main_v16_apply, val_main_v15_apply,
    val_main_v14_apply, val_main_v13_apply, val_main_v12_apply, e1, e2]
  rfl

/-- Token t against row c of the stacked, dequantised gate/up weights: a sum over the hidden columns. -/
theorem e0_proj (t : Fin 512) (c : Fin 5632) :
    val_main_v20 (F := Ideal) x0 x3 x4 (ix2 t c)
      = ∑ k : Fin 2048, x0 (ix2 t k) * wd13 (Cert.Moe.Args.ofArrays x0 x1 x2 x3 x4 x5 x6) (⟨0, by decide⟩ : Fin 8) c k := by
  rw [val_main_v20_apply]
  refine Finset.sum_congr rfl fun k _ => ?_
  have el : lidx_main_v20 (ix2 t c) k = ix2 t k := funext fun a => Fin.ext (by match a with | ⟨0, _⟩ => rfl | ⟨1, _⟩ => rfl)
  have er : idx_main_v19 (ridx_main_v20 (ix2 t c) k) = ix2 c k := funext fun a => Fin.ext (by match a with | ⟨0, _⟩ => rfl | ⟨1, _⟩ => rfl)
  rw [val_main_v19_apply, el, er, e0_w13 x0 x1 x2 x3 x4 x5 x6]

/-- The first 2816 columns of that product are the gate pre-activation. -/
theorem e0_gate (t : Fin 512) (j : Fin 2816) :
    val_main_v21 (F := Ideal) x0 x3 x4 (ix2 t j) = gate (Cert.Moe.Args.ofArrays x0 x1 x2 x3 x4 x5 x6) (⟨0, by decide⟩ : Fin 8) t j := by
  have e : idx_main_v21 (ix2 t j) = ix2 t (⟨j.val, by omega⟩ : Fin 5632) := funext fun a => Fin.ext (by match a with | ⟨0, _⟩ => rfl | ⟨1, _⟩ => rfl)
  rw [val_main_v21_apply, e, e0_proj x0 x1 x2 x3 x4 x5 x6]
  rfl

/-- The last 2816 columns are the up projection. -/
theorem e0_up (t : Fin 512) (j : Fin 2816) :
    val_main_v22 (F := Ideal) x0 x3 x4 (ix2 t j) = up (Cert.Moe.Args.ofArrays x0 x1 x2 x3 x4 x5 x6) (⟨0, by decide⟩ : Fin 8) t j := by
  have e : idx_main_v22 (ix2 t j) = ix2 t (⟨2816 + j.val, by omega⟩ : Fin 5632) := funext fun a => Fin.ext (by match a with | ⟨0, _⟩ => rfl | ⟨1, _⟩ => rfl)
  rw [val_main_v22_apply, e, e0_proj x0 x1 x2 x3 x4 x5 x6]
  rfl

/-- The activation: gate · σ(gate) · up. -/
theorem e0_act (t : Fin 512) (j : Fin 2816) :
    val_main_v24 (F := Ideal) x0 x3 x4 (ix2 t j) = act (Cert.Moe.Args.ofArrays x0 x1 x2 x3 x4 x5 x6) (⟨0, by decide⟩ : Fin 8) t j := by
  rw [val_main_v24_apply, val_main_v23_apply, val_main_call0_v5_apply, val_main_call0_v4_apply, val_main_call0_cst_0_apply,
    val_main_call0_v3_apply, val_main_call0_v2_apply, val_main_call0_cst_apply, val_main_call0_v1_apply, val_main_call0_v0_apply,
    e0_gate x0 x1 x2 x3 x4 x5 x6, e0_up x0 x1 x2 x3 x4 x5 x6]
  exact RefLayout.swiglu_spelling _ _

/-- Expert 0's output: the activation against the dequantised down weights, summed over the intermediate columns. -/
theorem e0_out (t : Fin 512) (h : Fin 2048) :
    val_main_v26 (F := Ideal) x0 x3 x4 x5 x6 (ix2 t h) = outE (Cert.Moe.Args.ofArrays x0 x1 x2 x3 x4 x5 x6) (⟨0, by decide⟩ : Fin 8) t h := by
  rw [val_main_v26_apply]
  unfold outE
  refine Finset.sum_congr rfl fun j _ => ?_
  have el : lidx_main_v26 (ix2 t h) j = ix2 t j := funext fun a => Fin.ext (by match a with | ⟨0, _⟩ => rfl | ⟨1, _⟩ => rfl)
  have er : idx_main_v25 (ridx_main_v26 (ix2 t h) j) = ix2 h j := funext fun a => Fin.ext (by match a with | ⟨0, _⟩ => rfl | ⟨1, _⟩ => rfl)
  rw [val_main_v25_apply, el, er, e0_act x0 x1 x2 x3 x4 x5 x6, e0_w2 x0 x1 x2 x3 x4 x5 x6]

/-- The router coefficient of expert 0, broadcast along the hidden columns: the routed weights whose expert number is 0, added up from zero. -/
theorem e0_coef (t : Fin 512) (h : Fin 2048) :
    val_main_v32 (F := Ideal) x1 x2 (ix2 t h) = coef (Cert.Moe.Args.ofArrays x0 x1 x2 x3 x4 x5 x6) (⟨0, by decide⟩ : Fin 8) t := by
  rw [val_main_v32_apply, val_main_v31_apply, val_main_v30_apply, val_main_cst_1_apply]
  show Ideal.ofBits .f32 0x00000000#32 + _ = _
  rw [Ideal.ofBits_zero_f32, zero_add]
  unfold coef
  refine Finset.sum_congr rfl fun s _ => ?_
  have e : idx_main_v30 (idx_main_v31 (idx_main_v32 (ix2 t h))) s = ix2 t s := funext fun a => Fin.ext (by match a with | ⟨0, _⟩ => rfl | ⟨1, _⟩ => rfl)
  rw [e, val_main_v29_apply, val_main_v28_apply, val_main_v27_apply, val_main_c_apply, val_main_call1_v1_apply, val_main_call1_v0_apply,
    val_main_cst_0_apply, RefLayout.select_cmpi_eq]
  show (if _ then _ else Ideal.ofBits .f32 0x00000000#32) = _
  rw [Ideal.ofBits_zero_f32]
  rfl

/-- Expert 0's contribution to the result: coefficient times output. -/
theorem e0_contrib (t : Fin 512) (h : Fin 2048) :
    val_main_v33 (F := Ideal) x0 x1 x2 x3 x4 x5 x6 (ix2 t h)
      = coef (Cert.Moe.Args.ofArrays x0 x1 x2 x3 x4 x5 x6) (⟨0, by decide⟩ : Fin 8) t * outE (Cert.Moe.Args.ofArrays x0 x1 x2 x3 x4 x5 x6) (⟨0, by decide⟩ : Fin 8) t h := by
  rw [val_main_v33_apply, e0_coef x0 x1 x2 x3 x4 x5 x6, e0_out x0 x1 x2 x3 x4 x5 x6]
  rfl

end Cert.ReferenceIdeal.RefValue

end
-- ==== Proof.RefExpert1.lean ====
/-
  Expert 1 of the reference program, read index by index: its dequantised weights (stored value times the scale of
  its 128 × 128 block — the two repeats of the scale array are a broadcast and a reshape each, which is where r / 128 and
  k / 128 come from), the gate and up projections as sums over the 2048 hidden columns, the activation, the contraction
  over the 2816 intermediate columns, the router coefficient, and their product.
-/
import proofs.«131321_j61254823576011_2_alg».proof.Proof.RefRead1
import proofs.«131321_j61254823576011_2_alg».proof.Proof.MoeArgs
import proofs.«131321_j61254823576011_2_alg».proof.Proof.RefLayout

noncomputable section

namespace Cert.ReferenceIdeal.RefValue

open Cert.ReferenceIdeal Cert.ReferenceIdeal.RefRead Idealize.ShloMosaic Idealize.ShloMosaic.ValueIdx Cert.Moe

variable (x0 : (⟨S512x2048, .f32⟩ : BufTy).Contents (Elt Ideal)) (x1 : (⟨S512x2, .i32⟩ : BufTy).Contents (Elt Ideal))
  (x2 : (⟨S512x2, .f32⟩ : BufTy).Contents (Elt Ideal)) (x3 : (⟨S8x5632x2048, .f32⟩ : BufTy).Contents (Elt Ideal))
  (x4 : (⟨S8x44x16, .f32⟩ : BufTy).Contents (Elt Ideal)) (x5 : (⟨S8x2048x2816, .f32⟩ : BufTy).Contents (Elt Ideal))
  (x6 : (⟨S8x16x22, .f32⟩ : BufTy).Contents (Elt Ideal))

/-- The dequantised gate/up weights of expert 1: row r, column k is the stored value times the scale of block (r / 128, k / 128). -/
theorem e1_w13 (r : Fin 5632) (k : Fin 2048) :
    val_main_v43 (F := Ideal) x3 x4 (ix2 r k) = wd13 (Cert.Moe.Args.ofArrays x0 x1 x2 x3 x4 x5 x6) (⟨1, by decide⟩ : Fin 8) r k := by
  have hr := r.isLt
  have hk := k.isLt
  have e1 : idx_main_v35 (idx_main_v36 (ix2 r k)) = ix3 (⟨1, by decide⟩ : Fin 8) r k :=
    funext fun a => Fin.ext (by
      match a with
      | ⟨0, _⟩ => rfl
      | ⟨1, _⟩ => show (r.val * 2048 + k.val) / 2048 % 5632 = r.val; omega
      | ⟨2, _⟩ => show (r.val * 2048 + k.val) % 2048 = k.val; omega)
  have e2 : idx_main_v37 (idx_main_v38 (idx_main_v39 (idx_main_v40 (idx_main_v41 (idx_main_v42 (ix2 r k))))))
      = ix3 (⟨1, by decide⟩ : Fin 8) (⟨r.val / 128, by omega⟩ : Fin 44) (⟨k.val / 128, by omega⟩ : Fin 16) :=
    funext fun a => Fin.ext (by
      match a with
      | ⟨0, _⟩ => rfl
      | ⟨1, _⟩ => show (((r.val * 2048 + k.val) / 2048 * 16 + (r.val * 2048 + k.val) / 128 % 16) / 2048 * 16 + ((r.val * 2048 + k.val) / 2048 * 16 + (r.val * 2048 + k.val) / 128 % 16) % 16) / 16 % 44 = r.val / 128; omega
      | ⟨2, _⟩ => show (((r.val * 2048 + k.val) / 2048 * 16 + (r.val * 2048 + k.val) / 128 % 16) / 2048 * 16 + ((r.val * 2048 + k.val) / 2048 * 16 + (r.val * 2048 + k.val) / 128 % 16) % 16) % 16 = k.val / 128; omega)
  rw [val_main_v43_apply, val_main_v36_apply, val_main_v35_apply, val_main_v42_apply, val_main_v41_apply, val_main_v40_apply,
    val_main_v39_apply, val_main_v38_apply, val_main_v37_apply, e1, e2]
  rfl

/-- The dequantised down weights of expert 1. -/
theorem e1_w2 (h : Fin 2048) (j : Fin 2816) :
    val_main_v52 (F := Ideal) x5 x6 (ix2 h j) = wd2 (Cert.Moe.Args.ofArrays x0 x1 x2 x3 x4 x5 x6) (⟨1, by decide⟩ : Fin 8) h j := by
  have hh := h.isLt
  have hj := j.isLt
  have e1 : idx_main_v44 (idx_main_v45 (ix2 h j)) = ix3 (⟨1, by decide⟩ : Fin 8) h j :=
    funext fun a => Fin.ext (by
      match a with
      | ⟨0, _⟩ => rfl
      | ⟨1, _⟩ => show (h.val * 2816 + j.val) / 2816 % 2048 = h.val; omega
      | ⟨2, _⟩ => show (h.val * 2816 + j.val) % 2816 = j.val; omega)
  have e2 : idx_main_v46 (idx_main_v47 (idx_main_v48 (idx_main_v49 (idx_main_v50 (idx_main_v51 (ix2 h j))))))
      = ix3 (⟨1, by decide⟩ : Fin 8) (⟨h.val / 128, by omega⟩ : Fin 16) (⟨j.val / 128, by omega⟩ : Fin 22) :=
    funext fun a => Fin.ext (by
      match a with
      | ⟨0, _⟩ => rfl
      | ⟨1, _⟩ => show (((h.val * 2816 + j.val) / 2816 * 22 + (h.val * 2816 + j.val) / 128 % 22) / 2816 * 22 + ((h.val * 2816 + j.val) / 2816 * 22 + (h.val * 2816 + j.val) / 128 % 22) % 22) / 22 % 16 = h.val / 128; omega
      | ⟨2, _⟩ => show (((h.val * 2816 + j.val) / 2816 * 22 + (h.val * 2816 + j.val) / 128 % 22) / 2816 * 22 + ((h.val * 2816 + j.val) / 2816 * 22 + (h.val * 2816 + j.val) / 128 % 22) % 22) % 22 = j.val / 128; omega)
  rw [val_main_v52_apply, val_main_v45_apply, val_main_v44_apply, val_main_v51_apply, val_main_v50_apply, val_main_v49_apply,
    val_main_v48_apply, val_main_v47_apply, val_main_v46_apply, e1, e2]
  rfl

/-- Token t against row c of the stacked, dequantised gate/up weights: a sum over the hidden columns. -/
theorem e1_proj (t : Fin 512) (c : Fin 5632) :
    val_main_v54 (F := Ideal) x0 x3 x4 (ix2 t c)
      = ∑ k : Fin 2048, x0 (ix2 t k) * wd13 (Cert.Moe.Args.ofArrays x0 x1 x2 x3 x4 x5 x6) (⟨1, by decide⟩ : Fin 8) c k := by
  rw [val_main_v54_apply]
  refine Finset.sum_congr rfl fun k _ => ?_
  have el : lidx_main_v54 (ix2 t c) k = ix2 t k := funext fun a => Fin.ext (by match a with | ⟨0, _⟩ => rfl | ⟨1, _⟩ => rfl)
  have er : idx_main_v53 (ridx_main_v54 (ix2 t c) k) = ix2 c k := funext fun a => Fin.ext (by match a with | ⟨0, _⟩ => rfl | ⟨1, _⟩ => rfl)
  rw [val_main_v53_apply, el, er, e1_w13 x0 x1 x2 x3 x4 x5 x6]

/-- The first 2816 columns of that product are the gate pre-activation. -/
theorem e1_gate (t : Fin 512) (j : Fin 2816) :
    val_main_v55 (F := Ideal) x0 x3 x4 (ix2 t j) = gate (Cert.Moe.Args.ofArrays x0 x1 x2 x3 x4 x5 x6) (⟨1, by decide⟩ : Fin 8) t j := by
  have e : idx_main_v55 (ix2 t j) = ix2 t (⟨j.val, by omega⟩ : Fin 5632) := funext fun a => Fin.ext (by match a with | ⟨0, _⟩ => rfl | ⟨1, _⟩ => rfl)
  rw [val_main_v55_apply, e, e1_proj x0 x1 x2 x3 x4 x5 x6]
  rfl

/-- The last 2816 columns are the up projection. -/
theorem e1_up (t : Fin 512) (j : Fin 2816) :
    val_main_v56 (F := Ideal) x0 x3 x4 (ix2 t j) = up (Cert.Moe.Args.ofArrays x0 x1 x2 x3 x4 x5 x6) (⟨1, by decide⟩ : Fin 8) t j := by
  have e : idx_main_v56 (ix2 t j) = ix2 t (⟨2816 + j.val, by omega⟩ : Fin 5632) := funext fun a => Fin.ext (by match a with | ⟨0, _⟩ => rfl | ⟨1, _⟩ => rfl)
  rw [val_main_v56_apply, e, e1_proj x0 x1 x2 x3 x4 x5 x6]
  rfl

/-- The activation: gate · σ(gate) · up. -/
theorem e1_act (t : Fin 512) (j : Fin 2816) :
    val_main_v58 (F := Ideal) x0 x3 x4 (ix2 t j) = act (Cert.Moe.Args.ofArrays x0 x1 x2 x3 x4 x5 x6) (⟨1, by decide⟩ : Fin 8) t j := by
  rw [val_main_v58_apply, val_main_v57_apply, val_main_call2_v5_apply, val_main_call2_v4_apply, val_main_call2_cst_0_apply,
    val_main_call2_v3_apply, val_main_call2_v2_apply, val_main_call2_cst_apply, val_main_call2_v1_apply, val_main_call2_v0_apply,
    e1_gate x0 x1 x2 x3 x4 x5 x6, e1_up x0 x1 x2 x3 x4 x5 x6]
  exact RefLayout.swiglu_spelling _ _

/-- Expert 1's output: the activation against the dequantised down weights, summed over the intermediate columns. -/
theorem e1_out (t : Fin 512) (h : Fin 2048) :
    val_main_v60 (F := Ideal) x0 x3 x4 x5 x6 (ix2 t h) = outE (Cert.Moe.Args.ofArrays x0 x1 x2 x3 x4 x5 x6) (⟨1, by decide⟩ : Fin 8) t h := by
  rw [val_main_v60_apply]
  unfold outE
  refine Finset.sum_congr rfl fun j _ => ?_
  have el : lidx_main_v60 (ix2 t h) j = ix2 t j := funext fun a => Fin.ext (by match a with | ⟨0, _⟩ => rfl | ⟨1, _⟩ => rfl)
  have er : idx_main_v59 (ridx_main_v60 (ix2 t h) j) = ix2 h j := funext fun a => Fin.ext (by match a with | ⟨0, _⟩ => rfl | ⟨1, _⟩ => rfl)
  rw [val_main_v59_apply, el, er, e1_act x0 x1 x2 x3 x4 x5 x6, e1_w2 x0 x1 x2 x3 x4 x5 x6]

/-- The router coefficient of expert 1, broadcast along the hidden columns: the routed weights whose expert number is 1, added up from zero. -/
theorem e1_coef (t : Fin 512) (h : Fin 2048) :
    val_main_v66 (F := Ideal) x1 x2 (ix2 t h) = coef (Cert.Moe.Args.ofArrays x0 x1 x2 x3 x4 x5 x6) (⟨1, by decide⟩ : Fin 8) t := by
  rw [val_main_v66_apply, val_main_v65_apply, val_main_v64_apply, val_main_cst_4_apply]
  show Ideal.ofBits .f32 0x00000000#32 + _ = _
  rw [Ideal.ofBits_zero_f32, zero_add]
  unfold coef
  refine Finset.sum_congr rfl fun s _ => ?_
  have e : idx_main_v64 (idx_main_v65 (idx_main_v66 (ix2 t h))) s = ix2 t s := funext fun a => Fin.ext (by match a with | ⟨0, _⟩ => rfl | ⟨1, _⟩ => rfl)
  rw [e, val_main_v63_apply, val_main_v62_apply, val_main_v61_apply, val_main_c_2_apply, val_main_call3_v1_apply, val_main_call3_v0_apply,
    val_main_cst_3_apply, RefLayout.select_cmpi_eq]
  show (if _ then _ else Ideal.ofBits .f32 0x00000000#32) = _
  rw [Ideal.ofBits_zero_f32]
  rfl

/-- Expert 1's contribution to the result: coefficient times output. -/
theorem e1_contrib (t : Fin 512) (h : Fin 2048) :
    val_main_v67 (F := Ideal) x0 x1 x2 x3 x4 x5 x6 (ix2 t h)
      = coef (Cert.Moe.Args.ofArrays x0 x1 x2 x3 x4 x5 x6) (⟨1, by decide⟩ : Fin 8) t * outE (Cert.Moe.Args.ofArrays x0 x1 x2 x3 x4 x5 x6) (⟨1, by decide⟩ : Fin 8) t h := by
  rw [val_main_v67_apply, e1_coef x0 x1 x2 x3 x4 x5 x6, e1_out x0 x1 x2 x3 x4 x5 x6]
  rfl

end Cert.ReferenceIdeal.RefValue

end
-- ==== Proof.RefExpert2.lean ====
/-
  Expert 2 of the reference program, read index by index: its dequantised weights (stored value times the scale of
  its 128 × 128 block — the two repeats of the scale array are a broadcast and a reshape each, which is where r / 128 and
  k / 128 come from), the gate and up projections as sums over the 2048 hidden columns, the activation, the contraction
  over the 2816 intermediate columns, the router coefficient, and their product.
-/
import proofs.«131321_j61254823576011_2_alg».proof.Proof.RefRead2
import proofs.«131321_j61254823576011_2_alg».proof.Proof.MoeArgs
import proofs.«131321_j61254823576011_2_alg».proof.Proof.RefLayout

noncomputable section

namespace Cert.ReferenceIdeal.RefValue

open Cert.ReferenceIdeal Cert.ReferenceIdeal.RefRead Idealize.ShloMosaic Idealize.ShloMosaic.ValueIdx Cert.Moe

variable (x0 : (⟨S512x2048, .f32⟩ : BufTy).Contents (Elt Ideal)) (x1 : (⟨S512x2, .i32⟩ : BufTy).Contents (Elt Ideal))
  (x2 : (⟨S512x2, .f32⟩ : BufTy).Contents (Elt Ideal)) (x3 : (⟨S8x5632x2048, .f32⟩ : BufTy).Contents (Elt Ideal))
  (x4 : (⟨S8x44x16, .f32⟩ : BufTy).Contents (Elt Ideal)) (x5 : (⟨S8x2048x2816, .f32⟩ : BufTy).Contents (Elt Ideal))
  (x6 : (⟨S8x16x22, .f32⟩ : BufTy).Contents (Elt Ideal))

/-- The dequantised gate/up weights of expert 2: row r, column k is the stored value times the scale of block (r / 128, k / 128). -/
theorem e2_w13 (r : Fin 5632) (k : Fin 2048) :
    val_main_v77 (F := Ideal) x3 x4 (ix2 r k) = wd13 (Cert.Moe.Args.ofArrays x0 x1 x2 x3 x4 x5 x6) (⟨2, by decide⟩ : Fin 8) r k := by
  have hr := r.isLt
  have hk := k.isLt
  have e1 : idx_main_v69 (idx_main_v70 (ix2 r k)) = ix3 (⟨2, by decide⟩ : Fin 8) r k :=
    funext fun a => Fin.ext (by
      match a with
      | ⟨0, _⟩ => rfl
      | ⟨1, _⟩ => show (r.val * 2048 + k.val) / 2048 % 5632 = r.val; omega
      | ⟨2, _⟩ => show (r.val * 2048 + k.val) % 2048 = k.val; omega)
  have e2 : idx_main_v71 (idx_main_v72 (idx_main_v73 (idx_main_v74 (idx_main_v75 (idx_main_v76 (ix2 r k))))))
      = ix3 (⟨2, by decide⟩ : Fin 8) (⟨r.val / 128, by omega⟩ : Fin 44) (⟨k.val / 128, by omega⟩ : Fin 16) :=
    funext fun a => Fin.ext (by
      match a with
      | ⟨0, _⟩ => rfl
      | ⟨1, _⟩ => show (((r.val * 2048 + k.val) / 2048 * 16 + (r.val * 2048 + k.val) / 128 % 16) / 2048 * 16 + ((r.val * 2048 + k.val) / 2048 * 16 + (r.val * 2048 + k.val) / 128 % 16) % 16) / 16 % 44 = r.val / 128; omega
      | ⟨2, _⟩ => show (((r.val * 2048 + k.val) / 2048 * 16 + (r.val * 2048 + k.val) / 128 % 16) / 2048 * 16 + ((r.val * 2048 + k.val) / 2048 * 16 + (r.val * 2048 + k.val) / 128 % 16) % 16) % 16 = k.val / 128; omega)
  rw [val_main_v77_apply, val_main_v70_apply, val_main_v69_apply, val_main_v76_apply, val_main_v75_apply, val_main_v74_apply,
    val_main_v73_apply, val_main_v72_apply, val_main_v71_apply, e1, e2]
  rfl

/-- The dequantised down weights of expert 2. -/
theorem e2_w2 (h : Fin 2048) (j : Fin 2816) :
    val_main_v86 (F := Ideal) x5 x6 (ix2 h j) = wd2 (Cert.Moe.Args.ofArrays x0 x1 x2 x3 x4 x5 x6) (⟨2, by decide⟩ : Fin 8) h j := by
  have hh := h.isLt
  have hj := j.isLt
  have e1 : idx_main_v78 (idx_main_v79 (ix2 h j)) = ix3 (⟨2, by decide⟩ : Fin 8) h j :=
    funext fun a => Fin.ext (by
      match a with
      | ⟨0, _⟩ => rfl
      | ⟨1, _⟩ => show (h.val * 2816 + j.val) / 2816 % 2048 = h.val; omega
      | ⟨2, _⟩ => show (h.val * 2816 + j.val) % 2816 = j.val; omega)
  have e2 : idx_main_v80 (idx_main_v81 (idx_main_v82 (idx_main_v83 (idx_main_v84 (idx_main_v85 (ix2 h j))))))
      = ix3 (⟨2, by decide⟩ : Fin 8) (⟨h.val / 128, by omega⟩ : Fin 16) (⟨j.val / 128, by omega⟩ : Fin 22) :=
    funext fun a => Fin.ext (by
      match a with
      | ⟨0, _⟩ => rfl
      | ⟨1, _⟩ => show (((h.val * 2816 + j.val) / 2816 * 22 + (h.val * 2816 + j.val) / 128 % 22) / 2816 * 22 + ((h.val * 2816 + j.val) / 2816 * 22 + (h.val * 2816 + j.val) / 128 % 22) % 22) / 22 % 16 = h.val / 128; omega
      | ⟨2, _⟩ => show (((h.val * 2816 + j.val) / 2816 * 22 + (h.val * 2816 + j.val) / 128 % 22) / 2816 * 22 + ((h.val * 2816 + j.val) / 2816 * 22 + (h.val * 2816 + j.val) / 128 % 22) % 22) % 22 = j.val / 128; omega)
  rw [val_main_v86_apply, val_main_v79_apply, val_main_v78_apply, val_main_v85_apply, val_main_v84_apply, val_main_v83_apply,
    val_main_v82_apply, val_main_v81_apply, val_main_v80_apply, e1, e2]
  rfl

/-- Token t against row c of the stacked, dequantised gate/up weights: a sum over the hidden columns. -/
theorem e2_proj (t : Fin 512) (c : Fin 5632) :
    val_main_v88 (F := Ideal) x0 x3 x4 (ix2 t c)
      = ∑ k : Fin 2048, x0 (ix2 t k) * wd13 (Cert.Moe.Args.ofArrays x0 x1 x2 x3 x4 x5 x6) (⟨2, by decide⟩ : Fin 8) c k := by
  rw [val_main_v88_apply]
  refine Finset.sum_congr rfl fun k _ => ?_
  have el : lidx_main_v88 (ix2 t c) k = ix2 t k := funext fun a => Fin.ext (by match a with | ⟨0, _⟩ => rfl | ⟨1, _⟩ => rfl)
  have er : idx_main_v87 (ridx_main_v88 (ix2 t c) k) = ix2 c k := funext fun a => Fin.ext (by match a with | ⟨0, _⟩ => rfl | ⟨1, _⟩ => rfl)
  rw [val_main_v87_apply, el, er, e2_w13 x0 x1 x2 x3 x4 x5 x6]

/-- The first 2816 columns of that product are the gate pre-activation. -/
theorem e2_gate (t : Fin 512) (j : Fin 2816) :
    val_main_v89 (F := Ideal) x0 x3 x4 (ix2 t j) = gate (Cert.Moe.Args.ofArrays x0 x1 x2 x3 x4 x5 x6) (⟨2, by decide⟩ : Fin 8) t j := by
  have e : idx_main_v89 (ix2 t j) = ix2 t (⟨j.val, by omega⟩ : Fin 5632) := funext fun a => Fin.ext (by match a with | ⟨0, _⟩ => rfl | ⟨1, _⟩ => rfl)
  rw [val_main_v89_apply, e, e2_proj x0 x1 x2 x3 x4 x5 x6]
  rfl

/-- The last 2816 columns are the up projection. -/
theorem e2_up (t : Fin 512) (j : Fin 2816) :
    val_main_v90 (F := Ideal) x0 x3 x4 (ix2 t j) = up (Cert.Moe.Args.ofArrays x0 x1 x2 x3 x4 x5 x6) (⟨2, by decide⟩ : Fin 8) t j := by
  have e : idx_main_v90 (ix2 t j) = ix2 t (⟨2816 + j.val, by omega⟩ : Fin 5632) := funext fun a => Fin.ext (by match a with | ⟨0, _⟩ => rfl | ⟨1, _⟩ => rfl)
  rw [val_main_v90_apply, e, e2_proj x0 x1 x2 x3 x4 x5 x6]
  rfl

/-- The activation: gate · σ(gate) · up. -/
theorem e2_act (t : Fin 512) (j : Fin 2816) :
    val_main_v92 (F := Ideal) x0 x3 x4 (ix2 t j) = act (Cert.Moe.Args.ofArrays x0 x1 x2 x3 x4 x5 x6) (⟨2, by decide⟩ : Fin 8) t j := by
  rw [val_main_v92_apply, val_main_v91_apply, val_main_call4_v5_apply, val_main_call4_v4_apply, val_main_call4_cst_0_apply,
    val_main_call4_v3_apply, val_main_call4_v2_apply, val_main_call4_cst_apply, val_main_call4_v1_apply, val_main_call4_v0_apply,
    e2_gate x0 x1 x2 x3 x4 x5 x6, e2_up x0 x1 x2 x3 x4 x5 x6]
  exact RefLayout.swiglu_spelling _ _

/-- Expert 2's output: the activation against the dequantised down weights, summed over the intermediate columns. -/
theorem e2_out (t : Fin 512) (h : Fin 2048) :
    val_main_v94 (F := Ideal) x0 x3 x4 x5 x6 (ix2 t h) = outE (Cert.Moe.Args.ofArrays x0 x1 x2 x3 x4 x5 x6) (⟨2, by decide⟩ : Fin 8) t h := by
  rw [val_main_v94_apply]
  unfold outE
  refine Finset.sum_congr rfl fun j _ => ?_
  have el : lidx_main_v94 (ix2 t h) j = ix2 t j := funext fun a => Fin.ext (by match a with | ⟨0, _⟩ => rfl | ⟨1, _⟩ => rfl)
  have er : idx_main_v93 (ridx_main_v94 (ix2 t h) j) = ix2 h j := funext fun a => Fin.ext (by match a with | ⟨0, _⟩ => rfl | ⟨1, _⟩ => rfl)
  rw [val_main_v93_apply, el, er, e2_act x0 x1 x2 x3 x4 x5 x6, e2_w2 x0 x1 x2 x3 x4 x5 x6]

/-- The router coefficient of expert 2, broadcast along the hidden columns: the routed weights whose expert number is 2, added up from zero. -/
theorem e2_coef (t : Fin 512) (h : Fin 2048) :
    val_main_v100 (F := Ideal) x1 x2 (ix2 t h) = coef (Cert.Moe.Args.ofArrays x0 x1 x2 x3 x4 x5 x6) (⟨2, by decide⟩ : Fin 8) t := by
  rw [val_main_v100_apply, val_main_v99_apply, val_main_v98_apply, val_main_cst_7_apply]
  show Ideal.ofBits .f32 0x00000000#32 + _ = _
  rw [Ideal.ofBits_zero_f32, zero_add]
  unfold coef
  refine Finset.sum_congr rfl fun s _ => ?_
  have e : idx_main_v98 (idx_main_v99 (idx_main_v100 (ix2 t h))) s = ix2 t s := funext fun a => Fin.ext (by match a with | ⟨0, _⟩ => rfl | ⟨1, _⟩ => rfl)
  rw [e, val_main_v97_apply, val_main_v96_apply, val_main_v95_apply, val_main_c_5_apply, val_main_call5_v1_apply, val_main_call5_v0_apply,
    val_main_cst_6_apply, RefLayout.select_cmpi_eq]
  show (if _ then _ else Ideal.ofBits .f32 0x00000000#32) = _
  rw [Ideal.ofBits_zero_f32]
  rfl

/-- Expert 2's contribution to the result: coefficient times output. -/
theorem e2_contrib (t : Fin 512) (h : Fin 2048) :
    val_main_v101 (F := Ideal) x0 x1 x2 x3 x4 x5 x6 (ix2 t h)
      = coef (Cert.Moe.Args.ofArrays x0 x1 x2 x3 x4 x5 x6) (⟨2, by decide⟩ : Fin 8) t * outE (Cert.Moe.Args.ofArrays x0 x1 x2 x3 x4 x5 x6) (⟨2, by decide⟩ : Fin 8) t h := by
  rw [val_main_v101_apply, e2_coef x0 x1 x2 x3 x4 x5 x6, e2_out x0 x1 x2 x3 x4 x5 x6]
  rfl

end Cert.ReferenceIdeal.RefValue

end
-- ==== Proof.RefExpert3.lean ====
/-
  Expert 3 of the reference program, read index by index: its dequantised weights (stored value times the scale of
  its 128 × 128 block — the two repeats of the scale array are a broadcast and a reshape each, which is where r / 128 and
  k / 128 come from), the gate and up projections as sums over the 2048 hidden columns, the activation, the contraction
  over the 2816 intermediate columns, the router coefficient, and their product.
-/
import proofs.«131321_j61254823576011_2_alg».proof.Proof.RefRead3
import proofs.«131321_j61254823576011_2_alg».proof.Proof.MoeArgs
import proofs.«131321_j61254823576011_2_alg».proof.Proof.RefLayout

noncomputable section

namespace Cert.ReferenceIdeal.RefValue

open Cert.ReferenceIdeal Cert.ReferenceIdeal.RefRead Idealize.ShloMosaic Idealize.ShloMosaic.ValueIdx Cert.Moe

variable (x0 : (⟨S512x2048, .f32⟩ : BufTy).Contents (Elt Ideal)) (x1 : (⟨S512x2, .i32⟩ : BufTy).Contents (Elt Ideal))
  (x2 : (⟨S512x2, .f32⟩ : BufTy).Contents (Elt Ideal)) (x3 : (⟨S8x5632x2048, .f32⟩ : BufTy).Contents (Elt Ideal))
  (x4 : (⟨S8x44x16, .f32⟩ : BufTy).Contents (Elt Ideal)) (x5 : (⟨S8x2048x2816, .f32⟩ : BufTy).Contents (Elt Ideal))
  (x6 : (⟨S8x16x22, .f32⟩ : BufTy).Contents (Elt Ideal))

/-- The dequantised gate/up weights of expert 3: row r, column k is the stored value times the scale of block (r / 128, k / 128). -/
theorem e3_w13 (r : Fin 5632) (k : Fin 2048) :
    val_main_v111 (F := Ideal) x3 x4 (ix2 r k) = wd13 (Cert.Moe.Args.ofArrays x0 x1 x2 x3 x4 x5 x6) (⟨3, by decide⟩ : Fin 8) r k := by
  have hr := r.isLt
  have hk := k.isLt
  have e1 : idx_main_v103 (idx_main_v104 (ix2 r k)) = ix3 (⟨3, by decide⟩ : Fin 8) r k :=
    funext fun a => Fin.ext (by
      match a with
      | ⟨0, _⟩ => rfl
      | ⟨1, _⟩ => show (r.val * 2048 + k.val) / 2048 % 5632 = r.val; omega
      | ⟨2, _⟩ => show (r.val * 2048 + k.val) % 2048 = k.val; omega)
  have e2 : idx_main_v105 (idx_main_v106 (idx_main_v107 (idx_main_v108 (idx_main_v109 (idx_main_v110 (ix2 r k))))))
      = ix3 (⟨3, by decide⟩ : Fin 8) (⟨r.val / 128, by omega⟩ : Fin 44) (⟨k.val / 128, by omega⟩ : Fin 16) :=
    funext fun a => Fin.ext (by
      match a with
      | ⟨0, _⟩ => rfl
      | ⟨1, _⟩ => show (((r.val * 2048 + k.val) / 2048 * 16 + (r.val * 2048 + k.val) / 128 % 16) / 2048 * 16 + ((r.val * 2048 + k.val) / 2048 * 16 + (r.val * 2048 + k.val) / 128 % 16) % 16) / 16 % 44 = r.val / 128; omega
      | ⟨2, _⟩ => show (((r.val * 2048 + k.val) / 2048 * 16 + (r.val * 2048 + k.val) / 128 % 16) / 2048 * 16 + ((r.val * 2048 + k.val) / 2048 * 16 + (r.val * 2048 + k.val) / 128 % 16) % 16) % 16 = k.val / 128; omega)
  rw [val_main_v111_apply, val_main_v104_apply, val_main_v103_apply, val_main_v110_apply, val_main_v109_apply, val_main_v108_apply,
    val_main_v107_apply, val_main_v106_apply, val_main_v105_apply, e1, e2]
  rfl

/-- The dequantised down weights of expert 3. -/
theorem e3_w2 (h : Fin 2048) (j : Fin 2816) :
    val_main_v120 (F := Ideal) x5 x6 (ix2 h j) = wd2 (Cert.Moe.Args.ofArrays x0 x1 x2 x3 x4 x5 x6) (⟨3, by decide⟩ : Fin 8) h j := by
  have hh := h.isLt
  have hj := j.isLt
  have e1 : idx_main_v112 (idx_main_v113 (ix2 h j)) = ix3 (⟨3, by decide⟩ : Fin 8) h j :=
    funext fun a => Fin.ext (by
      match a with
      | ⟨0, _⟩ => rfl
      | ⟨1, _⟩ => show (h.val * 2816 + j.val) / 2816 % 2048 = h.val; omega
      | ⟨2, _⟩ => show (h.val * 2816 + j.val) % 2816 = j.val; omega)
  have e2 : idx_main_v114 (idx_main_v115 (idx_main_v116 (idx_main_v117 (idx_main_v118 (idx_main_v119 (ix2 h j))))))
      = ix3 (⟨3, by decide⟩ : Fin 8) (⟨h.val / 128, by omega⟩ : Fin 16) (⟨j.val / 128, by omega⟩ : Fin 22) :=
    funext fun a => Fin.ext (by
      match a with
      | ⟨0, _⟩ => rfl
      | ⟨1, _⟩ => show (((h.val * 2816 + j.val) / 2816 * 22 + (h.val * 2816 + j.val) / 128 % 22) / 2816 * 22 + ((h.val * 2816 + j.val) / 2816 * 22 + (h.val * 2816 + j.val) / 128 % 22) % 22) / 22 % 16 = h.val / 128; omega
      | ⟨2, _⟩ => show (((h.val * 2816 + j.val) / 2816 * 22 + (h.val * 2816 + j.val) / 128 % 22) / 2816 * 22 + ((h.val * 2816 + j.val) / 2816 * 22 + (h.val * 2816 + j.val) / 128 % 22) % 22) % 22 = j.val / 128; omega)
  rw [val_main_v120_apply, val_main_v113_apply, val_main_v112_apply, val_main_v119_apply, val_main_v118_apply, val_main_v117_apply,
    val_main_v116_apply, val_main_v115_apply, val_main_v114_apply, e1, e2]
  rfl

/-- Token t against row c of the stacked, dequantised gate/up weights: a sum over the hidden columns. -/
theorem e3_proj (t : Fin 512) (c : Fin 5632) :
    val_main_v122 (F := Ideal) x0 x3 x4 (ix2 t c)
      = ∑ k : Fin 2048, x0 (ix2 t k) * wd13 (Cert.Moe.Args.ofArrays x0 x1 x2 x3 x4 x5 x6) (⟨3, by decide⟩ : Fin 8) c k := by
  rw [val_main_v122_apply]
  refine Finset.sum_congr rfl fun k _ => ?_
  have el : lidx_main_v122 (ix2 t c) k = ix2 t k := funext fun a => Fin.ext (by match a with | ⟨0, _⟩ => rfl | ⟨1, _⟩ => rfl)
  have er : idx_main_v121 (ridx_main_v122 (ix2 t c) k) = ix2 c k := funext fun a => Fin.ext (by match a with | ⟨0, _⟩ => rfl | ⟨1, _⟩ => rfl)
  rw [val_main_v121_apply, el, er, e3_w13 x0 x1 x2 x3 x4 x5 x6]

/-- The first 2816 columns of that product are the gate pre-activation. -/
theorem e3_gate (t : Fin 512) (j : Fin 2816) :
    val_main_v123 (F := Ideal) x0 x3 x4 (ix2 t j) = gate (Cert.Moe.Args.ofArrays x0 x1 x2 x3 x4 x5 x6) (⟨3, by decide⟩ : Fin 8) t j := by
  have e : idx_main_v123 (ix2 t j) = ix2 t (⟨j.val, by omega⟩ : Fin 5632) := funext fun a => Fin.ext (by match a with | ⟨0, _⟩ => rfl | ⟨1, _⟩ => rfl)
  rw [val_main_v123_apply, e, e3_proj x0 x1 x2 x3 x4 x5 x6]
  rfl

/-- The last 2816 columns are the up projection. -/
theorem e3_up (t : Fin 512) (j : Fin 2816) :
    val_main_v124 (F := Ideal) x0 x3 x4 (ix2 t j) = up (Cert.Moe.Args.ofArrays x0 x1 x2 x3 x4 x5 x6) (⟨3, by decide⟩ : Fin 8) t j := by
  have e : idx_main_v124 (ix2 t j) = ix2 t (⟨2816 + j.val, by omega⟩ : Fin 5632) := funext fun a => Fin.ext (by match a with | ⟨0, _⟩ => rfl | ⟨1, _⟩ => rfl)
  rw [val_main_v124_apply, e, e3_proj x0 x1 x2 x3 x4 x5 x6]
  rfl

/-- The activation: gate · σ(gate) · up. -/
theorem e3_act (t : Fin 512) (j : Fin 2816) :
    val_main_v126 (F := Ideal) x0 x3 x4 (ix2 t j) = act (Cert.Moe.Args.ofArrays x0 x1 x2 x3 x4 x5 x6) (⟨3, by decide⟩ : Fin 8) t j := by
  rw [val_main_v126_apply, val_main_v125_apply, val_main_call6_v5_apply, val_main_call6_v4_apply, val_main_call6_cst_0_apply,
    val_main_call6_v3_apply, val_main_call6_v2_apply, val_main_call6_cst_apply, val_main_call6_v1_apply, val_main_call6_v0_apply,
    e3_gate x0 x1 x2 x3 x4 x5 x6, e3_up x0 x1 x2 x3 x4 x5 x6]
  exact RefLayout.swiglu_spelling _ _

/-- Expert 3's output: the activation against the dequantised down weights, summed over the intermediate columns. -/
theorem e3_out (t : Fin 512) (h : Fin 2048) :
    val_main_v128 (F := Ideal) x0 x3 x4 x5 x6 (ix2 t h) = outE (Cert.Moe.Args.ofArrays x0 x1 x2 x3 x4 x5 x6) (⟨3, by decide⟩ : Fin 8) t h := by
  rw [val_main_v128_apply]
  unfold outE
  refine Finset.sum_congr rfl fun j _ => ?_
  have el : lidx_main_v128 (ix2 t h) j = ix2 t j := funext fun a => Fin.ext (by match a with | ⟨0, _⟩ => rfl | ⟨1, _⟩ => rfl)
  have er : idx_main_v127 (ridx_main_v128 (ix2 t h) j) = ix2 h j := funext fun a => Fin.ext (by match a with | ⟨0, _⟩ => rfl | ⟨1, _⟩ => rfl)
  rw [val_main_v127_apply, el, er, e3_act x0 x1 x2 x3 x4 x5 x6, e3_w2 x0 x1 x2 x3 x4 x5 x6]

/-- The router coefficient of expert 3, broadcast along the hidden columns: the routed weights whose expert number is 3, added up from zero. -/
theorem e3_coef (t : Fin 512) (h : Fin 2048) :
    val_main_v134 (F := Ideal) x1 x2 (ix2 t h) = coef (Cert.Moe.Args.ofArrays x0 x1 x2 x3 x4 x5 x6) (⟨3, by decide⟩ : Fin 8) t := by
  rw [val_main_v134_apply, val_main_v133_apply, val_main_v132_apply, val_main_cst_10_apply]
  show Ideal.ofBits .f32 0x00000000#32 + _ = _
  rw [Ideal.ofBits_zero_f32, zero_add]
  unfold coef
  refine Finset.sum_congr rfl fun s _ => ?_
  have e : idx_main_v132 (idx_main_v133 (idx_main_v134 (ix2 t h))) s = ix2 t s := funext fun a => Fin.ext (by match a with | ⟨0, _⟩ => rfl | ⟨1, _⟩ => rfl)
  rw [e, val_main_v131_apply, val_main_v130_apply, val_main_v129_apply, val_main_c_8_apply, val_main_call7_v1_apply, val_main_call7_v0_apply,
    val_main_cst_9_apply, RefLayout.select_cmpi_eq]
  show (if _ then _ else Ideal.ofBits .f32 0x00000000#32) = _
  rw [Ideal.ofBits_zero_f32]
  rfl

/-- Expert 3's contribution to the result: coefficient times output. -/
theorem e3_contrib (t : Fin 512) (h : Fin 2048) :
    val_main_v135 (F := Ideal) x0 x1 x2 x3 x4 x5 x6 (ix2 t h)
      = coef (Cert.Moe.Args.ofArrays x0 x1 x2 x3 x4 x5 x6) (⟨3, by decide⟩ : Fin 8) t * outE (Cert.Moe.Args.ofArrays x0 x1 x2 x3 x4 x5 x6) (⟨3, by decide⟩ : Fin 8) t h := by
  rw [val_main_v135_apply, e3_coef x0 x1 x2 x3 x4 x5 x6, e3_out x0 x1 x2 x3 x4 x5 x6]
  rfl

end Cert.ReferenceIdeal.RefValue

end
-- ==== Proof.RefExpert4.lean ====
/-
  Expert 4 of the reference program, read index by index: its dequantised weights (stored value times the scale of
  its 128 × 128 block — the two repeats of the scale array are a broadcast and a reshape each, which is where r / 128 and
  k / 128 come from), the gate and up projections as sums over the 2048 hidden columns, the activation, the contraction
  over the 2816 intermediate columns, the router coefficient, and their product.
-/
import proofs.«131321_j61254823576011_2_alg».proof.Proof.RefRead4
import proofs.«131321_j61254823576011_2_alg».proof.Proof.MoeArgs
import proofs.«131321_j61254823576011_2_alg».proof.Proof.RefLayout

noncomputable section

namespace Cert.ReferenceIdeal.RefValue

open Cert.ReferenceIdeal Cert.ReferenceIdeal.RefRead Idealize.ShloMosaic Idealize.ShloMosaic.ValueIdx Cert.Moe

variable (x0 : (⟨S512x2048, .f32⟩ : BufTy).Contents (Elt Ideal)) (x1 : (⟨S512x2, .i32⟩ : BufTy).Contents (Elt Ideal))
  (x2 : (⟨S512x2, .f32⟩ : BufTy).Contents (Elt Ideal)) (x3 : (⟨S8x5632x2048, .f32⟩ : BufTy).Contents (Elt Ideal))
  (x4 : (⟨S8x44x16, .f32⟩ : BufTy).Contents (Elt Ideal)) (x5 : (⟨S8x2048x2816, .f32⟩ : BufTy).Contents (Elt Ideal))
  (x6 : (⟨S8x16x22, .f32⟩ : BufTy).Contents (Elt Ideal))

/-- The dequantised gate/up weights of expert 4: row r, column k is the stored value times the scale of block (r / 128, k / 128). -/
theorem e4_w13 (r : Fin 5632) (k : Fin 2048) :
    val_main_v145 (F := Ideal) x3 x4 (ix2 r k) = wd13 (Cert.Moe.Args.ofArrays x0 x1 x2 x3 x4 x5 x6) (⟨4, by decide⟩ : Fin 8) r k := by
  have hr := r.isLt
  have hk := k.isLt
  have e1 : idx_main_v137 (idx_main_v138 (ix2 r k)) = ix3 (⟨4, by decide⟩ : Fin 8) r k :=
    funext fun a => Fin.ext (by
      match a with
      | ⟨0, _⟩ => rfl
      | ⟨1, _⟩ => show (r.val * 2048 + k.val) / 2048 % 5632 = r.val; omega
      | ⟨2, _⟩ => show (r.val * 2048 + k.val) % 2048 = k.val; omega)
  have e2 : idx_main_v139 (idx_main_v140 (idx_main_v141 (idx_main_v142 (idx_main_v143 (idx_main_v144 (ix2 r k))))))
      = ix3 (⟨4, by decide⟩ : Fin 8) (⟨r.val / 128, by omega⟩ : Fin 44) (⟨k.val / 128, by omega⟩ : Fin 16) :=
    funext fun a => Fin.ext (by
      match a with
      | ⟨0, _⟩ => rfl
      | ⟨1, _⟩ => show (((r.val * 2048 + k.val) / 2048 * 16 + (r.val * 2048 + k.val) / 128 % 16) / 2048 * 16 + ((r.val * 2048 + k.val) / 2048 * 16 + (r.val * 2048 + k.val) / 128 % 16) % 16) / 16 % 44 = r.val / 128; omega
      | ⟨2, _⟩ => show (((r.val * 2048 + k.val) / 2048 * 16 + (r.val * 2048 + k.val) / 128 % 16) / 2048 * 16 + ((r.val * 2048 + k.val) / 2048 * 16 + (r.val * 2048 + k.val) / 128 % 16) % 16) % 16 = k.val / 128; omega)
  rw [val_main_v145_apply, val_main_v138_apply, val_main_v137_apply, val_main_v144_apply, val_main_v143_apply, val_main_v142_apply,
    val_main_v141_apply, val_main_v140_apply, val_main_v139_apply, e1, e2]
  rfl

/-- The dequantised down weights of expert 4. -/
theorem e4_w2 (h : Fin 2048) (j : Fin 2816) :
    val_main_v154 (F := Ideal) x5 x6 (ix2 h j) = wd2 (Cert.Moe.Args.ofArrays x0 x1 x2 x3 x4 x5 x6) (⟨4, by decide⟩ : Fin 8) h j := by
  have hh := h.isLt
  have hj := j.isLt
  have e1 : idx_main_v146 (idx_main_v147 (ix2 h j)) = ix3 (⟨4, by decide⟩ : Fin 8) h j :=
    funext fun a => Fin.ext (by
      match a with
      | ⟨0, _⟩ => rfl
      | ⟨1, _⟩ => show (h.val * 2816 + j.val) / 2816 % 2048 = h.val; omega
      | ⟨2, _⟩ => show (h.val * 2816 + j.val) % 2816 = j.val; omega)
  have e2 : idx_main_v148 (idx_main_v149 (idx_main_v150 (idx_main_v151 (idx_main_v152 (idx_main_v153 (ix2 h j))))))
      = ix3 (⟨4, by decide⟩ : Fin 8) (⟨h.val / 128, by omega⟩ : Fin 16) (⟨j.val / 128, by omega⟩ : Fin 22) :=
    funext fun a => Fin.ext (by
      match a with
      | ⟨0, _⟩ => rfl
      | ⟨1, _⟩ => show (((h.val * 2816 + j.val) / 2816 * 22 + (h.val * 2816 + j.val) / 128 % 22) / 2816 * 22 + ((h.val * 2816 + j.val) / 2816 * 22 + (h.val * 2816 + j.val) / 128 % 22) % 22) / 22 % 16 = h.val / 128; omega
      | ⟨2, _⟩ => show (((h.val * 2816 + j.val) / 2816 * 22 + (h.val * 2816 + j.val) / 128 % 22) / 2816 * 22 + ((h.val * 2816 + j.val) / 2816 * 22 + (h.val * 2816 + j.val) / 128 % 22) % 22) % 22 = j.val / 128; omega)
  rw [val_main_v154_apply, val_main_v147_apply, val_main_v146_apply, val_main_v153_apply, val_main_v152_apply, val_main_v151_apply,
    val_main_v150_apply, val_main_v149_apply, val_main_v148_apply, e1, e2]
  rfl

/-- Token t against row c of the stacked, dequantised gate/up weights: a sum over the hidden columns. -/
theorem e4_proj (t : Fin 512) (c : Fin 5632) :
    val_main_v156 (F := Ideal) x0 x3 x4 (ix2 t c)
      = ∑ k : Fin 2048, x0 (ix2 t k) * wd13 (Cert.Moe.Args.ofArrays x0 x1 x2 x3 x4 x5 x6) (⟨4, by decide⟩ : Fin 8) c k := by
  rw [val_main_v156_apply]
  refine Finset.sum_congr rfl fun k _ => ?_
  have el : lidx_main_v156 (ix2 t c) k = ix2 t k := funext fun a => Fin.ext (by match a with | ⟨0, _⟩ => rfl | ⟨1, _⟩ => rfl)
  have er : idx_main_v155 (ridx_main_v156 (ix2 t c) k) = ix2 c k := funext fun a => Fin.ext (by match a with | ⟨0, _⟩ => rfl | ⟨1, _⟩ => rfl)
  rw [val_main_v155_apply, el, er, e4_w13 x0 x1 x2 x3 x4 x5 x6]

/-- The first 2816 columns of that product are the gate pre-activation. -/
theorem e4_gate (t : Fin 512) (j : Fin 2816) :
    val_main_v157 (F := Ideal) x0 x3 x4 (ix2 t j) = gate (Cert.Moe.Args.ofArrays x0 x1 x2 x3 x4 x5 x6) (⟨4, by decide⟩ : Fin 8) t j := by
  have e : idx_main_v157 (ix2 t j) = ix2 t (⟨j.val, by omega⟩ : Fin 5632) := funext fun a => Fin.ext (by match a with | ⟨0, _⟩ => rfl | ⟨1, _⟩ => rfl)
  rw [val_main_v157_apply, e, e4_proj x0 x1 x2 x3 x4 x5 x6]
  rfl

/-- The last 2816 columns are the up projection. -/
theorem e4_up (t : Fin 512) (j : Fin 2816) :
    val_main_v158 (F := Ideal) x0 x3 x4 (ix2 t j) = up (Cert.Moe.Args.ofArrays x0 x1 x2 x3 x4 x5 x6) (⟨4, by decide⟩ : Fin 8) t j := by
  have e : idx_main_v158 (ix2 t j) = ix2 t (⟨2816 + j.val, by omega⟩ : Fin 5632) := funext fun a => Fin.ext (by match a with | ⟨0, _⟩ => rfl | ⟨1, _⟩ => rfl)
  rw [val_main_v158_apply, e, e4_proj x0 x1 x2 x3 x4 x5 x6]
  rfl

/-- The activation: gate · σ(gate) · up. -/
theorem e4_act (t : Fin 512) (j : Fin 2816) :
    val_main_v160 (F := Ideal) x0 x3 x4 (ix2 t j) = act (Cert.Moe.Args.ofArrays x0 x1 x2 x3 x4 x5 x6) (⟨4, by decide⟩ : Fin 8) t j := by
  rw [val_main_v160_apply, val_main_v159_apply, val_main_call8_v5_apply, val_main_call8_v4_apply, val_main_call8_cst_0_apply,
    val_main_call8_v3_apply, val_main_call8_v2_apply, val_main_call8_cst_apply, val_main_call8_v1_apply, val_main_call8_v0_apply,
    e4_gate x0 x1 x2 x3 x4 x5 x6, e4_up x0 x1 x2 x3 x4 x5 x6]
  exact RefLayout.swiglu_spelling _ _

/-- Expert 4's output: the activation against the dequantised down weights, summed over the intermediate columns. -/
theorem e4_out (t : Fin 512) (h : Fin 2048) :
    val_main_v162 (F := Ideal) x0 x3 x4 x5 x6 (ix2 t h) = outE (Cert.Moe.Args.ofArrays x0 x1 x2 x3 x4 x5 x6) (⟨4, by decide⟩ : Fin 8) t h := by
  rw [val_main_v162_apply]
  unfold outE
  refine Finset.sum_congr rfl fun j _ => ?_
  have el : lidx_main_v162 (ix2 t h) j = ix2 t j := funext fun a => Fin.ext (by match a with | ⟨0, _⟩ => rfl | ⟨1, _⟩ => rfl)
  have er : idx_main_v161 (ridx_main_v162 (ix2 t h) j) = ix2 h j := funext fun a => Fin.ext (by match a with | ⟨0, _⟩ => rfl | ⟨1, _⟩ => rfl)
  rw [val_main_v161_apply, el, er, e4_act x0 x1 x2 x3 x4 x5 x6, e4_w2 x0 x1 x2 x3 x4 x5 x6]

/-- The router coefficient of expert 4, broadcast along the hidden columns: the routed weights whose expert number is 4, added up from zero. -/
theorem e4_coef (t : Fin 512) (h : Fin 2048) :
    val_main_v168 (F := Ideal) x1 x2 (ix2 t h) = coef (Cert.Moe.Args.ofArrays x0 x1 x2 x3 x4 x5 x6) (⟨4, by decide⟩ : Fin 8) t := by
  rw [val_main_v168_apply, val_main_v167_apply, val_main_v166_apply, val_main_cst_13_apply]
  show Ideal.ofBits .f32 0x00000000#32 + _ = _
  rw [Ideal.ofBits_zero_f32, zero_add]
  unfold coef
  refine Finset.sum_congr rfl fun s _ => ?_
  have e : idx_main_v166 (idx_main_v167 (idx_main_v168 (ix2 t h))) s = ix2 t s := funext fun a => Fin.ext (by match a with | ⟨0, _⟩ => rfl | ⟨1, _⟩ => rfl)
  rw [e, val_main_v165_apply, val_main_v164_apply, val_main_v163_apply, val_main_c_11_apply, val_main_call9_v1_apply, val_main_call9_v0_apply,
    val_main_cst_12_apply, RefLayout.select_cmpi_eq]
  show (if _ then _ else Ideal.ofBits .f32 0x00000000#32) = _
  rw [Ideal.ofBits_zero_f32]
  rfl

/-- Expert 4's contribution to the result: coefficient times output. -/
theorem e4_contrib (t : Fin 512) (h : Fin 2048) :
    val_main_v169 (F := Ideal) x0 x1 x2 x3 x4 x5 x6 (ix2 t h)
      = coef (Cert.Moe.Args.ofArrays x0 x1 x2 x3 x4 x5 x6) (⟨4, by decide⟩ : Fin 8) t * outE (Cert.Moe.Args.ofArrays x0 x1 x2 x3 x4 x5 x6) (⟨4, by decide⟩ : Fin 8) t h := by
  rw [val_main_v169_apply, e4_coef x0 x1 x2 x3 x4 x5 x6, e4_out x0 x1 x2 x3 x4 x5 x6]
  rfl

end Cert.ReferenceIdeal.RefValue

end
-- ==== Proof.RefExpert5.lean ====
/-
  Expert 5 of the reference program, read index by index: its dequantised weights (stored value times the scale of
  its 128 × 128 block — the two repeats of the scale array are a broadcast and a reshape each, which is where r / 128 and
  k / 128 come from), the gate and up projections as sums over the 2048 hidden columns, the activation, the contraction
  over the 2816 intermediate columns, the router coefficient, and their product.
-/
import proofs.«131321_j61254823576011_2_alg».proof.Proof.RefRead5
import proofs.«131321_j61254823576011_2_alg».proof.Proof.MoeArgs
import proofs.«131321_j61254823576011_2_alg».proof.Proof.RefLayout

noncomputable section

namespace Cert.ReferenceIdeal.RefValue

open Cert.ReferenceIdeal Cert.ReferenceIdeal.RefRead Idealize.ShloMosaic Idealize.ShloMosaic.ValueIdx Cert.Moe

variable (x0 : (⟨S512x2048, .f32⟩ : BufTy).Contents (Elt Ideal)) (x1 : (⟨S512x2, .i32⟩ : BufTy).Contents (Elt Ideal))
  (x2 : (⟨S512x2, .f32⟩ : BufTy).Contents (Elt Ideal)) (x3 : (⟨S8x5632x2048, .f32⟩ : BufTy).Contents (Elt Ideal))
  (x4 : (⟨S8x44x16, .f32⟩ : BufTy).Contents (Elt Ideal)) (x5 : (⟨S8x2048x2816, .f32⟩ : BufTy).Contents (Elt Ideal))
  (x6 : (⟨S8x16x22, .f32⟩ : BufTy).Contents (Elt Ideal))

/-- The dequantised gate/up weights of expert 5: row r, column k is the stored value times the scale of block (r / 128, k / 128). -/
theorem e5_w13 (r : Fin 5632) (k : Fin 2048) :
    val_main_v179 (F := Ideal) x3 x4 (ix2 r k) = wd13 (Cert.Moe.Args.ofArrays x0 x1 x2 x3 x4 x5 x6) (⟨5, by decide⟩ : Fin 8) r k := by
  have hr := r.isLt
  have hk := k.isLt
  have e1 : idx_main_v171 (idx_main_v172 (ix2 r k)) = ix3 (⟨5, by decide⟩ : Fin 8) r k :=
    funext fun a => Fin.ext (by
      match a with
      | ⟨0, _⟩ => rfl
      | ⟨1, _⟩ => show (r.val * 2048 + k.val) / 2048 % 5632 = r.val; omega
      | ⟨2, _⟩ => show (r.val * 2048 + k.val) % 2048 = k.val; omega)
  have e2 : idx_main_v173 (idx_main_v174 (idx_main_v175 (idx_main_v176 (idx_main_v177 (idx_main_v178 (ix2 r k))))))
      = ix3 (⟨5, by decide⟩ : Fin 8) (⟨r.val / 128, by omega⟩ : Fin 44) (⟨k.val / 128, by omega⟩ : Fin 16) :=
    funext fun a => Fin.ext (by
      match a with
      | ⟨0, _⟩ => rfl
      | ⟨1, _⟩ => show (((r.val * 2048 + k.val) / 2048 * 16 + (r.val * 2048 + k.val) / 128 % 16) / 2048 * 16 + ((r.val * 2048 + k.val) / 2048 * 16 + (r.val * 2048 + k.val) / 128 % 16) % 16) / 16 % 44 = r.val / 128; omega
      | ⟨2, _⟩ => show (((r.val * 2048 + k.val) / 2048 * 16 + (r.val * 2048 + k.val) / 128 % 16) / 2048 * 16 + ((r.val * 2048 + k.val) / 2048 * 16 + (r.val * 2048 + k.val) / 128 % 16) % 16) % 16 = k.val / 128; omega)
  rw [val_main_v179_apply, val_main_v172_apply, val_main_v171_apply, val_main_v178_apply, val_main_v177_apply, val_main_v176_apply,
    val_main_v175_apply, val_main_v174_apply, val_main_v173_apply, e1, e2]
  rfl

/-- The dequantised down weights of expert 5. -/
theorem e5_w2 (h : Fin 2048) (j : Fin 2816) :
    val_main_v188 (F := Ideal) x5 x6 (ix2 h j) = wd2 (Cert.Moe.Args.ofArrays x0 x1 x2 x3 x4 x5 x6) (⟨5, by decide⟩ : Fin 8) h j := by
  have hh := h.isLt
  have hj := j.isLt
  have e1 : idx_main_v180 (idx_main_v181 (ix2 h j)) = ix3 (⟨5, by decide⟩ : Fin 8) h j :=
    funext fun a => Fin.ext (by
      match a with
      | ⟨0, _⟩ => rfl
      | ⟨1, _⟩ => show (h.val * 2816 + j.val) / 2816 % 2048 = h.val; omega
      | ⟨2, _⟩ => show (h.val * 2816 + j.val) % 2816 = j.val; omega)
  have e2 : idx_main_v182 (idx_main_v183 (idx_main_v184 (idx_main_v185 (idx_main_v186 (idx_main_v187 (ix2 h j))))))
      = ix3 (⟨5, by decide⟩ : Fin 8) (⟨h.val / 128, by omega⟩ : Fin 16) (⟨j.val / 128, by omega⟩ : Fin 22) :=
    funext fun a => Fin.ext (by
      match a with
      | ⟨0, _⟩ => rfl
      | ⟨1, _⟩ => show (((h.val * 2816 + j.val) / 2816 * 22 + (h.val * 2816 + j.val) / 128 % 22) / 2816 * 22 + ((h.val * 2816 + j.val) / 2816 * 22 + (h.val * 2816 + j.val) / 128 % 22) % 22) / 22 % 16 = h.val / 128; omega
      | ⟨2, _⟩ => show (((h.val * 2816 + j.val) / 2816 * 22 + (h.val * 2816 + j.val) / 128 % 22) / 2816 * 22 + ((h.val * 2816 + j.val) / 2816 * 22 + (h.val * 2816 + j.val) / 128 % 22) % 22) % 22 = j.val / 128; omega)
  rw [val_main_v188_apply, val_main_v181_apply, val_main_v180_apply, val_main_v187_apply, val_main_v186_apply, val_main_v185_apply,
    val_main_v184_apply, val_main_v183_apply, val_main_v182_apply, e1, e2]
  rfl

/-- Token t against row c of the stacked, dequantised gate/up weights: a sum over the hidden columns. -/
theorem e5_proj (t : Fin 512) (c : Fin 5632) :
    val_main_v190 (F := Ideal) x0 x3 x4 (ix2 t c)
      = ∑ k : Fin 2048, x0 (ix2 t k) * wd13 (Cert.Moe.Args.ofArrays x0 x1 x2 x3 x4 x5 x6) (⟨5, by decide⟩ : Fin 8) c k := by
  rw [val_main_v190_apply]
  refine Finset.sum_congr rfl fun k _ => ?_
  have el : lidx_main_v190 (ix2 t c) k = ix2 t k := funext fun a => Fin.ext (by match a with | ⟨0, _⟩ => rfl | ⟨1, _⟩ => rfl)
  have er : idx_main_v189 (ridx_main_v190 (ix2 t c) k) = ix2 c k := funext fun a => Fin.ext (by match a with | ⟨0, _⟩ => rfl | ⟨1, _⟩ => rfl)
  rw [val_main_v189_apply, el, er, e5_w13 x0 x1 x2 x3 x4 x5 x6]

/-- The first 2816 columns of that product are the gate pre-activation. -/
theorem e5_gate (t : Fin 512) (j : Fin 2816) :
    val_main_v191 (F := Ideal) x0 x3 x4 (ix2 t j) = gate (Cert.Moe.Args.ofArrays x0 x1 x2 x3 x4 x5 x6) (⟨5, by decide⟩ : Fin 8) t j := by
  have e : idx_main_v191 (ix2 t j) = ix2 t (⟨j.val, by omega⟩ : Fin 5632) := funext fun a => Fin.ext (by match a with | ⟨0, _⟩ => rfl | ⟨1, _⟩ => rfl)
  rw [val_main_v191_apply, e, e5_proj x0 x1 x2 x3 x4 x5 x6]
  rfl

/-- The last 2816 columns are the up projection. -/
theorem e5_up (t : Fin 512) (j : Fin 2816) :
    val_main_v192 (F := Ideal) x0 x3 x4 (ix2 t j) = up (Cert.Moe.Args.ofArrays x0 x1 x2 x3 x4 x5 x6) (⟨5, by decide⟩ : Fin 8) t j := by
  have e : idx_main_v192 (ix2 t j) = ix2 t (⟨2816 + j.val, by omega⟩ : Fin 5632) := funext fun a => Fin.ext (by match a with | ⟨0, _⟩ => rfl | ⟨1, _⟩ => rfl)
  rw [val_main_v192_apply, e, e5_proj x0 x1 x2 x3 x4 x5 x6]
  rfl

/-- The activation: gate · σ(gate) · up. -/
theorem e5_act (t : Fin 512) (j : Fin 2816) :
    val_main_v194 (F := Ideal) x0 x3 x4 (ix2 t j) = act (Cert.Moe.Args.ofArrays x0 x1 x2 x3 x4 x5 x6) (⟨5, by decide⟩ : Fin 8) t j := by
  rw [val_main_v194_apply, val_main_v193_apply, val_main_call10_v5_apply, val_main_call10_v4_apply, val_main_call10_cst_0_apply,
    val_main_call10_v3_apply, val_main_call10_v2_apply, val_main_call10_cst_apply, val_main_call10_v1_apply, val_main_call10_v0_apply,
    e5_gate x0 x1 x2 x3 x4 x5 x6, e5_up x0 x1 x2 x3 x4 x5 x6]
  exact RefLayout.swiglu_spelling _ _

/-- Expert 5's output: the activation against the dequantised down weights, summed over the intermediate columns. -/
theorem e5_out (t : Fin 512) (h : Fin 2048) :
    val_main_v196 (F := Ideal) x0 x3 x4 x5 x6 (ix2 t h) = outE (Cert.Moe.Args.ofArrays x0 x1 x2 x3 x4 x5 x6) (⟨5, by decide⟩ : Fin 8) t h := by
  rw [val_main_v196_apply]
  unfold outE
  refine Finset.sum_congr rfl fun j _ => ?_
  have el : lidx_main_v196 (ix2 t h) j = ix2 t j := funext fun a => Fin.ext (by match a with | ⟨0, _⟩ => rfl | ⟨1, _⟩ => rfl)
  have er : idx_main_v195 (ridx_main_v196 (ix2 t h) j) = ix2 h j := funext fun a => Fin.ext (by match a with | ⟨0, _⟩ => rfl | ⟨1, _⟩ => rfl)
  rw [val_main_v195_apply, el, er, e5_act x0 x1 x2 x3 x4 x5 x6, e5_w2 x0 x1 x2 x3 x4 x5 x6]

/-- The router coefficient of expert 5, broadcast along the hidden columns: the routed weights whose expert number is 5, added up from zero. -/
theorem e5_coef (t : Fin 512) (h : Fin 2048) :
    val_main_v202 (F := Ideal) x1 x2 (ix2 t h) = coef (Cert.Moe.Args.ofArrays x0 x1 x2 x3 x4 x5 x6) (⟨5, by decide⟩ : Fin 8) t := by
  rw [val_main_v202_apply, val_main_v201_apply, val_main_v200_apply, val_main_cst_16_apply]
  show Ideal.ofBits .f32 0x00000000#32 + _ = _
  rw [Ideal.ofBits_zero_f32, zero_add]
  unfold coef
  refine Finset.sum_congr rfl fun s _ => ?_
  have e : idx_main_v200 (idx_main_v201 (idx_main_v202 (ix2 t h))) s = ix2 t s := funext fun a => Fin.ext (by match a with | ⟨0, _⟩ => rfl | ⟨1, _⟩ => rfl)
  rw [e, val_main_v199_apply, val_main_v198_apply, val_main_v197_apply, val_main_c_14_apply, val_main_call11_v1_apply, val_main_call11_v0_apply,
    val_main_cst_15_apply, RefLayout.select_cmpi_eq]
  show (if _ then _ else Ideal.ofBits .f32 0x00000000#32) = _
  rw [Ideal.ofBits_zero_f32]
  rfl

/-- Expert 5's contribution to the result: coefficient times output. -/
theorem e5_contrib (t : Fin 512) (h : Fin 2048) :
    val_main_v203 (F := Ideal) x0 x1 x2 x3 x4 x5 x6 (ix2 t h)
      = coef (Cert.Moe.Args.ofArrays x0 x1 x2 x3 x4 x5 x6) (⟨5, by decide⟩ : Fin 8) t * outE (Cert.Moe.Args.ofArrays x0 x1 x2 x3 x4 x5 x6) (⟨5, by decide⟩ : Fin 8) t h := by
  rw [val_main_v203_apply, e5_coef x0 x1 x2 x3 x4 x5 x6, e5_out x0 x1 x2 x3 x4 x5 x6]
  rfl

end Cert.ReferenceIdeal.RefValue

end
-- ==== Proof.RefExpert6.lean ====
/-
  Expert 6 of the reference program, read index by index: its dequantised weights (stored value times the scale of
  its 128 × 128 block — the two repeats of the scale array are a broadcast and a reshape each, which is where r / 128 and
  k / 128 come from), the gate and up projections as sums over the 2048 hidden columns, the activation, the contraction
  over the 2816 intermediate columns, the router coefficient, and their product.
-/
import proofs.«131321_j61254823576011_2_alg».proof.Proof.RefRead6
import proofs.«131321_j61254823576011_2_alg».proof.Proof.MoeArgs
import proofs.«131321_j61254823576011_2_alg».proof.Proof.RefLayout

noncomputable section

namespace Cert.ReferenceIdeal.RefValue

open Cert.ReferenceIdeal Cert.ReferenceIdeal.RefRead Idealize.ShloMosaic Idealize.ShloMosaic.ValueIdx Cert.Moe

variable (x0 : (⟨S512x2048, .f32⟩ : BufTy).Contents (Elt Ideal)) (x1 : (⟨S512x2, .i32⟩ : BufTy).Contents (Elt Ideal))
  (x2 : (⟨S512x2, .f32⟩ : BufTy).Contents (Elt Ideal)) (x3 : (⟨S8x5632x2048, .f32⟩ : BufTy).Contents (Elt Ideal))
  (x4 : (⟨S8x44x16, .f32⟩ : BufTy).Contents (Elt Ideal)) (x5 : (⟨S8x2048x2816, .f32⟩ : BufTy).Contents (Elt Ideal))
  (x6 : (⟨S8x16x22, .f32⟩ : BufTy).Contents (Elt Ideal))

/-- The dequantised gate/up weights of expert 6: row r, column k is the stored value times the scale of block (r / 128, k / 128). -/
theorem e6_w13 (r : Fin 5632) (k : Fin 2048) :
    val_main_v213 (F := Ideal) x3 x4 (ix2 r k) = wd13 (Cert.Moe.Args.ofArrays x0 x1 x2 x3 x4 x5 x6) (⟨6, by decide⟩ : Fin 8) r k := by
  have hr := r.isLt
  have hk := k.isLt
  have e1 : idx_main_v205 (idx_main_v206 (ix2 r k)) = ix3 (⟨6, by decide⟩ : Fin 8) r k :=
    funext fun a => Fin.ext (by
      match a with
      | ⟨0, _⟩ => rfl
      | ⟨1, _⟩ => show (r.val * 2048 + k.val) / 2048 % 5632 = r.val; omega
      | ⟨2, _⟩ => show (r.val * 2048 + k.val) % 2048 = k.val; omega)
  have e2 : idx_main_v207 (idx_main_v208 (idx_main_v209 (idx_main_v210 (idx_main_v211 (idx_main_v212 (ix2 r k))))))
      = ix3 (⟨6, by decide⟩ : Fin 8) (⟨r.val / 128, by omega⟩ : Fin 44) (⟨k.val / 128, by omega⟩ : Fin 16) :=
    funext fun a => Fin.ext (by
      match a with
      | ⟨0, _⟩ => rfl
      | ⟨1, _⟩ => show (((r.val * 2048 + k.val) / 2048 * 16 + (r.val * 2048 + k.val) / 128 % 16) / 2048 * 16 + ((r.val * 2048 + k.val) / 2048 * 16 + (r.val * 2048 + k.val) / 128 % 16) % 16) / 16 % 44 = r.val / 128; omega
      | ⟨2, _⟩ => show (((r.val * 2048 + k.val) / 2048 * 16 + (r.val * 2048 + k.val) / 128 % 16) / 2048 * 16 + ((r.val * 2048 + k.val) / 2048 * 16 + (r.val * 2048 + k.val) / 128 % 16) % 16) % 16 = k.val / 128; omega)
  rw [val_main_v213_apply, val_main_v206_apply, val_main_v205_apply, val_main_v212_apply, val_main_v211_apply, val_main_v210_apply,
    val_main_v209_apply, val_main_v208_apply, val_main_v207_apply, e1, e2]
  rfl

/-- The dequantised down weights of expert 6. -/
theorem e6_w2 (h : Fin 2048) (j : Fin 2816) :
    val_main_v222 (F := Ideal) x5 x6 (ix2 h j) = wd2 (Cert.Moe.Args.ofArrays x0 x1 x2 x3 x4 x5 x6) (⟨6, by decide⟩ : Fin 8) h j := by
  have hh := h.isLt
  have hj := j.isLt
  have e1 : idx_main_v214 (idx_main_v215 (ix2 h j)) = ix3 (⟨6, by decide⟩ : Fin 8) h j :=
    funext fun a => Fin.ext (by
      match a with
      | ⟨0, _⟩ => rfl
      | ⟨1, _⟩ => show (h.val * 2816 + j.val) / 2816 % 2048 = h.val; omega
      | ⟨2, _⟩ => show (h.val * 2816 + j.val) % 2816 = j.val; omega)
  have e2 : idx_main_v216 (idx_main_v217 (idx_main_v218 (idx_main_v219 (idx_main_v220 (idx_main_v221 (ix2 h j))))))
      = ix3 (⟨6, by decide⟩ : Fin 8) (⟨h.val / 128, by omega⟩ : Fin 16) (⟨j.val / 128, by omega⟩ : Fin 22) :=
    funext fun a => Fin.ext (by
      match a with
      | ⟨0, _⟩ => rfl
      | ⟨1, _⟩ => show (((h.val * 2816 + j.val) / 2816 * 22 + (h.val * 2816 + j.val) / 128 % 22) / 2816 * 22 + ((h.val * 2816 + j.val) / 2816 * 22 + (h.val * 2816 + j.val) / 128 % 22) % 22) / 22 % 16 = h.val / 128; omega
      | ⟨2, _⟩ => show (((h.val * 2816 + j.val) / 2816 * 22 + (h.val * 2816 + j.val) / 128 % 22) / 2816 * 22 + ((h.val * 2816 + j.val) / 2816 * 22 + (h.val * 2816 + j.val) / 128 % 22) % 22) % 22 = j.val / 128; omega)
  rw [val_main_v222_apply, val_main_v215_apply, val_main_v214_apply, val_main_v221_apply, val_main_v220_apply, val_main_v219_apply,
    val_main_v218_apply, val_main_v217_apply, val_main_v216_apply, e1, e2]
  rfl

/-- Token t against row c of the stacked, dequantised gate/up weights: a sum over the hidden columns. -/
theorem e6_proj (t : Fin 512) (c : Fin 5632) :
    val_main_v224 (F := Ideal) x0 x3 x4 (ix2 t c)
      = ∑ k : Fin 2048, x0 (ix2 t k) * wd13 (Cert.Moe.Args.ofArrays x0 x1 x2 x3 x4 x5 x6) (⟨6, by decide⟩ : Fin 8) c k := by
  rw [val_main_v224_apply]
  refine Finset.sum_congr rfl fun k _ => ?_
  have el : lidx_main_v224 (ix2 t c) k = ix2 t k := funext fun a => Fin.ext (by match a with | ⟨0, _⟩ => rfl | ⟨1, _⟩ => rfl)
  have er : idx_main_v223 (ridx_main_v224 (ix2 t c) k) = ix2 c k := funext fun a => Fin.ext (by match a with | ⟨0, _⟩ => rfl | ⟨1, _⟩ => rfl)
  rw [val_main_v223_apply, el, er, e6_w13 x0 x1 x2 x3 x4 x5 x6]

/-- The first 2816 columns of that product are the gate pre-activation. -/
theorem e6_gate (t : Fin 512) (j : Fin 2816) :
    val_main_v225 (F := Ideal) x0 x3 x4 (ix2 t j) = gate (Cert.Moe.Args.ofArrays x0 x1 x2 x3 x4 x5 x6) (⟨6, by decide⟩ : Fin 8) t j := by
  have e : idx_main_v225 (ix2 t j) = ix2 t (⟨j.val, by omega⟩ : Fin 5632) := funext fun a => Fin.ext (by match a with | ⟨0, _⟩ => rfl | ⟨1, _⟩ => rfl)
  rw [val_main_v225_apply, e, e6_proj x0 x1 x2 x3 x4 x5 x6]
  rfl

/-- The last 2816 columns are the up projection. -/
theorem e6_up (t : Fin 512) (j : Fin 2816) :
    val_main_v226 (F := Ideal) x0 x3 x4 (ix2 t j) = up (Cert.Moe.Args.ofArrays x0 x1 x2 x3 x4 x5 x6) (⟨6, by decide⟩ : Fin 8) t j := by
  have e : idx_main_v226 (ix2 t j) = ix2 t (⟨2816 + j.val, by omega⟩ : Fin 5632) := funext fun a => Fin.ext (by match a with | ⟨0, _⟩ => rfl | ⟨1, _⟩ => rfl)
  rw [val_main_v226_apply, e, e6_proj x0 x1 x2 x3 x4 x5 x6]
  rfl

/-- The activation: gate · σ(gate) · up. -/
theorem e6_act (t : Fin 512) (j : Fin 2816) :
    val_main_v228 (F := Ideal) x0 x3 x4 (ix2 t j) = act (Cert.Moe.Args.ofArrays x0 x1 x2 x3 x4 x5 x6) (⟨6, by decide⟩ : Fin 8) t j := by
  rw [val_main_v228_apply, val_main_v227_apply, val_main_call12_v5_apply, val_main_call12_v4_apply, val_main_call12_cst_0_apply,
    val_main_call12_v3_apply, val_main_call12_v2_apply, val_main_call12_cst_apply, val_main_call12_v1_apply, val_main_call12_v0_apply,
    e6_gate x0 x1 x2 x3 x4 x5 x6, e6_up x0 x1 x2 x3 x4 x5 x6]
  exact RefLayout.swiglu_spelling _ _

/-- Expert 6's output: the activation against the dequantised down weights, summed over the intermediate columns. -/
theorem e6_out (t : Fin 512) (h : Fin 2048) :
    val_main_v230 (F := Ideal) x0 x3 x4 x5 x6 (ix2 t h) = outE (Cert.Moe.Args.ofArrays x0 x1 x2 x3 x4 x5 x6) (⟨6, by decide⟩ : Fin 8) t h := by
  rw [val_main_v230_apply]
  unfold outE
  refine Finset.sum_congr rfl fun j _ => ?_
  have el : lidx_main_v230 (ix2 t h) j = ix2 t j := funext fun a => Fin.ext (by match a with | ⟨0, _⟩ => rfl | ⟨1, _⟩ => rfl)
  have er : idx_main_v229 (ridx_main_v230 (ix2 t h) j) = ix2 h j := funext fun a => Fin.ext (by match a with | ⟨0, _⟩ => rfl | ⟨1, _⟩ => rfl)
  rw [val_main_v229_apply, el, er, e6_act x0 x1 x2 x3 x4 x5 x6, e6_w2 x0 x1 x2 x3 x4 x5 x6]

/-- The router coefficient of expert 6, broadcast along the hidden columns: the routed weights whose expert number is 6, added up from zero. -/
theorem e6_coef (t : Fin 512) (h : Fin 2048) :
    val_main_v236 (F := Ideal) x1 x2 (ix2 t h) = coef (Cert.Moe.Args.ofArrays x0 x1 x2 x3 x4 x5 x6) (⟨6, by decide⟩ : Fin 8) t := by
  rw [val_main_v236_apply, val_main_v235_apply, val_main_v234_apply, val_main_cst_19_apply]
  show Ideal.ofBits .f32 0x00000000#32 + _ = _
  rw [Ideal.ofBits_zero_f32, zero_add]
  unfold coef
  refine Finset.sum_congr rfl fun s _ => ?_
  have e : idx_main_v234 (idx_main_v235 (idx_main_v236 (ix2 t h))) s = ix2 t s := funext fun a => Fin.ext (by match a with | ⟨0, _⟩ => rfl | ⟨1, _⟩ => rfl)
  rw [e, val_main_v233_apply, val_main_v232_apply, val_main_v231_apply, val_main_c_17_apply, val_main_call13_v1_apply, val_main_call13_v0_apply,
    val_main_cst_18_apply, RefLayout.select_cmpi_eq]
  show (if _ then _ else Ideal.ofBits .f32 0x00000000#32) = _
  rw [Ideal.ofBits_zero_f32]
  rfl

/-- Expert 6's contribution to the result: coefficient times output. -/
theorem e6_contrib (t : Fin 512) (h : Fin 2048) :
    val_main_v237 (F := Ideal) x0 x1 x2 x3 x4 x5 x6 (ix2 t h)
      = coef (Cert.Moe.Args.ofArrays x0 x1 x2 x3 x4 x5 x6) (⟨6, by decide⟩ : Fin 8) t * outE (Cert.Moe.Args.ofArrays x0 x1 x2 x3 x4 x5 x6) (⟨6, by decide⟩ : Fin 8) t h := by
  rw [val_main_v237_apply, e6_coef x0 x1 x2 x3 x4 x5 x6, e6_out x0 x1 x2 x3 x4 x5 x6]
  rfl

end Cert.ReferenceIdeal.RefValue

end
-- ==== Proof.RefExpert7.lean ====
/-
  Expert 7 of the reference program, read index by index: its dequantised weights (stored value times the scale of
  its 128 × 128 block — the two repeats of the scale array are a broadcast and a reshape each, which is where r / 128 and
  k / 128 come from), the gate and up projections as sums over the 2048 hidden columns, the activation, the contraction
  over the 2816 intermediate columns, the router coefficient, and their product.
-/
import proofs.«131321_j61254823576011_2_alg».proof.Proof.RefRead7
import proofs.«131321_j61254823576011_2_alg».proof.Proof.MoeArgs
import proofs.«131321_j61254823576011_2_alg».proof.Proof.RefLayout

noncomputable section

namespace Cert.ReferenceIdeal.RefValue

open Cert.ReferenceIdeal Cert.ReferenceIdeal.RefRead Idealize.ShloMosaic Idealize.ShloMosaic.ValueIdx Cert.Moe

variable (x0 : (⟨S512x2048, .f32⟩ : BufTy).Contents (Elt Ideal)) (x1 : (⟨S512x2, .i32⟩ : BufTy).Contents (Elt Ideal))
  (x2 : (⟨S512x2, .f32⟩ : BufTy).Contents (Elt Ideal)) (x3 : (⟨S8x5632x2048, .f32⟩ : BufTy).Contents (Elt Ideal))
  (x4 : (⟨S8x44x16, .f32⟩ : BufTy).Contents (Elt Ideal)) (x5 : (⟨S8x2048x2816, .f32⟩ : BufTy).Contents (Elt Ideal))
  (x6 : (⟨S8x16x22, .f32⟩ : BufTy).Contents (Elt Ideal))

/-- The dequantised gate/up weights of expert 7: row r, column k is the stored value times the scale of block (r / 128, k / 128). -/
theorem e7_w13 (r : Fin 5632) (k : Fin 2048) :
    val_main_v247 (F := Ideal) x3 x4 (ix2 r k) = wd13 (Cert.Moe.Args.ofArrays x0 x1 x2 x3 x4 x5 x6) (⟨7, by decide⟩ : Fin 8) r k := by
  have hr := r.isLt
  have hk := k.isLt
  have e1 : idx_main_v239 (idx_main_v240 (ix2 r k)) = ix3 (⟨7, by decide⟩ : Fin 8) r k :=
    funext fun a => Fin.ext (by
      match a with
      | ⟨0, _⟩ => rfl
      | ⟨1, _⟩ => show (r.val * 2048 + k.val) / 2048 % 5632 = r.val; omega
      | ⟨2, _⟩ => show (r.val * 2048 + k.val) % 2048 = k.val; omega)
  have e2 : idx_main_v241 (idx_main_v242 (idx_main_v243 (idx_main_v244 (idx_main_v245 (idx_main_v246 (ix2 r k))))))
      = ix3 (⟨7, by decide⟩ : Fin 8) (⟨r.val / 128, by omega⟩ : Fin 44) (⟨k.val / 128, by omega⟩ : Fin 16) :=
    funext fun a => Fin.ext (by
      match a with
      | ⟨0, _⟩ => rfl
      | ⟨1, _⟩ => show (((r.val * 2048 + k.val) / 2048 * 16 + (r.val * 2048 + k.val) / 128 % 16) / 2048 * 16 + ((r.val * 2048 + k.val) / 2048 * 16 + (r.val * 2048 + k.val) / 128 % 16) % 16) / 16 % 44 = r.val / 128; omega
      | ⟨2, _⟩ => show (((r.val * 2048 + k.val) / 2048 * 16 + (r.val * 2048 + k.val) / 128 % 16) / 2048 * 16 + ((r.val * 2048 + k.val) / 2048 * 16 + (r.val * 2048 + k.val) / 128 % 16) % 16) % 16 = k.val / 128; omega)
  rw [val_main_v247_apply, val_main_v240_apply, val_main_v239_apply, val_main_v246_apply, val_main_v245_apply, val_main_v244_apply,
    val_main_v243_apply, val_main_v242_apply, val_main_v241_apply, e1, e2]
  rfl

/-- The dequantised down weights of expert 7. -/
theorem e7_w2 (h : Fin 2048) (j : Fin 2816) :
    val_main_v256 (F := Ideal) x5 x6 (ix2 h j) = wd2 (Cert.Moe.Args.ofArrays x0 x1 x2 x3 x4 x5 x6) (⟨7, by decide⟩ : Fin 8) h j := by
  have hh := h.isLt
  have hj := j.isLt
  have e1 : idx_main_v248 (idx_main_v249 (ix2 h j)) = ix3 (⟨7, by decide⟩ : Fin 8) h j :=
    funext fun a => Fin.ext (by
      match a with
      | ⟨0, _⟩ => rfl
      | ⟨1, _⟩ => show (h.val * 2816 + j.val) / 2816 % 2048 = h.val; omega
      | ⟨2, _⟩ => show (h.val * 2816 + j.val) % 2816 = j.val; omega)
  have e2 : idx_main_v250 (idx_main_v251 (idx_main_v252 (idx_main_v253 (idx_main_v254 (idx_main_v255 (ix2 h j))))))
      = ix3 (⟨7, by decide⟩ : Fin 8) (⟨h.val / 128, by omega⟩ : Fin 16) (⟨j.val / 128, by omega⟩ : Fin 22) :=
    funext fun a => Fin.ext (by
      match a with
      | ⟨0, _⟩ => rfl
      | ⟨1, _⟩ => show (((h.val * 2816 + j.val) / 2816 * 22 + (h.val * 2816 + j.val) / 128 % 22) / 2816 * 22 + ((h.val * 2816 + j.val) / 2816 * 22 + (h.val * 2816 + j.val) / 128 % 22) % 22) / 22 % 16 = h.val / 128; omega
      | ⟨2, _⟩ => show (((h.val * 2816 + j.val) / 2816 * 22 + (h.val * 2816 + j.val) / 128 % 22) / 2816 * 22 + ((h.val * 2816 + j.val) / 2816 * 22 + (h.val * 2816 + j.val) / 128 % 22) % 22) % 22 = j.val / 128; omega)
  rw [val_main_v256_apply, val_main_v249_apply, val_main_v248_apply, val_main_v255_apply, val_main_v254_apply, val_main_v253_apply,
    val_main_v252_apply, val_main_v251_apply, val_main_v250_apply, e1, e2]
  rfl

/-- Token t against row c of the stacked, dequantised gate/up weights: a sum over the hidden columns. -/
theorem e7_proj (t : Fin 512) (c : Fin 5632) :
    val_main_v258 (F := Ideal) x0 x3 x4 (ix2 t c)
      = ∑ k : Fin 2048, x0 (ix2 t k) * wd13 (Cert.Moe.Args.ofArrays x0 x1 x2 x3 x4 x5 x6) (⟨7, by decide⟩ : Fin 8) c k := by
  rw [val_main_v258_apply]
  refine Finset.sum_congr rfl fun k _ => ?_
  have el : lidx_main_v258 (ix2 t c) k = ix2 t k := funext fun a => Fin.ext (by match a with | ⟨0, _⟩ => rfl | ⟨1, _⟩ => rfl)
  have er : idx_main_v257 (ridx_main_v258 (ix2 t c) k) = ix2 c k := funext fun a => Fin.ext (by match a with | ⟨0, _⟩ => rfl | ⟨1, _⟩ => rfl)
  rw [val_main_v257_apply, el, er, e7_w13 x0 x1 x2 x3 x4 x5 x6]

/-- The first 2816 columns of that product are the gate pre-activation. -/
theorem e7_gate (t : Fin 512) (j : Fin 2816) :
    val_main_v259 (F := Ideal) x0 x3 x4 (ix2 t j) = gate (Cert.Moe.Args.ofArrays x0 x1 x2 x3 x4 x5 x6) (⟨7, by decide⟩ : Fin 8) t j := by
  have e : idx_main_v259 (ix2 t j) = ix2 t (⟨j.val, by omega⟩ : Fin 5632) := funext fun a => Fin.ext (by match a with | ⟨0, _⟩ => rfl | ⟨1, _⟩ => rfl)
  rw [val_main_v259_apply, e, e7_proj x0 x1 x2 x3 x4 x5 x6]
  rfl

/-- The last 2816 columns are the up projection. -/
theorem e7_up (t : Fin 512) (j : Fin 2816) :
    val_main_v260 (F := Ideal) x0 x3 x4 (ix2 t j) = up (Cert.Moe.Args.ofArrays x0 x1 x2 x3 x4 x5 x6) (⟨7, by decide⟩ : Fin 8) t j := by
  have e : idx_main_v260 (ix2 t j) = ix2 t (⟨2816 + j.val, by omega⟩ : Fin 5632) := funext fun a => Fin.ext (by match a with | ⟨0, _⟩ => rfl | ⟨1, _⟩ => rfl)
  rw [val_main_v260_apply, e, e7_proj x0 x1 x2 x3 x4 x5 x6]
  rfl

/-- The activation: gate · σ(gate) · up. -/
theorem e7_act (t : Fin 512) (j : Fin 2816) :
    val_main_v262 (F := Ideal) x0 x3 x4 (ix2 t j) = act (Cert.Moe.Args.ofArrays x0 x1 x2 x3 x4 x5 x6) (⟨7, by decide⟩ : Fin 8) t j := by
  rw [val_main_v262_apply, val_main_v261_apply, val_main_call14_v5_apply, val_main_call14_v4_apply, val_main_call14_cst_0_apply,
    val_main_call14_v3_apply, val_main_call14_v2_apply, val_main_call14_cst_apply, val_main_call14_v1_apply, val_main_call14_v0_apply,
    e7_gate x0 x1 x2 x3 x4 x5 x6, e7_up x0 x1 x2 x3 x4 x5 x6]
  exact RefLayout.swiglu_spelling _ _

/-- Expert 7's output: the activation against the dequantised down weights, summed over the intermediate columns. -/
theorem e7_out (t : Fin 512) (h : Fin 2048) :
    val_main_v264 (F := Ideal) x0 x3 x4 x5 x6 (ix2 t h) = outE (Cert.Moe.Args.ofArrays x0 x1 x2 x3 x4 x5 x6) (⟨7, by decide⟩ : Fin 8) t h := by
  rw [val_main_v264_apply]
  unfold outE
  refine Finset.sum_congr rfl fun j _ => ?_
  have el : lidx_main_v264 (ix2 t h) j = ix2 t j := funext fun a => Fin.ext (by match a with | ⟨0, _⟩ => rfl | ⟨1, _⟩ => rfl)
  have er : idx_main_v263 (ridx_main_v264 (ix2 t h) j) = ix2 h j := funext fun a => Fin.ext (by match a with | ⟨0, _⟩ => rfl | ⟨1, _⟩ => rfl)
  rw [val_main_v263_apply, el, er, e7_act x0 x1 x2 x3 x4 x5 x6, e7_w2 x0 x1 x2 x3 x4 x5 x6]

/-- The router coefficient of expert 7, broadcast along the hidden columns: the routed weights whose expert number is 7, added up from zero. -/
theorem e7_coef (t : Fin 512) (h : Fin 2048) :
    val_main_v270 (F := Ideal) x1 x2 (ix2 t h) = coef (Cert.Moe.Args.ofArrays x0 x1 x2 x3 x4 x5 x6) (⟨7, by decide⟩ : Fin 8) t := by
  rw [val_main_v270_apply, val_main_v269_apply, val_main_v268_apply, val_main_cst_22_apply]
  show Ideal.ofBits .f32 0x00000000#32 + _ = _
  rw [Ideal.ofBits_zero_f32, zero_add]
  unfold coef
  refine Finset.sum_congr rfl fun s _ => ?_
  have e : idx_main_v268 (idx_main_v269 (idx_main_v270 (ix2 t h))) s = ix2 t s := funext fun a => Fin.ext (by match a with | ⟨0, _⟩ => rfl | ⟨1, _⟩ => rfl)
  rw [e, val_main_v267_apply, val_main_v266_apply, val_main_v265_apply, val_main_c_20_apply, val_main_call15_v1_apply, val_main_call15_v0_apply,
    val_main_cst_21_apply, RefLayout.select_cmpi_eq]
  show (if _ then _ else Ideal.ofBits .f32 0x00000000#32) = _
  rw [Ideal.ofBits_zero_f32]
  rfl

/-- Expert 7's contribution to the result: coefficient times output. -/
theorem e7_contrib (t : Fin 512) (h : Fin 2048) :
    val_main_v271 (F := Ideal) x0 x1 x2 x3 x4 x5 x6 (ix2 t h)
      = coef (Cert.Moe.Args.ofArrays x0 x1 x2 x3 x4 x5 x6) (⟨7, by decide⟩ : Fin 8) t * outE (Cert.Moe.Args.ofArrays x0 x1 x2 x3 x4 x5 x6) (⟨7, by decide⟩ : Fin 8) t h := by
  rw [val_main_v271_apply, e7_coef x0 x1 x2 x3 x4 x5 x6, e7_out x0 x1 x2 x3 x4 x5 x6]
  rfl

end Cert.ReferenceIdeal.RefValue

end
-- ==== Proof.RefValue.lean ====
/-
  The reference program's result, read index by index: the eight experts' contributions (coefficient times output),
  added in order from zero, are the specification's `refOut`.
-/
import proofs.«131321_j61254823576011_2_alg».proof.Proof.MoeSpec
import proofs.«131321_j61254823576011_2_alg».proof.Proof.MoeArgs
import proofs.«131321_j61254823576011_2_alg».proof.Proof.RefTerm
import proofs.«131321_j61254823576011_2_alg».proof.Proof.RefExpert0
import proofs.«131321_j61254823576011_2_alg».proof.Proof.RefExpert1
import proofs.«131321_j61254823576011_2_alg».proof.Proof.RefExpert2
import proofs.«131321_j61254823576011_2_alg».proof.Proof.RefExpert3
import proofs.«131321_j61254823576011_2_alg».proof.Proof.RefExpert4
import proofs.«131321_j61254823576011_2_alg».proof.Proof.RefExpert5
import proofs.«131321_j61254823576011_2_alg».proof.Proof.RefExpert6
import proofs.«131321_j61254823576011_2_alg».proof.Proof.RefExpert7

noncomputable section

namespace Cert.ReferenceIdeal.RefValue

open Cert.ReferenceIdeal Cert.ReferenceIdeal.RefRead Idealize.ShloMosaic Idealize.ShloMosaic.TcCoe Idealize.SL.Sem
  Idealize.ShloMosaic.ValueIdx Cert.Moe

/-- The experts added in order from zero, written out. -/
theorem refOut_unfold (a : Args) (t : Fin 512) (h : Fin 2048) :
    refOut a t h = 0
      + coef a (⟨0, by decide⟩ : Fin 8) t * outE a (⟨0, by decide⟩ : Fin 8) t h
      + coef a (⟨1, by decide⟩ : Fin 8) t * outE a (⟨1, by decide⟩ : Fin 8) t h
      + coef a (⟨2, by decide⟩ : Fin 8) t * outE a (⟨2, by decide⟩ : Fin 8) t h
      + coef a (⟨3, by decide⟩ : Fin 8) t * outE a (⟨3, by decide⟩ : Fin 8) t h
      + coef a (⟨4, by decide⟩ : Fin 8) t * outE a (⟨4, by decide⟩ : Fin 8) t h
      + coef a (⟨5, by decide⟩ : Fin 8) t * outE a (⟨5, by decide⟩ : Fin 8) t h
      + coef a (⟨6, by decide⟩ : Fin 8) t * outE a (⟨6, by decide⟩ : Fin 8) t h
      + coef a (⟨7, by decide⟩ : Fin 8) t * outE a (⟨7, by decide⟩ : Fin 8) t h := rfl

/-- The reference's total at index i is the specification's sum at token i 0, hidden column i 1. -/
theorem total_eq_refOut (x0 : (⟨S512x2048, .f32⟩ : BufTy).Contents (Elt Ideal)) (x1 : (⟨S512x2, .i32⟩ : BufTy).Contents (Elt Ideal))
    (x2 : (⟨S512x2, .f32⟩ : BufTy).Contents (Elt Ideal)) (x3 : (⟨S8x5632x2048, .f32⟩ : BufTy).Contents (Elt Ideal))
    (x4 : (⟨S8x44x16, .f32⟩ : BufTy).Contents (Elt Ideal)) (x5 : (⟨S8x2048x2816, .f32⟩ : BufTy).Contents (Elt Ideal))
    (x6 : (⟨S8x16x22, .f32⟩ : BufTy).Contents (Elt Ideal)) (i : S512x2048.Idx) :
    RefRun.total (F := Ideal) x0 x1 x2 x3 x4 x5 x6 i = Cert.Moe.refOut (Cert.Moe.Args.ofArrays x0 x1 x2 x3 x4 x5 x6) (i 0) (i 1) := by
  obtain ⟨t, h, rfl⟩ : ∃ (t : Fin 512) (h : Fin 2048), i = ix2 t h := ⟨i 0, i 1, eq_ix2 i⟩
  show Ideal.ofBits .f32 0x00000000#32
      + val_main_v33 (F := Ideal) x0 x1 x2 x3 x4 x5 x6 (ix2 t h) + val_main_v67 (F := Ideal) x0 x1 x2 x3 x4 x5 x6 (ix2 t h)
      + val_main_v101 (F := Ideal) x0 x1 x2 x3 x4 x5 x6 (ix2 t h) + val_main_v135 (F := Ideal) x0 x1 x2 x3 x4 x5 x6 (ix2 t h)
      + val_main_v169 (F := Ideal) x0 x1 x2 x3 x4 x5 x6 (ix2 t h) + val_main_v203 (F := Ideal) x0 x1 x2 x3 x4 x5 x6 (ix2 t h)
      + val_main_v237 (F := Ideal) x0 x1 x2 x3 x4 x5 x6 (ix2 t h) + val_main_v271 (F := Ideal) x0 x1 x2 x3 x4 x5 x6 (ix2 t h)
    = refOut (Cert.Moe.Args.ofArrays x0 x1 x2 x3 x4 x5 x6) t h
  rw [refOut_unfold, Ideal.ofBits_zero_f32, e0_contrib x0 x1 x2 x3 x4 x5 x6, e1_contrib x0 x1 x2 x3 x4 x5 x6, e2_contrib x0 x1 x2 x3 x4 x5 x6, e3_contrib x0 x1 x2 x3 x4 x5 x6, e4_contrib x0 x1 x2 x3 x4 x5 x6, e5_contrib x0 x1 x2 x3 x4 x5 x6, e6_contrib x0 x1 x2 x3 x4 x5 x6, e7_contrib x0 x1 x2 x3 x4 x5 x6]

/-- The term the reference's run leaves in its result buffer, at index i. -/
theorem res_eq_refOut (m : (ℓ : Loc nD τ sig) → Buf (Elt Ideal) ℓ) (c : Dev nD) (i : S512x2048.Idx) :
    RefRun.resTerm (F := Ideal) m c i
      = Cert.Moe.refOut (Cert.Moe.Args.ofArrays
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))) (i 0) (i 1) :=
  total_eq_refOut _ _ _ _ _ _ _ i

end Cert.ReferenceIdeal.RefValue

end
-- ==== Proof.MoeAlgebra.lean ====
/-
  The two arrangements of the mixture-of-experts sum agree when every input entry is a real number.

  On the extended reals multiplication does not distribute over addition at the infinities, so the argument
  first shows that every intermediate quantity (dequantised weights, gate, up, activation, router
  coefficient, tile products) is the image of a real number; on such values c * Σ f = Σ c * f holds.  The
  rest is reindexing: 2816 columns = 11 tiles × 256, 44 steps = 4 experts × 11 tiles, 8 experts = 2 groups × 4.
-/
import proofs.«131321_j61254823576011_2_alg».proof.Proof.MoeSpec
import Mathlib

noncomputable section

namespace Cert.Moe

open Idealize.ShloMosaic

/-- An extended real that is the image of a real number. -/
def IsR (x : EReal) : Prop := ∃ r : ℝ, x = (r : EReal)

theorem IsR.zero : IsR 0 := ⟨0, rfl⟩

theorem IsR.add {x y : EReal} (hx : IsR x) (hy : IsR y) : IsR (x + y) := by
  obtain ⟨u, rfl⟩ := hx; obtain ⟨v, rfl⟩ := hy
  exact ⟨u + v, (EReal.coe_add u v).symm⟩

theorem IsR.mul {x y : EReal} (hx : IsR x) (hy : IsR y) : IsR (x * y) := by
  obtain ⟨u, rfl⟩ := hx; obtain ⟨v, rfl⟩ := hy
  exact ⟨u * v, (EReal.coe_mul u v).symm⟩

theorem IsR.logistic {x : EReal} (hx : IsR x) : IsR (Ideal.logistic x) := by
  obtain ⟨u, rfl⟩ := hx
  exact ⟨_, Ideal.logistic_coe u⟩

theorem IsR.sum {ι : Type*} (s : Finset ι) (f : ι → EReal) (hf : ∀ i ∈ s, IsR (f i)) :
    IsR (∑ i ∈ s, f i) := by
  classical
  induction s using Finset.induction_on with
  | empty => simpa using IsR.zero
  | insert i s hi ih =>
    rw [Finset.sum_insert hi]
    exact (hf i (Finset.mem_insert_self i s)).add (ih fun j hj => hf j (Finset.mem_insert_of_mem hj))

/-- Among real values a factor distributes over a finite sum. -/
theorem IsR.mul_sum {ι : Type*} (s : Finset ι) (c : EReal) (f : ι → EReal) (hc : IsR c)
    (hf : ∀ i ∈ s, IsR (f i)) : c * ∑ i ∈ s, f i = ∑ i ∈ s, c * f i := by
  classical
  induction s using Finset.induction_on with
  | empty => simp
  | insert i s hi ih =>
    rw [Finset.sum_insert hi, Finset.sum_insert hi,
      ← ih fun j hj => hf j (Finset.mem_insert_of_mem hj)]
    obtain ⟨u, hu⟩ := hc
    obtain ⟨v, hv⟩ := hf i (Finset.mem_insert_self i s)
    obtain ⟨w, hw⟩ := IsR.sum s f fun j hj => hf j (Finset.mem_insert_of_mem hj)
    rw [hu, hv, hw, ← EReal.coe_add, ← EReal.coe_mul, ← EReal.coe_mul, ← EReal.coe_mul, ← EReal.coe_add,
      mul_add]

variable (a : Args)

section Real

variable {a} (ha : a.Real)
include ha

theorem isR_wd13 (e : Fin 8) (r : Fin 5632) (k : Fin 2048) : IsR (wd13 a e r k) :=
  IsR.mul (ha.w13 e r k) (ha.s13 e _ _)

theorem isR_wd2 (e : Fin 8) (h : Fin 2048) (j : Fin 2816) : IsR (wd2 a e h j) :=
  IsR.mul (ha.w2 e h j) (ha.s2 e _ _)

theorem isR_gate (e : Fin 8) (t : Fin 512) (j : Fin 2816) : IsR (gate a e t j) :=
  IsR.sum _ _ fun k _ => IsR.mul (ha.x t k) (isR_wd13 ha e _ k)

theorem isR_up (e : Fin 8) (t : Fin 512) (j : Fin 2816) : IsR (up a e t j) :=
  IsR.sum _ _ fun k _ => IsR.mul (ha.x t k) (isR_wd13 ha e _ k)

theorem isR_act (e : Fin 8) (t : Fin 512) (j : Fin 2816) : IsR (act a e t j) :=
  IsR.mul (IsR.mul (isR_gate ha e t j) (isR_gate ha e t j).logistic) (isR_up ha e t j)

theorem isR_coef (e : Fin 8) (t : Fin 512) : IsR (coef a e t) :=
  IsR.sum _ _ fun s _ => by
    split
    · exact ha.wts t s
    · exact IsR.zero

theorem isR_tileOut (e : Fin 8) (i : Fin 11) (t : Fin 512) (h : Fin 2048) : IsR (tileOut a e i t h) :=
  IsR.sum _ _ fun _ _ => IsR.mul (isR_act ha e t _) (isR_wd2 ha e h _)

end Real

/-- Column j = 256 * i + jj: the 2816 columns as 11 tiles of 256. -/
def tileEquiv : Fin 11 × Fin 256 ≃ Fin 2816 where
  toFun p := ⟨256 * p.1.val + p.2.val, by omega⟩
  invFun j := (⟨j.val / 256, by omega⟩, ⟨j.val % 256, by omega⟩)
  left_inv := by
    rintro ⟨⟨i, hi⟩, ⟨jj, hj⟩⟩
    refine Prod.ext (Fin.ext ?_) (Fin.ext ?_)
    · show (256 * i + jj) / 256 = i
      omega
    · show (256 * i + jj) % 256 = jj
      omega
  right_inv := by
    rintro ⟨j, hj⟩
    refine Fin.ext ?_
    show 256 * (j / 256) + j % 256 = j
    omega

/-- Step n = 11 * le + i: the 44 steps of a group as 4 experts of 11 tiles. -/
def stepEquiv : Fin 4 × Fin 11 ≃ Fin 44 where
  toFun p := ⟨11 * p.1.val + p.2.val, by omega⟩
  invFun n := (⟨n.val / 11, by omega⟩, ⟨n.val % 11, by omega⟩)
  left_inv := by
    rintro ⟨⟨l, hl⟩, ⟨i, hi⟩⟩
    refine Prod.ext (Fin.ext ?_) (Fin.ext ?_)
    · show (11 * l + i) / 11 = l
      omega
    · show (11 * l + i) % 11 = i
      omega
  right_inv := by
    rintro ⟨n, hn⟩
    refine Fin.ext ?_
    show 11 * (n / 11) + n % 11 = n
    omega

/-- An expert's contraction is the sum of its eleven column tiles (pure reindexing). -/
theorem outE_eq_sum_tileOut (e : Fin 8) (t : Fin 512) (h : Fin 2048) :
    outE a e t h = ∑ i : Fin 11, tileOut a e i t h := by
  unfold outE tileOut
  rw [← Fintype.sum_prod_type']
  exact (Fintype.sum_equiv tileEquiv _ _ fun _ => rfl).symm

/-- The running total of the experts in order is the sum over the experts taken so far. -/
theorem refAcc_eq_sum (t : Fin 512) (h : Fin 2048) : ∀ (n : Nat) (hn : n ≤ 8),
    refAcc a t h n hn = ∑ m : Fin n, coef a ⟨m.val, by omega⟩ t * outE a ⟨m.val, by omega⟩ t h
  | 0, _ => by simp [refAcc]
  | n + 1, hn => by
    rw [refAcc, refAcc_eq_sum t h n (by omega), Fin.sum_univ_castSucc]
    rfl

theorem refOut_eq_sum (t : Fin 512) (h : Fin 2048) :
    refOut a t h = ∑ e : Fin 8, coef a e t * outE a e t h := by
  rw [refOut, refAcc_eq_sum]

/-- A group's running total is the sum over the steps taken so far. -/
theorem grpAcc_eq_sum (g : Fin 2) (t : Fin 512) (h : Fin 2048) : ∀ (n : Nat) (hn : n ≤ 44),
    grpAcc a g t h n hn = ∑ m : Fin n, coef a ⟨4 * g.val + m.val / 11, by omega⟩ t
      * tileOut a ⟨4 * g.val + m.val / 11, by omega⟩ ⟨m.val % 11, Nat.mod_lt _ (by decide)⟩ t h
  | 0, _ => by simp [grpAcc]
  | n + 1, hn => by
    rw [grpAcc, grpAcc_eq_sum g t h n (by omega), Fin.sum_univ_castSucc]
    rfl

theorem term_congr (t : Fin 512) (h : Fin 2048) {e e' : Fin 8} {i i' : Fin 11} (he : e = e') (hi : i = i') :
    coef a e t * tileOut a e i t h = coef a e' t * tileOut a e' i' t h := by
  subst he; subst hi; rfl

/-- A group's total: its four experts, each with its eleven tiles. -/
theorem grpAcc_full (g : Fin 2) (t : Fin 512) (h : Fin 2048) :
    grpAcc a g t h 44 (le_refl 44)
      = ∑ l : Fin 4, ∑ i : Fin 11, coef a ⟨4 * g.val + l.val, by omega⟩ t
          * tileOut a ⟨4 * g.val + l.val, by omega⟩ i t h := by
  rw [grpAcc_eq_sum, ← Fintype.sum_prod_type']
  refine (Fintype.sum_equiv stepEquiv _ _ fun p => ?_).symm
  obtain ⟨⟨l, hl⟩, ⟨i, hi⟩⟩ := p
  refine (term_congr a t h (Fin.ext ?_) (Fin.ext ?_)).symm
  · show 4 * g.val + (11 * l + i) / 11 = 4 * g.val + l
    omega
  · show (11 * l + i) % 11 = i
    omega

theorem grpAcc_full' {a : Args} (ha : a.Real) (g : Fin 2) (t : Fin 512) (h : Fin 2048) :
    grpAcc a g t h 44 (le_refl 44)
      = ∑ l : Fin 4, coef a ⟨4 * g.val + l.val, by omega⟩ t * outE a ⟨4 * g.val + l.val, by omega⟩ t h := by
  rw [grpAcc_full]
  refine Finset.sum_congr rfl fun l _ => ?_
  rw [outE_eq_sum_tileOut, IsR.mul_sum _ _ _ (isR_coef ha _ t) fun i _ => isR_tileOut ha _ i t h]

/-- The kernel's arrangement of the sum equals the reference's. -/
theorem kerOut_eq_refOut (a : Args) (ha : a.Real) (t : Fin 512) (h : Fin 2048) : kerOut a t h = refOut a t h := by
  rw [kerOut, refOut_eq_sum, zero_add, Fin.sum_univ_two, grpAcc_full' ha, grpAcc_full' ha,
    Fin.sum_univ_four, Fin.sum_univ_four, Fin.sum_univ_eight]
  simp only [add_assoc]
  rfl

end Cert.Moe

end
-- ==== Proof.FiniteArgs.lean ====
/-
  The printed precondition says that every entry of the six float arrays has absolute value below +∞; on
  the extended reals that makes every entry a real number, which is what the algebra of the two arrangements needs.

  The precondition is a conjunction of six "all entries" reductions by "and"; each conjunct gives the
  comparison at every index, the compared constant is the word of +∞, and an extended real x with
  max x (-x) < ⊤ is neither ⊤ nor ⊥.
-/
import proofs.«131321_j61254823576011_2_alg».proof.Pre_finite_inputs
import proofs.«131321_j61254823576011_2_alg».proof.Proof.Gen.Pre_finite_inputs
import proofs.«131321_j61254823576011_2_alg».proof.Proof.MoeArgs
import Idealize.ShloMosaic.Lib.ReduceAll
import Idealize.ShloMosaic.Lib.ValueIdx

noncomputable section

namespace Cert.Moe

open Idealize.ShloMosaic Idealize.ShloMosaic.ValueIdx
open Cert.Pre_finite_inputs (S_ S512x2048 S512x2 S8x5632x2048 S8x44x16 S8x2048x2816 S8x16x22)

/-- The rank-0 shape has one index. -/
instance : Subsingleton S_.Idx := ⟨fun _ _ => funext fun d => d.elim0⟩

/-- The word 0x7F800000 is +∞. -/
theorem inf_word : Ideal.ofBits .f32 0x7F800000#32 = (⊤ : EReal) := by
  simp [Ideal.ofBits, Ideal.ieee]

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- One conjunct of the precondition: "all entries of |x| are below +∞" makes every entry of x real. -/
theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32)))
        init hr hu ix0 = 1#1)
    (i : s.Idx) : ∃ r : ℝ, x i = (r : EReal) :=
  real_of_abs_lt_top (x i) (Host.reduce_andi_all _ init hr hu ix0 e i)

/-- The precondition makes every float entry of the seven arrays a real number. -/
theorem real_of_pre [Cert.Pre_finite_inputs.Facts]
    (x0 : FVec Ideal S512x2048 .f32) (x1 : IVec S512x2 32) (x2 : FVec Ideal S512x2 .f32)
    (x3 : FVec Ideal S8x5632x2048 .f32) (x4 : FVec Ideal S8x44x16 .f32)
    (x5 : FVec Ideal S8x2048x2816 .f32) (x6 : FVec Ideal S8x16x22 .f32)
    (hpre : Cert.Pre_finite_inputs.fn (F := Ideal) x0 x1 x2 x3 x4 x5 x6 = fun _ => 1#1) :
    (Args.ofArrays x0 x1 x2 x3 x4 x5 x6).Real := by
  have e := congrFun hpre ix0
  dsimp only [Cert.Pre_finite_inputs.fn, Cert.Pre_finite_inputs.fn_part1] at e
  simp only [andi, IntOp.andi_eq_one] at e
  obtain ⟨⟨⟨⟨⟨h0, h2⟩, h3⟩, h4⟩, h5⟩, h6⟩ := e
  exact
    { x := fun t k => all_real x0 _ _ _ _ h0 (ix2 t k)
      wts := fun t s => all_real x2 _ _ _ _ h2 (ix2 t s)
      w13 := fun e r k => all_real x3 _ _ _ _ h3 (ix3 e r k)
      s13 := fun e r k => all_real x4 _ _ _ _ h4 (ix3 e r k)
      w2 := fun e h j => all_real x5 _ _ _ _ h5 (ix3 e h j)
      s2 := fun e h j => all_real x6 _ _ _ _ h6 (ix3 e h j) }

end Cert.Moe

end
-- ==== Proof.lean ====
/-
  The certificate of a block-scaled mixture-of-experts layer (eight experts, SwiGLU, router-weighted sum) computed by a
  pipelined kernel against its plain reference, over the extended reals.

  The kernel walks a 2 × 4 × 11 grid: two groups of four experts, each expert in eleven column tiles of 256. At each
  step it dequantises the step's tiles of the gate, up and down weights (stored value × its 128 × 128 block's scale),
  forms gate = x·Wg^T, up = x·Wu^T, act = gate·σ(gate)·up, the partial product act·W2^T over the tile's columns, and adds
  the router coefficient times that partial product into an accumulator that is cleared at the first step of each group;
  the group's total is written back after its last step, and a host sum adds the two groups. The reference adds, expert by
  expert from zero, coefficient × (act·W2^T over all columns).

  The three frames: the two kernel programs run to their end (the launch of their one region, whose gate-rows window
  and up-rows window share one array, held half and half), and the reference is a straight line of host operations.
  The value claim: the kernel's result array is the specification's group-by-group sum (by induction on the grid point),
  the reference's is its expert-by-expert sum (operation by operation), and the two sums are one real number — every
  entry is finite under the precondition, so the router coefficient distributes over the tiles of an expert's
  contraction and the sums re-associate.
-/
import proofs.«131321_j61254823576011_2_alg».proof.Defs
import proofs.«131321_j61254823576011_2_alg».proof.Proof.Gen.Kernel
import proofs.«131321_j61254823576011_2_alg».proof.Proof.Gen.KernelIdeal
import proofs.«131321_j61254823576011_2_alg».proof.Proof.Gen.ReferenceIdeal
import proofs.«131321_j61254823576011_2_alg».proof.Proof.Gen.Pre_finite_inputs
import proofs.«131321_j61254823576011_2_alg».proof.Proof.KLaunch
import proofs.«131321_j61254823576011_2_alg».proof.Proof.KIAccum
import proofs.«131321_j61254823576011_2_alg».proof.Proof.RefRun
import proofs.«131321_j61254823576011_2_alg».proof.Proof.RefValue
import proofs.«131321_j61254823576011_2_alg».proof.Proof.MoeAlgebra
import proofs.«131321_j61254823576011_2_alg».proof.Proof.FiniteArgs
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to its end with its arguments unchanged. -/
theorem frame_k : Cert.frame_Kernel := fun m ρ _ => Cert.Kernel.Frame.frame (F := Bits) m ρ

/-- So does its idealization. -/
theorem frame_ki : Cert.frame_KernelIdeal := fun m ρ _ => Cert.KernelIdeal.Frame.frame (F := Ideal) m ρ

/-- The reference is a straight line of host operations: it runs to its end with its arguments unchanged. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- The kernel's result on core c: the group-by-group sum of the specification at the launch arguments. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v19) :=
  fun i => Cert.Moe.kerOut (Cert.KernelIdeal.HostPrefix.argsAt m c) (i 0) (i 1)

/-- The idealized kernel program ends with its result array at that sum and its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v19) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run (Cert.KernelIdeal.defs (F := Ideal)) _ _).mono (fun r h c =>
    ⟨((h c).2 Cert.KernelIdeal.main_v19 Cert.KernelIdeal.Frame.v19_rest).trans (funext fun i => by
        obtain ⟨p, q, rfl⟩ : ∃ (p : Fin 512) (q : Fin 2048), i = ix2 p q := ⟨i 0, i 1, eq_ix2 i⟩
        exact Cert.KernelIdeal.Frame.kernel_result m c p q),
      Cert.KernelIdeal.Frame.post_args m r h c⟩) (Cert.KernelIdeal.Frame.run_main (F := Ideal) m ρ)

/-- From memories that agree on the arguments both idealized programs end with the same result: the kernel's
    group-by-group sum and the reference's expert-by-expert sum are one real number when every float input is finite. -/
theorem algebraic : Cert.algebraic_KernelIdeal_ReferenceIdeal := by
  intro m ρ m' ρ' hpre hagree
  refine ⟨result m, kernel_run m ρ, ?_⟩
  refine (θ_run Cert.ReferenceIdeal.defs _ _).mono (fun r h c => ⟨(h c).1.trans ?_, (h c).2⟩)
    (Cert.ReferenceIdeal.RefRun.run (F := Ideal) m' ρ')
  have ha : (Cert.KernelIdeal.HostPrefix.argsAt m c).Real := Cert.Moe.real_of_pre _ _ _ _ _ _ _ (hpre c)
  funext i
  rw [Cert.ReferenceIdeal.RefValue.res_eq_refOut m' c i, (hagree c).1, (hagree c).2.1, (hagree c).2.2.1, (hagree c).2.2.2.1,
    (hagree c).2.2.2.2.1, (hagree c).2.2.2.2.2.1, (hagree c).2.2.2.2.2.2]
  exact (Cert.Moe.kerOut_eq_refOut _ ha (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
